-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S26x100000 : Shape := ⟨2, ![26, 100000]⟩
abbrev S1 : Shape := ⟨1, ![1]⟩
abbrev S_ : Shape := ⟨0, ![]⟩

class Facts : Prop where
  bcast_S_S26x100000 : S_.BroadcastsInDim S26x100000 (![] : Fin 0 → Fin S26x100000.rank)
  reducesTo_S26x100000_S_d0_1 : S26x100000.ReducesTo [0, 1] S_
  h_S_ : 0 < S_.numel
  bcast_S_S1 : S_.BroadcastsInDim S1 (![] : Fin 0 → Fin S1.rank)
  reducesTo_S1_S_d0 : S1.ReducesTo [0] S_
  bcast_S_S16384x26 : S_.BroadcastsInDim S16384x26 (![] : Fin 0 → Fin S16384x26.rank)
  reducesTo_S16384x26_S_d0_1 : S16384x26.ReducesTo [0, 1] S_

variable [Facts]

def fn {F : FTy → Type} [FloatOps F] (main_arg0 : IVec S16384x26 32) (main_arg1 : FVec F S26x100000 .f32) (main_arg2 : FVec F S1 .f32) : IVec S_ 1 :=
  let main_v0 : FVec F S26x100000 .f32 := Host.absf main_arg1
  let main_cst : FVec F S_ .f32 := constant S_ .f32 0x7F800000#32
  let main_v1 : FVec F S26x100000 .f32 := broadcastInDim S26x100000 ![] bcast_S_S26x100000 main_cst
  let main_v2 : IVec S26x100000 1 := cmpf .olt main_v0 main_v1
  let main_c : IVec S_ 1 := constantI S_ 1 1#1
  let main_v3 : IVec S_ 1 := (fun x v => Host.reduce IntOp.andi x v reducesTo_S26x100000_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_c_2 : IVec S_ 32 := constantI S_ 32 0#32
  let main_v9 : IVec S16384x26 32 := broadcastInDim S16384x26 ![] bcast_S_S16384x26 main_c_2
  let main_v10 : IVec S16384x26 1 := cmpi .sge main_arg0 main_v9
  let main_c_3 : IVec S_ 32 := constantI S_ 32 99999#32
  let main_v11 : IVec S16384x26 32 := broadcastInDim S16384x26 ![] bcast_S_S16384x26 main_c_3
  let main_v12 : IVec S16384x26 1 := cmpi .sle main_arg0 main_v11
  let main_v13 : IVec S16384x26 1 := andi main_v10 main_v12
  let main_c_4 : IVec S_ 1 := constantI S_ 1 1#1
  let main_v14 : IVec S_ 1 := (fun x v => Host.reduce IntOp.andi x v reducesTo_S16384x26_S_d0_1 h_S_) main_v13 main_c_4
  let main_v15 : IVec S_ 1 := andi main_v8 main_v14
  main_v15
-- ==== Kernel.lean ====
abbrev S16384x26 : Shape := ⟨2, ![16384, 26]⟩
abbrev S26x100000 : Shape := ⟨2, ![26, 100000]⟩
abbrev S1 : Shape := ⟨1, ![1]⟩
abbrev S26 : Shape := ⟨1, ![26]⟩
abbrev S_ : Shape := ⟨0, ![]⟩
abbrev S1x26 : Shape := ⟨2, ![1, 26]⟩
abbrev S32x13312 : Shape := ⟨2, ![32, 13312]⟩
abbrev S2600000 : Shape := ⟨1, ![2600000]⟩
abbrev S16 : Shape := ⟨1, ![16]⟩
abbrev S32x512 : Shape := ⟨2, ![32, 512]⟩
abbrev S13312 : Shape := ⟨1, ![13312]⟩
abbrev S13328 : Shape := ⟨1, ![13328]⟩
abbrev S8208 : Shape := ⟨1, ![8208]⟩
abbrev S512x16 : Shape := ⟨2, ![512, 16]⟩
abbrev S512 : Shape := ⟨1, ![512]⟩
abbrev S8192 : Shape := ⟨1, ![8192]⟩
abbrev S1x13312 : Shape := ⟨2, ![1, 13312]⟩
abbrev S1x16 : Shape := ⟨2, ![1, 16]⟩
abbrev S512x1 : Shape := ⟨2, ![512, 1]⟩
abbrev S1x512 : Shape := ⟨2, ![1, 512]⟩
abbrev S16384x1 : Shape := ⟨2, ![16384, 1]⟩

abbrev nBuf : Table → Nat
  | .hbm => 15
  | .shared => 1
  | .local .scVector .vmem => 6
  | _ => 0

abbrev bufTy : (tb : Table) → Fin (nBuf tb) → BufTy
  | .hbm, ⟨0, _⟩ => ⟨S16384x26, .i32⟩
  | .hbm, ⟨1, _⟩ => ⟨S26x100000, .f32⟩
  | .hbm, ⟨2, _⟩ => ⟨S1, .f32⟩
  | .hbm, ⟨3, _⟩ => ⟨S26, .i32⟩
  | .hbm, ⟨4, _⟩ => ⟨S_, .i32⟩
  | .hbm, ⟨5, _⟩ => ⟨S26, .i32⟩
  | .hbm, ⟨6, _⟩ => ⟨S26, .i32⟩
  | .hbm, ⟨7, _⟩ => ⟨S1x26, .i32⟩
  | .hbm, ⟨8, _⟩ => ⟨S16384x26, .i32⟩
  | .hbm, ⟨9, _⟩ => ⟨S16384x26, .i32⟩
  | .hbm, ⟨10, _⟩ => ⟨S32x13312, .i32⟩
  | .hbm, ⟨11, _⟩ => ⟨S2600000, .f32⟩
  | .hbm, ⟨12, _⟩ => ⟨S16, .f32⟩
  | .hbm, ⟨13, _⟩ => ⟨S32x512, .f32⟩
  | .hbm, ⟨14, _⟩ => ⟨S16384x1, .f32⟩
  | .shared, ⟨0, _⟩ => ⟨S8192, .f32⟩
  | .local .scVector .vmem, ⟨0, _⟩ => ⟨S13312, .i32⟩
  | .local .scVector .vmem, ⟨1, _⟩ => ⟨S13328, .f32⟩
  | .local .scVector .vmem, ⟨2, _⟩ => ⟨S8208, .f32⟩
  | .local .scVector .vmem, ⟨3, _⟩ => ⟨S512x16, .f32⟩
  | .local .scVector .vmem, ⟨4, _⟩ => ⟨S512, .f32⟩
  | .local .scVector .vmem, ⟨5, _⟩ => ⟨S16, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v6_scv : Ref sig .scVector := ⟨.hbm, 10, rfl⟩
abbrev main_v7_scv : Ref sig .scVector := ⟨.hbm, 11, rfl⟩
abbrev main_v8_scv : Ref sig .scVector := ⟨.hbm, 12, rfl⟩
abbrev main_v9_scv : Ref sig .scVector := ⟨.hbm, 13, rfl⟩
abbrev cc0_scratch6 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30_r0 : BitVec 32 := 0#32
  ![v1.toNat, 0]
@[reducible] def k0_t1_loop : Scf.Loop 32 :=
  let c0_i32_6 : BitVec 32 := 0#32
  let c128_i32 : BitVec 32 := 128#32
  let v21 : BitVec 32 := Scalar.addi c0_i32_6 c128_i32
  let c1_i32 : BitVec 32 := 1#32
  ⟨c0_i32_6, v21, c1_i32⟩
def k0_off2 (k0_t1 : Fin k0_t1_loop.trips) (c0_i32_30 : BitVec 32) : Fin 1 → Nat :=
  let c0_i32_6 : BitVec 32 := 0#32
  let c1_i32 : BitVec 32 := 1#32
  let arg14 : BitVec 32 := Scf.iv c0_i32_6 c1_i32 k0_t1
  let c4_i32 : BitVec 32 := 4#32
  let v28 : BitVec 32 := Scalar.muli arg14 c4_i32
  let v29 : BitVec 32 := Scalar.addi v28 c0_i32_30
  let c26_i32 : BitVec 32 := 26#32
  let v30 : BitVec 32 := Scalar.muli v29 c26_i32
  let v31 : Index := Scalar.indexCast v30
  ![v31.toNat]
def k0_off3 (k0_t1 : Fin k0_t1_loop.trips) (c0_i32_30 : BitVec 32) : Fin 1 → Nat :=
  let c0_i32_6 : BitVec 32 := 0#32
  let c1_i32 : BitVec 32 := 1#32
  let arg14 : BitVec 32 := Scf.iv c0_i32_6 c1_i32 k0_t1
  let c4_i32 : BitVec 32 := 4#32
  let v28 : BitVec 32 := Scalar.muli arg14 c4_i32
  let v29 : BitVec 32 := Scalar.addi v28 c0_i32_30
  let c26_i32_31 : BitVec 32 := 26#32
  let v34 : BitVec 32 := Scalar.muli v29 c26_i32_31
  let c16_i32 : BitVec 32 := 16#32
  let v35 : BitVec 32 := Scalar.addi v34 c16_i32
  let v36 : Index := Scalar.indexCast v35
  ![v36.toNat]
def k0_off4 (k0_t1 : Fin k0_t1_loop.trips) (c0_i32_30 : BitVec 32) : Fin 1 → Nat :=
  let c0_i32_6 : BitVec 32 := 0#32
  let c1_i32 : BitVec 32 := 1#32
  let arg14 : BitVec 32 := Scf.iv c0_i32_6 c1_i32 k0_t1
  let c4_i32 : BitVec 32 := 4#32
  let v28 : BitVec 32 := Scalar.muli arg14 c4_i32
  let v29 : BitVec 32 := Scalar.addi v28 c0_i32_30
  let c16_i32_32 : BitVec 32 := 16#32
  let v41 : BitVec 32 := Scalar.muli v29 c16_i32_32
  let v42 : Index := Scalar.indexCast v41
  ![v42.toNat]
@[reducible] def k0_t2_loop : Scf.Loop 32 :=
  let c0_i32_9 : BitVec 32 := 0#32
  let c128_i32_10 : BitVec 32 := 128#32
  let v22 : BitVec 32 := Scalar.addi c0_i32_9 c128_i32_10
  let c1_i32_11 : BitVec 32 := 1#32
  ⟨c0_i32_9, v22, c1_i32_11⟩
def k0_off5 (k0_t2 : Fin k0_t2_loop.trips) (c0_i32_30 : BitVec 32) : Fin 1 → Nat :=
  let c0_i32_9 : BitVec 32 := 0#32
  let c1_i32_11 : BitVec 32 := 1#32
  let arg14 : BitVec 32 := Scf.iv c0_i32_9 c1_i32_11 k0_t2
  let c4_i32 : BitVec 32 := 4#32
  let v28 : BitVec 32 := Scalar.muli arg14 c4_i32
  let v29 : BitVec 32 := Scalar.addi v28 c0_i32_30
  let c16_i32 : BitVec 32 := 16#32
  let v30 : BitVec 32 := Scalar.muli v29 c16_i32
  let v31 : Index := Scalar.indexCast v30
  ![v31.toNat]
def k0_off6 (k0_t2 : Fin k0_t2_loop.trips) (c0_i32_30 : BitVec 32) : Fin 1 → Nat :=
  let c0_i32_9 : BitVec 32 := 0#32
  let c1_i32_11 : BitVec 32 := 1#32
  let arg14 : BitVec 32 := Scf.iv c0_i32_9 c1_i32_11 k0_t2
  let c4_i32 : BitVec 32 := 4#32
  let v28 : BitVec 32 := Scalar.muli arg14 c4_i32
  let v29 : BitVec 32 := Scalar.addi v28 c0_i32_30
  let c16_i32 : BitVec 32 := 16#32
  let v30 : BitVec 32 := Scalar.muli v29 c16_i32
  let c8_i32 : BitVec 32 := 8#32
  let v34 : BitVec 32 := Scalar.addi v30 c8_i32
  let v35 : Index := Scalar.indexCast v34
  ![v35.toNat]
@[reducible] def k0_t3_loop : Scf.Loop 32 :=
  let c0_i32_14 : BitVec 32 := 0#32
  let c128_i32_15 : BitVec 32 := 128#32
  let v23 : BitVec 32 := Scalar.addi c0_i32_14 c128_i32_15
  let c1_i32_16 : BitVec 32 := 1#32
  ⟨c0_i32_14, v23, c1_i32_16⟩
def k0_off7 (k0_t3 : Fin k0_t3_loop.trips) (c0_i32_30 : BitVec 32) : Fin 1 → Nat :=
  let c0_i32_14 : BitVec 32 := 0#32
  let c1_i32_16 : BitVec 32 := 1#32
  let arg14 : BitVec 32 := Scf.iv c0_i32_14 c1_i32_16 k0_t3
  let c4_i32 : BitVec 32 := 4#32
  let v28 : BitVec 32 := Scalar.muli arg14 c4_i32
  let v29 : BitVec 32 := Scalar.addi v28 c0_i32_30
  let c16_i32 : BitVec 32 := 16#32
  let v30 : BitVec 32 := Scalar.muli v29 c16_i32
  let v31 : Index := Scalar.indexCast v30
  ![v31.toNat]
def k0_off8 (k0_t3 : Fin k0_t3_loop.trips) (c0_i32_30 : BitVec 32) : Fin 1 → Nat :=
  let c0_i32_14 : BitVec 32 := 0#32
  let c1_i32_16 : BitVec 32 := 1#32
  let arg14 : BitVec 32 := Scf.iv c0_i32_14 c1_i32_16 k0_t3
  let c4_i32 : BitVec 32 := 4#32
  let v28 : BitVec 32 := Scalar.muli arg14 c4_i32
  let v29 : BitVec 32 := Scalar.addi v28 c0_i32_30
  let c16_i32 : BitVec 32 := 16#32
  let v30 : BitVec 32 := Scalar.muli v29 c16_i32
  let c4_i32_31 : BitVec 32 := 4#32
  let v34 : BitVec 32 := Scalar.addi v30 c4_i32_31
  let v35 : Index := Scalar.indexCast v34
  ![v35.toNat]
@[reducible] def k0_t4_loop : Scf.Loop 32 :=
  let c0_i32_19 : BitVec 32 := 0#32
  let c128_i32_20 : BitVec 32 := 128#32
  let v24 : BitVec 32 := Scalar.addi c0_i32_19 c128_i32_20
  let c1_i32_21 : BitVec 32 := 1#32
  ⟨c0_i32_19, v24, c1_i32_21⟩
def k0_off9 (k0_t4 : Fin k0_t4_loop.trips) (c0_i32_30 : BitVec 32) : Fin 1 → Nat :=
  let c0_i32_19 : BitVec 32 := 0#32
  let c1_i32_21 : BitVec 32 := 1#32
  let arg14 : BitVec 32 := Scf.iv c0_i32_19 c1_i32_21 k0_t4
  let c4_i32 : BitVec 32 := 4#32
  let v28 : BitVec 32 := Scalar.muli arg14 c4_i32
  let v29 : BitVec 32 := Scalar.addi v28 c0_i32_30
  let c16_i32 : BitVec 32 := 16#32
  let v30 : BitVec 32 := Scalar.muli v29 c16_i32
  let v31 : Index := Scalar.indexCast v30
  ![v31.toNat]
def k0_off10 (k0_t4 : Fin k0_t4_loop.trips) (c0_i32_30 : BitVec 32) : Fin 1 → Nat :=
  let c0_i32_19 : BitVec 32 := 0#32
  let c1_i32_21 : BitVec 32 := 1#32
  let arg14 : BitVec 32 := Scf.iv c0_i32_19 c1_i32_21 k0_t4
  let c4_i32 : BitVec 32 := 4#32
  let v28 : BitVec 32 := Scalar.muli arg14 c4_i32
  let v29 : BitVec 32 := Scalar.addi v28 c0_i32_30
  let c16_i32 : BitVec 32 := 16#32
  let v30 : BitVec 32 := Scalar.muli v29 c16_i32
  let c2_i32_31 : BitVec 32 := 2#32
  let v34 : BitVec 32 := Scalar.addi v30 c2_i32_31
  let v35 : Index := Scalar.indexCast v34
  ![v35.toNat]
@[reducible] def k0_t5_loop : Scf.Loop 32 :=
  let c0_i32_24 : BitVec 32 := 0#32
  let c128_i32_25 : BitVec 32 := 128#32
  let v25 : BitVec 32 := Scalar.addi c0_i32_24 c128_i32_25
  let c1_i32_26 : BitVec 32 := 1#32
  ⟨c0_i32_24, v25, c1_i32_26⟩
def k0_off11 (k0_t5 : Fin k0_t5_loop.trips) (c0_i32_30 : BitVec 32) : Fin 1 → Nat :=
  let c0_i32_24 : BitVec 32 := 0#32
  let c1_i32_26 : BitVec 32 := 1#32
  let arg14 : BitVec 32 := Scf.iv c0_i32_24 c1_i32_26 k0_t5
  let c4_i32 : BitVec 32 := 4#32
  let v28 : BitVec 32 := Scalar.muli arg14 c4_i32
  let v29 : BitVec 32 := Scalar.addi v28 c0_i32_30
  let c16_i32 : BitVec 32 := 16#32
  let v30 : BitVec 32 := Scalar.muli v29 c16_i32
  let v31 : Index := Scalar.indexCast v30
  ![v31.toNat]
def k0_off12 (k0_t5 : Fin k0_t5_loop.trips) (c0_i32_30 : BitVec 32) : Fin 1 → Nat :=
  let c0_i32_24 : BitVec 32 := 0#32
  let c1_i32_26 : BitVec 32 := 1#32
  let arg14 : BitVec 32 := Scf.iv c0_i32_24 c1_i32_26 k0_t5
  let c4_i32 : BitVec 32 := 4#32
  let v28 : BitVec 32 := Scalar.muli arg14 c4_i32
  let v29 : BitVec 32 := Scalar.addi v28 c0_i32_30
  let c16_i32_31 : BitVec 32 := 16#32
  let v34 : BitVec 32 := Scalar.muli v29 c16_i32_31
  let c1_i32_32 : BitVec 32 := 1#32
  let v35 : BitVec 32 := Scalar.addi v34 c1_i32_32
  let v36 : Index := Scalar.indexCast v35
  ![v36.toNat]
def k0_off13 (k0_t5 : Fin k0_t5_loop.trips) (c0_i32_30 : BitVec 32) : Fin 2 → Nat :=
  let c0_i32_24 : BitVec 32 := 0#32
  let c1_i32_26 : BitVec 32 := 1#32
  let arg14 : BitVec 32 := Scf.iv c0_i32_24 c1_i32_26 k0_t5
  let c4_i32 : BitVec 32 := 4#32
  let v28 : BitVec 32 := Scalar.muli arg14 c4_i32
  let v29 : BitVec 32 := Scalar.addi v28 c0_i32_30
  let v41 : Index := Scalar.indexCast v29
  let c0_33 : Index := 0#32
  ![v41.toNat, 0]
def k0_off14 (i : grid0.Coords) : Fin 1 → Nat :=
  let arg1 : BitVec 32 := BitVec.ofNat 32 (i 1).val
  let c512_i32 : BitVec 32 := 512#32
  let v26 : BitVec 32 := Scalar.muli arg1 c512_i32
  ![v26.toNat]
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30_r4 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S26 : S_.BroadcastsInDim S26 (![] : Fin 0 → Fin S26.rank)
  bcast_S26_S1x26_1 : S26.BroadcastsInDim S1x26 (![1] : Fin 1 → Fin S1x26.rank)
  bcast_S1x26_S16384x26_0_1 : S1x26.BroadcastsInDim S16384x26 (![0, 1] : Fin 2 → Fin S16384x26.rank)
  shapeCasts_S16384x26_S32x13312 : S16384x26.ShapeCasts S32x13312
  shapeCasts_S26x100000_S2600000 : S26x100000.ShapeCasts S2600000
  bcast_S1_S16_0 : S1.BroadcastsInDim S16 (![0] : Fin 1 → Fin S16.rank)
  squeezes_S1x13312_S13312 : S1x13312.Squeezes S13312
  inb_S13328_S13312_0 : ∀ a, (![0] : Fin 1 → Nat) a + S13312.size a ≤ S13328.size a
  inb_S2600000_S2600000_0 : ∀ a, (![0] : Fin 1 → Nat) a + S2600000.size a ≤ S2600000.size a
  gathers_S2600000_S13312 : S2600000.Gathers 0 S13312
  inb_S13328_S16_13312 : ∀ a, (![13312] : Fin 1 → Nat) a + S16.size a ≤ S13328.size a
  h_S16 : 0 < S16.numel
  shapeCasts_S16_S16 : S16.ShapeCasts S16
  inb_S8208_S16_8192 : ∀ a, (![8192] : Fin 1 → Nat) a + S16.size a ≤ S8208.size a
  iota_S16_d0_w32_scVector : S16.Iotas .scVector 32 [0]
  inb_S16_S16_0 : ∀ a, (![0] : Fin 1 → Nat) a + S16.size a ≤ S16.size a
  h_S1x16 : 0 < S1x16.numel
  shapeCasts_S1x16_S16 : S1x16.ShapeCasts S16
  shapeCasts_S16_S1x16 : S16.ShapeCasts S1x16
  inb_S512x16_S512x1_0_0 : ∀ a, (![0, 0] : Fin 2 → Nat) a + S512x1.size a ≤ S512x16.size a
  squeezes_S512x1_S512 : S512x1.Squeezes S512
  squeezes_S1x512_S512 : S1x512.Squeezes S512
  shapeCasts_S32x512_S16384x1 : S32x512.ShapeCasts S16384x1
  hcc0_scratch7 : 0 + S_.numel ≤ 6
  hcc0_scoped0 : 1 + S_.numel ≤ 6
  hcc0_scoped1 : 2 + S_.numel ≤ 6
  hcc0_scoped2 : 3 + S_.numel ≤ 6
  hcc0_scoped3 : 4 + S_.numel ≤ 6
  hcc0_scoped4 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x13312.size a ≤ S32x13312.size a
  k0_t1_ok : k0_t1_loop.OK
  k0_off2_inb : ∀ k0_t1 : Fin k0_t1_loop.trips, ∀ (r : Fin 4), ∀ a, (k0_off2 k0_t1 (BitVec.ofNat 32 r.val)) a + S16.size a ≤ S13328.size a
  k0_off3_inb : ∀ k0_t1 : Fin k0_t1_loop.trips, ∀ (r : Fin 4), ∀ a, (k0_off3 k0_t1 (BitVec.ofNat 32 r.val)) a + S16.size a ≤ S13328.size a
  k0_off4_inb : ∀ k0_t1 : Fin k0_t1_loop.trips, ∀ (r : Fin 4), ∀ a, (k0_off4 k0_t1 (BitVec.ofNat 32 r.val)) a + S16.size a ≤ S8208.size a
  k0_t2_ok : k0_t2_loop.OK
  k0_off5_inb : ∀ k0_t2 : Fin k0_t2_loop.trips, ∀ (r : Fin 4), ∀ a, (k0_off5 k0_t2 (BitVec.ofNat 32 r.val)) a + S16.size a ≤ S8208.size a
  k0_off6_inb : ∀ k0_t2 : Fin k0_t2_loop.trips, ∀ (r : Fin 4), ∀ a, (k0_off6 k0_t2 (BitVec.ofNat 32 r.val)) a + S16.size a ≤ S8208.size a
  k0_t3_ok : k0_t3_loop.OK
  k0_off7_inb : ∀ k0_t3 : Fin k0_t3_loop.trips, ∀ (r : Fin 4), ∀ a, (k0_off7 k0_t3 (BitVec.ofNat 32 r.val)) a + S16.size a ≤ S8208.size a
  k0_off8_inb : ∀ k0_t3 : Fin k0_t3_loop.trips, ∀ (r : Fin 4), ∀ a, (k0_off8 k0_t3 (BitVec.ofNat 32 r.val)) a + S16.size a ≤ S8208.size a
  k0_t4_ok : k0_t4_loop.OK
  k0_off9_inb : ∀ k0_t4 : Fin k0_t4_loop.trips, ∀ (r : Fin 4), ∀ a, (k0_off9 k0_t4 (BitVec.ofNat 32 r.val)) a + S16.size a ≤ S8208.size a
  k0_off10_inb : ∀ k0_t4 : Fin k0_t4_loop.trips, ∀ (r : Fin 4), ∀ a, (k0_off10 k0_t4 (BitVec.ofNat 32 r.val)) a + S16.size a ≤ S8208.size a
  k0_t5_ok : k0_t5_loop.OK
  k0_off11_inb : ∀ k0_t5 : Fin k0_t5_loop.trips, ∀ (r : Fin 4), ∀ a, (k0_off11 k0_t5 (BitVec.ofNat 32 r.val)) a + S16.size a ≤ S8208.size a
  k0_off12_inb : ∀ k0_t5 : Fin k0_t5_loop.trips, ∀ (r : Fin 4), ∀ a, (k0_off12 k0_t5 (BitVec.ofNat 32 r.val)) a + S16.size a ≤ S8208.size a
  k0_off13_inb : ∀ k0_t5 : Fin k0_t5_loop.trips, ∀ (r : Fin 4), ∀ a, (k0_off13 k0_t5 (BitVec.ofNat 32 r.val)) a + S1x16.size a ≤ S512x16.size a
  k0_off14_inb : ∀ i : grid0.Coords, ∀ a, (k0_off14 i) a + S512.size a ≤ S8192.size a
  k0_off15_inb : ∀ i : grid0.Coords, ∀ a, (k0_off15 i) a + S1x512.size a ≤ S32x512.size a

variable [Facts₀]

abbrev cc0_scratch7 : DmaSems sig S_ := SemArray.consecutive 0 S_ hcc0_scratch7
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
abbrev cc0_scoped4 : DmaSems sig S_ := SemArray.consecutive 5 S_ hcc0_scoped4

class Facts : Prop extends Facts₀ where

variable [Facts]
-- ==== ReferenceIdeal.lean ====
abbrev S16384x26 : Shape := ⟨2, ![16384, 26]⟩
abbrev S26x100000 : Shape := ⟨2, ![26, 100000]⟩
abbrev S1 : Shape := ⟨1, ![1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S1x1 : Shape := ⟨2, ![1, 1]⟩
abbrev S16384 : Shape := ⟨1, ![16384]⟩
abbrev S16384x1 : Shape := ⟨2, ![16384, 1]⟩

abbrev nBuf : Space → Nat
  | .hbm => 30
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S26x100000, .f32⟩
  | .hbm, ⟨2, _⟩ => ⟨S1, .f32⟩
  | .hbm, ⟨3, _⟩ => ⟨S26, .i32⟩
  | .hbm, ⟨4, _⟩ => ⟨S1x26, .i32⟩
  | .hbm, ⟨5, _⟩ => ⟨S_, .i32⟩
  | .hbm, ⟨6, _⟩ => ⟨S1x26, .i32⟩
  | .hbm, ⟨7, _⟩ => ⟨S1x26, .i1⟩
  | .hbm, ⟨8, _⟩ => ⟨S_, .i32⟩
  | .hbm, ⟨9, _⟩ => ⟨S1x26, .i32⟩
  | .hbm, ⟨10, _⟩ => ⟨S1x26, .i32⟩
  | .hbm, ⟨11, _⟩ => ⟨S1x26, .i32⟩
  | .hbm, ⟨12, _⟩ => ⟨S_, .i32⟩
  | .hbm, ⟨13, _⟩ => ⟨S16384x26, .i32⟩
  | .hbm, ⟨14, _⟩ => ⟨S16384x26, .i1⟩
  | .hbm, ⟨15, _⟩ => ⟨S_, .i32⟩
  | .hbm, ⟨16, _⟩ => ⟨S16384x26, .i32⟩
  | .hbm, ⟨17, _⟩ => ⟨S16384x26, .i32⟩
  | .hbm, ⟨18, _⟩ => ⟨S16384x26, .i32⟩
  | .hbm, ⟨19, _⟩ => ⟨S16384x26, .i32⟩
  | .hbm, ⟨20, _⟩ => ⟨S16384x26x1, .i32⟩
  | .hbm, ⟨21, _⟩ => ⟨S16384x26x1, .i32⟩
  | .hbm, ⟨22, _⟩ => ⟨S16384x26x2, .i32⟩
  | .hbm, ⟨23, _⟩ => ⟨S16384x26, .f32⟩
  | .hbm, ⟨24, _⟩ => ⟨S1x1, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S16384x1, .f32⟩
  | .hbm, ⟨29, _⟩ => ⟨S16384x1, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  shapeCasts_S1_S1x1 : S1.ShapeCasts S1x1
  reducesTo_S16384x26_S16384_d1 : S16384x26.ReducesTo [1] S16384
  h_S_ : 0 < S_.numel
  bcast_S16384_S16384x1_0 : S16384.BroadcastsInDim S16384x1 (![0] : Fin 1 → Fin S16384x1.rank)
  bcast_S1x1_S16384x1_0_1 : S1x1.BroadcastsInDim S16384x1 (![0, 1] : Fin 2 → Fin S16384x1.rank)
  gather_S26x100000_S16384x26x2_S16384x26_n_01_n_n_01_2_11_wf : GatherDims.WF S26x100000 S16384x26x2 S16384x26 [] [0, 1] [] [0, 1] [] 2 ![1, 1]

variable [Facts₀]

def gather_S26x100000_S16384x26x2_S16384x26_n_01_n_n_01_2_11 : GatherDims S26x100000 S16384x26x2 S16384x26 where
  offsetDims := []
  collapsedSliceDims := [0, 1]
  operandBatchingDims := []
  startIndicesBatchingDims := []
  startIndexMap := [0, 1]
  indexVectorDim := 2
  sliceSizes := ![1, 1]
  wf := gather_S26x100000_S16384x26x2_S16384x26_n_01_n_n_01_2_11_wf

class Facts : Prop extends Facts₀ where

variable [Facts]
-- ==== Proof.PreRange.lean ====
/-
  What the input precondition says of the index array: every entry, read as an unsigned word, is at
  most 99999. The precondition is a conjunction of three "all elements hold" reductions; the third
  is over the elementwise conjunction of the signed comparisons 0 ≤ x and x ≤ 99999. A 32-bit word
  whose signed reading lies in [0, 99999] has a clear top bit, so its unsigned reading is the same
  number.
-/
import proofs.«216127_g30709016166882_cont_9to1_510_25_alg».proof.Pre_input_domain
import proofs.«216127_g30709016166882_cont_9to1_510_25_alg».proof.Proof.Gen.Pre_input_domain
import Idealize.ShloMosaic.Lib.ReduceAll
import Idealize.ShloMosaic.Lib.ValueIdx

namespace Cert.PreRange

open Idealize.ShloMosaic

/-- The scalar shape has exactly one index. -/
instance : Subsingleton Cert.Pre_input_domain.S_.Idx := ⟨fun a b => funext fun d => d.elim0⟩

/-- A word on which both signed comparisons 0 ≤ v and v ≤ 99999 answer 1 reads, unsigned, at most 99999. -/
theorem toNat_le_of_cmp (v : BitVec 32)
    (e : IntOp.andi (IntOp.cmpi .sge v 0#32) (IntOp.cmpi .sle v 99999#32) = 1#1) : v.toNat ≤ 99999 := by
  obtain ⟨h1, h2⟩ := IntOp.andi_eq_one.1 e
  rw [IntOp.cmpi_sge] at h1
  rw [IntOp.cmpi_sle] at h2
  have z : (0#32 : BitVec 32).toInt = 0 := by decide
  have n : (99999#32 : BitVec 32).toInt = 99999 := by decide
  rw [z] at h1
  rw [n] at h2
  have hlt := v.isLt
  have hc := BitVec.toInt_eq_toNat_cond v
  split at hc <;> omega

/-- The precondition gives the range of every index word, at every float instance. -/
theorem range_of_pre {F : FTy → Type} [FloatOps F] [Cert.Pre_input_domain.Facts]
    (x : IVec Cert.Pre_input_domain.S16384x26 32) (W : FVec F Cert.Pre_input_domain.S26x100000 .f32)
    (b : FVec F Cert.Pre_input_domain.S1 .f32)
    (h : Cert.Pre_input_domain.fn (F := F) x W b = fun _ => 1#1) : ∀ i, (x i).toNat ≤ 99999 := by
  intro i
  have e := congrFun h ValueIdx.ix0
  dsimp only [Cert.Pre_input_domain.fn] at e
  have e14 := (IntOp.andi_eq_one.1 e).2
  have ei := Host.reduce_andi_all _ _ _ _ _ e14 i
  exact toNat_le_of_cmp _ ei

end Cert.PreRange
-- ==== Proof.Spec.lean ====
/-
  What one vector subcore computes, and what the whole program computes, as plain functions.

  A subcore holds 512 batch rows. It gathers their 512 × 26 table entries into one flat sequence
  (row j's 26 entries at positions 26 j … 26 j + 25), followed by a pad of zeros. Each row is then
  summed by sixteen-lane arithmetic: lanes 0–15 of row j are its first sixteen entries, to which the
  next sixteen positions are added after multiplication by a mask that is one on lanes 0–9 and zero
  on lanes 10–15 (those positions belong to the next row, or to the pad); three halving steps add
  lane l + 8, then l + 4, then l + 2 to lane l; the row's result is lane 0 plus lane 1 plus the bias.
  A halving step reads sixteen positions starting d past the group's start, so its upper lanes see the
  next group's values from before the step; only lanes below d matter for the final result.
-/
import Idealize.ShloMosaic.PureOps
import Idealize.ShloMosaic.Lib.ValueIdx

noncomputable section

namespace Cert.Spec

open Idealize.ShloMosaic

variable {F : FTy → Type} [FloatOps F]

/-- The float zero and one, as the kernel's constants spell them. -/
def zero : F .f32 := FloatOps.ofBits .f32 0x00000000#32
def one : F .f32 := FloatOps.ofBits .f32 0x3F800000#32

/-- The lane mask: one on lanes 0–9, zero on lanes 10–15. -/
def mask (l : ℕ) : F .f32 := if l < 10 then one else zero

/-- The gathered sequence followed by its zero pad. -/
def vals (w : ℕ → F .f32) (k : ℕ) : F .f32 := if k < 13312 then w k else zero

/-- The first pass: group j, lane l holds entry l of row j plus (masked) entry 16 + l; zeros past the groups. -/
def fold (v : ℕ → F .f32) (p : ℕ) : F .f32 :=
  if p < 8192 then FloatOps.addf (v (26 * (p / 16) + p % 16)) (FloatOps.mulf (v (26 * (p / 16) + 16 + p % 16)) (mask (p % 16)))
  else zero

/-- One halving step at distance d: every position below 8192 gains the value d past it. -/
def lev (d : ℕ) (g : ℕ → F .f32) (p : ℕ) : F .f32 := if p < 8192 then FloatOps.addf (g p) (g (p + d)) else g p

/-- The lanes after the three halving steps. -/
def tree (v : ℕ → F .f32) : ℕ → F .f32 := lev 2 (lev 4 (lev 8 (fold v)))

/-- Row j's result: lane 0 plus lane 1 of its group, plus the bias. -/
def row (v : ℕ → F .f32) (b : F .f32) (j : ℕ) : F .f32 :=
  FloatOps.addf (FloatOps.addf (tree v (16 * j)) (tree v (16 * j + 1))) b

/-! ## The whole program, over the extended reals -/

open Idealize.ShloMosaic.ValueIdx in
/-- Row r of the result: the bias plus, for each of the 26 fields f, entry (f, x r f) of the table. -/
def OUT (x : (⟨2, ![16384, 26]⟩ : Shape).Idx → BitVec 32) (W : (⟨2, ![26, 100000]⟩ : Shape).Idx → EReal)
    (bias : (⟨1, ![1]⟩ : Shape).Idx → EReal) : (⟨2, ![16384, 1]⟩ : Shape).Idx → EReal :=
  fun i => bias (ix1 (0 : Fin 1))
    + ∑ f : Fin 26, W (ix2 f (⟨(x (ix2 (i 0) f)).toNat % 100000, Nat.mod_lt _ (by decide)⟩ : Fin 100000))

end Cert.Spec

end
-- ==== Proof.RefSide.lean ====
/-
  The reference's side: its run ends with the result array at the specification's function of the arguments.

  For every batch row r and field f the program builds the index pair (f, x r f). The field number comes from
  an iota over the 26 fields and the table position from the argument; each goes through the wrap that negative
  indices get ("if negative, add the extent"). Both wraps are the identity: a field number 0 … 25 is not
  negative, and the precondition says 0 ≤ x r f ≤ 99999. The gather reads each component of the pair as a
  signed integer and clamps it into the table's extent, which changes nothing for the same reason, so entry
  (r, f) of the gathered array is W (f, x r f), and (x r f).toNat % 100000 = (x r f).toNat. Row r of the result
  is the bias plus the sum of these 26 entries started from the zero constant, and 0 + s = s.

  No finiteness of the table is used: only the integer range of the index words.
-/
import proofs.«216127_g30709016166882_cont_9to1_510_25_alg».proof.Defs
import proofs.«216127_g30709016166882_cont_9to1_510_25_alg».proof.Proof.Gen.ReferenceIdeal
import proofs.«216127_g30709016166882_cont_9to1_510_25_alg».proof.Proof.Gen.ReferenceIdeal.Run
import proofs.«216127_g30709016166882_cont_9to1_510_25_alg».proof.Proof.Gen.ReferenceIdeal.Read
import proofs.«216127_g30709016166882_cont_9to1_510_25_alg».proof.Proof.Gen.Pre_input_domain
import proofs.«216127_g30709016166882_cont_9to1_510_25_alg».proof.Proof.Spec
import Idealize.ShloMosaic.Lib.ReduceAll
import Idealize.ShloMosaic.Lib.ValueIdx

noncomputable section

namespace Cert.RefSide

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-! ## The precondition's integer range -/

/-- The scalar shape has one index. -/
instance : Subsingleton Cert.Pre_input_domain.S_.Idx := ⟨fun a b => funext fun d => d.elim0⟩

/-- Under the precondition every index word is between 0 and 99999, read signed: the precondition's last
    conjunct is the "all" of (x ≥ 0 and x ≤ 99999) over the whole index array. -/
theorem range_of_pre [Cert.Pre_input_domain.Facts]
    (x0 : IVec Cert.Pre_input_domain.S16384x26 32) (x1 : FVec Ideal Cert.Pre_input_domain.S26x100000 .f32)
    (x2 : FVec Ideal Cert.Pre_input_domain.S1 .f32)
    (h : Cert.Pre_input_domain.fn (F := Ideal) x0 x1 x2 = fun _ => 1#1) (i : Cert.Pre_input_domain.S16384x26.Idx) :
    0 ≤ (x0 i).toInt ∧ (x0 i).toInt ≤ 99999 := by
  have e := congrFun h ix0
  dsimp only [Cert.Pre_input_domain.fn] at e
  obtain ⟨-, e14⟩ := IntOp.andi_eq_one.1 e
  have e13 := Host.reduce_andi_all _ _ _ _ _ e14 i
  obtain ⟨hge, hle⟩ := IntOp.andi_eq_one.1 e13
  exact ⟨IntOp.cmpi_sge.1 hge, IntOp.cmpi_sle.1 hle⟩

/-! ## Words -/

/-- A small natural number as a 32-bit word reads back as itself, signed. -/
theorem toInt_ofNat_small (n : Nat) (hn : n < 26) : (BitVec.ofNat 32 n).toInt = (n : Int) := by
  have hN : (BitVec.ofNat 32 n).toNat = n := by rw [BitVec.toNat_ofNat]; omega
  rw [BitVec.toInt_eq_toNat_of_lt (by omega), hN]

/-- A word that is not negative fails the test "below zero". -/
theorem slt_zero_of_nonneg (v : BitVec 32) (hv : 0 ≤ v.toInt) : IntOp.cmpi .slt v 0#32 = 0#1 :=
  eq_zero_of_ne_one fun h => by
    have := IntOp.cmpi_slt.1 h
    rw [show (0#32 : BitVec 32).toInt = 0 from by decide] at this
    omega

/-- A word between 0 and 99999 signed reads the same unsigned, is its own clamp into [0, 99999] and its own
    remainder modulo 100000. -/
theorem word_in_range (v : BitVec 32) (h0 : 0 ≤ v.toInt) (h1 : v.toInt ≤ 99999) :
    min v.toInt.toNat 99999 = v.toNat % 100000 := by
  have h2 : 2 * v.toNat < 2 ^ 32 := BitVec.toInt_pos_iff.1 h0
  have e : v.toInt = (v.toNat : Int) := BitVec.toInt_eq_toNat_of_lt h2
  rw [e] at h1
  rw [e, Int.toNat_natCast]
  omega

/-! ## A gather of single entries of a two-axis table at index pairs, read at an index -/

section Gather
variable {α : Type}

/-- The dimension numbers of a gather of single entries of an [A, B] table at the index pairs an [R, C, 2] array
    holds: both table axes collapsed, both named by the pair, no batching, the pair on the last axis. -/
abbrev pairDims (A B R C : Nat) (wf : GatherDims.WF ⟨2, ![A, B]⟩ ⟨3, ![R, C, 2]⟩ ⟨2, ![R, C]⟩ [] [0, 1] [] [0, 1] [] 2 ![1, 1]) :
    GatherDims ⟨2, ![A, B]⟩ ⟨3, ![R, C, 2]⟩ ⟨2, ![R, C]⟩ where
  offsetDims := []
  collapsedSliceDims := [0, 1]
  operandBatchingDims := []
  startIndicesBatchingDims := []
  startIndexMap := [0, 1]
  indexVectorDim := 2
  sliceSizes := ![1, 1]
  wf := wf

/-- Where component c of the pair for result index (r, f) sits in the index array: (r, f, c). -/
abbrev pairIdx {R C : Nat} (y : (⟨2, ![R, C]⟩ : Shape).Idx) (c : Fin 2) : (⟨3, ![R, C, 2]⟩ : Shape).Idx :=
  fun a => match a with | ⟨0, _⟩ => ⟨(y 0).val, idx2_lt0 y⟩ | ⟨1, _⟩ => ⟨(y 1).val, idx2_lt1 y⟩ | ⟨2, _⟩ => c

/-- The gather at (r, f): the table at the pair's two components, each read signed and clamped into its axis. -/
theorem gather_pair_apply {A B R C w : Nat} (hA : 0 < A) (hB : 0 < B)
    (wf : GatherDims.WF ⟨2, ![A, B]⟩ ⟨3, ![R, C, 2]⟩ ⟨2, ![R, C]⟩ [] [0, 1] [] [0, 1] [] 2 ![1, 1])
    (x : (⟨2, ![A, B]⟩ : Shape).Idx → α) (idx : IVec ⟨3, ![R, C, 2]⟩ w) (y : (⟨2, ![R, C]⟩ : Shape).Idx) :
    Host.gather (pairDims A B R C wf) x idx y
      = x (ix2 (⟨min (idx (pairIdx y 0)).toInt.toNat (A - 1), by omega⟩ : Fin A)
               (⟨min (idx (pairIdx y 1)).toInt.toNat (B - 1), by omega⟩ : Fin B)) := by
  unfold Host.gather
  congr 1
  funext a
  refine Fin.ext ?_
  match a with
  | ⟨0, _⟩ =>
    show (pairDims A B R C wf).start y idx 0 + (pairDims A B R C wf).batchCoord y 0 + (pairDims A B R C wf).offCoord y 0 = _
    rw [GatherDims.batchCoord_eq_zero _ _ _ List.not_mem_nil,
      GatherDims.offCoord_eq_zero _ _ _ (fun h => ((GatherDims.mem_sKept _ _).mp h).1 (List.mem_cons.2 (Or.inl rfl)))]
    simp only [Nat.add_zero]
    unfold GatherDims.start
    rw [dif_pos (show (0 : Fin 2) ∈ (pairDims A B R C wf).startIndexMap from (List.mem_cons.2 (Or.inl rfl)))]
    have hsi : (pairDims A B R C wf).siIdx y ⟨List.idxOf (0 : Fin 2) (pairDims A B R C wf).startIndexMap,
        List.idxOf_lt_length_iff.2 (List.mem_cons.2 (Or.inl rfl))⟩ = pairIdx y 0 := by
      funext b; refine Fin.ext ?_
      match b with
      | ⟨0, _⟩ => rfl
      | ⟨1, _⟩ => rfl
      | ⟨2, _⟩ => rfl
    rw [hsi]
    rfl
  | ⟨1, _⟩ =>
    show (pairDims A B R C wf).start y idx 1 + (pairDims A B R C wf).batchCoord y 1 + (pairDims A B R C wf).offCoord y 1 = _
    rw [GatherDims.batchCoord_eq_zero _ _ _ List.not_mem_nil,
      GatherDims.offCoord_eq_zero _ _ _ (fun h => ((GatherDims.mem_sKept _ _).mp h).1 (List.mem_cons.2 (Or.inr (List.mem_singleton.2 rfl))))]
    simp only [Nat.add_zero]
    unfold GatherDims.start
    rw [dif_pos (show (1 : Fin 2) ∈ (pairDims A B R C wf).startIndexMap from (List.mem_cons.2 (Or.inr (List.mem_singleton.2 rfl))))]
    have hsi : (pairDims A B R C wf).siIdx y ⟨List.idxOf (1 : Fin 2) (pairDims A B R C wf).startIndexMap,
        List.idxOf_lt_length_iff.2 (List.mem_cons.2 (Or.inr (List.mem_singleton.2 rfl)))⟩ = pairIdx y 1 := by
      funext b; refine Fin.ext ?_
      match b with
      | ⟨0, _⟩ => rfl
      | ⟨1, _⟩ => rfl
      | ⟨2, _⟩ => rfl
    rw [hsi]
    rfl

end Gather

/-! ## The index array: (field, position) pairs -/

/-- Component 0 of the pair at (r, f) is the field number f: the iota's value, which the wrap leaves alone. -/
theorem pair_field (x0 : (⟨S16384x26, .i32⟩ : BufTy).Contents (Elt Ideal)) (y : S16384x26.Idx) :
    val_main_v15 (F := Ideal) x0 (pairIdx y 0) = BitVec.ofNat 32 (y 1).val := by
  unfold val_main_v15
  refine (concatenate_pair_apply_left (t := S16384x26x2) (s₁ := S16384x26x1) (s₂ := S16384x26x1) _ _ _ _ (pairIdx y 0) rfl (takeIdx y) (fun b => by
    match b with
    | ⟨0, _⟩ => rfl
    | ⟨1, _⟩ => rfl
    | ⟨2, _⟩ => rfl)).trans ?_
  rw [val_main_v13_apply, val_main_v12_apply, val_main_v6_apply, val_main_v3_apply, val_main_v2_apply, val_main_c_apply,
    val_main_v1_apply, val_main_v0_apply]
  have hf : ((idx_main_v1 (idx_main_v12 (idx_main_v13 (takeIdx y)))) 0).val = (y 1).val := rfl
  rw [hf, slt_zero_of_nonneg _ (by rw [toInt_ofNat_small _ (idx2_lt1 y)]; omega), select_zero]

/-- Component 1 of the pair at (r, f) is the index word x r f: not negative, so the wrap leaves it alone. -/
theorem pair_pos (x0 : (⟨S16384x26, .i32⟩ : BufTy).Contents (Elt Ideal)) (hx : ∀ i, 0 ≤ (x0 i).toInt ∧ (x0 i).toInt ≤ 99999)
    (y : S16384x26.Idx) :
    val_main_v15 (F := Ideal) x0 (pairIdx y 1) = x0 y := by
  unfold val_main_v15
  refine (concatenate_pair_apply_right (t := S16384x26x2) (s₁ := S16384x26x1) (s₂ := S16384x26x1) _ _ _ _ (pairIdx y 1) rfl rfl (takeIdx y) (fun b hb => by
    match b with
    | ⟨0, _⟩ => rfl
    | ⟨1, _⟩ => rfl
    | ⟨2, _⟩ => exact absurd rfl hb) rfl).trans ?_
  have hy : idx_main_v14 (takeIdx y) = y := funext fun a => by
    match a with
    | ⟨0, _⟩ => rfl
    | ⟨1, _⟩ => rfl
  rw [val_main_v14_apply, val_main_v11_apply, val_main_v8_apply, val_main_v7_apply, val_main_c_1_apply, hy,
    slt_zero_of_nonneg _ (hx y).1, select_zero]

/-! ## The gathered entries and the result -/

/-- Entry (r, f) of the gathered array is the table at (f, x r f). -/
theorem gathered_entry (x0 : (⟨S16384x26, .i32⟩ : BufTy).Contents (Elt Ideal)) (x1 : (⟨S26x100000, .f32⟩ : BufTy).Contents (Elt Ideal))
    (hx : ∀ i, 0 ≤ (x0 i).toInt ∧ (x0 i).toInt ≤ 99999) (r : Fin 16384) (f : Fin 26) :
    val_main_v16 (F := Ideal) x0 x1 (ix2 r f)
      = x1 (ix2 f (⟨(x0 (ix2 r f)).toNat % 100000, Nat.mod_lt _ (by decide)⟩ : Fin 100000)) := by
  unfold val_main_v16
  refine (gather_pair_apply (A := 26) (B := 100000) (R := 16384) (C := 26) (by decide) (by decide)
    gather_S26x100000_S16384x26x2_S16384x26_n_01_n_n_01_2_11_wf x1 (val_main_v15 (F := Ideal) x0) (ix2 r f)).trans ?_
  refine congrArg x1 (funext fun a => Fin.ext ?_)
  match a with
  | ⟨0, _⟩ =>
    show min (val_main_v15 (F := Ideal) x0 (pairIdx (ix2 r f) 0)).toInt.toNat (26 - 1) = f.val
    rw [pair_field, toInt_ofNat_small _ f.isLt, Int.toNat_natCast]
    have := f.isLt
    omega
  | ⟨1, _⟩ =>
    show min (val_main_v15 (F := Ideal) x0 (pairIdx (ix2 r f) 1)).toInt.toNat (100000 - 1) = (x0 (ix2 r f)).toNat % 100000
    rw [pair_pos x0 hx]
    exact word_in_range _ (hx _).1 (hx _).2

/-- The reference's result is the specification's: row r is the bias plus the sum over the fields of the
    table at (f, x r f). -/
theorem ref_eq (x0 : (⟨S16384x26, .i32⟩ : BufTy).Contents (Elt Ideal)) (x1 : (⟨S26x100000, .f32⟩ : BufTy).Contents (Elt Ideal))
    (x2 : (⟨S1, .f32⟩ : BufTy).Contents (Elt Ideal)) (hx : ∀ i, 0 ≤ (x0 i).toInt ∧ (x0 i).toInt ≤ 99999) :
    val_main_v21 (F := Ideal) x0 x1 x2 = Cert.Spec.OUT x0 x1 x2 := by
  funext i
  rw [val_main_v21_apply, val_main_v20_apply, val_main_v17_apply, val_main_v19_apply, val_main_v18_apply, val_main_cst_apply]
  have hb : idx_main_v17 (idx_main_v20 i) = ix1 (0 : Fin 1) := funext fun a => by
    match a with
    | ⟨0, _⟩ => rfl
  have hk : ∀ k : Fin 26, idx_main_v18 (idx_main_v19 i) k = ix2 (i 0) k := fun k => funext fun a => by
    match a with
    | ⟨0, _⟩ => rfl
    | ⟨1, _⟩ => rfl
  simp only [hb, hk, Ideal.addf_def, Ideal.ofBits_def, Ideal.ofBits_zero_f32, zero_add]
  unfold Cert.Spec.OUT
  exact congrArg (x2 (ix1 (0 : Fin 1)) + ·) (Finset.sum_congr rfl fun f _ => gathered_entry x0 x1 hx (i 0) f)

/-! ## The run -/

/-- Every weakly fair execution of the reference from a memory satisfying the precondition terminates with the
    result array at the specification's function of the argument arrays, and the arguments unchanged. -/
theorem run [hReferenceIdeal : Cert.ReferenceIdeal.Facts] [hPre_input_domain : Cert.Pre_input_domain.Facts]
    (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v21)
          = Cert.Spec.OUT (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun _ h c => ⟨by
        rw [(h c).1, Read.val_main_v21_eq]
        exact ref_eq _ _ _ (range_of_pre _ _ _ (hpre c)),
      (h c).2⟩)
    (Cert.ReferenceIdeal.Value.run (F := Ideal) m' g')

/-- The reference runs to the end, faults nowhere and leaves its arguments unchanged: the run above with the
    result's value dropped (no precondition is needed for this part). -/
theorem frame [hReferenceIdeal : Cert.ReferenceIdeal.Facts] [hPre_input_domain : Cert.Pre_input_domain.Facts] :
    Cert.frame_ReferenceIdeal :=
  fun m ρ _ => (θ_run Cert.ReferenceIdeal.defs _ _).mono (fun _ h c => (h c).2)
    (Cert.ReferenceIdeal.Value.run (F := Ideal) m ρ)

end Cert.RefSide

end
-- ==== Proof.KI.HostVals.lean ====
/-
  The arrays the kernel is launched on, and the array it leaves, as functions of the program's arguments.

  The index array: entry (r, f) of the argument plus 100000 f — a position of the flat table, whose rows of 100000 are
  the table's 26 rows — re-laid as 32 rows of 13312 words (row w: batch rows 512 w … 512 w + 511, 26 words each).
  The flat table: the table in row-major order. The bias vector: the bias in each of 16 lanes.
  What worker w gathers at position k of its row is the flat table at the k-th word of row w of the index array; its
  results are `Spec.row` of that sequence.
-/
import proofs.«216127_g30709016166882_cont_9to1_510_25_alg».proof.KernelIdeal
import proofs.«216127_g30709016166882_cont_9to1_510_25_alg».proof.Proof.Gen.KernelIdeal
import proofs.«216127_g30709016166882_cont_9to1_510_25_alg».proof.Proof.Spec

noncomputable section

namespace Cert.Proof.KI

open Cert.KernelIdeal Cert.KernelIdeal.Gen

open Idealize.ShloMosaic Idealize.ShloMosaic.ValueIdx

variable {F : FTy → Type} [FloatOps F]

/-- The index array the kernel reads: the host's add of the field offsets, re-laid. -/
def X6 (x : IVec S16384x26 32) : IVec S32x13312 32 :=
  shapeCast S32x13312
    (addi x (broadcastInDim S16384x26 ![0, 1] bcast_S1x26_S16384x26_0_1
      (broadcastInDim S1x26 ![1] bcast_S26_S1x26_1
        (muli (iotaInDim S26 32 0) (broadcastInDim S26 ![] bcast_S_S26 (constantI S_ 32 100000#32))))))
    shapeCasts_S16384x26_S32x13312

/-- The flat table. -/
def X7 (W : FVec F S26x100000 .f32) : FVec F S2600000 .f32 := shapeCast S2600000 W shapeCasts_S26x100000_S2600000

/-- The bias in sixteen lanes. -/
def X8 (bias : FVec F S1 .f32) : FVec F S16 .f32 := broadcastInDim S16 ![0] bcast_S1_S16_0 bias

/-- The program's result from the kernel's: 32 rows of 512 re-laid as 16384 rows of one. -/
def X10 (o : FVec F S32x512 .f32) : FVec F S16384x1 .f32 := shapeCast S16384x1 o shapeCasts_S32x512_S16384x1

/-- What worker `w` gathers at position `k`: the flat table at the `k`-th index word of its row. -/
def wfun (x6 : IVec S32x13312 32) (x7 : FVec F S2600000 .f32) (w : Fin 32) (k : ℕ) : F .f32 :=
  if h : k < 13312 then
    x7 (ix1 (⟨(x6 (ix2 w (⟨k, h⟩ : Fin 13312))).toNat % 2600000, Nat.mod_lt _ (by decide)⟩ : Fin 2600000))
  else Spec.zero

/-- The kernel's result array: row `w`, entry `j` is row `j`'s sum over worker `w`'s gathered sequence. -/
def O9 (x6 : IVec S32x13312 32) (x7 : FVec F S2600000 .f32) (x8 : FVec F S16 .f32) : FVec F S32x512 .f32 :=
  fun i => Spec.row (Spec.vals (wfun x6 x7 (i 0))) (x8 (ix1 (0 : Fin 16))) (i 1).val

end Cert.Proof.KI

end
-- ==== Proof.KI.Range.lean ====
/-
  The re-laid index array read at a word, and the range of its words.

  Word k of row w of the 32 x 13312 array sits at row-major position 13312 w + k = 26 a + f, that is entry
  (a, f) of the 16384 x 26 argument, to which the host has added 100000 f. An entry at most 99999 plus
  100000 f, f below 26, is below 2600000 and does not wrap as a 32-bit word: every word of the index array
  is a position of the flat table.
-/
import proofs.«216127_g30709016166882_cont_9to1_510_25_alg».proof.Proof.KI.HostVals
import Idealize.ShloMosaic.Lib.ValueIdx
import Idealize.ShloMosaic.Lib.Pipeline.Value
import Idealize.ShloMosaic.Lib.ValueLayout

noncomputable section

namespace Cert.Proof.KI

open Cert.KernelIdeal Cert.KernelIdeal.Gen

open Idealize.ShloMosaic Idealize.ShloMosaic.ValueIdx

/-- The field offsets the host adds: at entry (a, f), the word f times 100000. -/
theorem offs_apply (a : Fin 16384) (f : Fin 26) :
    (broadcastInDim S16384x26 ![0, 1] bcast_S1x26_S16384x26_0_1
      (broadcastInDim S1x26 ![1] bcast_S26_S1x26_1
        (muli (iotaInDim S26 32 0) (broadcastInDim S26 ![] bcast_S_S26 (constantI S_ 32 100000#32))))) (ix2 a f)
      = BitVec.ofNat 32 f.val * 100000#32 := by
  refine (broadcastInDim_apply _ _ _ _ (ix2 (0 : Fin 1) f) ?_).trans ?_
  · intro b
    match b with
    | ⟨0, _⟩ => rfl
    | ⟨1, _⟩ => rfl
  refine (broadcastInDim_apply _ _ _ _ (ix1 f) ?_).trans ?_
  · intro b
    match b with
    | ⟨0, _⟩ => rfl
  rfl

/-- Word k of row w of the re-laid index array is the entry (a, f) of the argument at the same row-major
    position, 13312 w + k = 26 a + f, plus the field offset. -/
theorem X6_apply (x : IVec S16384x26 32) (w : Fin 32) (k : Fin 13312) (a : Fin 16384) (f : Fin 26)
    (h : 13312 * w.val + k.val = 26 * a.val + f.val) :
    X6 x (ix2 w k) = x (ix2 a f) + BitVec.ofNat 32 f.val * 100000#32 := by
  unfold X6
  refine (shapeCast_apply _ _ _ (ix2 a f) ?_).trans ?_
  · rw [Shape.rowMajor_val_two, Shape.rowMajor_val_two]
    show a.val * 26 + f.val = w.val * 13312 + k.val
    omega
  · show x (ix2 a f) + _ = _
    rw [offs_apply]

/-- An entry at most 99999 plus 100000 f, f below 26, does not wrap as a 32-bit word. -/
theorem word_toNat (v : BitVec 32) (f : ℕ) (hv : v.toNat ≤ 99999) (hf : f < 26) :
    (v + BitVec.ofNat 32 f * 100000#32).toNat = v.toNat + 100000 * f := by
  simp only [BitVec.toNat_add, BitVec.toNat_mul, BitVec.toNat_ofNat, Nat.reducePow, Nat.reduceMod]
  omega

/-- Row-major position 13312 w + k of the 32 x 13312 array is position 26 a + f of the 16384 x 26 array for
    a = (13312 w + k) / 26, f = (13312 w + k) % 26; the word there is x (a, f) + 100000 f. -/
theorem X6_lt (x : IVec S16384x26 32) (hx : ∀ i, (x i).toNat ≤ 99999) : ∀ i, (X6 x i).toNat < 2600000 := by
  intro i
  obtain ⟨w, k, rfl⟩ : ∃ w k, i = ix2 w k := ⟨i 0, i 1, eq_ix2 i⟩
  have hw := w.isLt
  have hk := k.isLt
  obtain ⟨a, f, h⟩ : ∃ (a : Fin 16384) (f : Fin 26), 13312 * w.val + k.val = 26 * a.val + f.val :=
    ⟨⟨(13312 * w.val + k.val) / 26, by omega⟩, ⟨(13312 * w.val + k.val) % 26, Nat.mod_lt _ (by decide)⟩,
      by show 13312 * w.val + k.val = 26 * ((13312 * w.val + k.val) / 26) + (13312 * w.val + k.val) % 26; omega⟩
  rw [X6_apply x w k a f h]
  have hv := hx (ix2 a f)
  have hf := f.isLt
  rw [word_toNat _ _ hv hf]
  omega

end Cert.Proof.KI

end
-- ==== Proof.SpecIdeal.lean ====
/-
  The specification's functions at the extended reals: the two constants are 0 and 1, and a row's
  result is the bias plus the plain sum of the row's 26 entries.

  No finiteness is used anywhere: the extended reals are a commutative additive monoid (the sum of
  a finite family does not depend on order or association, infinities included), and x * 1 = x,
  x * 0 = 0 hold for every extended real.
-/
import proofs.«216127_g30709016166882_cont_9to1_510_25_alg».proof.Proof.Spec
import Idealize.ShloMosaic.PureOps.Ideal.Laws

noncomputable section

namespace Cert.Spec

open Idealize.ShloMosaic

/-- The pattern of all zero bits denotes the extended real 0. -/
theorem zero_eq : (zero : Ideal .f32) = 0 := Ideal.ofBits_zero_f32

/-- The pattern 0x3F800000 (sign 0, exponent field 127, fraction 0) denotes 2^23 * 2^(127-127-23) = 1. -/
theorem one_eq : (one : Ideal .f32) = 1 := by
  show Ideal.ofBits .f32 0x3F800000#32 = 1
  simp [Ideal.ofBits, Ideal.ieee]
  rw [← EReal.coe_mul]
  norm_num

/-- A halving step at a position below 8192 adds the value d further on. -/
theorem lev_lt (d : ℕ) (g : ℕ → EReal) (p : ℕ) (hp : p < 8192) :
    lev (F := Ideal) d g p = g p + g (p + d) := by
  unfold lev
  rw [if_pos hp]
  rfl

/-- Position 16 j + l (l < 16) of the first pass, for a row j < 512: entry l of the row plus, on the
    lanes below 10, entry 16 + l. -/
theorem fold_lane (v : ℕ → EReal) (j l : ℕ) (hj : j < 512) (hl : l < 16) :
    fold (F := Ideal) v (16 * j + l)
      = v (26 * j + l) + v (26 * j + (16 + l)) * (if l < 10 then 1 else 0) := by
  have h1 : (16 * j + l) / 16 = j := by omega
  have h2 : (16 * j + l) % 16 = l := by omega
  have h3 : 16 * j + l < 8192 := by omega
  unfold fold
  rw [if_pos h3, h1, h2, Nat.add_assoc]
  unfold mask
  rw [one_eq, zero_eq]
  rfl

/-- The three halving steps at a position p with p + 6 below 8192: the sum of the eight first-pass
    values at p, p + 2, …, p + 14. -/
theorem tree_lt (v : ℕ → EReal) (p : ℕ) (hp : p + 6 < 8192) :
    tree (F := Ideal) v p =
      ((fold v p + fold v (p + 8)) + (fold v (p + 4) + fold v (p + 4 + 8)))
      + ((fold v (p + 2) + fold v (p + 2 + 8)) + (fold v (p + 2 + 4) + fold v (p + 2 + 4 + 8))) := by
  unfold tree
  rw [lev_lt 2 _ p (by omega), lev_lt 4 _ p (by omega), lev_lt 4 _ (p + 2) (by omega),
    lev_lt 8 _ p (by omega), lev_lt 8 _ (p + 4) (by omega), lev_lt 8 _ (p + 2) (by omega),
    lev_lt 8 _ (p + 2 + 4) (by omega)]

/-- Lanes 0 and 1 of row j after the halving steps add up to the plain sum of the row's 26 entries:
    the sixteen first-pass values of the group are entries 0–15, plus entries 16–25 on lanes 0–9. -/
theorem lanes_sum (v : ℕ → EReal) (j : ℕ) (hj : j < 512) :
    tree (F := Ideal) v (16 * j) + tree (F := Ideal) v (16 * j + 1)
      = ∑ f ∈ Finset.range 26, v (26 * j + f) := by
  have h0 := fold_lane v j 0 hj (by omega)
  have h1 := fold_lane v j 1 hj (by omega)
  have h2 := fold_lane v j 2 hj (by omega)
  have h3 := fold_lane v j 3 hj (by omega)
  have h4 := fold_lane v j 4 hj (by omega)
  have h5 := fold_lane v j 5 hj (by omega)
  have h6 := fold_lane v j 6 hj (by omega)
  have h7 := fold_lane v j 7 hj (by omega)
  have h8 := fold_lane v j 8 hj (by omega)
  have h9 := fold_lane v j 9 hj (by omega)
  have h10 := fold_lane v j 10 hj (by omega)
  have h11 := fold_lane v j 11 hj (by omega)
  have h12 := fold_lane v j 12 hj (by omega)
  have h13 := fold_lane v j 13 hj (by omega)
  have h14 := fold_lane v j 14 hj (by omega)
  have h15 := fold_lane v j 15 hj (by omega)
  simp only [Nat.add_zero, Nat.reduceAdd, Nat.reduceLT, if_true, if_false, mul_one, mul_zero,
    add_zero] at h0 h1 h2 h3 h4 h5 h6 h7 h8 h9 h10 h11 h12 h13 h14 h15
  rw [tree_lt v (16 * j) (by omega), tree_lt v (16 * j + 1) (by omega)]
  simp only [Nat.add_assoc, Nat.reduceAdd]
  rw [h0, h1, h2, h3, h4, h5, h6, h7, h8, h9, h10, h11, h12, h13, h14, h15]
  simp only [Finset.sum_range_succ, Finset.sum_range_zero, zero_add, Nat.add_zero]
  ac_rfl

/-- Below 13312 the padded sequence is the gathered sequence. -/
theorem vals_lt (w : ℕ → EReal) (k : ℕ) (hk : k < 13312) : vals (F := Ideal) w k = w k := by
  unfold vals
  rw [if_pos hk]

/-- Row j's result is the bias plus the sum of the row's 26 entries. -/
theorem row_eq (w : ℕ → EReal) (b : EReal) (j : ℕ) (hj : j < 512) :
    row (F := Ideal) (vals (F := Ideal) w) b j = b + ∑ f ∈ Finset.range 26, w (26 * j + f) := by
  have hs : ∑ f ∈ Finset.range 26, vals (F := Ideal) w (26 * j + f)
      = ∑ f ∈ Finset.range 26, w (26 * j + f) := by
    apply Finset.sum_congr rfl
    intro f hf
    have hf' : f < 26 := Finset.mem_range.mp hf
    exact vals_lt w _ (by omega)
  show (tree (F := Ideal) (vals (F := Ideal) w) (16 * j) + tree (F := Ideal) (vals (F := Ideal) w) (16 * j + 1)) + b = _
  rw [lanes_sum _ j hj, hs, add_comm]

end Cert.Spec

end
-- ==== Proof.KI.Bridge.lean ====
/-
  The value bridge at the extended reals: the array the kernel leaves, re-laid as the program's result,
  is the specification's function of the program's arguments.

  Index (r, 0) of the 16384 x 1 result is entry (r / 512, r % 512) of the 32 x 512 array (the same
  row-major position). That entry is the row sum of worker r / 512's gathered sequence at row r % 512:
  the bias plus the 26 gathered values at words 26 (r % 512) + f. Word 26 j + f of row w of the
  re-laid index array sits at row-major position 13312 w + 26 j + f = 26 (512 w + j) + f, that is
  entry (512 w + j, f) of the argument, plus 100000 f. The entry is at most 99999, so the sum is
  below 2600000 and does not wrap as a 32-bit word; it is the flat position of the table's entry
  (f, x (r, f)).
-/
import proofs.«216127_g30709016166882_cont_9to1_510_25_alg».proof.Proof.KI.Range
import proofs.«216127_g30709016166882_cont_9to1_510_25_alg».proof.Proof.SpecIdeal
import Idealize.ShloMosaic.Lib.ValueIdx
import Idealize.ShloMosaic.Lib.Pipeline.Value
import Idealize.ShloMosaic.Lib.ValueLayout

noncomputable section

namespace Cert.Proof.KI

open Cert.KernelIdeal Cert.KernelIdeal.Gen

open Idealize.ShloMosaic Idealize.ShloMosaic.ValueIdx

/-- The flat table at position 100000 f + v is the table's entry (f, v). -/
theorem X7_apply (W : FVec Ideal S26x100000 .f32) (f : Fin 26) (v : Fin 100000) (p : Fin 2600000)
    (hp : p.val = 100000 * f.val + v.val) : X7 (F := Ideal) W (ix1 p) = W (ix2 f v) := by
  unfold X7
  refine shapeCast_apply _ _ _ _ ?_
  rw [Shape.rowMajor_val_two, Shape.rowMajor_val_one]
  show f.val * 100000 + v.val = p.val
  omega

/-- Every lane of the broadcast bias is the bias. -/
theorem X8_apply (bias : FVec Ideal S1 .f32) (l : Fin 16) :
    X8 (F := Ideal) bias (ix1 l) = bias (ix1 (0 : Fin 1)) := by
  unfold X8
  refine broadcastInDim_apply _ _ _ _ _ ?_
  intro b
  match b with
  | ⟨0, _⟩ => rfl

/-- Row r of the 16384 x 1 result is entry (r / 512, r % 512) of the 32 x 512 array. -/
theorem X10_apply (o : FVec Ideal S32x512 .f32) (r : Fin 16384) (c : Fin 1) :
    X10 (F := Ideal) o (ix2 r c)
      = o (ix2 (⟨r.val / 512, by have := r.isLt; omega⟩ : Fin 32) (⟨r.val % 512, Nat.mod_lt _ (by decide)⟩ : Fin 512)) := by
  have hc : c.val = 0 := by omega
  unfold X10
  refine shapeCast_apply _ _ _ _ ?_
  rw [Shape.rowMajor_val_two, Shape.rowMajor_val_two]
  show r.val / 512 * 512 + r.val % 512 = r.val * 1 + c.val
  omega

/-- What worker r / 512 gathers at word f of its row r % 512: the table's entry (f, x (r, f)). The index word
    x (r, f) + 100000 f does not wrap (it is below 2600000), so it is the flat position of that entry. -/
theorem wfun_entry (x : IVec S16384x26 32) (W : FVec Ideal S26x100000 .f32) (hx : ∀ i, (x i).toNat ≤ 99999)
    (r : Fin 16384) (f : Fin 26) :
    wfun (F := Ideal) (X6 x) (X7 W) (⟨r.val / 512, by have := r.isLt; omega⟩ : Fin 32) (26 * (r.val % 512) + f.val)
      = W (ix2 f (⟨(x (ix2 r f)).toNat % 100000, Nat.mod_lt _ (by decide)⟩ : Fin 100000)) := by
  have hr := r.isLt
  have hf := f.isLt
  have hk : 26 * (r.val % 512) + f.val < 13312 := by omega
  have e6 := X6_apply x (⟨r.val / 512, by omega⟩ : Fin 32) (⟨26 * (r.val % 512) + f.val, hk⟩ : Fin 13312) r f
    (by show 13312 * (r.val / 512) + (26 * (r.val % 512) + f.val) = 26 * r.val + f.val; omega)
  have hv := hx (ix2 r f)
  have hn : (x (ix2 r f) + BitVec.ofNat 32 f.val * 100000#32).toNat = (x (ix2 r f)).toNat + 100000 * f.val := by
    simp only [BitVec.toNat_add, BitVec.toNat_mul, BitVec.toNat_ofNat, Nat.reducePow, Nat.reduceMod]
    omega
  unfold wfun
  rw [dif_pos hk]
  refine X7_apply W f _ _ ?_
  show (X6 x (ix2 _ _)).toNat % 2600000 = 100000 * f.val + (x (ix2 r f)).toNat % 100000
  rw [e6, hn]
  omega

/-- The kernel's result array, re-laid, is the specification's function of the arguments. -/
theorem bridge (x : IVec S16384x26 32) (W : FVec Ideal S26x100000 .f32) (bias : FVec Ideal S1 .f32)
    (hx : ∀ i, (x i).toNat ≤ 99999) :
    X10 (F := Ideal) (O9 (F := Ideal) (X6 x) (X7 W) (X8 bias)) = Cert.Spec.OUT x W bias := by
  funext i
  obtain ⟨r, c, rfl⟩ : ∃ r c, i = ix2 r c := ⟨i 0, i 1, eq_ix2 i⟩
  have hr := r.isLt
  rw [X10_apply]
  show Spec.row (F := Ideal) (Spec.vals (F := Ideal) (wfun (F := Ideal) (X6 x) (X7 W) (⟨r.val / 512, _⟩ : Fin 32)))
      (X8 (F := Ideal) bias (ix1 (0 : Fin 16))) (r.val % 512) = _
  rw [Spec.row_eq _ _ (r.val % 512) (Nat.mod_lt _ (by decide)), X8_apply, Finset.sum_range]
  show _ = bias (ix1 (0 : Fin 1))
    + ∑ f : Fin 26, W (ix2 f (⟨(x (ix2 r f)).toNat % 100000, Nat.mod_lt _ (by decide)⟩ : Fin 100000))
  congr 1
  exact Finset.sum_congr rfl (fun f _ => wfun_entry x W hx r f)

end Cert.Proof.KI

end
-- ==== Proof.KI.Setup.lean ====
/-
  The idealized kernel as the launch theorem sees it: its one call on 2 × 16 vector subcores, the ghost state (the
  handshakes' rounds beside the local transfers' counters), the arrays and each subcore's parts of them.

  Subcore (c, s) is worker w = 2 s + c. It reads row w of the index array (13312 words), all of the flat table and of
  the bias vector (each at a thirty-second share), stages its 512 results through row s of its SparseCore's shared
  scratch and writes row w of the result.
-/
import proofs.«216127_g30709016166882_cont_9to1_510_25_alg».proof.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«216127_g30709016166882_cont_9to1_510_25_alg».proof.Proof.Gen.KernelIdeal
import proofs.«216127_g30709016166882_cont_9to1_510_25_alg».proof.Proof.Gen.KernelIdeal.Skeleton
import proofs.«216127_g30709016166882_cont_9to1_510_25_alg».proof.Proof.Spec
import proofs.«216127_g30709016166882_cont_9to1_510_25_alg».proof.Proof.KI.HostVals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

abbrev EH : Emb UH (MT nD τ sig (HIx 1) (Elt F) ℕ UU ℕ) := embL

/-! ## The arrays -/

/-- The index array (one row per worker), the flat table, the bias vector, the kernel's result (one row per worker),
    as locations of device `d`. -/
abbrev xLoc (d : Dev nD) : Loc nD τ sig := (SparseCore.T d).loc main_v6
abbrev wLoc (d : Dev nD) : Loc nD τ sig := (SparseCore.T d).loc main_v7
abbrev bLoc (d : Dev nD) : Loc nD τ sig := (SparseCore.T d).loc main_v8
abbrev oLoc (d : Dev nD) : Loc nD τ sig := (SparseCore.T d).loc main_v9

/-- SparseCore `c`'s shared scratch. -/
abbrev shRef (c : Fin τ.nSC) : DevRef τ sig := ⟨.shared, ⟨0, by decide⟩, c⟩
abbrev shLoc (d : Dev nD) (c : Fin τ.nSC) : Loc nD τ sig := (d, shRef c)

/-- The program's three arguments. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev rLoc (d : Dev nD) : Loc nD τ sig := (SparseCore.T d).loc main_v10

/-! ## Workers, rows, shares -/

/-- Subcore `i` of SparseCore `c` is worker `2 i + c`. -/
def wk (c : Fin 2) (i : Fin 16) : Fin 32 := ⟨2 * i.val + c.val, by omega⟩

theorem xdiv : 32 ∣ S32x13312.size 0 := ⟨1, rfl⟩
theorem odiv : 32 ∣ S32x512.size 0 := ⟨1, rfl⟩
theorem shdiv : 16 ∣ S8192.size 0 := ⟨512, rfl⟩
/-- Row `w` of the index array and of the result; row `i` (512 entries) of a shared scratch. -/
abbrev xrow (w : Fin 32) : Rect S32x13312 := Rect.part (s := S32x13312) (a₀ := 0) xdiv w
abbrev orow (w : Fin 32) : Rect S32x512 := Rect.part (s := S32x512) (a₀ := 0) odiv w
abbrev shrow (i : Fin 16) : Rect S8192 := Rect.part (s := S8192) (a₀ := 0) shdiv i
abbrev xRowSet (w : Fin 32) : Finset S32x13312.Idx := ((View.whole (main_v6_scv : Ref sig .scVector)).slice (xrow w)).set
abbrev oRowSet (w : Fin 32) : Finset S32x512.Idx := ((View.whole (main_v9_scv : Ref sig .scVector)).slice (orow w)).set
abbrev shRowSet (i : Fin 16) : Finset S8192.Idx := ((View.whole (cc0_scratch6 : Ref sig .scVector)).slice (shrow i)).set

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Worker `w`'s share of the arrays every worker reads whole: a thirty-second. -/
abbrev sq (w : Fin 32) : PosShare TreeShare := leaf 5 fullShare w

/-! ## What the handshakes carry -/

variable [FloatOps F] (m : (ℓ : Loc nD τ sig) → Buf (Elt F) ℓ)

/-- The arrays the kernel is launched on and the array it leaves, of the launch memory's arguments. -/
def Xv (d : Dev nD) : Buf (Elt F) (xLoc d) := X6 (m (a0Loc d))
def Wv (d : Dev nD) : Buf (Elt F) (wLoc d) := X7 (F := F) (m (a1Loc d))
def Bv (d : Dev nD) : Buf (Elt F) (bLoc d) := X8 (F := F) (m (a2Loc d))
def Ov (d : Dev nD) : Buf (Elt F) (oLoc d) := O9 (F := F) (Xv m d) (Wv m d) (Bv m d)

local notation "𝕄" => MT nD τ sig (HIx 1) (Elt F) ℕ UU ℕ

/-- Worker `(c, i)`'s parts of the four arrays: its row of the index array, its shares of the flat table and of the
    bias vector, its row of the result at contents `o`. -/
def parts (d : Dev nD) (c : Fin 2) (i : Fin 16) (o : Buf (Elt F) (oLoc d)) : sProp 𝕄 :=
  iprop((xLoc d ↦[xRowSet (wk c i)]{fullShare} Xv m d) ∗ (wLoc d ↦{sq (wk c i)} Wv m d) ∗ (bLoc d ↦{sq (wk c i)} Bv m d)
    ∗ oLoc d ↦[oRowSet (wk c i)]{fullShare} o)

/-- Row `i` of SparseCore `c`'s shared scratch, at some contents. -/
def shPart (d : Dev nD) (c : Fin τ.nSC) (i : Fin 16) : sProp 𝕄 := iprop(∃ f, shLoc d c ↦[shRowSet i]{fullShare} f)

/-- The one call hands SparseCore `c` its sixteen workers' parts and takes them back with the result rows written; each
    task takes its parts and its row of the shared scratch. -/
def P : (K (F := F)).Pay (nD := nD) (Val := Elt F) (Name := ℕ) (U := UU) where
  st := fun q d c => match q with | 0 => bigSep Finset.univ fun i : Fin 16 => parts m d (Fin.cast nCore_zero c) i (m (oLoc d))
  dn := fun q d c => match q with | 0 => bigSep Finset.univ fun i : Fin 16 => parts m d (Fin.cast nCore_zero c) i (Ov m d)
  go := fun q d c i => match q with
    | 0 => iprop(parts m d (Fin.cast nCore_zero c) (Fin.cast nSub_zero i) (m (oLoc d)) ∗ shPart d ((K (F := F)).core 0 c) (Fin.cast nSub_zero i))
  td := fun q d c i => match q with
    | 0 => iprop(parts m d (Fin.cast nCore_zero c) (Fin.cast nSub_zero i) (Ov m d) ∗ shPart d ((K (F := F)).core 0 c) (Fin.cast nSub_zero i))
  x := fun _ _ => iprop(emp)

instance P_storable : (P (F := F) m).IsStorable where
  st q d c := match q with | 0 => by unfold P parts; infer_instance
  dn q d c := match q with | 0 => by unfold P parts; infer_instance
  go q d c i := match q with | 0 => by unfold P parts shPart; infer_instance
  td q d c i := match q with | 0 => by unfold P parts shPart; infer_instance

end Cert.Proof.KI

end
-- ==== Proof.KI.Views.lean ====
/-
  One vector subcore's own slices of the arrays: its row of the index array and of the result, its row of the shared
  scratch, and the worker number it is.
-/
import proofs.«216127_g30709016166882_cont_9to1_510_25_alg».proof.Proof.KI.Setup
import Idealize.ShloMosaic.Lib.WritesUnit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v6_scv : Memref Cert.KernelIdeal.sig Kind.scVector Space.hbm Cert.KernelIdeal.S32x13312 EltTy.i32)
local notation "wV" => (Memref.whole Cert.KernelIdeal.main_v7_scv : Memref Cert.KernelIdeal.sig Kind.scVector Space.hbm Cert.KernelIdeal.S2600000 EltTy.f32)
local notation "bV" => (Memref.whole Cert.KernelIdeal.main_v8_scv : Memref Cert.KernelIdeal.sig Kind.scVector Space.hbm Cert.KernelIdeal.S16 EltTy.f32)
local notation "oV" => (Memref.whole Cert.KernelIdeal.main_v9_scv : Memref Cert.KernelIdeal.sig Kind.scVector Space.hbm Cert.KernelIdeal.S32x512 EltTy.f32)
local notation "s0V" => (Memref.whole Cert.KernelIdeal.cc0_scratch0 : Memref Cert.KernelIdeal.sig Kind.scVector Space.vmem Cert.KernelIdeal.S13312 EltTy.i32)
local notation "s1V" => (Memref.whole Cert.KernelIdeal.cc0_scratch1 : Memref Cert.KernelIdeal.sig Kind.scVector Space.vmem Cert.KernelIdeal.S13328 EltTy.f32)
local notation "s2V" => (Memref.whole Cert.KernelIdeal.cc0_scratch2 : Memref Cert.KernelIdeal.sig Kind.scVector Space.vmem Cert.KernelIdeal.S8208 EltTy.f32)
local notation "s3V" => (Memref.whole Cert.KernelIdeal.cc0_scratch3 : Memref Cert.KernelIdeal.sig Kind.scVector Space.vmem Cert.KernelIdeal.S512x16 EltTy.f32)
local notation "s4V" => (Memref.whole Cert.KernelIdeal.cc0_scratch4 : Memref Cert.KernelIdeal.sig Kind.scVector Space.vmem Cert.KernelIdeal.S512 EltTy.f32)
local notation "s5V" => (Memref.whole Cert.KernelIdeal.cc0_scratch5 : Memref Cert.KernelIdeal.sig Kind.scVector Space.vmem Cert.KernelIdeal.S16 EltTy.f32)
local notation "shV" => (Memref.whole Cert.KernelIdeal.cc0_scratch6 : Memref Cert.KernelIdeal.sig Kind.scVector Space.shared Cert.KernelIdeal.S8192 EltTy.f32)

abbrev cV (L : grid0.Coords) : Fin τ.nSC := (L 0).castLE hcore0
abbrev jV (L : grid0.Coords) : Fin τ.nSub := (L 1).castLE hsub0

/-- The subcore's row of the index array and of the result, and its row of the shared scratch, as the task slices them. -/
abbrev xRowK (L : grid0.Coords) : Memref sig .scVector .hbm S13312 .i32 :=
  ((xV).slice (Rect.unit (s := S32x13312) (k0_off1 L) S1x13312.size (k0_off1_inb L)) (fun _ => rfl)).squeeze S13312 squeezes_S1x13312_S13312
abbrev oRowK (L : grid0.Coords) : Memref sig .scVector .hbm S512 .f32 :=
  ((oV).slice (Rect.unit (s := S32x512) (k0_off15 L) S1x512.size (k0_off15_inb L)) (fun _ => rfl)).squeeze S512 squeezes_S1x512_S512
abbrev shRowK (L : grid0.Coords) : Memref sig .scVector .shared S512 .f32 :=
  (shV).slice (Rect.unit (s := S8192) (k0_off14 L) S512.size (k0_off14_inb L)) (fun _ => rfl)

/-- The worker a subcore is. -/
def wL (L : grid0.Coords) : Fin 32 := ⟨2 * (L 1).val + (L 0).val, by have h0 : (L 0).val < 2 := (L 0).isLt; have h1 : (L 1).val < 16 := (L 1).isLt; omega⟩

end Cert.Proof.KI

end
-- ==== Proof.KI.Pure.lean ====
/-
  The pure facts of a subcore's task: what its scratch buffers hold, index by index, after each stage — as statements
  about lists of sixteen-lane stores read at an index, with no program and no logic in them.

  The gathered sequence followed by its zero pad is `Spec.vals`; after `k` trips of the first pass the first `64 k`
  lanes of the lane buffer hold `Spec.fold`; a halving step at distance `dd` reads, for group `n`, sixteen lanes at
  `16 n` and sixteen at `16 n + dd`, none of which an earlier group of the same step has written, so that after the
  step every lane below 8192 holds its old value plus the old value `dd` past it (`Spec.lev`); the last pass writes
  lane 0 of row `j` with lane `16 j` plus lane `16 j + 1` plus the bias.
-/
import proofs.«216127_g30709016166882_cont_9to1_510_25_alg».proof.Proof.KI.Views
import Idealize.ShloMosaic.Lib.WritesUnit
import Idealize.ShloMosaic.Lib.ValueIdx
import Idealize.ShloMosaic.Lib.Pipeline.Value

noncomputable section

namespace Cert.Proof.KI

open Cert.KernelIdeal Cert.KernelIdeal.Gen

open Idealize.ShloMosaic Idealize.ShloMosaic.ValueIdx
open Idealize.ShloMosaic.SparseCore (S V T)

variable {F : FTy → Type} [FloatOps F]

local notation "xV" => (Memref.whole Cert.KernelIdeal.main_v6_scv : Memref Cert.KernelIdeal.sig Kind.scVector Space.hbm Cert.KernelIdeal.S32x13312 EltTy.i32)
local notation "wV" => (Memref.whole Cert.KernelIdeal.main_v7_scv : Memref Cert.KernelIdeal.sig Kind.scVector Space.hbm Cert.KernelIdeal.S2600000 EltTy.f32)
local notation "bV" => (Memref.whole Cert.KernelIdeal.main_v8_scv : Memref Cert.KernelIdeal.sig Kind.scVector Space.hbm Cert.KernelIdeal.S16 EltTy.f32)
local notation "oV" => (Memref.whole Cert.KernelIdeal.main_v9_scv : Memref Cert.KernelIdeal.sig Kind.scVector Space.hbm Cert.KernelIdeal.S32x512 EltTy.f32)
local notation "s0V" => (Memref.whole Cert.KernelIdeal.cc0_scratch0 : Memref Cert.KernelIdeal.sig Kind.scVector Space.vmem Cert.KernelIdeal.S13312 EltTy.i32)
local notation "s1V" => (Memref.whole Cert.KernelIdeal.cc0_scratch1 : Memref Cert.KernelIdeal.sig Kind.scVector Space.vmem Cert.KernelIdeal.S13328 EltTy.f32)
local notation "s2V" => (Memref.whole Cert.KernelIdeal.cc0_scratch2 : Memref Cert.KernelIdeal.sig Kind.scVector Space.vmem Cert.KernelIdeal.S8208 EltTy.f32)
local notation "s3V" => (Memref.whole Cert.KernelIdeal.cc0_scratch3 : Memref Cert.KernelIdeal.sig Kind.scVector Space.vmem Cert.KernelIdeal.S512x16 EltTy.f32)
local notation "s4V" => (Memref.whole Cert.KernelIdeal.cc0_scratch4 : Memref Cert.KernelIdeal.sig Kind.scVector Space.vmem Cert.KernelIdeal.S512 EltTy.f32)
local notation "s5V" => (Memref.whole Cert.KernelIdeal.cc0_scratch5 : Memref Cert.KernelIdeal.sig Kind.scVector Space.vmem Cert.KernelIdeal.S16 EltTy.f32)
local notation "shV" => (Memref.whole Cert.KernelIdeal.cc0_scratch6 : Memref Cert.KernelIdeal.sig Kind.scVector Space.shared Cert.KernelIdeal.S8192 EltTy.f32)

/-! ## The predicates the loops' invariants carry -/

/-- After `k` trips of the first pass the first `64 k` lanes hold the pass's values; the pad holds zeros. -/
def G1 (v : ℕ → F .f32) (k : ℕ) (g : S8208.Idx → F .f32) : Prop :=
  (∀ p : S8208.Idx, (p 0).val < 64 * k → g p = Spec.fold v (p 0).val) ∧ (∀ p : S8208.Idx, 8192 ≤ (p 0).val → g p = Spec.zero)

/-- After `k` trips of a halving step at distance `dd` over `G`. -/
def GLv (dd : ℕ) (G : ℕ → F .f32) (k : ℕ) (g : S8208.Idx → F .f32) : Prop :=
  ∀ p : S8208.Idx, g p = if (p 0).val < 64 * k then Spec.lev dd G (p 0).val else G (p 0).val

/-- After `k` trips of the last pass the first `4 k` rows' lane 0 hold the rows' results. -/
def H5 (G : ℕ → F .f32) (b : FVec F S16 .f32) (k : ℕ) (h : S512x16.Idx → F .f32) : Prop :=
  ∀ j : Fin 512, j.val < 4 * k →
    h (ix2 j (0 : Fin 16)) = FloatOps.addf (FloatOps.addf (G (16 * j.val)) (G (16 * j.val + 1))) (b (ix1 (0 : Fin 16)))

/-! ## Before the loops -/

/-- A lane number below sixteen tests "below ten" as its value says. -/
theorem lane_lt (a : Fin 16) : IntOp.cmpi .slt (BitVec.ofNat 32 a.val) 10#32 = if a.val < 10 then 1#1 else 0#1 := by
  revert a
  decide

/-- The lane mask the kernel builds from the lane numbers. -/
theorem mask_eq (l : S16.Idx) : (k0_pay19 (F := F)) l = Spec.mask (l 0).val := by
  obtain ⟨a, rfl⟩ : ∃ a, l = ix1 a := ⟨l 0, eq_ix1 l⟩
  show Scalar.select (IntOp.cmpi .slt (BitVec.ofNat 32 (0 * 16 + a.val)) 10#32) (Spec.one (F := F)) Spec.zero = Spec.mask a.val
  rw [Nat.zero_mul, Nat.zero_add, lane_lt]
  unfold Spec.mask
  split
  · exact select_one _ _
  · exact select_zero _ _

/-- The two zero vectors the kernel stores as pads. -/
theorem pad17_eq (l : S16.Idx) : (k0_pay17 (F := F)) l = Spec.zero := by
  unfold k0_pay17 k0_pay16
  rw [shapeCast_self]
  rfl
theorem pad18_eq (l : S16.Idx) : (k0_pay18 (F := F)) l = Spec.zero := by
  unfold k0_pay18 k0_pay16
  rw [shapeCast_self]
  rfl

/-- Position k of the subcore's row of the index array is entry (w, k) of the array, w the subcore's worker number: the
    row memref is the one-row slice at row w, re-laid as a sequence. -/
theorem xRowK_emb (L : grid0.Coords) (x : S13312.Idx) :
    (xRowK L).view.emb x = ix2 (wL L) (⟨(x 0).val, (x 0).isLt⟩ : Fin 13312) := by
  have hy : Shape.reshapeEquiv squeezes_S1x13312_S13312.numel_eq x = (ix2 (0 : Fin 1) (⟨(x 0).val, (x 0).isLt⟩ : Fin 13312) : S1x13312.Idx) :=
    Shape.reshapeEquiv_eq_of_rowMajor _ (by
      rw [Shape.rowMajor_val_two, Shape.rowMajor_val_one]
      show 0 * 13312 + (x 0).val = (x 0).val
      omega)
  funext a
  refine Fin.ext ?_
  show (k0_off1 L) a + 1 * (Shape.reshapeEquiv squeezes_S1x13312_S13312.numel_eq x a).val = _
  rw [hy, k0_off1_eq]
  match a with
  | ⟨0, _⟩ =>
    show 2 * (L 1).val + (L 0).val + 1 * 0 = 2 * (L 1).val + (L 0).val
    omega
  | ⟨1, _⟩ =>
    show 0 + 1 * (x 0).val = (x 0).val
    omega

/-- What the indirect gather lands at position `x`: the flat table at the `x`-th word of the subcore's row of the index
    array. -/
theorem gathered (d : Dev nD) (L : grid0.Coords) (X6 : Buf (Elt F) (xLoc d)) (X7 : Buf (Elt F) (wLoc d))
    (f0 : Buf (Elt F) ((V d (cV L) (jV L)).loc cc0_scratch0))
    (hn : S13312.numel = S13312.size gathers_S2600000_S13312.axis')
    (hin : ∀ x, (View.read (Elt F) (s0V).view (View.write (Elt F) (s0V).view f0 (ReadAs.same.apply (View.read (Elt F) (xRowK L).view X6)) Finset.univ) x).toNat
      < S2600000.size gathers_S2600000_S13312.axis)
    (hpre : ∀ i, (X6 i).toNat < 2600000) (x : S13312.Idx) :
    SparseCore.gatherPayload gathers_S2600000_S13312
        (View.read (Elt F) ((wV).slice (Rect.unit (s := S2600000) ![0] S2600000.size inb_S2600000_S2600000_0) (fun _ => rfl)).view X7)
        (SparseCore.rows (View.read (Elt F) (s0V).view (View.write (Elt F) (s0V).view f0 (ReadAs.same.apply (View.read (Elt F) (xRowK L).view X6)) Finset.univ)) hn hin) x
      = wfun X6 X7 (wL L) (x 0).val := by
  have hx : (x 0).val < 13312 := (x 0).isLt
  -- the word the list holds at position x: the index array at (w, x)
  have hword : View.read (Elt F) (s0V).view (View.write (Elt F) (s0V).view f0 (ReadAs.same.apply (View.read (Elt F) (xRowK L).view X6)) Finset.univ) x
      = X6 (ix2 (wL L) (⟨(x 0).val, hx⟩ : Fin 13312)) := by
    rw [View.write_whole_univ]
    show View.read (Elt F) (xRowK L).view X6 x = _
    refine ((View.read_apply _ _).trans (cast_eq _ _)).trans ?_
    rw [xRowK_emb]
  -- the row the list names for position x is that word
  have hsym : S13312.rowMajor.symm ((x gathers_S2600000_S13312.axis').cast hn.symm) = x :=
    (Equiv.symm_apply_eq _).2 (Fin.ext (by
      rw [Shape.rowMajor_val_one]
      rfl))
  have hrow : ((SparseCore.rows (View.read (Elt F) (s0V).view (View.write (Elt F) (s0V).view f0 (ReadAs.same.apply (View.read (Elt F) (xRowK L).view X6)) Finset.univ)) hn hin)
      (x gathers_S2600000_S13312.axis')).val = (X6 (ix2 (wL L) (⟨(x 0).val, hx⟩ : Fin 13312))).toNat := by
    unfold SparseCore.rows
    show (View.read (Elt F) (s0V).view _ (S13312.rowMajor.symm ((x gathers_S2600000_S13312.axis').cast hn.symm))).toNat = _
    rw [hsym, hword]
  unfold SparseCore.gatherPayload wfun
  rw [dif_pos hx]
  refine ((View.read_apply _ _).trans (cast_eq _ _)).trans ?_
  refine congrArg X7 (funext fun a : Fin 1 => Fin.ext ?_)
  obtain rfl : a = 0 := Subsingleton.elim _ _
  have hax := congrArg Fin.val (Shape.Gathers.idx_axis gathers_S2600000_S13312
    (SparseCore.rows (View.read (Elt F) (s0V).view (View.write (Elt F) (s0V).view f0 (ReadAs.same.apply (View.read (Elt F) (xRowK L).view X6)) Finset.univ)) hn hin) x)
  rw [hrow] at hax
  show 0 + 1 * (Shape.Gathers.idx gathers_S2600000_S13312 _ x (0 : Fin 1)).val = (X6 (ix2 (wL L) (⟨(x 0).val, hx⟩ : Fin 13312))).toNat % 2600000
  have hlt := hpre (ix2 (wL L) (⟨(x 0).val, hx⟩ : Fin 13312))
  rw [Nat.mod_eq_of_lt hlt]
  have : (Shape.Gathers.idx gathers_S2600000_S13312
      (SparseCore.rows (View.read (Elt F) (s0V).view (View.write (Elt F) (s0V).view f0 (ReadAs.same.apply (View.read (Elt F) (xRowK L).view X6)) Finset.univ)) hn hin) x
      (0 : Fin 1)).val = (X6 (ix2 (wL L) (⟨(x 0).val, hx⟩ : Fin 13312))).toNat := hax
  omega

/-- The gathered sequence and the zero pad stored after it are `Spec.vals`. -/
theorem vals_eq (d : Dev nD) (L : grid0.Coords) (w : ℕ → F .f32) (G : S13312.Idx → F .f32) (hG : ∀ x, G x = w (x 0).val) (p : S13328.Idx) :
    ((s1V).view.writes (Elt F) ((s1V).view.junk (Val := Elt F))
      [⟨Rect.unit (s := S13328) ![13312] S16.size inb_S13328_S16_13312, k0_pay17⟩, ⟨Rect.unit (s := S13328) ![0] S13312.size inb_S13328_S13312_0, G⟩]
      : Buf (Elt F) ((V d (cV L) (jV L)).loc cc0_scratch1)) p
      = Spec.vals w (p 0).val := by
  have hp8 : (p 0).val < 13328 := (p 0).isLt
  show (s1V).view.read (Elt F) ((s1V).view.writes (Elt F) ((s1V).view.junk (Val := Elt F))
      [⟨Rect.unit (s := S13328) ![13312] S16.size inb_S13328_S16_13312, k0_pay17⟩, ⟨Rect.unit (s := S13328) ![0] S13312.size inb_S13328_S13312_0, G⟩]) p = _
  unfold Spec.vals
  by_cases h : (p 0).val < 13312
  · rw [if_pos h]
    refine (View.read_writes_cons_unit_of_not_mem (Val := Elt F) (s1V).view _ inb_S13328_S16_13312 (k0_pay17 (F := F)) _ p rfl (0 : Fin 1)
      (Or.inl h)).trans ?_
    refine (View.read_writes_cons_unit_of_mem (Val := Elt F) (s1V).view _ inb_S13328_S13312_0 G [] p
      (fun a : Fin 1 => ⟨(p a).val, by
        obtain rfl : a = 0 := Subsingleton.elim _ _
        exact h⟩) rfl (fun a : Fin 1 => by
        obtain rfl : a = 0 := Subsingleton.elim _ _
        show (p 0).val = 0 + (p 0).val
        omega)).trans ?_
    exact hG _
  · rw [if_neg h]
    refine (View.read_writes_cons_unit_of_mem (Val := Elt F) (s1V).view _ inb_S13328_S16_13312 (k0_pay17 (F := F)) _ p
      (fun a : Fin 1 => ⟨(p a).val - 13312, by
        obtain rfl : a = 0 := Subsingleton.elim _ _
        show (p 0).val - 13312 < 16
        omega⟩) rfl (fun a : Fin 1 => by
        obtain rfl : a = 0 := Subsingleton.elim _ _
        show (p 0).val = 13312 + ((p 0).val - 13312)
        omega)).trans ?_
    exact pad17_eq _

/-- The lane buffer's pad after the zero store. -/
theorem pad_eq (d : Dev nD) (L : grid0.Coords) (f2 : Buf (Elt F) ((V d (cV L) (jV L)).loc cc0_scratch2)) (p : S8208.Idx) (hp : 8192 ≤ (p 0).val) :
    ((s2V).view.writes (Elt F) f2 [⟨Rect.unit (s := S8208) ![8192] S16.size inb_S8208_S16_8192, k0_pay18⟩]
      : Buf (Elt F) ((V d (cV L) (jV L)).loc cc0_scratch2)) p = Spec.zero := by
  have hp8 : (p 0).val < 8208 := (p 0).isLt
  show (s2V).view.read (Elt F) ((s2V).view.writes (Elt F) f2 [⟨Rect.unit (s := S8208) ![8192] S16.size inb_S8208_S16_8192, k0_pay18⟩]) p = _
  refine (View.read_writes_cons_unit_of_mem (Val := Elt F) (s2V).view f2 inb_S8208_S16_8192 (k0_pay18 (F := F)) [] p
    (fun a : Fin 1 => ⟨(p a).val - 8192, by
      obtain rfl : a = 0 := Subsingleton.elim _ _
      show (p 0).val - 8192 < 16
      omega⟩) rfl (fun a : Fin 1 => by
      obtain rfl : a = 0 := Subsingleton.elim _ _
      show (p 0).val = 8192 + ((p 0).val - 8192)
      omega)).trans ?_
  exact pad18_eq _

/-- The bias vector as the kernel loads it back from its scratch. -/
theorem bias_eq (d : Dev nD) (L : grid0.Coords) (X8 : Buf (Elt F) (bLoc d)) (f5 : Buf (Elt F) ((V d (cV L) (jV L)).loc cc0_scratch5)) (l : S16.Idx) :
    k0_pay20 (View.readAt (Elt F) (s5V).view (Rect.unit (s := S16) ![0] S16.size inb_S16_S16_0).toLoadRect
      (View.write (Elt F) (s5V).view f5 (ReadAs.same.apply (View.read (Elt F) (bV).view X8)) Finset.univ)) l = X8 l := by
  unfold k0_pay20
  rw [shapeCast_self]
  refine (congrFun (Memref.readAt_unit_zero (Elt F) cc0_scratch5 (off := ![0]) (funext fun a : Fin 1 => by
    obtain rfl : a = 0 := Subsingleton.elim _ _
    rfl) inb_S16_S16_0 _) l).trans ?_
  rw [View.write_whole_univ]
  rfl

/-! ## The first pass -/

theorem G1_init (v : ℕ → F .f32) (g : S8208.Idx → F .f32) (hg : ∀ p : S8208.Idx, 8192 ≤ (p 0).val → g p = Spec.zero) : G1 v 0 g :=
  ⟨fun p hp => absurd hp (by omega), hg⟩

theorem G1_fin (v : ℕ → F .f32) (g : S8208.Idx → F .f32) (hg : G1 v 128 g) (p : S8208.Idx) : g p = Spec.fold v (p 0).val := by
  by_cases h : (p 0).val < 64 * 128
  · exact hg.1 p h
  · rw [hg.2 p (by omega)]
    unfold Spec.fold
    rw [if_neg (by omega)]

/-! ## The closing copies -/

/-- A buffer read through a view after one store over the view's whole shape reads the stored payload. -/
theorem read_writes_whole {sig : RefSig} {κ : Kind} {sp : Space} {s : Shape} {e : EltTy} {Val : EltTy → Type}
    (v : View sig κ sp s e) (f : v.ty.Contents Val) (w : s.Idx → Val e) (x : s.Idx) :
    v.read Val (v.writes Val f [⟨Rect.whole s, w⟩]) x = w x := by
  have h := View.read_writes_cons_emb v f (Rect.whole s) w [] x
  rwa [Rect.emb_whole_apply] at h

/-- Entry j of the subcore's row of the result is entry (w, j) of the result array, w the subcore's worker number. -/
theorem oRowK_emb (L : grid0.Coords) (j : S512.Idx) :
    (oRowK L).view.emb j = ix2 (wL L) (⟨(j 0).val, (j 0).isLt⟩ : Fin 512) := by
  have hy : Shape.reshapeEquiv squeezes_S1x512_S512.numel_eq j = (ix2 (0 : Fin 1) (⟨(j 0).val, (j 0).isLt⟩ : Fin 512) : S1x512.Idx) :=
    Shape.reshapeEquiv_eq_of_rowMajor _ (by
      rw [Shape.rowMajor_val_two, Shape.rowMajor_val_one]
      show 0 * 512 + (j 0).val = (j 0).val
      omega)
  funext a
  refine Fin.ext ?_
  show (k0_off15 L) a + 1 * (Shape.reshapeEquiv squeezes_S1x512_S512.numel_eq j a).val = _
  rw [hy, k0_off15_eq]
  match a with
  | ⟨0, _⟩ =>
    show 2 * (L 1).val + (L 0).val + 1 * 0 = 2 * (L 1).val + (L 0).val
    omega
  | ⟨1, _⟩ =>
    show 0 + 1 * (j 0).val = (j 0).val
    omega

/-- Entry j of lane 0's column of the 512 × 16 row buffer is entry (j, 0) of the buffer. -/
theorem col0_emb (j : S512.Idx) :
    (((s3V).slice (Rect.unit (s := S512x16) ![0, 0] S512x1.size inb_S512x16_S512x1_0_0) (fun _ => rfl)).squeeze S512 squeezes_S512x1_S512).view.emb j
      = ix2 (⟨(j 0).val, (j 0).isLt⟩ : Fin 512) (0 : Fin 16) := by
  have hy : Shape.reshapeEquiv squeezes_S512x1_S512.numel_eq j = (ix2 (⟨(j 0).val, (j 0).isLt⟩ : Fin 512) (0 : Fin 1) : S512x1.Idx) :=
    Shape.reshapeEquiv_eq_of_rowMajor _ (by
      rw [Shape.rowMajor_val_two, Shape.rowMajor_val_one]
      show (j 0).val * 1 + 0 = (j 0).val
      omega)
  funext a
  refine Fin.ext ?_
  show (![0, 0] : Fin 2 → ℕ) a + 1 * (Shape.reshapeEquiv squeezes_S512x1_S512.numel_eq j a).val = _
  rw [hy]
  match a with
  | ⟨0, _⟩ =>
    show 0 + 1 * (j 0).val = (j 0).val
    omega
  | ⟨1, _⟩ =>
    show 0 + 1 * 0 = 0
    omega

/-- The subcore's row of the result after its three closing copies — lane 0 of the row buffer to its row of the shared
    scratch, that to its 512-entry scratch, that to its row of the result array — holds the rows' results. -/
theorem out_eq (d : Dev nD) (L : grid0.Coords) (X6 : Buf (Elt F) (xLoc d)) (X7 : Buf (Elt F) (wLoc d)) (X8 : Buf (Elt F) (bLoc d))
    (b : FVec F S16 .f32) (hb : ∀ l, b l = X8 l) (f9 : Buf (Elt F) (oLoc d)) (fsh : Buf (Elt F) ((V d (cV L) (jV L)).loc cc0_scratch6))
    (f4 : Buf (Elt F) ((V d (cV L) (jV L)).loc cc0_scratch4)) (h5 : Buf (Elt F) ((V d (cV L) (jV L)).loc cc0_scratch3))
    (hh5 : H5 (Spec.tree (Spec.vals (wfun X6 X7 (wL L)))) b 128 h5) :
    ∀ i ∈ (oRowK L).view.set, ((oRowK L).view.writes (Elt F) f9 [⟨Rect.whole S512,
      ReadAs.same.apply (View.read (Elt F) (s4V).view (View.write (Elt F) (s4V).view f4
        (ReadAs.same.apply (View.read (Elt F) ((shV).slice (Rect.unit (s := S8192) (k0_off14 L) S512.size (k0_off14_inb L)) (fun _ => rfl)).view
          ((shRowK L).view.writes (Elt F) fsh [⟨Rect.whole S512,
            ReadAs.same.apply (View.read (Elt F) (((s3V).slice (Rect.unit (s := S512x16) ![0, 0] S512x1.size inb_S512x16_S512x1_0_0) (fun _ => rfl)).squeeze S512 squeezes_S512x1_S512).view h5)⟩])))
        Finset.univ))⟩]) i = O9 (F := F) X6 X7 X8 i := by
  intro i hi
  obtain ⟨j, -, rfl⟩ := Finset.mem_map.1 hi
  have hj : (j 0).val < 512 := (j 0).isLt
  refine ((View.read_apply (v := (oRowK L).view) _ j).trans (cast_eq _ _)).symm.trans ?_
  refine (read_writes_whole (Val := Elt F) (oRowK L).view f9 _ j).trans ?_
  show View.read (Elt F) (s4V).view (View.write (Elt F) (s4V).view f4 _ Finset.univ) j = _
  rw [View.read_write_univ]
  show View.read (Elt F) (shRowK L).view ((shRowK L).view.writes (Elt F) fsh [⟨Rect.whole S512, _⟩]) j = _
  refine (read_writes_whole (Val := Elt F) (shRowK L).view fsh _ j).trans ?_
  show View.read (Elt F) (((s3V).slice (Rect.unit (s := S512x16) ![0, 0] S512x1.size inb_S512x16_S512x1_0_0) (fun _ => rfl)).squeeze S512 squeezes_S512x1_S512).view h5 j = _
  refine ((View.read_apply _ _).trans (cast_eq _ _)).trans ?_
  rw [col0_emb, oRowK_emb, hh5 ⟨(j 0).val, hj⟩ (by
    show (j 0).val < 4 * 128
    omega), hb]
  rfl

end Cert.Proof.KI

end
-- ==== Proof.KI.PureSteps.lean ====
/-
  The pure facts of a subcore's task, continued: one trip of the first pass. A trip stores four groups of sixteen
  lanes, group u of trip k at lanes 64 k + 16 u … 64 k + 16 u + 15; lane l of it is entry 104 k + 26 u + l of the
  sequence plus entry 104 k + 26 u + 16 + l times the lane mask, which is the first pass's value at position
  64 k + 16 u + l = 16 (4 k + u) + l. An index below 64 k, or in the pad, lies in none of the four groups and keeps
  its value.
-/
import proofs.«216127_g30709016166882_cont_9to1_510_25_alg».proof.Proof.KI.Pure

noncomputable section

namespace Cert.Proof.KI

open Cert.KernelIdeal Cert.KernelIdeal.Gen

open Idealize.ShloMosaic Idealize.ShloMosaic.ValueIdx
open Idealize.ShloMosaic.SparseCore (S V T)

variable {F : FTy → Type} [FloatOps F]

local notation "xV" => (Memref.whole Cert.KernelIdeal.main_v6_scv : Memref Cert.KernelIdeal.sig Kind.scVector Space.hbm Cert.KernelIdeal.S32x13312 EltTy.i32)
local notation "wV" => (Memref.whole Cert.KernelIdeal.main_v7_scv : Memref Cert.KernelIdeal.sig Kind.scVector Space.hbm Cert.KernelIdeal.S2600000 EltTy.f32)
local notation "bV" => (Memref.whole Cert.KernelIdeal.main_v8_scv : Memref Cert.KernelIdeal.sig Kind.scVector Space.hbm Cert.KernelIdeal.S16 EltTy.f32)
local notation "oV" => (Memref.whole Cert.KernelIdeal.main_v9_scv : Memref Cert.KernelIdeal.sig Kind.scVector Space.hbm Cert.KernelIdeal.S32x512 EltTy.f32)
local notation "s0V" => (Memref.whole Cert.KernelIdeal.cc0_scratch0 : Memref Cert.KernelIdeal.sig Kind.scVector Space.vmem Cert.KernelIdeal.S13312 EltTy.i32)
local notation "s1V" => (Memref.whole Cert.KernelIdeal.cc0_scratch1 : Memref Cert.KernelIdeal.sig Kind.scVector Space.vmem Cert.KernelIdeal.S13328 EltTy.f32)
local notation "s2V" => (Memref.whole Cert.KernelIdeal.cc0_scratch2 : Memref Cert.KernelIdeal.sig Kind.scVector Space.vmem Cert.KernelIdeal.S8208 EltTy.f32)
local notation "s3V" => (Memref.whole Cert.KernelIdeal.cc0_scratch3 : Memref Cert.KernelIdeal.sig Kind.scVector Space.vmem Cert.KernelIdeal.S512x16 EltTy.f32)
local notation "s4V" => (Memref.whole Cert.KernelIdeal.cc0_scratch4 : Memref Cert.KernelIdeal.sig Kind.scVector Space.vmem Cert.KernelIdeal.S512 EltTy.f32)
local notation "s5V" => (Memref.whole Cert.KernelIdeal.cc0_scratch5 : Memref Cert.KernelIdeal.sig Kind.scVector Space.vmem Cert.KernelIdeal.S16 EltTy.f32)
local notation "shV" => (Memref.whole Cert.KernelIdeal.cc0_scratch6 : Memref Cert.KernelIdeal.sig Kind.scVector Space.shared Cert.KernelIdeal.S8192 EltTy.f32)

/-! ## Reading the sequence buffer, a payload at a lane, a group of the first pass -/

/-- Sixteen consecutive entries read from the sequence buffer at offset off: lane l is entry off + l. -/
theorem read_c1 (d : Dev nD) (L : grid0.Coords) (v : ℕ → F .f32) (c1 : Buf (Elt F) ((V d (cV L) (jV L)).loc cc0_scratch1))
    (hc1 : ∀ p : S13328.Idx, c1 p = v (p 0).val) (off : Fin 1 → ℕ) (inb : ∀ a, off a + S16.size a ≤ S13328.size a) (l : S16.Idx) :
    View.readAt (Elt F) (s1V).view (Rect.unit (s := S13328) off S16.size inb).toLoadRect c1 l = v (off 0 + (l 0).val) := by
  rw [View.readAt_apply]
  show c1 _ = _
  rw [hc1]
  show v (off 0 + 1 * (l 0).val) = _
  rw [Nat.one_mul]

/-- The four stored vectors of a trip, lane by lane: the first operand plus the second times the mask. -/
theorem pay1_apply (mk a b : FVec F S16 .f32) (l : S16.Idx) :
    k0_pay1 mk a b l = FloatOps.addf (a l) (FloatOps.mulf (b l) (mk l)) := by
  unfold k0_pay1
  simp only [shapeCast_self]
  rfl
theorem pay2_apply (mk a b : FVec F S16 .f32) (l : S16.Idx) :
    k0_pay2 mk a b l = FloatOps.addf (a l) (FloatOps.mulf (b l) (mk l)) := by
  unfold k0_pay2
  simp only [shapeCast_self]
  rfl
theorem pay21_apply (mk a b : FVec F S16 .f32) (l : S16.Idx) :
    k0_pay21 mk a b l = FloatOps.addf (a l) (FloatOps.mulf (b l) (mk l)) := by
  unfold k0_pay21
  simp only [shapeCast_self]
  rfl
theorem pay22_apply (mk a b : FVec F S16 .f32) (l : S16.Idx) :
    k0_pay22 mk a b l = FloatOps.addf (a l) (FloatOps.mulf (b l) (mk l)) := by
  unfold k0_pay22
  simp only [shapeCast_self]
  rfl
theorem pay3_eq (a : FVec F S16 .f32) : k0_pay3 a = a := by
  unfold k0_pay3
  simp only [shapeCast_self]

/-- Position 64 k + 16 u + l of the first pass, k < 128, u < 4, l < 16: group 4 k + u, lane l. -/
theorem fold_at (v : ℕ → F .f32) (k u l : ℕ) (hk : k < 128) (hu : u < 4) (hl : l < 16) :
    Spec.fold v (64 * k + 16 * u + l)
      = FloatOps.addf (v (104 * k + 26 * u + l)) (FloatOps.mulf (v (104 * k + 26 * u + 16 + l)) (Spec.mask l)) := by
  have h1 : (64 * k + 16 * u + l) / 16 = 4 * k + u := by omega
  have h2 : (64 * k + 16 * u + l) % 16 = l := by omega
  have h3 : 64 * k + 16 * u + l < 8192 := by omega
  have e1 : 26 * (4 * k + u) + l = 104 * k + 26 * u + l := by omega
  have e2 : 26 * (4 * k + u) + 16 + l = 104 * k + 26 * u + 16 + l := by omega
  unfold Spec.fold
  rw [if_pos h3, h1, h2, e1, e2]

/-- Group u of trip k, lane l: the two loads and the mask give the first pass's value at 64 k + 16 u + l. -/
theorem group_val (d : Dev nD) (L : grid0.Coords) (v : ℕ → F .f32) (c1 : Buf (Elt F) ((V d (cV L) (jV L)).loc cc0_scratch1))
    (hc1 : ∀ p : S13328.Idx, c1 p = v (p 0).val) (k : Fin k0_t1_loop.trips) (u : Fin 4) (l : S16.Idx) :
    FloatOps.addf
        (View.readAt (Elt F) (s1V).view (Rect.unit (s := S13328) (k0_off2 k (BitVec.ofNat 32 u.val)) S16.size (k0_off2_inb k u)).toLoadRect c1 l)
        (FloatOps.mulf
          (View.readAt (Elt F) (s1V).view (Rect.unit (s := S13328) (k0_off3 k (BitVec.ofNat 32 u.val)) S16.size (k0_off3_inb k u)).toLoadRect c1 l)
          (k0_pay19 (F := F) l))
      = Spec.fold v (64 * k.val + 16 * u.val + (l 0).val) := by
  have hk : k.val < 128 := k.isLt
  have hl : (l 0).val < 16 := (l 0).isLt
  rw [read_c1 d L v c1 hc1, read_c1 d L v c1 hc1, k0_off2_eq k u, k0_off3_eq k u, mask_eq, fold_at v k.val u.val (l 0).val hk u.isLt hl]
  rfl

/-! ## A list of sixteen-lane stores into the lane buffer read at an index -/

/-- An index outside group u of trip k reads what the rest of the list left. -/
theorem read_piece_miss (d : Dev nD) (L : grid0.Coords) (g : Buf (Elt F) ((V d (cV L) (jV L)).loc cc0_scratch2)) (k : Fin k0_t1_loop.trips) (u : Fin 4)
    (w : (Rect.unit (s := S8208) (k0_off4 k (BitVec.ofNat 32 u.val)) S16.size (k0_off4_inb k u)).shape.Idx → Elt F .f32)
    (Lst : List (View.Piece (Elt F) S8208 .f32)) (p : S8208.Idx)
    (h : (p 0).val < 64 * k.val + 16 * u.val ∨ 64 * k.val + 16 * u.val + 16 ≤ (p 0).val) :
    ((s2V).view.writes (Elt F) g
        ((⟨Rect.unit (s := S8208) (k0_off4 k (BitVec.ofNat 32 u.val)) S16.size (k0_off4_inb k u), w⟩ : View.Piece (Elt F) S8208 .f32) :: Lst)
        : S8208.Idx → F .f32) p
      = ((s2V).view.writes (Elt F) g Lst : S8208.Idx → F .f32) p :=
  View.read_writes_cons_unit_of_not_mem (s2V).view g (k0_off4_inb k u) w Lst p (k0_off4_eq k u) 0 h

/-- An index at lane l of group u of trip k reads the newest store's lane l. -/
theorem read_piece_hit (d : Dev nD) (L : grid0.Coords) (g : Buf (Elt F) ((V d (cV L) (jV L)).loc cc0_scratch2)) (k : Fin k0_t1_loop.trips) (u : Fin 4)
    (w : (Rect.unit (s := S8208) (k0_off4 k (BitVec.ofNat 32 u.val)) S16.size (k0_off4_inb k u)).shape.Idx → Elt F .f32)
    (Lst : List (View.Piece (Elt F) S8208 .f32)) (p : S8208.Idx) (l : S16.Idx)
    (h : (p 0).val = 64 * k.val + 16 * u.val + (l 0).val) :
    ((s2V).view.writes (Elt F) g
        ((⟨Rect.unit (s := S8208) (k0_off4 k (BitVec.ofNat 32 u.val)) S16.size (k0_off4_inb k u), w⟩ : View.Piece (Elt F) S8208 .f32) :: Lst)
        : S8208.Idx → F .f32) p
      = w l :=
  View.read_writes_cons_unit_of_mem (s2V).view g (k0_off4_inb k u) w Lst p l (k0_off4_eq k u) (Fin.forall_fin_one.mpr h)

/-! ## One trip of the first pass -/

theorem G1_step' (d : Dev nD) (L : grid0.Coords) (v : ℕ → F .f32) (c1 : Buf (Elt F) ((V d (cV L) (jV L)).loc cc0_scratch1))
    (hc1 : ∀ p : S13328.Idx, c1 p = v (p 0).val) (k : Fin k0_t1_loop.trips)
    (g : Buf (Elt F) ((V d (cV L) (jV L)).loc cc0_scratch2)) (hg : G1 v k.val g)
    (r2 : FVec F S16 .f32)
    (hr2 : r2 = k0_pay3 (View.readAt (Elt F) (s1V).view (Rect.unit (s := S13328) (k0_off2 k 2#32) S16.size (k0_off2_inb k 2)).toLoadRect c1)) :
    G1 v (k.val + 1)
      ((s2V).view.writes (Elt F) g
        [⟨Rect.unit (s := S8208) (k0_off4 k 3#32) S16.size (k0_off4_inb k 3),
            k0_pay22 k0_pay19
              (View.readAt (Elt F) (s1V).view (Rect.unit (s := S13328) (k0_off2 k 3#32) S16.size (k0_off2_inb k 3)).toLoadRect c1)
              (View.readAt (Elt F) (s1V).view (Rect.unit (s := S13328) (k0_off3 k 3#32) S16.size (k0_off3_inb k 3)).toLoadRect c1)⟩,
          ⟨Rect.unit (s := S8208) (k0_off4 k 2#32) S16.size (k0_off4_inb k 2),
            k0_pay21 k0_pay19 r2
              (View.readAt (Elt F) (s1V).view (Rect.unit (s := S13328) (k0_off3 k 2#32) S16.size (k0_off3_inb k 2)).toLoadRect c1)⟩,
          ⟨Rect.unit (s := S8208) (k0_off4 k 1#32) S16.size (k0_off4_inb k 1),
            k0_pay2 k0_pay19
              (View.readAt (Elt F) (s1V).view (Rect.unit (s := S13328) (k0_off2 k 1#32) S16.size (k0_off2_inb k 1)).toLoadRect c1)
              (View.readAt (Elt F) (s1V).view (Rect.unit (s := S13328) (k0_off3 k 1#32) S16.size (k0_off3_inb k 1)).toLoadRect c1)⟩,
          ⟨Rect.unit (s := S8208) (k0_off4 k 0#32) S16.size (k0_off4_inb k 0),
            k0_pay1 k0_pay19
              (View.readAt (Elt F) (s1V).view (Rect.unit (s := S13328) (k0_off2 k 0#32) S16.size (k0_off2_inb k 0)).toLoadRect c1)
              (View.readAt (Elt F) (s1V).view (Rect.unit (s := S13328) (k0_off3 k 0#32) S16.size (k0_off3_inb k 0)).toLoadRect c1)⟩]) := by
  have hk : k.val < 128 := k.isLt
  subst hr2
  constructor
  · intro p hp
    by_cases h0 : (p 0).val < 64 * k.val
    · refine (read_piece_miss d L g k 3 _ _ p (by omega)).trans ?_
      refine (read_piece_miss d L g k 2 _ _ p (by omega)).trans ?_
      refine (read_piece_miss d L g k 1 _ _ p (by omega)).trans ?_
      refine (read_piece_miss d L g k 0 _ _ p (by omega)).trans ?_
      exact hg.1 p h0
    by_cases h1 : (p 0).val < 64 * k.val + 16
    · have hl : (p 0).val - (64 * k.val + 16 * 0) < 16 := by omega
      refine (read_piece_miss d L g k 3 _ _ p (by omega)).trans ?_
      refine (read_piece_miss d L g k 2 _ _ p (by omega)).trans ?_
      refine (read_piece_miss d L g k 1 _ _ p (by omega)).trans ?_
      refine (read_piece_hit d L g k 0 _ _ p (ix1 (⟨_, hl⟩ : Fin 16)) (by show (p 0).val = 64 * k.val + 16 * 0 + ((p 0).val - (64 * k.val + 16 * 0)); omega)).trans ?_
      refine (pay1_apply _ _ _ _).trans ?_
      refine (group_val d L v c1 hc1 k 0 _).trans ?_
      exact congrArg (Spec.fold v) (by show 64 * k.val + 16 * 0 + ((p 0).val - (64 * k.val + 16 * 0)) = (p 0).val; omega)
    by_cases h2 : (p 0).val < 64 * k.val + 32
    · have hl : (p 0).val - (64 * k.val + 16 * 1) < 16 := by omega
      refine (read_piece_miss d L g k 3 _ _ p (by omega)).trans ?_
      refine (read_piece_miss d L g k 2 _ _ p (by omega)).trans ?_
      refine (read_piece_hit d L g k 1 _ _ p (ix1 (⟨_, hl⟩ : Fin 16)) (by show (p 0).val = 64 * k.val + 16 * 1 + ((p 0).val - (64 * k.val + 16 * 1)); omega)).trans ?_
      refine (pay2_apply _ _ _ _).trans ?_
      refine (group_val d L v c1 hc1 k 1 _).trans ?_
      exact congrArg (Spec.fold v) (by show 64 * k.val + 16 * 1 + ((p 0).val - (64 * k.val + 16 * 1)) = (p 0).val; omega)
    by_cases h3 : (p 0).val < 64 * k.val + 48
    · have hl : (p 0).val - (64 * k.val + 16 * 2) < 16 := by omega
      refine (read_piece_miss d L g k 3 _ _ p (by omega)).trans ?_
      refine (read_piece_hit d L g k 2 _ _ p (ix1 (⟨_, hl⟩ : Fin 16)) (by show (p 0).val = 64 * k.val + 16 * 2 + ((p 0).val - (64 * k.val + 16 * 2)); omega)).trans ?_
      refine (pay21_apply _ _ _ _).trans ?_
      rw [pay3_eq]
      refine (group_val d L v c1 hc1 k 2 _).trans ?_
      exact congrArg (Spec.fold v) (by show 64 * k.val + 16 * 2 + ((p 0).val - (64 * k.val + 16 * 2)) = (p 0).val; omega)
    · have hl : (p 0).val - (64 * k.val + 16 * 3) < 16 := by omega
      refine (read_piece_hit d L g k 3 _ _ p (ix1 (⟨_, hl⟩ : Fin 16)) (by show (p 0).val = 64 * k.val + 16 * 3 + ((p 0).val - (64 * k.val + 16 * 3)); omega)).trans ?_
      refine (pay22_apply _ _ _ _).trans ?_
      refine (group_val d L v c1 hc1 k 3 _).trans ?_
      exact congrArg (Spec.fold v) (by show 64 * k.val + 16 * 3 + ((p 0).val - (64 * k.val + 16 * 3)) = (p 0).val; omega)
  · intro p hp
    refine (read_piece_miss d L g k 3 _ _ p (by omega)).trans ?_
    refine (read_piece_miss d L g k 2 _ _ p (by omega)).trans ?_
    refine (read_piece_miss d L g k 1 _ _ p (by omega)).trans ?_
    refine (read_piece_miss d L g k 0 _ _ p (by omega)).trans ?_
    exact hg.2 p hp

/-! ## The halving steps -/

theorem GLv_init (dd : ℕ) (G : ℕ → F .f32) (g : S8208.Idx → F .f32) (hg : ∀ p : S8208.Idx, g p = G (p 0).val) : GLv dd G 0 g := by
  intro p
  rw [if_neg (by omega)]
  exact hg p

theorem GLv_fin (dd : ℕ) (G : ℕ → F .f32) (g : S8208.Idx → F .f32) (hg : GLv dd G 128 g) (p : S8208.Idx) :
    g p = Spec.lev dd G (p 0).val := by
  have h := hg p
  by_cases hp : (p 0).val < 8192
  · rw [if_pos (by omega)] at h
    exact h
  · rw [if_neg (by omega)] at h
    rw [h]
    unfold Spec.lev
    rw [if_neg hp]

/-- An index outside the sixteen lanes at o reads what the rest of the list left. -/
theorem s2_miss (d : Dev nD) (L : grid0.Coords) (g : Buf (Elt F) ((V d (cV L) (jV L)).loc cc0_scratch2)) (off : Fin 1 → ℕ) (o : ℕ) (hoff : off = ![o])
    (inb : ∀ a, off a + S16.size a ≤ S8208.size a) (w : (Rect.unit (s := S8208) off S16.size inb).shape.Idx → Elt F .f32)
    (Lst : List (View.Piece (Elt F) S8208 .f32)) (p : S8208.Idx) (h : (p 0).val < o ∨ o + 16 ≤ (p 0).val) :
    ((s2V).view.writes (Elt F) g ((⟨Rect.unit (s := S8208) off S16.size inb, w⟩ : View.Piece (Elt F) S8208 .f32) :: Lst) : S8208.Idx → F .f32) p
      = ((s2V).view.writes (Elt F) g Lst : S8208.Idx → F .f32) p :=
  View.read_writes_cons_unit_of_not_mem (s2V).view g inb w Lst p hoff 0 h

/-- An index at lane l of the sixteen lanes at o reads the newest store's lane l. -/
theorem s2_hit (d : Dev nD) (L : grid0.Coords) (g : Buf (Elt F) ((V d (cV L) (jV L)).loc cc0_scratch2)) (off : Fin 1 → ℕ) (o : ℕ) (hoff : off = ![o])
    (inb : ∀ a, off a + S16.size a ≤ S8208.size a) (w : (Rect.unit (s := S8208) off S16.size inb).shape.Idx → Elt F .f32)
    (Lst : List (View.Piece (Elt F) S8208 .f32)) (p : S8208.Idx) (l : S16.Idx) (h : (p 0).val = o + (l 0).val) :
    ((s2V).view.writes (Elt F) g ((⟨Rect.unit (s := S8208) off S16.size inb, w⟩ : View.Piece (Elt F) S8208 .f32) :: Lst) : S8208.Idx → F .f32) p
      = w l :=
  View.read_writes_cons_unit_of_mem (s2V).view g inb w Lst p l hoff (Fin.forall_fin_one.mpr h)

/-- Sixteen lanes read from the lane buffer at o, where from lo on the buffer holds Gf: lane l is Gf (o + l). -/
theorem s2_readAt (d : Dev nD) (L : grid0.Coords) (g : Buf (Elt F) ((V d (cV L) (jV L)).loc cc0_scratch2)) (Gf : ℕ → F .f32) (lo : ℕ)
    (hgG : ∀ p : S8208.Idx, lo ≤ (p 0).val → g p = Gf (p 0).val) (off : Fin 1 → ℕ) (o : ℕ) (hoff : off = ![o]) (hlo : lo ≤ o)
    (inb : ∀ a, off a + S16.size a ≤ S8208.size a) (l : S16.Idx) :
    View.readAt (Elt F) (s2V).view (Rect.unit (s := S8208) off S16.size inb).toLoadRect g l = Gf (o + (l 0).val) := by
  subst hoff
  rw [View.readAt_apply]
  show g _ = _
  rw [hgG _ (by show lo ≤ o + 1 * (l 0).val; omega)]
  show Gf (o + 1 * (l 0).val) = _
  rw [Nat.one_mul]

/-- One trip of a halving step at distance dd, over any spelling of the offsets: four groups of sixteen lanes at
    64 k + 16 u, each the sum of the sixteen lanes there and the sixteen lanes dd further on. Every lane read lies at
    or after 64 k, where the buffer still holds G. -/
theorem lev_trip (d : Dev nD) (L : grid0.Coords) (dd : ℕ) (G : ℕ → F .f32) (kv : ℕ) (hk : kv < 128)
    (g : Buf (Elt F) ((V d (cV L) (jV L)).loc cc0_scratch2)) (hg : GLv dd G kv g)
    (offA offB : Fin 4 → Fin 1 → ℕ)
    (hA : ∀ u : Fin 4, offA u = ![64 * kv + 16 * u.val]) (hB : ∀ u : Fin 4, offB u = ![64 * kv + 16 * u.val + dd])
    (inbA : ∀ (u : Fin 4) a, offA u a + S16.size a ≤ S8208.size a) (inbB : ∀ (u : Fin 4) a, offB u a + S16.size a ≤ S8208.size a)
    (pay0 pay1 pay2 pay3 : FVec F S16 .f32 → FVec F S16 .f32 → FVec F S16 .f32)
    (hp0 : ∀ a b l, pay0 a b l = FloatOps.addf (a l) (b l)) (hp1 : ∀ a b l, pay1 a b l = FloatOps.addf (a l) (b l))
    (hp2 : ∀ a b l, pay2 a b l = FloatOps.addf (a l) (b l)) (hp3 : ∀ a b l, pay3 a b l = FloatOps.addf (a l) (b l)) :
    GLv dd G (kv + 1) ((s2V).view.writes (Elt F) g
      [⟨Rect.unit (s := S8208) (offA 3) S16.size (inbA 3), pay3 (View.readAt (Elt F) (s2V).view (Rect.unit (s := S8208) (offA 3) S16.size (inbA 3)).toLoadRect g) (View.readAt (Elt F) (s2V).view (Rect.unit (s := S8208) (offB 3) S16.size (inbB 3)).toLoadRect g)⟩,
        ⟨Rect.unit (s := S8208) (offA 2) S16.size (inbA 2), pay2 (View.readAt (Elt F) (s2V).view (Rect.unit (s := S8208) (offA 2) S16.size (inbA 2)).toLoadRect g) (View.readAt (Elt F) (s2V).view (Rect.unit (s := S8208) (offB 2) S16.size (inbB 2)).toLoadRect g)⟩,
        ⟨Rect.unit (s := S8208) (offA 1) S16.size (inbA 1), pay1 (View.readAt (Elt F) (s2V).view (Rect.unit (s := S8208) (offA 1) S16.size (inbA 1)).toLoadRect g) (View.readAt (Elt F) (s2V).view (Rect.unit (s := S8208) (offB 1) S16.size (inbB 1)).toLoadRect g)⟩,
        ⟨Rect.unit (s := S8208) (offA 0) S16.size (inbA 0), pay0 (View.readAt (Elt F) (s2V).view (Rect.unit (s := S8208) (offA 0) S16.size (inbA 0)).toLoadRect g) (View.readAt (Elt F) (s2V).view (Rect.unit (s := S8208) (offB 0) S16.size (inbB 0)).toLoadRect g)⟩]) := by
  have hgG : ∀ p : S8208.Idx, 64 * kv ≤ (p 0).val → g p = G (p 0).val := fun p hp => by
    rw [hg p, if_neg (by omega)]
  intro p
  by_cases h0 : (p 0).val < 64 * kv
  · refine (s2_miss d L g (offA 3) _ (hA 3) (inbA 3) _ _ p (by omega)).trans ?_
    refine (s2_miss d L g (offA 2) _ (hA 2) (inbA 2) _ _ p (by omega)).trans ?_
    refine (s2_miss d L g (offA 1) _ (hA 1) (inbA 1) _ _ p (by omega)).trans ?_
    refine (s2_miss d L g (offA 0) _ (hA 0) (inbA 0) _ _ p (by omega)).trans ?_
    rw [if_pos (by omega)]
    exact (hg p).trans (if_pos h0)
  by_cases h4 : 64 * kv + 64 ≤ (p 0).val
  · refine (s2_miss d L g (offA 3) _ (hA 3) (inbA 3) _ _ p (by omega)).trans ?_
    refine (s2_miss d L g (offA 2) _ (hA 2) (inbA 2) _ _ p (by omega)).trans ?_
    refine (s2_miss d L g (offA 1) _ (hA 1) (inbA 1) _ _ p (by omega)).trans ?_
    refine (s2_miss d L g (offA 0) _ (hA 0) (inbA 0) _ _ p (by omega)).trans ?_
    rw [if_neg (by omega)]
    exact hgG p (by omega)
  · have hlev : Spec.lev dd G (p 0).val = FloatOps.addf (G (p 0).val) (G ((p 0).val + dd)) := by
      unfold Spec.lev
      rw [if_pos (by omega)]
    rw [if_pos (by omega), hlev]
    by_cases h1 : (p 0).val < 64 * kv + 16
    ·
      refine (s2_miss d L g (offA 3) _ (hA 3) (inbA 3) _ _ p (by omega)).trans ?_
      refine (s2_miss d L g (offA 2) _ (hA 2) (inbA 2) _ _ p (by omega)).trans ?_
      refine (s2_miss d L g (offA 1) _ (hA 1) (inbA 1) _ _ p (by omega)).trans ?_
      refine (s2_hit d L g (offA 0) _ (hA 0) (inbA 0) _ _ p (ix1 (⟨(p 0).val - (64 * kv + 16 * 0), by omega⟩ : Fin 16))
        (by show (p 0).val = 64 * kv + 16 * 0 + ((p 0).val - (64 * kv + 16 * 0)); omega)).trans ?_
      rw [hp0, s2_readAt d L g G (64 * kv) hgG (offA 0) _ (hA 0) (by omega), s2_readAt d L g G (64 * kv) hgG (offB 0) _ (hB 0) (by omega)]
      show FloatOps.addf (G (64 * kv + 16 * 0 + ((p 0).val - (64 * kv + 16 * 0)))) (G (64 * kv + 16 * 0 + dd + ((p 0).val - (64 * kv + 16 * 0)))) = _
      rw [show 64 * kv + 16 * 0 + ((p 0).val - (64 * kv + 16 * 0)) = (p 0).val by omega,
        show 64 * kv + 16 * 0 + dd + ((p 0).val - (64 * kv + 16 * 0)) = (p 0).val + dd by omega]
    by_cases h2 : (p 0).val < 64 * kv + 32
    ·
      refine (s2_miss d L g (offA 3) _ (hA 3) (inbA 3) _ _ p (by omega)).trans ?_
      refine (s2_miss d L g (offA 2) _ (hA 2) (inbA 2) _ _ p (by omega)).trans ?_
      refine (s2_hit d L g (offA 1) _ (hA 1) (inbA 1) _ _ p (ix1 (⟨(p 0).val - (64 * kv + 16 * 1), by omega⟩ : Fin 16))
        (by show (p 0).val = 64 * kv + 16 * 1 + ((p 0).val - (64 * kv + 16 * 1)); omega)).trans ?_
      rw [hp1, s2_readAt d L g G (64 * kv) hgG (offA 1) _ (hA 1) (by omega), s2_readAt d L g G (64 * kv) hgG (offB 1) _ (hB 1) (by omega)]
      show FloatOps.addf (G (64 * kv + 16 * 1 + ((p 0).val - (64 * kv + 16 * 1)))) (G (64 * kv + 16 * 1 + dd + ((p 0).val - (64 * kv + 16 * 1)))) = _
      rw [show 64 * kv + 16 * 1 + ((p 0).val - (64 * kv + 16 * 1)) = (p 0).val by omega,
        show 64 * kv + 16 * 1 + dd + ((p 0).val - (64 * kv + 16 * 1)) = (p 0).val + dd by omega]
    by_cases h3 : (p 0).val < 64 * kv + 48
    ·
      refine (s2_miss d L g (offA 3) _ (hA 3) (inbA 3) _ _ p (by omega)).trans ?_
      refine (s2_hit d L g (offA 2) _ (hA 2) (inbA 2) _ _ p (ix1 (⟨(p 0).val - (64 * kv + 16 * 2), by omega⟩ : Fin 16))
        (by show (p 0).val = 64 * kv + 16 * 2 + ((p 0).val - (64 * kv + 16 * 2)); omega)).trans ?_
      rw [hp2, s2_readAt d L g G (64 * kv) hgG (offA 2) _ (hA 2) (by omega), s2_readAt d L g G (64 * kv) hgG (offB 2) _ (hB 2) (by omega)]
      show FloatOps.addf (G (64 * kv + 16 * 2 + ((p 0).val - (64 * kv + 16 * 2)))) (G (64 * kv + 16 * 2 + dd + ((p 0).val - (64 * kv + 16 * 2)))) = _
      rw [show 64 * kv + 16 * 2 + ((p 0).val - (64 * kv + 16 * 2)) = (p 0).val by omega,
        show 64 * kv + 16 * 2 + dd + ((p 0).val - (64 * kv + 16 * 2)) = (p 0).val + dd by omega]
    ·
      refine (s2_hit d L g (offA 3) _ (hA 3) (inbA 3) _ _ p (ix1 (⟨(p 0).val - (64 * kv + 16 * 3), by omega⟩ : Fin 16))
        (by show (p 0).val = 64 * kv + 16 * 3 + ((p 0).val - (64 * kv + 16 * 3)); omega)).trans ?_
      rw [hp3, s2_readAt d L g G (64 * kv) hgG (offA 3) _ (hA 3) (by omega), s2_readAt d L g G (64 * kv) hgG (offB 3) _ (hB 3) (by omega)]
      show FloatOps.addf (G (64 * kv + 16 * 3 + ((p 0).val - (64 * kv + 16 * 3)))) (G (64 * kv + 16 * 3 + dd + ((p 0).val - (64 * kv + 16 * 3)))) = _
      rw [show 64 * kv + 16 * 3 + ((p 0).val - (64 * kv + 16 * 3)) = (p 0).val by omega,
        show 64 * kv + 16 * 3 + dd + ((p 0).val - (64 * kv + 16 * 3)) = (p 0).val + dd by omega]

/-- A store's lanes, the sum of two loads' lanes: the re-layings around the sum are identities. -/
theorem pay4_apply (a b : FVec F S16 .f32) (l : S16.Idx) : k0_pay4 a b l = FloatOps.addf (a l) (b l) := by
  unfold k0_pay4
  simp only [shapeCast_self]
  rfl
theorem pay5_apply (a b : FVec F S16 .f32) (l : S16.Idx) : k0_pay5 a b l = FloatOps.addf (a l) (b l) := by
  unfold k0_pay5
  simp only [shapeCast_self]
  rfl
theorem pay6_apply (a b : FVec F S16 .f32) (l : S16.Idx) : k0_pay6 a b l = FloatOps.addf (a l) (b l) := by
  unfold k0_pay6
  simp only [shapeCast_self]
  rfl
theorem pay23_apply (a b : FVec F S16 .f32) (l : S16.Idx) : k0_pay23 a b l = FloatOps.addf (a l) (b l) := by
  unfold k0_pay23
  simp only [shapeCast_self]
  rfl
theorem pay7_apply (a b : FVec F S16 .f32) (l : S16.Idx) : k0_pay7 a b l = FloatOps.addf (a l) (b l) := by
  unfold k0_pay7
  simp only [shapeCast_self]
  rfl
theorem pay8_apply (a b : FVec F S16 .f32) (l : S16.Idx) : k0_pay8 a b l = FloatOps.addf (a l) (b l) := by
  unfold k0_pay8
  simp only [shapeCast_self]
  rfl
theorem pay9_apply (a b : FVec F S16 .f32) (l : S16.Idx) : k0_pay9 a b l = FloatOps.addf (a l) (b l) := by
  unfold k0_pay9
  simp only [shapeCast_self]
  rfl
theorem pay24_apply (a b : FVec F S16 .f32) (l : S16.Idx) : k0_pay24 a b l = FloatOps.addf (a l) (b l) := by
  unfold k0_pay24
  simp only [shapeCast_self]
  rfl
theorem pay10_apply (a b : FVec F S16 .f32) (l : S16.Idx) : k0_pay10 a b l = FloatOps.addf (a l) (b l) := by
  unfold k0_pay10
  simp only [shapeCast_self]
  rfl
theorem pay11_apply (a b : FVec F S16 .f32) (l : S16.Idx) : k0_pay11 a b l = FloatOps.addf (a l) (b l) := by
  unfold k0_pay11
  simp only [shapeCast_self]
  rfl
theorem pay12_apply (a b : FVec F S16 .f32) (l : S16.Idx) : k0_pay12 a b l = FloatOps.addf (a l) (b l) := by
  unfold k0_pay12
  simp only [shapeCast_self]
  rfl
theorem pay25_apply (a b : FVec F S16 .f32) (l : S16.Idx) : k0_pay25 a b l = FloatOps.addf (a l) (b l) := by
  unfold k0_pay25
  simp only [shapeCast_self]
  rfl

/-- One trip of the halving step at distance 8. -/
theorem GL_step2 (d : Dev nD) (L : grid0.Coords) (G : ℕ → F .f32) (k : Fin k0_t2_loop.trips)
    (g : Buf (Elt F) ((V d (cV L) (jV L)).loc cc0_scratch2)) (hg : GLv 8 G k.val g) :
    GLv 8 G (k.val + 1) ((s2V).view.writes (Elt F) g
      [⟨Rect.unit (s := S8208) (k0_off5 k 3#32) S16.size (k0_off5_inb k 3), k0_pay23 (View.readAt (Elt F) (s2V).view (Rect.unit (s := S8208) (k0_off5 k 3#32) S16.size (k0_off5_inb k 3)).toLoadRect g) (View.readAt (Elt F) (s2V).view (Rect.unit (s := S8208) (k0_off6 k 3#32) S16.size (k0_off6_inb k 3)).toLoadRect g)⟩,
        ⟨Rect.unit (s := S8208) (k0_off5 k 2#32) S16.size (k0_off5_inb k 2), k0_pay6 (View.readAt (Elt F) (s2V).view (Rect.unit (s := S8208) (k0_off5 k 2#32) S16.size (k0_off5_inb k 2)).toLoadRect g) (View.readAt (Elt F) (s2V).view (Rect.unit (s := S8208) (k0_off6 k 2#32) S16.size (k0_off6_inb k 2)).toLoadRect g)⟩,
        ⟨Rect.unit (s := S8208) (k0_off5 k 1#32) S16.size (k0_off5_inb k 1), k0_pay5 (View.readAt (Elt F) (s2V).view (Rect.unit (s := S8208) (k0_off5 k 1#32) S16.size (k0_off5_inb k 1)).toLoadRect g) (View.readAt (Elt F) (s2V).view (Rect.unit (s := S8208) (k0_off6 k 1#32) S16.size (k0_off6_inb k 1)).toLoadRect g)⟩,
        ⟨Rect.unit (s := S8208) (k0_off5 k 0#32) S16.size (k0_off5_inb k 0), k0_pay4 (View.readAt (Elt F) (s2V).view (Rect.unit (s := S8208) (k0_off5 k 0#32) S16.size (k0_off5_inb k 0)).toLoadRect g) (View.readAt (Elt F) (s2V).view (Rect.unit (s := S8208) (k0_off6 k 0#32) S16.size (k0_off6_inb k 0)).toLoadRect g)⟩]) :=
  lev_trip d L 8 G k.val k.isLt g hg (fun u => k0_off5 k (BitVec.ofNat 32 u.val)) (fun u => k0_off6 k (BitVec.ofNat 32 u.val))
    (k0_off5_eq k) (k0_off6_eq k) (k0_off5_inb k) (k0_off6_inb k) k0_pay4 k0_pay5 k0_pay6 k0_pay23
    pay4_apply pay5_apply pay6_apply pay23_apply

/-- One trip of the halving step at distance 4. -/
theorem GL_step3 (d : Dev nD) (L : grid0.Coords) (G : ℕ → F .f32) (k : Fin k0_t3_loop.trips)
    (g : Buf (Elt F) ((V d (cV L) (jV L)).loc cc0_scratch2)) (hg : GLv 4 G k.val g) :
    GLv 4 G (k.val + 1) ((s2V).view.writes (Elt F) g
      [⟨Rect.unit (s := S8208) (k0_off7 k 3#32) S16.size (k0_off7_inb k 3), k0_pay24 (View.readAt (Elt F) (s2V).view (Rect.unit (s := S8208) (k0_off7 k 3#32) S16.size (k0_off7_inb k 3)).toLoadRect g) (View.readAt (Elt F) (s2V).view (Rect.unit (s := S8208) (k0_off8 k 3#32) S16.size (k0_off8_inb k 3)).toLoadRect g)⟩,
        ⟨Rect.unit (s := S8208) (k0_off7 k 2#32) S16.size (k0_off7_inb k 2), k0_pay9 (View.readAt (Elt F) (s2V).view (Rect.unit (s := S8208) (k0_off7 k 2#32) S16.size (k0_off7_inb k 2)).toLoadRect g) (View.readAt (Elt F) (s2V).view (Rect.unit (s := S8208) (k0_off8 k 2#32) S16.size (k0_off8_inb k 2)).toLoadRect g)⟩,
        ⟨Rect.unit (s := S8208) (k0_off7 k 1#32) S16.size (k0_off7_inb k 1), k0_pay8 (View.readAt (Elt F) (s2V).view (Rect.unit (s := S8208) (k0_off7 k 1#32) S16.size (k0_off7_inb k 1)).toLoadRect g) (View.readAt (Elt F) (s2V).view (Rect.unit (s := S8208) (k0_off8 k 1#32) S16.size (k0_off8_inb k 1)).toLoadRect g)⟩,
        ⟨Rect.unit (s := S8208) (k0_off7 k 0#32) S16.size (k0_off7_inb k 0), k0_pay7 (View.readAt (Elt F) (s2V).view (Rect.unit (s := S8208) (k0_off7 k 0#32) S16.size (k0_off7_inb k 0)).toLoadRect g) (View.readAt (Elt F) (s2V).view (Rect.unit (s := S8208) (k0_off8 k 0#32) S16.size (k0_off8_inb k 0)).toLoadRect g)⟩]) :=
  lev_trip d L 4 G k.val k.isLt g hg (fun u => k0_off7 k (BitVec.ofNat 32 u.val)) (fun u => k0_off8 k (BitVec.ofNat 32 u.val))
    (k0_off7_eq k) (k0_off8_eq k) (k0_off7_inb k) (k0_off8_inb k) k0_pay7 k0_pay8 k0_pay9 k0_pay24
    pay7_apply pay8_apply pay9_apply pay24_apply

/-- One trip of the halving step at distance 2. -/
theorem GL_step4 (d : Dev nD) (L : grid0.Coords) (G : ℕ → F .f32) (k : Fin k0_t4_loop.trips)
    (g : Buf (Elt F) ((V d (cV L) (jV L)).loc cc0_scratch2)) (hg : GLv 2 G k.val g) :
    GLv 2 G (k.val + 1) ((s2V).view.writes (Elt F) g
      [⟨Rect.unit (s := S8208) (k0_off9 k 3#32) S16.size (k0_off9_inb k 3), k0_pay25 (View.readAt (Elt F) (s2V).view (Rect.unit (s := S8208) (k0_off9 k 3#32) S16.size (k0_off9_inb k 3)).toLoadRect g) (View.readAt (Elt F) (s2V).view (Rect.unit (s := S8208) (k0_off10 k 3#32) S16.size (k0_off10_inb k 3)).toLoadRect g)⟩,
        ⟨Rect.unit (s := S8208) (k0_off9 k 2#32) S16.size (k0_off9_inb k 2), k0_pay12 (View.readAt (Elt F) (s2V).view (Rect.unit (s := S8208) (k0_off9 k 2#32) S16.size (k0_off9_inb k 2)).toLoadRect g) (View.readAt (Elt F) (s2V).view (Rect.unit (s := S8208) (k0_off10 k 2#32) S16.size (k0_off10_inb k 2)).toLoadRect g)⟩,
        ⟨Rect.unit (s := S8208) (k0_off9 k 1#32) S16.size (k0_off9_inb k 1), k0_pay11 (View.readAt (Elt F) (s2V).view (Rect.unit (s := S8208) (k0_off9 k 1#32) S16.size (k0_off9_inb k 1)).toLoadRect g) (View.readAt (Elt F) (s2V).view (Rect.unit (s := S8208) (k0_off10 k 1#32) S16.size (k0_off10_inb k 1)).toLoadRect g)⟩,
        ⟨Rect.unit (s := S8208) (k0_off9 k 0#32) S16.size (k0_off9_inb k 0), k0_pay10 (View.readAt (Elt F) (s2V).view (Rect.unit (s := S8208) (k0_off9 k 0#32) S16.size (k0_off9_inb k 0)).toLoadRect g) (View.readAt (Elt F) (s2V).view (Rect.unit (s := S8208) (k0_off10 k 0#32) S16.size (k0_off10_inb k 0)).toLoadRect g)⟩]) :=
  lev_trip d L 2 G k.val k.isLt g hg (fun u => k0_off9 k (BitVec.ofNat 32 u.val)) (fun u => k0_off10 k (BitVec.ofNat 32 u.val))
    (k0_off9_eq k) (k0_off10_eq k) (k0_off9_inb k) (k0_off10_inb k) k0_pay10 k0_pay11 k0_pay12 k0_pay25
    pay10_apply pay11_apply pay12_apply pay25_apply

/-! ## The last pass -/

theorem H5_init (G : ℕ → F .f32) (b : FVec F S16 .f32) (h : S512x16.Idx → F .f32) : H5 G b 0 h := by
  intro j hj
  omega

theorem H5_fin (G : ℕ → F .f32) (b : FVec F S16 .f32) (h : S512x16.Idx → F .f32) (hh : H5 G b 128 h) (j : Fin 512) :
    h (ix2 j (0 : Fin 16)) = FloatOps.addf (FloatOps.addf (G (16 * j.val)) (G (16 * j.val + 1))) (b (ix1 (0 : Fin 16))) :=
  hh j (by have := j.isLt; omega)

/-- An index in another row than r reads what the rest of the list left. -/
theorem s3_miss (d : Dev nD) (L : grid0.Coords) (h : Buf (Elt F) ((V d (cV L) (jV L)).loc cc0_scratch3)) (off : Fin 2 → ℕ) (r : ℕ) (hoff : off = ![r, 0])
    (inb : ∀ a, off a + S1x16.size a ≤ S512x16.size a) (w : (Rect.unit (s := S512x16) off S1x16.size inb).shape.Idx → Elt F .f32)
    (Lst : List (View.Piece (Elt F) S512x16 .f32)) (y : S512x16.Idx) (hy : (y 0).val < r ∨ r + 1 ≤ (y 0).val) :
    ((s3V).view.writes (Elt F) h ((⟨Rect.unit (s := S512x16) off S1x16.size inb, w⟩ : View.Piece (Elt F) S512x16 .f32) :: Lst) : S512x16.Idx → F .f32) y
      = ((s3V).view.writes (Elt F) h Lst : S512x16.Idx → F .f32) y :=
  View.read_writes_cons_unit_of_not_mem (s3V).view h inb w Lst y hoff 0 hy

/-- Lane 0 of row r reads the newest store's lane (0, 0). -/
theorem s3_hit (d : Dev nD) (L : grid0.Coords) (h : Buf (Elt F) ((V d (cV L) (jV L)).loc cc0_scratch3)) (off : Fin 2 → ℕ) (r : ℕ) (hoff : off = ![r, 0])
    (inb : ∀ a, off a + S1x16.size a ≤ S512x16.size a) (w : (Rect.unit (s := S512x16) off S1x16.size inb).shape.Idx → Elt F .f32)
    (Lst : List (View.Piece (Elt F) S512x16 .f32)) (y : S512x16.Idx) (hy0 : (y 0).val = r) (hy1 : (y 1).val = 0) :
    ((s3V).view.writes (Elt F) h ((⟨Rect.unit (s := S512x16) off S1x16.size inb, w⟩ : View.Piece (Elt F) S512x16 .f32) :: Lst) : S512x16.Idx → F .f32) y
      = w (ix2 (0 : Fin 1) (0 : Fin 16)) :=
  View.read_writes_cons_unit_of_mem (s3V).view h inb w Lst y (ix2 (0 : Fin 1) (0 : Fin 16)) hoff
    (Fin.forall_fin_two.mpr ⟨by show (y 0).val = r + 0; omega, by show (y 1).val = 0 + 0; omega⟩)

/-- Lane (0, 0) of a stored row: the two loads' lane 0 plus the bias's; the re-laying of sixteen lanes as a row of
    sixteen keeps lane 0. -/
theorem relay_zero (x : FVec F S16 .f32) : shapeCast S1x16 x shapeCasts_S16_S1x16 (ix2 (0 : Fin 1) (0 : Fin 16)) = x (ix1 (0 : Fin 16)) :=
  shapeCast_apply x shapeCasts_S16_S1x16 _ (ix1 (0 : Fin 16)) (by
    rw [Shape.rowMajor_val_one, Shape.rowMajor_val_two]
    rfl)
theorem pay13_apply (b a c : FVec F S16 .f32) :
    k0_pay13 b a c (ix2 (0 : Fin 1) (0 : Fin 16))
      = FloatOps.addf (FloatOps.addf (a (ix1 (0 : Fin 16))) (c (ix1 (0 : Fin 16)))) (b (ix1 (0 : Fin 16))) := by
  unfold k0_pay13
  simp only [shapeCast_self]
  exact relay_zero _
theorem pay14_apply (b a c : FVec F S16 .f32) :
    k0_pay14 b a c (ix2 (0 : Fin 1) (0 : Fin 16))
      = FloatOps.addf (FloatOps.addf (a (ix1 (0 : Fin 16))) (c (ix1 (0 : Fin 16)))) (b (ix1 (0 : Fin 16))) := by
  unfold k0_pay14
  simp only [shapeCast_self]
  exact relay_zero _
theorem pay27_apply (b a c : FVec F S16 .f32) :
    k0_pay27 b a c (ix2 (0 : Fin 1) (0 : Fin 16))
      = FloatOps.addf (FloatOps.addf (a (ix1 (0 : Fin 16))) (c (ix1 (0 : Fin 16)))) (b (ix1 (0 : Fin 16))) := by
  unfold k0_pay27
  simp only [shapeCast_self]
  exact relay_zero _
theorem pay26_apply (b a c : FVec F S16 .f32) :
    k0_pay26 b a c (ix2 (0 : Fin 1) (0 : Fin 16))
      = FloatOps.addf (FloatOps.addf (a (ix1 (0 : Fin 16))) (c (ix1 (0 : Fin 16)))) (b (ix1 (0 : Fin 16))) := by
  unfold k0_pay26
  simp only [shapeCast_self]
  exact relay_zero _
theorem pay15_eq (a : FVec F S16 .f32) : k0_pay15 a = a := by
  unfold k0_pay15
  simp only [shapeCast_self]

/-- One trip of the last pass: rows 4 k … 4 k + 3, lane 0 of row j the sum of lanes 16 j and 16 j + 1 and the bias. -/
theorem H5_step (d : Dev nD) (L : grid0.Coords) (G : ℕ → F .f32) (b : FVec F S16 .f32)
    (g4 : Buf (Elt F) ((V d (cV L) (jV L)).loc cc0_scratch2)) (hg4 : ∀ p : S8208.Idx, g4 p = G (p 0).val)
    (k : Fin k0_t5_loop.trips) (h : Buf (Elt F) ((V d (cV L) (jV L)).loc cc0_scratch3)) (hh : H5 G b k.val h) :
    H5 G b (k.val + 1) ((s3V).view.writes (Elt F) h
      [⟨Rect.unit (s := S512x16) (k0_off13 k 3#32) S1x16.size (k0_off13_inb k 3), k0_pay27 b (View.readAt (Elt F) (s2V).view (Rect.unit (s := S8208) (k0_off11 k 3#32) S16.size (k0_off11_inb k 3)).toLoadRect g4) (View.readAt (Elt F) (s2V).view (Rect.unit (s := S8208) (k0_off12 k 3#32) S16.size (k0_off12_inb k 3)).toLoadRect g4)⟩,
        ⟨Rect.unit (s := S512x16) (k0_off13 k 2#32) S1x16.size (k0_off13_inb k 2), k0_pay26 b (k0_pay15 (View.readAt (Elt F) (s2V).view (Rect.unit (s := S8208) (k0_off11 k 2#32) S16.size (k0_off11_inb k 2)).toLoadRect g4)) (View.readAt (Elt F) (s2V).view (Rect.unit (s := S8208) (k0_off12 k 2#32) S16.size (k0_off12_inb k 2)).toLoadRect g4)⟩,
        ⟨Rect.unit (s := S512x16) (k0_off13 k 1#32) S1x16.size (k0_off13_inb k 1), k0_pay14 b (View.readAt (Elt F) (s2V).view (Rect.unit (s := S8208) (k0_off11 k 1#32) S16.size (k0_off11_inb k 1)).toLoadRect g4) (View.readAt (Elt F) (s2V).view (Rect.unit (s := S8208) (k0_off12 k 1#32) S16.size (k0_off12_inb k 1)).toLoadRect g4)⟩,
        ⟨Rect.unit (s := S512x16) (k0_off13 k 0#32) S1x16.size (k0_off13_inb k 0), k0_pay13 b (View.readAt (Elt F) (s2V).view (Rect.unit (s := S8208) (k0_off11 k 0#32) S16.size (k0_off11_inb k 0)).toLoadRect g4) (View.readAt (Elt F) (s2V).view (Rect.unit (s := S8208) (k0_off12 k 0#32) S16.size (k0_off12_inb k 0)).toLoadRect g4)⟩]) := by
  have hk : k.val < 128 := k.isLt
  intro j hj
  by_cases h0 : j.val < 4 * k.val
  · refine (s3_miss d L h _ _ (k0_off13_eq k 3) (k0_off13_inb k 3) _ _ _ (by show j.val < 4 * k.val + 3 ∨ 4 * k.val + 3 + 1 ≤ j.val; omega)).trans ?_
    refine (s3_miss d L h _ _ (k0_off13_eq k 2) (k0_off13_inb k 2) _ _ _ (by show j.val < 4 * k.val + 2 ∨ 4 * k.val + 2 + 1 ≤ j.val; omega)).trans ?_
    refine (s3_miss d L h _ _ (k0_off13_eq k 1) (k0_off13_inb k 1) _ _ _ (by show j.val < 4 * k.val + 1 ∨ 4 * k.val + 1 + 1 ≤ j.val; omega)).trans ?_
    refine (s3_miss d L h _ _ (k0_off13_eq k 0) (k0_off13_inb k 0) _ _ _ (by show j.val < 4 * k.val + 0 ∨ 4 * k.val + 0 + 1 ≤ j.val; omega)).trans ?_
    exact hh j h0
  by_cases h1 : j.val = 4 * k.val
  ·
      refine (s3_miss d L h _ _ (k0_off13_eq k 3) (k0_off13_inb k 3) _ _ _ (by show j.val < 4 * k.val + 3 ∨ 4 * k.val + 3 + 1 ≤ j.val; omega)).trans ?_
      refine (s3_miss d L h _ _ (k0_off13_eq k 2) (k0_off13_inb k 2) _ _ _ (by show j.val < 4 * k.val + 2 ∨ 4 * k.val + 2 + 1 ≤ j.val; omega)).trans ?_
      refine (s3_miss d L h _ _ (k0_off13_eq k 1) (k0_off13_inb k 1) _ _ _ (by show j.val < 4 * k.val + 1 ∨ 4 * k.val + 1 + 1 ≤ j.val; omega)).trans ?_
      refine (s3_hit d L h _ _ (k0_off13_eq k 0) (k0_off13_inb k 0) _ _ _ (by show j.val = 4 * k.val + 0; omega) rfl).trans ?_
      refine (pay13_apply _ _ _).trans ?_
      have e11 : (View.readAt (Elt F) (s2V).view (Rect.unit (s := S8208) (k0_off11 k 0#32) S16.size (k0_off11_inb k 0)).toLoadRect g4) (ix1 (0 : Fin 16)) = G (16 * j.val) :=
        (s2_readAt d L g4 G 0 (fun p _ => hg4 p) _ _ (k0_off11_eq k 0) (Nat.zero_le _) _ _).trans
          (congrArg G (by show 64 * k.val + 16 * 0 + 0 = 16 * j.val; omega))
      have e12 : (View.readAt (Elt F) (s2V).view (Rect.unit (s := S8208) (k0_off12 k 0#32) S16.size (k0_off12_inb k 0)).toLoadRect g4) (ix1 (0 : Fin 16)) = G (16 * j.val + 1) :=
        (s2_readAt d L g4 G 0 (fun p _ => hg4 p) _ _ (k0_off12_eq k 0) (Nat.zero_le _) _ _).trans
          (congrArg G (by show 64 * k.val + 16 * 0 + 1 + 0 = 16 * j.val + 1; omega))
      rw [e11, e12]
  by_cases h2 : j.val = 4 * k.val + 1
  ·
      refine (s3_miss d L h _ _ (k0_off13_eq k 3) (k0_off13_inb k 3) _ _ _ (by show j.val < 4 * k.val + 3 ∨ 4 * k.val + 3 + 1 ≤ j.val; omega)).trans ?_
      refine (s3_miss d L h _ _ (k0_off13_eq k 2) (k0_off13_inb k 2) _ _ _ (by show j.val < 4 * k.val + 2 ∨ 4 * k.val + 2 + 1 ≤ j.val; omega)).trans ?_
      refine (s3_hit d L h _ _ (k0_off13_eq k 1) (k0_off13_inb k 1) _ _ _ (by show j.val = 4 * k.val + 1; omega) rfl).trans ?_
      refine (pay14_apply _ _ _).trans ?_
      have e11 : (View.readAt (Elt F) (s2V).view (Rect.unit (s := S8208) (k0_off11 k 1#32) S16.size (k0_off11_inb k 1)).toLoadRect g4) (ix1 (0 : Fin 16)) = G (16 * j.val) :=
        (s2_readAt d L g4 G 0 (fun p _ => hg4 p) _ _ (k0_off11_eq k 1) (Nat.zero_le _) _ _).trans
          (congrArg G (by show 64 * k.val + 16 * 1 + 0 = 16 * j.val; omega))
      have e12 : (View.readAt (Elt F) (s2V).view (Rect.unit (s := S8208) (k0_off12 k 1#32) S16.size (k0_off12_inb k 1)).toLoadRect g4) (ix1 (0 : Fin 16)) = G (16 * j.val + 1) :=
        (s2_readAt d L g4 G 0 (fun p _ => hg4 p) _ _ (k0_off12_eq k 1) (Nat.zero_le _) _ _).trans
          (congrArg G (by show 64 * k.val + 16 * 1 + 1 + 0 = 16 * j.val + 1; omega))
      rw [e11, e12]
  by_cases h3 : j.val = 4 * k.val + 2
  ·
      refine (s3_miss d L h _ _ (k0_off13_eq k 3) (k0_off13_inb k 3) _ _ _ (by show j.val < 4 * k.val + 3 ∨ 4 * k.val + 3 + 1 ≤ j.val; omega)).trans ?_
      refine (s3_hit d L h _ _ (k0_off13_eq k 2) (k0_off13_inb k 2) _ _ _ (by show j.val = 4 * k.val + 2; omega) rfl).trans ?_
      refine (pay26_apply _ _ _).trans ?_
      have e11 : (View.readAt (Elt F) (s2V).view (Rect.unit (s := S8208) (k0_off11 k 2#32) S16.size (k0_off11_inb k 2)).toLoadRect g4) (ix1 (0 : Fin 16)) = G (16 * j.val) :=
        (s2_readAt d L g4 G 0 (fun p _ => hg4 p) _ _ (k0_off11_eq k 2) (Nat.zero_le _) _ _).trans
          (congrArg G (by show 64 * k.val + 16 * 2 + 0 = 16 * j.val; omega))
      have e12 : (View.readAt (Elt F) (s2V).view (Rect.unit (s := S8208) (k0_off12 k 2#32) S16.size (k0_off12_inb k 2)).toLoadRect g4) (ix1 (0 : Fin 16)) = G (16 * j.val + 1) :=
        (s2_readAt d L g4 G 0 (fun p _ => hg4 p) _ _ (k0_off12_eq k 2) (Nat.zero_le _) _ _).trans
          (congrArg G (by show 64 * k.val + 16 * 2 + 1 + 0 = 16 * j.val + 1; omega))
      rw [pay15_eq, e11, e12]
  ·
      refine (s3_hit d L h _ _ (k0_off13_eq k 3) (k0_off13_inb k 3) _ _ _ (by show j.val = 4 * k.val + 3; omega) rfl).trans ?_
      refine (pay27_apply _ _ _).trans ?_
      have e11 : (View.readAt (Elt F) (s2V).view (Rect.unit (s := S8208) (k0_off11 k 3#32) S16.size (k0_off11_inb k 3)).toLoadRect g4) (ix1 (0 : Fin 16)) = G (16 * j.val) :=
        (s2_readAt d L g4 G 0 (fun p _ => hg4 p) _ _ (k0_off11_eq k 3) (Nat.zero_le _) _ _).trans
          (congrArg G (by show 64 * k.val + 16 * 3 + 0 = 16 * j.val; omega))
      have e12 : (View.readAt (Elt F) (s2V).view (Rect.unit (s := S8208) (k0_off12 k 3#32) S16.size (k0_off12_inb k 3)).toLoadRect g4) (ix1 (0 : Fin 16)) = G (16 * j.val + 1) :=
        (s2_readAt d L g4 G 0 (fun p _ => hg4 p) _ _ (k0_off12_eq k 3) (Nat.zero_le _) _ _).trans
          (congrArg G (by show 64 * k.val + 16 * 3 + 1 + 0 = 16 * j.val + 1; omega))
      rw [e11, e12]

end Cert.Proof.KI

end
-- ==== Proof.KI.Body.lean ====
/-
  One vector subcore's task, run once at a symbolic subcore: from its row of the index array, its shares of the flat
  table and of the bias vector, its row of the result, its row of the shared scratch and its own six scratch buffers
  and six transfer semaphores, the task ends with its row of the result holding `O9` there, everything else back.
-/
import proofs.«216127_g30709016166882_cont_9to1_510_25_alg».proof.Proof.KI.Views
import proofs.«216127_g30709016166882_cont_9to1_510_25_alg».proof.Proof.KI.Pure
import proofs.«216127_g30709016166882_cont_9to1_510_25_alg».proof.Proof.KI.PureSteps

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v6_scv : Memref Cert.KernelIdeal.sig Kind.scVector Space.hbm Cert.KernelIdeal.S32x13312 EltTy.i32)
local notation "wV" => (Memref.whole Cert.KernelIdeal.main_v7_scv : Memref Cert.KernelIdeal.sig Kind.scVector Space.hbm Cert.KernelIdeal.S2600000 EltTy.f32)
local notation "bV" => (Memref.whole Cert.KernelIdeal.main_v8_scv : Memref Cert.KernelIdeal.sig Kind.scVector Space.hbm Cert.KernelIdeal.S16 EltTy.f32)
local notation "oV" => (Memref.whole Cert.KernelIdeal.main_v9_scv : Memref Cert.KernelIdeal.sig Kind.scVector Space.hbm Cert.KernelIdeal.S32x512 EltTy.f32)
local notation "s0V" => (Memref.whole Cert.KernelIdeal.cc0_scratch0 : Memref Cert.KernelIdeal.sig Kind.scVector Space.vmem Cert.KernelIdeal.S13312 EltTy.i32)
local notation "s1V" => (Memref.whole Cert.KernelIdeal.cc0_scratch1 : Memref Cert.KernelIdeal.sig Kind.scVector Space.vmem Cert.KernelIdeal.S13328 EltTy.f32)
local notation "s2V" => (Memref.whole Cert.KernelIdeal.cc0_scratch2 : Memref Cert.KernelIdeal.sig Kind.scVector Space.vmem Cert.KernelIdeal.S8208 EltTy.f32)
local notation "s3V" => (Memref.whole Cert.KernelIdeal.cc0_scratch3 : Memref Cert.KernelIdeal.sig Kind.scVector Space.vmem Cert.KernelIdeal.S512x16 EltTy.f32)
local notation "s4V" => (Memref.whole Cert.KernelIdeal.cc0_scratch4 : Memref Cert.KernelIdeal.sig Kind.scVector Space.vmem Cert.KernelIdeal.S512 EltTy.f32)
local notation "s5V" => (Memref.whole Cert.KernelIdeal.cc0_scratch5 : Memref Cert.KernelIdeal.sig Kind.scVector Space.vmem Cert.KernelIdeal.S16 EltTy.f32)
local notation "shV" => (Memref.whole Cert.KernelIdeal.cc0_scratch6 : Memref Cert.KernelIdeal.sig Kind.scVector Space.shared Cert.KernelIdeal.S8192 EltTy.f32)

variable [FloatOps F]

/-! ## The loops' invariants -/

/-- The first pass: the gathered sequence's buffer unchanged, the lane buffer as `G1` says. -/
def inv1 (d : Dev nD) (L : grid0.Coords) (c1 : Buf (Elt F) ((V d (cV L) (jV L)).loc cc0_scratch1)) (v : ℕ → F .f32) (k : ℕ) (_ : PUnit) : sProp 𝕄 :=
  iprop(((s1V).view.loc (V d (cV L) (jV L)) ↦{fullShare} c1)
    ∗ ∃ g : Buf (Elt F) ((V d (cV L) (jV L)).loc cc0_scratch2), ((s2V).view.loc (V d (cV L) (jV L)) ↦{fullShare} g) ∗ ⌜G1 v k g⌝)

/-- A halving step: the lane buffer as `GLv` says. -/
def invL (d : Dev nD) (L : grid0.Coords) (dd : ℕ) (G : ℕ → F .f32) (k : ℕ) (_ : PUnit) : sProp 𝕄 :=
  iprop(∃ g : Buf (Elt F) ((V d (cV L) (jV L)).loc cc0_scratch2), ((s2V).view.loc (V d (cV L) (jV L)) ↦{fullShare} g) ∗ ⌜GLv dd G k g⌝)

/-- The last pass: the lane buffer unchanged, the row buffer as `H5` says. -/
def inv5 (d : Dev nD) (L : grid0.Coords) (g3 : Buf (Elt F) ((V d (cV L) (jV L)).loc cc0_scratch2)) (G : ℕ → F .f32) (b : FVec F S16 .f32)
    (k : ℕ) (_ : PUnit) : sProp 𝕄 :=
  iprop(((s2V).view.loc (V d (cV L) (jV L)) ↦{fullShare} g3)
    ∗ ∃ h : Buf (Elt F) ((V d (cV L) (jV L)).loc cc0_scratch3), ((s3V).view.loc (V d (cV L) (jV L)) ↦{fullShare} h) ∗ ⌜H5 G b k h⌝)

omit [FloatOps F] in
/-- The words the index fetch lands are positions of the flat table. -/
theorem inb_of_pre (d : Dev nD) (L : grid0.Coords) (X6 : Buf (Elt F) (xLoc d)) (hpre : ∀ i, (X6 i).toNat < 2600000)
    (fs : Buf (Elt F) ((V d (cV L) (jV L)).loc cc0_scratch0)) (pay : S13312.Idx → Elt F .i32)
    (hpay : pay = (xRowK L).view.read (Elt F) X6) :
    ∀ x, ((s0V).view.read (Elt F) (View.write (Elt F) (s0V).view fs pay Finset.univ) x).toNat < S2600000.size gathers_S2600000_S13312.axis := by
  subst hpay; intro x
  rw [View.write_whole_univ]
  simp only [Memref.view_whole, View.read_whole]
  rw [show ∀ j, (xRowK L).view.read (Elt F) X6 j = X6 ((xRowK L).view.emb j) from fun j => (View.read_apply _ _).trans (cast_eq _ _)]
  exact hpre _

omit [FloatOps F] in
theorem trips1 : Scf.trips k0_t1_loop.lb k0_t1_loop.ub k0_t1_loop.st = 128 := by decide
omit [FloatOps F] in
theorem trips2 : Scf.trips k0_t2_loop.lb k0_t2_loop.ub k0_t2_loop.st = 128 := by decide
omit [FloatOps F] in
theorem trips3 : Scf.trips k0_t3_loop.lb k0_t3_loop.ub k0_t3_loop.st = 128 := by decide
omit [FloatOps F] in
theorem trips4 : Scf.trips k0_t4_loop.lb k0_t4_loop.ub k0_t4_loop.st = 128 := by decide
omit [FloatOps F] in
theorem trips5 : Scf.trips k0_t5_loop.lb k0_t5_loop.ub k0_t5_loop.st = 128 := by decide

set_option maxHeartbeats 4000000 in
/-- The task on vector subcore `(L 0, L 1)` of device `d`, over the memrefs as the body slices them. -/
theorem tile_core (d : Dev nD) (L : grid0.Coords) (O : CellTallies nD τ sig (HIx 1)) (W : Waits sig (HIx 1)) (hO : ∀ g, O g none = 0)
    (q : PosShare TreeShare) (X6 : Buf (Elt F) (xLoc d)) (X7 : Buf (Elt F) (wLoc d)) (X8 : Buf (Elt F) (bLoc d)) (f9 : Buf (Elt F) (oLoc d))
    (hpre : ∀ i, (X6 i).toNat < 2600000)
    (fsh : Buf (Elt F) ((V d (cV L) (jV L)).loc cc0_scratch6))
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (f3 : Buf (Elt F) ((V d (cV L) (jV L)).loc cc0_scratch3))
    (f4 : Buf (Elt F) ((V d (cV L) (jV L)).loc cc0_scratch4)) (f5 : Buf (Elt F) ((V d (cV L) (jV L)).loc cc0_scratch5)) :
    iprop(levAts (K (F := F)).L (K (F := F)).lev
        ∗ ((xRowK L).view.loc (V d (cV L) (jV L)) ↦[(xRowK L).view.set]{fullShare} X6)
        ∗ ((wV).view.loc (V d (cV L) (jV L)) ↦{q} X7)
        ∗ ((bV).view.loc (V d (cV L) (jV L)) ↦{q} X8)
        ∗ ((oRowK L).view.loc (V d (cV L) (jV L)) ↦[(oRowK L).view.set]{fullShare} f9)
        ∗ ((shRowK L).view.loc (V d (cV L) (jV L)) ↦[(shRowK L).view.set]{fullShare} fsh)
        ∗ ((s0V).view.loc (V d (cV L) (jV L)) ↦{fullShare} f0)
        ∗ ((s1V).view.loc (V d (cV L) (jV L)) ↦{fullShare} f1)
        ∗ ((s2V).view.loc (V d (cV L) (jV L)) ↦{fullShare} f2)
        ∗ ((s3V).view.loc (V d (cV L) (jV L)) ↦{fullShare} f3)
        ∗ ((s4V).view.loc (V d (cV L) (jV L)) ↦{fullShare} f4)
        ∗ ((s5V).view.loc (V d (cV L) (jV L)) ↦{fullShare} f5)
        ∗ semVal (V d (cV L) (jV L), SemLoc.dma cc0_scratch7.sem) 0
        ∗ semVal (V d (cV L) (jV L), SemLoc.dma cc0_scoped0.sem) 0
        ∗ semVal (V d (cV L) (jV L), SemLoc.dma cc0_scoped1.sem) 0
        ∗ semVal (V d (cV L) (jV L), SemLoc.dma cc0_scoped2.sem) 0
        ∗ semVal (V d (cV L) (jV L), SemLoc.dma cc0_scoped3.sem) 0
        ∗ semVal (V d (cV L) (jV L), SemLoc.dma cc0_scoped4.sem) 0
        ∗ owes (V d (cV L) (jV L)) O W)
      ⊢ wp frame (wpE (defs₀ (F := F)) 𝒱₀ (V d (cV L) (jV L)) none) Set.univ
          (cc0__sc_body L xV (Memref.isWhole_whole _) wV (Memref.isWhole_whole _) bV (Memref.isWhole_whole _) oV (Memref.isWhole_whole _)
            s0V (Memref.isWhole_whole _) s1V (Memref.isWhole_whole _) s2V (Memref.isWhole_whole _) s3V (Memref.isWhole_whole _)
            s4V (Memref.isWhole_whole _) s5V (Memref.isWhole_whole _) shV (Memref.isWhole_whole _)
            cc0_scratch7 cc0_scoped0 cc0_scoped1 cc0_scoped2 cc0_scoped3 cc0_scoped4)
          fun _ => (iprop(((xRowK L).view.loc (V d (cV L) (jV L)) ↦[(xRowK L).view.set]{fullShare} X6)
            ∗ ((wV).view.loc (V d (cV L) (jV L)) ↦{q} X7)
            ∗ ((bV).view.loc (V d (cV L) (jV L)) ↦{q} X8)
            ∗ ((oRowK L).view.loc (V d (cV L) (jV L)) ↦[(oRowK L).view.set]{fullShare} O9 (F := F) X6 X7 X8)
            ∗ (∃ f, (shRowK L).view.loc (V d (cV L) (jV L)) ↦[(shRowK L).view.set]{fullShare} f)
            ∗ (∃ f, (s0V).view.loc (V d (cV L) (jV L)) ↦{fullShare} f)
            ∗ (∃ f, (s1V).view.loc (V d (cV L) (jV L)) ↦{fullShare} f)
            ∗ (∃ f, (s2V).view.loc (V d (cV L) (jV L)) ↦{fullShare} f)
            ∗ (∃ f, (s3V).view.loc (V d (cV L) (jV L)) ↦{fullShare} f)
            ∗ (∃ f, (s4V).view.loc (V d (cV L) (jV L)) ↦{fullShare} f)
            ∗ (∃ f, (s5V).view.loc (V d (cV L) (jV L)) ↦{fullShare} f)
            ∗ semVal (V d (cV L) (jV L), SemLoc.dma cc0_scratch7.sem) 0
            ∗ semVal (V d (cV L) (jV L), SemLoc.dma cc0_scoped0.sem) 0
            ∗ semVal (V d (cV L) (jV L), SemLoc.dma cc0_scoped1.sem) 0
            ∗ semVal (V d (cV L) (jV L), SemLoc.dma cc0_scoped2.sem) 0
            ∗ semVal (V d (cV L) (jV L), SemLoc.dma cc0_scoped3.sem) 0
            ∗ semVal (V d (cV L) (jV L), SemLoc.dma cc0_scoped4.sem) 0
            ∗ ∃ W', ⌜∀ p ∈ W', p ∈ W ∨ p.2 = none⌝ ∗ owes (V d (cV L) (jV L)) O W') : sProp 𝕄) := by
  rw [cc0__sc_body_eq_skeleton]; unfold cc0__sc_body_skel
  iintro ⟨#Hlv, Hx, Hw, Hb, Ho, Hsh, H0, H1, H2, H3, H4, H5, Hs7, Hc0, Hc1, Hc2, Hc3, Hc4, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the two fetches; then the gather, whose list holds positions of the table; the pads, the mask, the bias
  sl_exec
  have hin := inb_of_pre d L X6 hpre f0 (tile_core.sl.dma0 d L X6) rfl
  sl_exec
  -- what the buffers hold now, index by index
  have hc1 : ∀ p : S13328.Idx, ((s1V).view.writes (Elt F) ((s1V).view.junk (Val := Elt F)) (tile_core.sl.H1_2 d L X6 X7 f0 hin)
      : Buf (Elt F) ((V d (cV L) (jV L)).loc cc0_scratch1)) p = Spec.vals (wfun X6 X7 (wL L)) (p 0).val := by
    intro p
    unfold tile_core.sl.H1_2
    exact vals_eq d L (wfun X6 X7 (wL L)) _ (fun x => gathered d L X6 X7 f0 _ hin hpre x) p
  have hc2 : ∀ p : S8208.Idx, 8192 ≤ (p 0).val →
      ((s2V).view.writes (Elt F) f2 [⟨Rect.unit (s := S8208) ![8192] S16.size inb_S8208_S16_8192, k0_pay18⟩]
        : Buf (Elt F) ((V d (cV L) (jV L)).loc cc0_scratch2)) p = Spec.zero := fun p hp => pad_eq d L f2 p hp
  have hv20 : ∀ l : S16.Idx, tile_core.sl.r d L X8 f5 l = X8 l := fun l => bias_eq d L X8 f5 l
  generalize (Memref.whole cc0_scratch1).view.writes (Elt F) (Memref.whole cc0_scratch1).view.junk (tile_core.sl.H1_2 d L X6 X7 f0 hin) = c1 at hc1 ⊢
  generalize (Memref.whole cc0_scratch2).view.writes (Elt F) f2 [⟨Rect.unit ![8192] S16.size inb_S8208_S16_8192, k0_pay18⟩] = c2 at hc2 ⊢
  generalize tile_core.sl.r d L X8 f5 = v20 at hv20 ⊢
  -- the first pass
  sl_for (inv1 d L c1 (Spec.vals (wfun X6 X7 (wL L)))) $$ [H1 H2]
  case region =>
    intro k _
    unfold inv1
    iintro ⟨H1, %g, H2, %hg⟩
    sl_exec
    sl_step
    isplitl [H1]; · iexact H1
    iexists _
    isplitl [H2]; · iexact H2
    ipureintro
    exact G1_step' d L _ c1 hc1 k g hg (tile_core.sl.r_1 c1 k) rfl
  · unfold inv1
    isplitl [H1]; · iexact H1
    iexists _
    isplitl [H2]; · iexact H2
    ipureintro
    exact G1_init _ _ hc2
  iintro %_ HI
  unfold inv1
  icases HI with ⟨H1, %g1, H2, %hg1⟩
  rw [trips1] at hg1
  have hg1' := G1_fin _ _ hg1
  -- the halving step at distance 8
  sl_exec
  sl_for (invL d L 8 (Spec.fold (Spec.vals (wfun X6 X7 (wL L))))) $$ [H2]
  case region =>
    intro k _
    unfold invL
    iintro ⟨%g, H2, %hg⟩
    sl_exec
    sl_step
    iexists _
    isplitl [H2]; · iexact H2
    ipureintro
    exact GL_step2 d L _ k g hg
  · unfold invL
    iexists _
    isplitl [H2]; · iexact H2
    ipureintro
    exact GLv_init _ _ _ hg1'
  iintro %_ HI
  unfold invL
  icases HI with ⟨%g2, H2, %hg2⟩
  rw [trips2] at hg2
  have hg2' := GLv_fin _ _ _ hg2
  -- at distance 4
  sl_exec
  sl_for (invL d L 4 (Spec.lev 8 (Spec.fold (Spec.vals (wfun X6 X7 (wL L)))))) $$ [H2]
  case region =>
    intro k _
    unfold invL
    iintro ⟨%g, H2, %hg⟩
    sl_exec
    sl_step
    iexists _
    isplitl [H2]; · iexact H2
    ipureintro
    exact GL_step3 d L _ k g hg
  · unfold invL
    iexists _
    isplitl [H2]; · iexact H2
    ipureintro
    exact GLv_init _ _ _ hg2'
  iintro %_ HI
  unfold invL
  icases HI with ⟨%g3, H2, %hg3⟩
  rw [trips3] at hg3
  have hg3' := GLv_fin _ _ _ hg3
  -- at distance 2
  sl_exec
  sl_for (invL d L 2 (Spec.lev 4 (Spec.lev 8 (Spec.fold (Spec.vals (wfun X6 X7 (wL L))))))) $$ [H2]
  case region =>
    intro k _
    unfold invL
    iintro ⟨%g, H2, %hg⟩
    sl_exec
    sl_step
    iexists _
    isplitl [H2]; · iexact H2
    ipureintro
    exact GL_step4 d L _ k g hg
  · unfold invL
    iexists _
    isplitl [H2]; · iexact H2
    ipureintro
    exact GLv_init _ _ _ hg3'
  iintro %_ HI
  unfold invL
  icases HI with ⟨%g4, H2, %hg4⟩
  rw [trips4] at hg4
  have hg4' : ∀ p : S8208.Idx, g4 p = Spec.tree (Spec.vals (wfun X6 X7 (wL L))) (p 0).val := GLv_fin _ _ _ hg4
  -- the last pass
  sl_exec
  sl_for (inv5 d L g4 (Spec.tree (Spec.vals (wfun X6 X7 (wL L)))) v20) $$ [H2 H3]
  case region =>
    intro k _
    unfold inv5
    iintro ⟨H2, %h, H3, %hh⟩
    sl_exec
    sl_step
    isplitl [H2]; · iexact H2
    iexists _
    isplitl [H3]; · iexact H3
    ipureintro
    exact H5_step d L _ v20 g4 hg4' k h hh
  · unfold inv5
    isplitl [H2]; · iexact H2
    iexists _
    isplitl [H3]; · iexact H3
    ipureintro
    exact H5_init _ _ _
  iintro %_ HI
  unfold inv5
  icases HI with ⟨H2, %h5, H3, %hh5⟩
  rw [trips5] at hh5
  -- lane 0 of the rows out: to the shared row, to the 512-entry scratch, to the result's row
  sl_exec
  sl_step
  have hout : ∀ i ∈ (oRowK L).view.set,
      ((oRowK L).view.writes (Elt F) f9 [⟨Rect.whole S512, tile_core.sl.dma0_4 d L fsh f4 h5⟩]) i = O9 (F := F) X6 X7 X8 i :=
    out_eq d L X6 X7 X8 v20 hv20 f9 fsh f4 h5 hh5
  ihave Ho' := (Entails.of_eq (pointsTo_congr (ℓ := (oRowK L).view.loc (V d (cV L) (jV L))) (I := (oRowK L).view.set) (q := fullShare) hout)) $$ Ho
  isplitl [Hx]; · iexact Hx
  isplitl [Hw]; · iexact Hw
  isplitl [Hb]; · iexact Hb
  isplitl [Ho']; · iexact Ho'
  isplitl [Hsh]; · iexists _; iexact Hsh
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [Hs7]; · iexact Hs7
  isplitl [Hc0]; · iexact Hc0
  isplitl [Hc1]; · iexact Hc1
  isplitl [Hc2]; · iexact Hc2
  isplitl [Hc3]; · iexact Hc3
  isplitl [Hc4]; · iexact Hc4
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.KI

end
-- ==== Proof.KI.Obl.lean ====
/-
  From one subcore's task to the launch theorem's obligation for a vector subcore: the task's own slices are the
  worker's rows, the subcore's own semaphores and buffers are the six transfer cells and the six scratch buffers
  and the rest, and the task's proof over its own slices gives the obligation over the worker's parts.
-/
import proofs.«216127_g30709016166882_cont_9to1_510_25_alg».proof.Proof.KI.Body

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v6_scv : Memref Cert.KernelIdeal.sig Kind.scVector Space.hbm Cert.KernelIdeal.S32x13312 EltTy.i32)
local notation "wV" => (Memref.whole Cert.KernelIdeal.main_v7_scv : Memref Cert.KernelIdeal.sig Kind.scVector Space.hbm Cert.KernelIdeal.S2600000 EltTy.f32)
local notation "bV" => (Memref.whole Cert.KernelIdeal.main_v8_scv : Memref Cert.KernelIdeal.sig Kind.scVector Space.hbm Cert.KernelIdeal.S16 EltTy.f32)
local notation "oV" => (Memref.whole Cert.KernelIdeal.main_v9_scv : Memref Cert.KernelIdeal.sig Kind.scVector Space.hbm Cert.KernelIdeal.S32x512 EltTy.f32)
local notation "s0V" => (Memref.whole Cert.KernelIdeal.cc0_scratch0 : Memref Cert.KernelIdeal.sig Kind.scVector Space.vmem Cert.KernelIdeal.S13312 EltTy.i32)
local notation "s1V" => (Memref.whole Cert.KernelIdeal.cc0_scratch1 : Memref Cert.KernelIdeal.sig Kind.scVector Space.vmem Cert.KernelIdeal.S13328 EltTy.f32)
local notation "s2V" => (Memref.whole Cert.KernelIdeal.cc0_scratch2 : Memref Cert.KernelIdeal.sig Kind.scVector Space.vmem Cert.KernelIdeal.S8208 EltTy.f32)
local notation "s3V" => (Memref.whole Cert.KernelIdeal.cc0_scratch3 : Memref Cert.KernelIdeal.sig Kind.scVector Space.vmem Cert.KernelIdeal.S512x16 EltTy.f32)
local notation "s4V" => (Memref.whole Cert.KernelIdeal.cc0_scratch4 : Memref Cert.KernelIdeal.sig Kind.scVector Space.vmem Cert.KernelIdeal.S512 EltTy.f32)
local notation "s5V" => (Memref.whole Cert.KernelIdeal.cc0_scratch5 : Memref Cert.KernelIdeal.sig Kind.scVector Space.vmem Cert.KernelIdeal.S16 EltTy.f32)
local notation "shV" => (Memref.whole Cert.KernelIdeal.cc0_scratch6 : Memref Cert.KernelIdeal.sig Kind.scVector Space.shared Cert.KernelIdeal.S8192 EltTy.f32)

/-! ## The task's slices are the worker's rows -/

theorem bound_zero : grid0.bound 0 = 2 := rfl
theorem bound_one : grid0.bound 1 = 16 := rfl
/-- The subcore's SparseCore and its number on it, as the worker's coordinates. -/
abbrev cL (L : grid0.Coords) : Fin 2 := Fin.cast bound_zero (L 0)
abbrev jL (L : grid0.Coords) : Fin 16 := Fin.cast bound_one (L 1)

/-- Subcore (L 0, L 1) is worker 2 (L 1) + (L 0). -/
theorem wk_eq (L : grid0.Coords) : wk (cL L) (jL L) = wL L := Fin.ext rfl

abbrev xrowK (L : grid0.Coords) : Rect S32x13312 := Rect.unit (s := S32x13312) (k0_off1 L) S1x13312.size (k0_off1_inb L)
abbrev orowK (L : grid0.Coords) : Rect S32x512 := Rect.unit (s := S32x512) (k0_off15 L) S1x512.size (k0_off15_inb L)
abbrev shrowK (L : grid0.Coords) : Rect S8192 := Rect.unit (s := S8192) (k0_off14 L) S512.size (k0_off14_inb L)

theorem xrowK_eq (L : grid0.Coords) : xrowK L = xrow (wL L) := by
  unfold xrowK xrow Rect.part Rect.block
  congr 1 <;> funext a
  · rw [k0_off1_eq]
    match a with
    | 0 => simp [Shape.partIx, Shape.partSize, wL]
    | 1 => simp [Shape.partIx, Shape.partSize]
  · match a with
    | 0 => simp [Shape.partSize]
    | 1 => simp [Shape.partSize]

theorem orowK_eq (L : grid0.Coords) : orowK L = orow (wL L) := by
  unfold orowK orow Rect.part Rect.block
  congr 1 <;> funext a
  · rw [k0_off15_eq]
    match a with
    | 0 => simp [Shape.partIx, Shape.partSize, wL]
    | 1 => simp [Shape.partIx, Shape.partSize]
  · match a with
    | 0 => simp [Shape.partSize]
    | 1 => simp [Shape.partSize]

theorem shrowK_eq (L : grid0.Coords) : shrowK L = shrow (jL L) := by
  unfold shrowK shrow Rect.part Rect.block
  congr 1 <;> funext a
  · rw [k0_off14_eq]
    match a with
    | 0 =>
      show 512 * (L 1).val = S8192.partIx 0 (jL L).val 0 * S8192.partSize 0 16 0
      simp only [Shape.partIx, Shape.partSize, if_true]
      show 512 * (L 1).val = (L 1).val * (8192 / 16)
      omega
  · match a with
    | 0 => simp [Shape.partSize]

theorem set_xRowK (L : grid0.Coords) : (xRowK L).view.set = xRowSet (wL L) := by
  show (((xV).view.slice (xrowK L)).reshape S13312 squeezes_S1x13312_S13312.numel_eq).set = ((xV).view.slice (xrow (wL L))).set
  rw [View.set_reshape]
  exact xrowK_eq L ▸ rfl

theorem set_oRowK (L : grid0.Coords) : (oRowK L).view.set = oRowSet (wL L) := by
  show (((oV).view.slice (orowK L)).reshape S512 squeezes_S1x512_S512.numel_eq).set = ((oV).view.slice (orow (wL L))).set
  rw [View.set_reshape]
  exact orowK_eq L ▸ rfl

theorem set_shRowK (L : grid0.Coords) : (shRowK L).view.set = shRowSet (jL L) := by
  show ((shV).view.slice (shrowK L)).set = ((shV).view.slice (shrow (jL L))).set
  exact shrowK_eq L ▸ rfl

/-! ## Each held buffer, through the task's slice and as the worker's part -/

theorem pts_xRowK (d : Dev nD) (L : grid0.Coords) (f : Buf (Elt F) (xLoc d)) :
    ((xRowK L).view.loc (V d (cV L) (jV L)) ↦[(xRowK L).view.set]{fullShare} f : sProp 𝕄) = xLoc d ↦[xRowSet (wL L)]{fullShare} f := by
  rw [set_xRowK]
theorem pts_oRowK (d : Dev nD) (L : grid0.Coords) (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_shRowK (d : Dev nD) (L : grid0.Coords) (f : Buf (Elt F) (shLoc d (cV L))) :
    ((shRowK L).view.loc (V d (cV L) (jV L)) ↦[(shRowK L).view.set]{fullShare} f : sProp 𝕄) = shLoc d (cV L) ↦[shRowSet (jL L)]{fullShare} f := by
  rw [set_shRowK]; rfl
theorem pts_wV (d : Dev nD) (L : grid0.Coords) (q : PosShare TreeShare) (f : Buf (Elt F) (wLoc d)) :
    ((wV).view.loc (V d (cV L) (jV L)) ↦{q} f : sProp 𝕄) = wLoc d ↦{q} f := rfl
theorem pts_bV (d : Dev nD) (L : grid0.Coords) (q : PosShare TreeShare) (f : Buf (Elt F) (bLoc d)) :
    ((bV).view.loc (V d (cV L) (jV L)) ↦{q} f : sProp 𝕄) = bLoc d ↦{q} f := rfl
theorem pts_s0V (d : Dev nD) (L : grid0.Coords) (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
theorem pts_s1V (d : Dev nD) (L : grid0.Coords) (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
theorem pts_s2V (d : Dev nD) (L : grid0.Coords) (f : Buf (Elt F) ((V d (cV L) (jV L)).loc cc0_scratch2)) :
    ((s2V).view.loc (V d (cV L) (jV L)) ↦{fullShare} f : sProp 𝕄) = (V d (cV L) (jV L)).loc cc0_scratch2 ↦{fullShare} f := rfl
theorem pts_s3V (d : Dev nD) (L : grid0.Coords) (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl
theorem pts_s4V (d : Dev nD) (L : grid0.Coords) (f : Buf (Elt F) ((V d (cV L) (jV L)).loc cc0_scratch4)) :
    ((s4V).view.loc (V d (cV L) (jV L)) ↦{fullShare} f : sProp 𝕄) = (V d (cV L) (jV L)).loc cc0_scratch4 ↦{fullShare} f := rfl
theorem pts_s5V (d : Dev nD) (L : grid0.Coords) (f : Buf (Elt F) ((V d (cV L) (jV L)).loc cc0_scratch5)) :
    ((s5V).view.loc (V d (cV L) (jV L)) ↦{fullShare} f : sProp 𝕄) = (V d (cV L) (jV L)).loc cc0_scratch5 ↦{fullShare} f := rfl

/-! ## The subcore's own semaphores and buffers -/

/-- The cell of a transfer semaphore on subcore (L 0, L 1) of device d. -/
abbrev cell (d : Dev nD) (L : grid0.Coords) (a : DmaSems sig S_) : GSem nD τ sig := ((V d (cV L) (jV L)), .dma a.sem)

theorem cell_mem (d : Dev nD) (L : grid0.Coords) (a : DmaSems sig S_)
    (h : (SemLoc.dma a.sem : SemLoc sig).isScoped .scVector = true) : cell d L a ∈ ownCells (V d (cV L) (jV L)) :=
  (mem_ownCells (g := cell d L a)).mpr ⟨rfl, h⟩

theorem cell_ne (d : Dev nD) (L : grid0.Coords) {a b : DmaSem sig} (h : a ≠ b) :
    (((V d (cV L) (jV L)), SemLoc.dma a) : GSem nD τ sig) ≠ ((V d (cV L) (jV L)), SemLoc.dma b) :=
  fun e => h (SemLoc.dma.inj (Prod.mk.inj e).2)

/-- The subcore's own cells at zero are the six transfer cells at zero and the rest. -/
theorem ownSems0_V (d : Dev nD) (L : grid0.Coords) :
    (ownSems0 (V d (cV L) (jV L)) : sProp 𝕄)
      = iprop(semVal (cell d L cc0_scratch7) 0 ∗ semVal (cell d L cc0_scoped0) 0 ∗ semVal (cell d L cc0_scoped1) 0 ∗ semVal (cell d L cc0_scoped2) 0 ∗ semVal (cell d L cc0_scoped3) 0 ∗ semVal (cell d L cc0_scoped4) 0
          ∗ bigSep (((((((ownCells (V d (cV L) (jV L))).erase (cell d L cc0_scratch7)).erase (cell d L cc0_scoped0)).erase (cell d L cc0_scoped1)).erase (cell d L cc0_scoped2)).erase (cell d L cc0_scoped3)).erase (cell d L cc0_scoped4)) fun g => semVal g 0) := by
  unfold SparseCore.Cfg.ownSems0
  rw [SparseCore.bigSep_erase' (cell_mem d L cc0_scratch7 (by decide)),
    SparseCore.bigSep_erase' (Finset.mem_erase.mpr ⟨cell_ne d L (show (cc0_scoped0.sem : DmaSem sig) ≠ cc0_scratch7.sem by decide), cell_mem d L cc0_scoped0 (by decide)⟩),
    SparseCore.bigSep_erase' (Finset.mem_erase.mpr ⟨cell_ne d L (show (cc0_scoped1.sem : DmaSem sig) ≠ cc0_scoped0.sem by decide), Finset.mem_erase.mpr ⟨cell_ne d L (show (cc0_scoped1.sem : DmaSem sig) ≠ cc0_scratch7.sem by decide), cell_mem d L cc0_scoped1 (by decide)⟩⟩),
    SparseCore.bigSep_erase' (Finset.mem_erase.mpr ⟨cell_ne d L (show (cc0_scoped2.sem : DmaSem sig) ≠ cc0_scoped1.sem by decide), Finset.mem_erase.mpr ⟨cell_ne d L (show (cc0_scoped2.sem : DmaSem sig) ≠ cc0_scoped0.sem by decide), Finset.mem_erase.mpr ⟨cell_ne d L (show (cc0_scoped2.sem : DmaSem sig) ≠ cc0_scratch7.sem by decide), cell_mem d L cc0_scoped2 (by decide)⟩⟩⟩),
    SparseCore.bigSep_erase' (Finset.mem_erase.mpr ⟨cell_ne d L (show (cc0_scoped3.sem : DmaSem sig) ≠ cc0_scoped2.sem by decide), Finset.mem_erase.mpr ⟨cell_ne d L (show (cc0_scoped3.sem : DmaSem sig) ≠ cc0_scoped1.sem by decide), Finset.mem_erase.mpr ⟨cell_ne d L (show (cc0_scoped3.sem : DmaSem sig) ≠ cc0_scoped0.sem by decide), Finset.mem_erase.mpr ⟨cell_ne d L (show (cc0_scoped3.sem : DmaSem sig) ≠ cc0_scratch7.sem by decide), cell_mem d L cc0_scoped3 (by decide)⟩⟩⟩⟩),
    SparseCore.bigSep_erase' (Finset.mem_erase.mpr ⟨cell_ne d L (show (cc0_scoped4.sem : DmaSem sig) ≠ cc0_scoped3.sem by decide), Finset.mem_erase.mpr ⟨cell_ne d L (show (cc0_scoped4.sem : DmaSem sig) ≠ cc0_scoped2.sem by decide), Finset.mem_erase.mpr ⟨cell_ne d L (show (cc0_scoped4.sem : DmaSem sig) ≠ cc0_scoped1.sem by decide), Finset.mem_erase.mpr ⟨cell_ne d L (show (cc0_scoped4.sem : DmaSem sig) ≠ cc0_scoped0.sem by decide), Finset.mem_erase.mpr ⟨cell_ne d L (show (cc0_scoped4.sem : DmaSem sig) ≠ cc0_scratch7.sem by decide), cell_mem d L cc0_scoped4 (by decide)⟩⟩⟩⟩⟩)]

/-- The subcore's own buffers are the six scratch buffers, each at some contents, and the rest. -/
theorem ownBufs_V (d : Dev nD) (L : grid0.Coords) :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := ((Proc.scVector (cV L) (jV L)).devRef cc0_scratch5)) rfl⟩⟩⟩⟩⟩)]

variable [FloatOps F] (m : (ℓ : Loc nD τ sig) → Buf (Elt F) ℓ)

/-! ## The task over the worker's parts -/

/-- What the proof asks of the launch memory: every word of the index array the kernel is launched on is a position
    of the flat table. -/
def PreOK : Prop := ∀ (d : Dev nD) i, (Xv m d i).toNat < 2600000

set_option maxHeartbeats 4000000 in
/-- The task on vector subcore (L 0, L 1) of device d, from the worker's parts and the subcore's scoped storage to the
    parts with the result row written, the storage back. -/
theorem tile_body (hF : (K (F := F)).Facts) (hpre : PreOK m) (d : Dev nD) (L : grid0.Coords)
    (O : CellTallies nD τ sig (HIx 1)) (W : Waits sig (HIx 1)) (hO : ∀ g, O g none = 0) :
    iprop(levAts (K (F := F)).L (K (F := F)).lev ∗ emp
        ∗ (parts m d (cL L) (jL L) (m (oLoc d)) ∗ shPart (F := F) d (cV L) (jL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xV (Memref.isWhole_whole _) wV (Memref.isWhole_whole _) bV (Memref.isWhole_whole _) oV (Memref.isWhole_whole _)
            s0V (Memref.isWhole_whole _) s1V (Memref.isWhole_whole _) s2V (Memref.isWhole_whole _) s3V (Memref.isWhole_whole _)
            s4V (Memref.isWhole_whole _) s5V (Memref.isWhole_whole _) shV (Memref.isWhole_whole _)
            cc0_scratch7 cc0_scoped0 cc0_scoped1 cc0_scoped2 cc0_scoped3 cc0_scoped4)
          fun _ => (iprop((parts m d (cL L) (jL L) (Ov m d) ∗ shPart (F := F) d (cV L) (jL L))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V,
    show Ov m d = O9 (F := F) (Xv m d) (Wv m d) (Bv m d) from rfl]
  unfold parts shPart
  rw [wk_eq]
  iintro ⟨Hlv, -, ⟨⟨Hx, Hw, Hb, Ho⟩, %fsh, Hsh⟩, ⟨⟨%f0, H0⟩, ⟨%f1, H1⟩, ⟨%f2, H2⟩, ⟨%f3, H3⟩, ⟨%f4, H4⟩, ⟨%f5, H5⟩, Hbufs⟩, ⟨Hs7, HsA, HsB, HsC, HsD, HsE, Hsems⟩, HO⟩
  ihave Hx' := (Entails.of_eq (pts_xRowK (F := F) d L _).symm) $$ Hx
  ihave Hw' := (Entails.of_eq (pts_wV (F := F) d L _ _).symm) $$ Hw
  ihave Hb' := (Entails.of_eq (pts_bV (F := F) d L _ _).symm) $$ Hb
  ihave Ho' := (Entails.of_eq (pts_oRowK (F := F) d L _).symm) $$ Ho
  ihave Hsh' := (Entails.of_eq (pts_shRowK (F := F) d L _).symm) $$ Hsh
  ihave H0' := (Entails.of_eq (pts_s0V (F := F) d L _).symm) $$ H0
  ihave H1' := (Entails.of_eq (pts_s1V (F := F) d L _).symm) $$ H1
  ihave H2' := (Entails.of_eq (pts_s2V (F := F) d L _).symm) $$ H2
  ihave H3' := (Entails.of_eq (pts_s3V (F := F) d L _).symm) $$ H3
  ihave H4' := (Entails.of_eq (pts_s4V (F := F) d L _).symm) $$ H4
  ihave H5' := (Entails.of_eq (pts_s5V (F := F) d L _).symm) $$ H5
  ihave Hwp := (tile_core (F := F) d L O W hO (sq (wL L)) (Xv m d) (Wv m d) (Bv m d) (m (oLoc d)) (hpre d) fsh f0 f1 f2 f3 f4 f5)
    $$ [Hlv Hx' Hw' Hb' Ho' Hsh' H0' H1' H2' H3' H4' H5' Hs7 HsA HsB HsC HsD HsE HO]
  · isplitl [Hlv]; · iexact Hlv
    isplitl [Hx']; · iexact Hx'
    isplitl [Hw']; · iexact Hw'
    isplitl [Hb']; · iexact Hb'
    isplitl [Ho']; · iexact Ho'
    isplitl [Hsh']; · iexact Hsh'
    isplitl [H0']; · iexact H0'
    isplitl [H1']; · iexact H1'
    isplitl [H2']; · iexact H2'
    isplitl [H3']; · iexact H3'
    isplitl [H4']; · iexact H4'
    isplitl [H5']; · iexact H5'
    isplitl [Hs7]; · iexact Hs7
    isplitl [HsA]; · iexact HsA
    isplitl [HsB]; · iexact HsB
    isplitl [HsC]; · iexact HsC
    isplitl [HsD]; · iexact HsD
    isplitl [HsE]; · iexact HsE
    iexact HO
  iapply (wp_wand_r frame _ _)
  isplitl [Hwp]; · iexact Hwp
  iintro %_
  iintro ⟨Hx', Hw', Hb', Ho', ⟨%gsh, Hsh'⟩, ⟨%g0, H0'⟩, ⟨%g1, H1'⟩, ⟨%g2, H2'⟩, ⟨%g3, H3'⟩, ⟨%g4, H4'⟩, ⟨%g5, H5'⟩, Hs7, HsA, HsB, HsC, HsD, HsE, %W', %hW', HO⟩
  isplitl [Hx' Hw' Hb' Ho' Hsh']
  · isplitl [Hx' Hw' Hb' Ho']
    · isplitl [Hx']; · iapply (Entails.of_eq (pts_xRowK (F := F) d L _)); iexact Hx'
      isplitl [Hw']; · iapply (Entails.of_eq (pts_wV (F := F) d L _ _)); iexact Hw'
      isplitl [Hb']; · iapply (Entails.of_eq (pts_bV (F := F) d L _ _)); iexact Hb'
      iapply (Entails.of_eq (pts_oRowK (F := F) d L _)); iexact Ho'
    · iexists gsh; iapply (Entails.of_eq (pts_shRowK (F := F) d L _)); iexact Hsh'
  isplitl [H0' H1' H2' H3' H4' H5' Hbufs]
  · isplitl [H0']; · iexists g0; iapply (Entails.of_eq (pts_s0V (F := F) d L _)); iexact H0'
    isplitl [H1']; · iexists g1; iapply (Entails.of_eq (pts_s1V (F := F) d L _)); iexact H1'
    isplitl [H2']; · iexists g2; iapply (Entails.of_eq (pts_s2V (F := F) d L _)); iexact H2'
    isplitl [H3']; · iexists g3; iapply (Entails.of_eq (pts_s3V (F := F) d L _)); iexact H3'
    isplitl [H4']; · iexists g4; iapply (Entails.of_eq (pts_s4V (F := F) d L _)); iexact H4'
    isplitl [H5']; · iexists g5; iapply (Entails.of_eq (pts_s5V (F := F) d L _)); iexact H5'
    iexact Hbufs
  isplitl [Hs7 HsA HsB HsC HsD HsE Hsems]
  · isplitl [Hs7]; · iexact Hs7
    isplitl [HsA]; · iexact HsA
    isplitl [HsB]; · iexact HsB
    isplitl [HsC]; · iexact HsC
    isplitl [HsD]; · iexact HsD
    isplitl [HsE]; · iexact HsE
    iexact Hsems
  iexists W'; isplitr
  · ipureintro; exact hW'
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) wV (Memref.isWhole_whole _) bV (Memref.isWhole_whole _) oV (Memref.isWhole_whole _)
            s0V (Memref.isWhole_whole _) s1V (Memref.isWhole_whole _) s2V (Memref.isWhole_whole _) s3V (Memref.isWhole_whole _)
            s4V (Memref.isWhole_whole _) s5V (Memref.isWhole_whole _) shV (Memref.isWhole_whole _)
            cc0_scratch7 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hpre d (coordsV ⟨_, hci.1⟩ ⟨_, hci.2⟩) O W hO).trans (wp_mono frame _ _ fun _ => obl_post)

end Cert.Proof.KI

end
-- ==== Proof.KI.Launch.lean ====
/-
  The launch of the program with the sparse kernel.

  The kernel is called on four arrays: the index array and the result, of which worker w = 2 i + c (subcore i of
  SparseCore c) takes row w; and the flat table and the bias vector, which every worker reads whole, each at a
  thirty-second share (the full share halved five times). A SparseCore's sixteen workers also take the sixteen rows
  of 512 of its shared scratch, and give them back. Whole arrays are the separating conjunction of their rows, or of
  their shares, over the 32 workers; the 32 workers are the pairs (c, i).

  Around the call the host computes the three arrays the kernel reads from the program's arguments, and re-lays the
  kernel's result; the arguments are not written.
-/
import proofs.«216127_g30709016166882_cont_9to1_510_25_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)
open Idealize.ShloMosaic.Tactic

variable {F : FTy → Type}

local notation "𝕄" => MT nD τ sig (HIx 1) (Elt F) ℕ UU ℕ

/-! ## Shares: a points-to at a share is its leaves' at once -/

/-- The two halves of the leaves of depth n + 1. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is the separating conjunction of the points-tos at the share's leaves. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-! ## The 32 workers are the pairs (SparseCore, subcore) -/

/-- Worker w is subcore w / 2 of SparseCore w % 2. -/
def wkEquiv : Fin 2 × Fin 16 ≃ Fin 32 where
  toFun p := wk p.1 p.2
  invFun w := (⟨w.val % 2, Nat.mod_lt _ (by decide)⟩, ⟨w.val / 2, by have := w.isLt; omega⟩)
  left_inv p := by
    obtain ⟨c, i⟩ := p
    refine Prod.ext (Fin.ext ?_) (Fin.ext ?_)
    · show (2 * i.val + c.val) % 2 = c.val
      have := c.isLt; omega
    · show (2 * i.val + c.val) / 2 = i.val
      have := c.isLt; omega
  right_inv w := Fin.ext (by
    show 2 * (w.val / 2) + w.val % 2 = w.val
    omega)

/-- A separating conjunction over the workers is one over the SparseCores of one over their subcores. -/
theorem bigSep_workers (Φ : Fin 32 → sProp 𝕄) :
    bigSep Finset.univ Φ = bigSep Finset.univ fun c : Fin 2 => bigSep Finset.univ fun i : Fin 16 => Φ (wk c i) := by
  rw [bigSep_univ_equiv wkEquiv Φ, bigSep_univ_prod]
  rfl

/-- The call's grid counts its subcores and its SparseCores as the numbers 16 and 2. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## Rows: the index array's, the result's, a shared scratch's -/

theorem xRowSet_eq (w : Fin 32) : xRowSet w = (xrow w).set := by
  show ((View.whole (main_v6_scv : Ref sig .scVector)).slice (xrow w)).set = _
  rw [View.set_slice]; exact Finset.map_refl
theorem oRowSet_eq (w : Fin 32) : oRowSet w = (orow w).set := by
  show ((View.whole (main_v9_scv : Ref sig .scVector)).slice (orow w)).set = _
  rw [View.set_slice]; exact Finset.map_refl
theorem shRowSet_eq (i : Fin 16) : shRowSet i = (shrow i).set := by
  show ((View.whole (cc0_scratch6 : Ref sig .scVector)).slice (shrow i)).set = _
  rw [View.set_slice]; exact Finset.map_refl

theorem xrows_disjoint : ∀ i ∈ (Finset.univ : Finset (Fin 32)), ∀ j ∈ (Finset.univ : Finset (Fin 32)), i ≠ j → Disjoint (xRowSet i) (xRowSet j) :=
  fun i _ j _ h => by rw [xRowSet_eq, xRowSet_eq]; exact Rect.part_disjoint xdiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem shrows_disjoint : ∀ i ∈ (Finset.univ : Finset (Fin 16)), ∀ j ∈ (Finset.univ : Finset (Fin 16)), i ≠ j → Disjoint (shRowSet i) (shRowSet j) :=
  fun i _ j _ h => by rw [shRowSet_eq, shRowSet_eq]; exact Rect.part_disjoint shdiv h

theorem xrows_cover : (Finset.univ : Finset (Fin 32)).biUnion xRowSet = Finset.univ :=
  (Finset.biUnion_congr rfl fun i _ => xRowSet_eq i).trans (Rect.biUnion_part xdiv)
theorem orows_cover : (Finset.univ : Finset (Fin 32)).biUnion oRowSet = Finset.univ :=
  (Finset.biUnion_congr rfl fun i _ => oRowSet_eq i).trans (Rect.biUnion_part odiv)
theorem shrows_cover : (Finset.univ : Finset (Fin 16)).biUnion shRowSet = Finset.univ :=
  (Finset.biUnion_congr rfl fun i _ => shRowSet_eq i).trans (Rect.biUnion_part shdiv)

/-- The index array whole is its 32 rows. -/
theorem xPts_rows (d : Dev nD) (f : Buf (Elt F) (xLoc d)) :
    (xLoc d ↦{fullShare} f : sProp 𝕄) = bigSep Finset.univ fun w : Fin 32 => xLoc d ↦[xRowSet w]{fullShare} f := by
  rw [← pointsTo_biUnion Finset.univ (ℓ := xLoc d) xRowSet xrows_disjoint, xrows_cover]; try rfl
/-- The result whole is its 32 rows. -/
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
/-- A shared scratch whole is its 16 rows. -/
theorem shPts_rows (d : Dev nD) (c : Fin τ.nSC) (f : Buf (Elt F) (shLoc d c)) :
    (shLoc d c ↦{fullShare} f : sProp 𝕄) = bigSep Finset.univ fun i : Fin 16 => shLoc d c ↦[shRowSet i]{fullShare} f := by
  rw [← pointsTo_biUnion Finset.univ (ℓ := shLoc d c) shRowSet shrows_disjoint, shrows_cover]; try rfl

/-- The flat table whole is the 32 workers' shares of it. -/
theorem wPts_shares (d : Dev nD) (f : Buf (Elt F) (wLoc d)) :
    (wLoc d ↦{fullShare} f : sProp 𝕄) = bigSep Finset.univ fun w : Fin 32 => wLoc d ↦{sq w} f :=
  pointsTo_leaves Finset.univ f 5 fullShare
/-- The bias vector whole is the 32 workers' shares of it. -/
theorem bPts_shares (d : Dev nD) (f : Buf (Elt F) (bLoc d)) :
    (bLoc d ↦{fullShare} f : sProp 𝕄) = bigSep Finset.univ fun w : Fin 32 => bLoc d ↦{sq w} f :=
  pointsTo_leaves Finset.univ f 5 fullShare

variable [FloatOps F] (m : (ℓ : Loc nD τ sig) → Buf (Elt F) ℓ) (ρ : Dev nD → PrngReg)

/-! ## What the handshakes carry, as equations -/

theorem P_st (d : Dev nD) (c : Fin ((K (F := F)).nCore 0)) :
    (P m).st 0 d c = bigSep Finset.univ fun i : Fin 16 => parts m d (Fin.cast nCore_zero c) i (m (oLoc d)) := rfl
theorem P_dn (d : Dev nD) (c : Fin ((K (F := F)).nCore 0)) :
    (P m).dn 0 d c = bigSep Finset.univ fun i : Fin 16 => parts m d (Fin.cast nCore_zero c) i (Ov m d) := rfl
theorem P_go (d : Dev nD) (c : Fin ((K (F := F)).nCore 0)) (i : Fin ((K (F := F)).nSub 0)) :
    (P m).go 0 d c i = iprop(parts m d (Fin.cast nCore_zero c) (Fin.cast nSub_zero i) (m (oLoc d)) ∗ shPart d ((K (F := F)).core 0 c) (Fin.cast nSub_zero i)) := rfl
theorem P_td (d : Dev nD) (c : Fin ((K (F := F)).nCore 0)) (i : Fin ((K (F := F)).nSub 0)) :
    (P m).td 0 d c i = iprop(parts m d (Fin.cast nCore_zero c) (Fin.cast nSub_zero i) (Ov m d) ∗ shPart d ((K (F := F)).core 0 c) (Fin.cast nSub_zero i)) := rfl

/-- The four arrays whole, the result at contents o, are the 32 workers' parts. -/
theorem whole_parts (d : Dev nD) (o : Buf (Elt F) (oLoc d)) :
    (iprop((xLoc d ↦{fullShare} Xv m d) ∗ (wLoc d ↦{fullShare} Wv m d) ∗ (bLoc d ↦{fullShare} Bv m d) ∗ oLoc d ↦{fullShare} o) : sProp 𝕄)
      = bigSep Finset.univ fun c : Fin 2 => bigSep Finset.univ fun i : Fin 16 => parts m d c i o := by
  rw [xPts_rows, wPts_shares, bPts_shares, oPts_rows, ← bigSep_sep', ← bigSep_sep', ← bigSep_sep',
    bigSep_workers (F := F) (fun w => iprop((xLoc d ↦[xRowSet w]{fullShare} Xv m d) ∗ (wLoc d ↦{sq w} Wv m d) ∗ (bLoc d ↦{sq w} Bv m d)
      ∗ oLoc d ↦[oRowSet w]{fullShare} o))]
  rfl

/-- What the call takes for its two SparseCores: the four arrays whole, the result at its launch contents. -/
theorem st0_eq (d : Dev nD) :
    (bigSep Finset.univ fun c : Fin ((K (F := F)).nCore 0) => (P m).st 0 d c)
      = iprop((xLoc d ↦{fullShare} Xv m d) ∗ (wLoc d ↦{fullShare} Wv m d) ∗ (bLoc d ↦{fullShare} Bv m d) ∗ oLoc d ↦{fullShare} m (oLoc d)) := by
  rw [whole_parts]
  exact bigSep_cores (F := F) (fun c => bigSep Finset.univ fun i : Fin 16 => parts m d c i (m (oLoc d)))
/-- What it hands back: the four arrays whole, the result at what the workers left. -/
theorem dn0_eq (d : Dev nD) :
    (bigSep Finset.univ fun c : Fin ((K (F := F)).nCore 0) => (P m).dn 0 d c)
      = iprop((xLoc d ↦{fullShare} Xv m d) ∗ (wLoc d ↦{fullShare} Wv m d) ∗ (bLoc d ↦{fullShare} Bv m d) ∗ oLoc d ↦{fullShare} Ov m d) := by
  rw [whole_parts]
  exact bigSep_cores (F := F) (fun c => bigSep Finset.univ fun i : Fin 16 => parts m d c i (Ov m d))

/-! ## A SparseCore's operands split among its sixteen workers, and join -/

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- A shared scratch whole, at any contents, gives each of its rows at some contents. -/
theorem shRows_split (d : Dev nD) (c : Fin τ.nSC) (f : Buf (Elt F) (shLoc d c)) :
    (shLoc d c ↦{fullShare} f : sProp 𝕄) ⊢ bigSep Finset.univ fun i : Fin 16 => shPart (F := F) d c i := by
  rw [shPts_rows]
  unfold shPart
  exact bigSep_mono fun i _ => BI.BIClass.exists_intro (Φ := fun f' => (shLoc d c ↦[shRowSet i]{fullShare} f' : sProp 𝕄)) f

/-- The rows of a shared scratch, each at contents of its own, are it whole at some contents. -/
theorem shRows_join (d : Dev nD) (c : Fin τ.nSC) :
    (bigSep Finset.univ fun i : Fin 16 => shPart (F := F) d c i) ⊢ (iprop(∃ f, shLoc d c ↦{fullShare} f) : sProp 𝕄) := by
  unfold shPart
  refine (bigSep_exists_pi Finset.univ (fun i (f : Buf (Elt F) (shLoc d c)) => (shLoc d c ↦[shRowSet i]{fullShare} f : sProp 𝕄))).trans ?_
  iintro ⟨%fs, H⟩
  ihave H' := (pointsTo_biUnion_join (ℓ := shLoc d c) (q := fullShare) (Val := Elt F) Finset.univ shRowSet fs (fs 0) shrows_disjoint) $$ H
  icases H' with ⟨%g, -, Hg⟩
  rw [shrows_cover]
  iexists g; iexact Hg

theorem vecSplit : (K (F := F)).VecSplit (P m) 0 := by
  intro d c
  show iprop((P m).st 0 d c ∗ ownBufs (S d ((K (F := F)).core 0 c))) ⊢ |={Set.univ}=> iprop(
      (bigSep Finset.univ fun i : Fin ((K (F := F)).nSub 0) =>
        iprop(parts m d (Fin.cast nCore_zero c) (Fin.cast nSub_zero i) (m (oLoc d)) ∗ shPart d ((K (F := F)).core 0 c) (Fin.cast nSub_zero i)))
      ∗ ((bigSep Finset.univ fun i : Fin ((K (F := F)).nSub 0) =>
            iprop(parts m d (Fin.cast nCore_zero c) (Fin.cast nSub_zero i) (Ov m d) ∗ shPart d ((K (F := F)).core 0 c) (Fin.cast nSub_zero i)))
          -∗ iprop((P m).dn 0 d c ∗ ownBufs (S d ((K (F := F)).core 0 c)))))
  rw [P_st, P_dn,
    bigSep_tasks (F := F) (fun i => iprop(parts m d (Fin.cast nCore_zero c) i (m (oLoc d)) ∗ shPart d ((K (F := F)).core 0 c) i)),
    bigSep_tasks (F := F) (fun i => iprop(parts m d (Fin.cast nCore_zero c) i (Ov m d) ∗ shPart d ((K (F := F)).core 0 c) i)),
    bigSep_sep', bigSep_sep', ownBufs_S]
  iintro ⟨Hst, ⟨%fsh, Hsh⟩, Hrest⟩; imodintro
  isplitl [Hst Hsh]
  · isplitl [Hst]; · iexact Hst
    iapply (shRows_split d ((K (F := F)).core 0 c) fsh); iexact Hsh
  iintro ⟨Hdn, Hsh⟩
  isplitl [Hdn]; · iexact Hdn
  isplitl [Hsh]; · iapply (shRows_join d ((K (F := F)).core 0 c)); iexact Hsh
  iexact Hrest

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- The handshakes' rounds; the counters are dropped; no kernel proof consumes anything of the launch's. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- What @main leaves the claim: the three arguments at their launch contents and the program's result. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ rLoc d ↦{fullShare} X10 (F := F) (Ov m d))

/-! ### The host's operations around the call -/

/-- A TensorCore reference as a buffer of the device. -/
abbrev tb (x : Ref sig .tc) : DevRef τ sig := Proc.devRef .tc x

/-- The ten host operations before the call, in order: the field offsets 100000 f, added to the index argument and
    re-laid; the table re-laid flat; the bias in sixteen lanes. -/
abbrev opsPre : List (HloOp τ sig (Elt F)) :=
  [ StableHlo.nullary main_v0 (iotaInDim S26 32 0),
    StableHlo.nullary main_c (constantI S_ 32 100000#32),
    StableHlo.unary main_c main_v1 (broadcastInDim S26 ![] bcast_S_S26 : (⟨S_, .i32⟩ : BufTy).Contents (Elt F) → (⟨S26, .i32⟩ : BufTy).Contents (Elt F)),
    StableHlo.binary main_v0 main_v1 main_v2 (muli : (⟨S26, .i32⟩ : BufTy).Contents (Elt F) → (⟨S26, .i32⟩ : BufTy).Contents (Elt F) → (⟨S26, .i32⟩ : BufTy).Contents (Elt F)),
    StableHlo.unary main_v2 main_v3 (broadcastInDim S1x26 ![1] bcast_S26_S1x26_1 : (⟨S26, .i32⟩ : BufTy).Contents (Elt F) → (⟨S1x26, .i32⟩ : BufTy).Contents (Elt F)),
    StableHlo.unary main_v3 main_v4 (broadcastInDim S16384x26 ![0, 1] bcast_S1x26_S16384x26_0_1 : (⟨S1x26, .i32⟩ : BufTy).Contents (Elt F) → (⟨S16384x26, .i32⟩ : BufTy).Contents (Elt F)),
    StableHlo.binary main_arg0 main_v4 main_v5 (addi : (⟨S16384x26, .i32⟩ : BufTy).Contents (Elt F) → (⟨S16384x26, .i32⟩ : BufTy).Contents (Elt F) → (⟨S16384x26, .i32⟩ : BufTy).Contents (Elt F)),
    StableHlo.reshape main_v5 main_v6 rfl shapeCasts_S16384x26_S32x13312,
    StableHlo.reshape main_arg1 main_v7 rfl shapeCasts_S26x100000_S2600000,
    StableHlo.unary main_arg2 main_v8 (broadcastInDim S16 ![0] bcast_S1_S16_0 : (⟨S1, .f32⟩ : BufTy).Contents (Elt F) → (⟨S16, .f32⟩ : BufTy).Contents (Elt F)) ]

/-- The one after it: the kernel's result re-laid. -/
abbrev opPost : HloOp τ sig (Elt F) := StableHlo.reshape main_v9 main_v10 rfl shapeCasts_S32x512_S16384x1

/-- @main is the ten operations, the call, the re-laying, the return. -/
theorem main_eq (d : Dev nD) :
    main (F := F) d = (seq (opsPre (F := F)) >>= fun _ => (K (F := F)).run d 0 >>= fun _ =>
      (hlo rfl (opPost (F := F)) fun _ => .ret (⟨⟩ : PUnit)) >>= fun _ => pure (⟨⟩ : PUnit)) := rfl

/-- The TensorCore's unscoped buffers, as buffers of the device: what the launch deals @main. -/
def SA : Finset (DevRef τ sig) :=
  (Finset.univ.filter fun b : Ref sig .tc => ¬ b.isScoped).map ⟨Proc.devRef (sig := sig) (.tc : Proc τ), Proc.devRef_injective _⟩

omit [FloatOps F] m ρ in
theorem tb_mem (x : Ref sig .tc) (h : ¬ x.isScoped) : tb x ∈ SA :=
  Finset.mem_map_of_mem _ (Finset.mem_filter.2 ⟨Finset.mem_univ x, h⟩)

omit [FloatOps F] m ρ in
theorem sub1 {a : Ref sig .tc} (ha : ¬ a.isScoped) : ({tb a} : Finset (DevRef τ sig)) ⊆ SA :=
  Finset.singleton_subset_iff.2 (tb_mem a ha)
omit [FloatOps F] m ρ in
theorem sub2 {a b : Ref sig .tc} (ha : ¬ a.isScoped) (hb : ¬ b.isScoped) : ({tb a, tb b} : Finset (DevRef τ sig)) ⊆ SA :=
  Finset.insert_subset (tb_mem a ha) (sub1 hb)
omit [FloatOps F] m ρ in
theorem sub3 {a b c : Ref sig .tc} (ha : ¬ a.isScoped) (hb : ¬ b.isScoped) (hc : ¬ c.isScoped) :
    ({tb a, tb b, tb c} : Finset (DevRef τ sig)) ⊆ SA :=
  Finset.insert_subset (tb_mem a ha) (sub2 hb hc)

/-- Every buffer the ten operations touch is one of them. -/
theorem opsPre_sub : ∀ op ∈ (opsPre (F := F)), op.bufs ⊆ SA := by
  intro op hop
  simp only [List.mem_cons, List.not_mem_nil, or_false] at hop
  rcases hop with rfl | rfl | rfl | rfl | rfl | rfl | rfl | rfl | rfl | rfl
  · exact sub1 (by decide)
  · exact sub1 (by decide)
  · exact sub2 (by decide) (by decide)
  · exact sub3 (by decide) (by decide) (by decide)
  · exact sub2 (by decide) (by decide)
  · exact sub2 (by decide) (by decide)
  · exact sub3 (by decide) (by decide) (by decide)
  · exact sub2 (by decide) (by decide)
  · exact sub2 (by decide) (by decide)
  · exact sub2 (by decide) (by decide)

theorem opsPre_fresh : ∀ op ∈ (opsPre (F := F)), op.fresh = ∅ := by
  intro op hop
  simp only [List.mem_cons, List.not_mem_nil, or_false] at hop
  rcases hop with rfl | rfl | rfl | rfl | rfl | rfl | rfl | rfl | rfl | rfl <;> rfl

/-- The launch contents of device d's buffers. -/
def V0 (d : Dev nD) : Valuation τ sig (Elt F) := fun b => m (d, b)

theorem unscoped_held (d : Dev nD) :
    (unscopedBufs d (fun b => m ((SparseCore.T d).loc b)) : sProp 𝕄) = held (T d) SA (V0 m d) := by
  unfold unscopedBufs held SA
  rw [bigSep_map]
  rfl

/-! ### What the buffers hold after the ten operations -/

/-- The index array the kernel reads. -/
theorem after_v6 (d : Dev nD) : after (opsPre (F := F)) (V0 m d) (tb main_v6) = Xv m d := by
  after_results
  rfl
/-- The flat table. -/
theorem after_v7 (d : Dev nD) : after (opsPre (F := F)) (V0 m d) (tb main_v7) = Wv m d := by
  after_results
  rfl
/-- The bias in sixteen lanes. -/
theorem after_v8 (d : Dev nD) : after (opsPre (F := F)) (V0 m d) (tb main_v8) = Bv m d := by
  after_results
  rfl
/-- The result array, the program's result and the three arguments are not written. -/
theorem after_v9 (d : Dev nD) : after (opsPre (F := F)) (V0 m d) (tb main_v9) = m (oLoc d) := by
  after_results
  rfl
theorem after_v10 (d : Dev nD) : after (opsPre (F := F)) (V0 m d) (tb main_v10) = m (rLoc d) := by
  after_results
  rfl
theorem after_a0 (d : Dev nD) : after (opsPre (F := F)) (V0 m d) (tb main_arg0) = m (a0Loc d) := by
  after_results
  rfl
theorem after_a1 (d : Dev nD) : after (opsPre (F := F)) (V0 m d) (tb main_arg1) = m (a1Loc d) := by
  after_results
  rfl
theorem after_a2 (d : Dev nD) : after (opsPre (F := F)) (V0 m d) (tb main_arg2) = m (a2Loc d) := by
  after_results
  rfl

/-! ### The eight buffers that matter, out of all of them -/

abbrev S8 : Finset (DevRef τ sig) :=
  {tb main_arg0, tb main_arg1, tb main_arg2, tb main_v6, tb main_v7, tb main_v8, tb main_v9, tb main_v10}

omit [FloatOps F] m ρ in
theorem S8_sub : S8 ⊆ SA := by
  intro b hb
  simp only [S8, Finset.mem_insert, Finset.mem_singleton] at hb
  rcases hb with rfl | rfl | rfl | rfl | rfl | rfl | rfl | rfl <;> exact tb_mem _ (by decide)

omit [FloatOps F] m ρ in
theorem held_S8 (d : Dev nD) (W : Valuation τ sig (Elt F)) :
    (held (T d) S8 W : sProp 𝕄)
      = iprop((a0Loc d ↦{fullShare} W (tb main_arg0)) ∗ (a1Loc d ↦{fullShare} W (tb main_arg1)) ∗ (a2Loc d ↦{fullShare} W (tb main_arg2))
          ∗ (xLoc d ↦{fullShare} W (tb main_v6)) ∗ (wLoc d ↦{fullShare} W (tb main_v7)) ∗ (bLoc d ↦{fullShare} W (tb main_v8))
          ∗ (oLoc d ↦{fullShare} W (tb main_v9)) ∗ rLoc d ↦{fullShare} W (tb main_v10)) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ### The re-laying after the call -/

abbrev S2 : Finset (DevRef τ sig) := {tb main_v9, tb main_v10}

omit [FloatOps F] m ρ in
theorem held_S2 (d : Dev nD) (W : Valuation τ sig (Elt F)) :
    (held (T d) S2 W : sProp 𝕄) = iprop((oLoc d ↦{fullShare} W (tb main_v9)) ∗ rLoc d ↦{fullShare} W (tb main_v10)) := by
  unfold held S2
  rw [SparseCore.bigSep_insert' (by decide), bigSep_singleton]

/-- After the call: the kernel's result array at what the workers left. -/
def V1 (d : Dev nD) : Valuation τ sig (Elt F) := Function.update (V0 m d) (tb main_v9) (Ov m d)

theorem V1_o (d : Dev nD) : V1 m d (tb main_v9) = Ov m d := Function.update_self _ _ _
theorem V1_r (d : Dev nD) : V1 m d (tb main_v10) = m (rLoc d) :=
  Function.update_of_ne (show tb main_v10 ≠ tb main_v9 by decide) _ _

theorem hPost : (opPost (F := F)).bufs ⊆ S2 := Finset.Subset.refl _

/-- The program's result: the kernel's result re-laid. -/
theorem post_r (d : Dev nD) : (opPost (F := F)).result (V1 m d) (tb main_v10) = X10 (F := F) (Ov m d) := by
  unfold opPost
  rw [StableHlo.reshape_result, V1_o]
  rfl
theorem post_o (d : Dev nD) : (opPost (F := F)).result (V1 m d) (tb main_v9) = Ov m d := by
  unfold opPost
  rw [StableHlo.reshape_result_ne _ _ _ _ _ _ _ (by decide), V1_o]

/-- @main on device d's TensorCore: the ten host operations in one step, the call on the four arrays whole, the
    re-laying of its result; the arguments kept throughout. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  -- the ten host operations
  iapply (wp_seq 𝒱 none Set.univ d SA _ (opsPre (F := F)) opsPre_sub opsPre_fresh (V0 m d)) $$ [Hb Hheld]
  · isplitl [Hb]; · iexact Hb
    iexact Hheld
  rw [held_sub_split (T d) S8_sub, held_S8, after_a0, after_a1, after_a2, after_v6, after_v7, after_v8, after_v9, after_v10]
  iintro ⟨Hb, ⟨H0, H1, H2, Hx, Hw, Hbi, Ho, Hr⟩, -⟩
  simp only [wp_bind, wp_pure]
  -- the call: the four arrays whole to the two SparseCores and back
  iapply ((K (F := F)).wp_run (D (F := F)) 𝒱 (EH := EH) (P := P m) κ d 0) $$ [Hst Hx Hw Hbi Ho Hb H0 H1 H2 Hr]
  isplitr; · iexact Hctx
  isplitl [Hst]; · iexact Hst
  isplitl [Hx Hw Hbi Ho]
  · rw [st0_eq]
    isplitl [Hx]; · iexact Hx
    isplitl [Hw]; · iexact Hw
    isplitl [Hbi]; · iexact Hbi
    iexact Ho
  iintro ⟨Hst, Hdn⟩
  ihave Hdn' := (Entails.of_eq (dn0_eq m d)) $$ Hdn
  icases Hdn' with ⟨-, -, -, Ho⟩
  -- the re-laying of the kernel's result
  iapply (wp_hlo_within 𝒱 (SparseCore.T d) none Set.univ (op := opPost) (S := S2) hPost (V := V1 m d)) $$ [Hb Ho Hr]
  · isplitl [Hb]; · iexact Hb
    rw [held_S2, V1_o, V1_r]
    isplitl [Ho]; · iexact Ho
    iexact Hr
  rw [held_S2, post_r, post_o]
  iintro ⟨Hb, -, Hr⟩
  rw [wp_ret]; imodintro; imodintro
  isplitl [Hst]; · iexact Hst
  isplitl [H0]; · iexact H0
  isplitl [H1]; · iexact H1
  isplitl [H2]; · iexact H2
  iexact Hr

/-! ## The claim read off the final memory -/

def fq (d : Dev nD) (s' : Phys nD τ sig (Elt F)) : Prop :=
  s'.mem.mem (rLoc d) = X10 (F := F) (Ov m d) ∧ s'.mem.mem (a0Loc d) = m (a0Loc d) ∧ s'.mem.mem (a1Loc d) = m (a1Loc d)
    ∧ s'.mem.mem (a2Loc d) = m (a2Loc d)

set_option maxRecDepth 16384 in
theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := rLoc d) (I := Finset.univ) (q := fullShare) (f := X10 (F := F) (Ov m d))) $$ [HSI Hr]
  · isplitl [HSI] <;> iassumption
  icases H with %hr
  ipureintro
  exact ⟨funext fun i => hr i (Finset.mem_univ i), funext fun i => h0 i (Finset.mem_univ i), funext fun i => h1 i (Finset.mem_univ i),
    funext fun i => h2 i (Finset.mem_univ i)⟩

/-! ## The program's run -/

/-- Every weakly fair execution of the program's threads terminates, nothing faulting, with the program's result the
    re-laid kernel result and the arguments unchanged — given the proof of one worker's task. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (fun r => ∀ c : Dev nD,
      r.2.mem (rLoc c) = X10 (F := F) (Ov m c) ∧ r.2.mem (a0Loc c) = m (a0Loc c) ∧ r.2.mem (a1Loc c) = m (a1Loc c)
        ∧ r.2.mem (a2Loc c) = m (a2Loc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (fun _ => iprop(emp)) (FIN m) (u₀ (F := F)) (sep_elim_left.trans (hu₀ m)) (hmain m ρ) (fq m) (hfin m)
    (fun r => ∀ c : Dev nD, r.2.mem (rLoc c) = X10 (F := F) (Ov m c) ∧ r.2.mem (a0Loc c) = m (a0Loc c) ∧ r.2.mem (a1Loc c) = m (a1Loc c)
      ∧ r.2.mem (a2Loc c) = m (a2Loc c))
    (fun _ h => h)

end Cert.Proof.KI

end
-- ==== Proof.KB.HostVals.lean ====
/-
  The arrays the kernel is launched on, and the array it leaves, as functions of the program's arguments.

  The index array: entry (r, f) of the argument plus 100000 f — a position of the flat table, whose rows of 100000 are
  the table's 26 rows — re-laid as 32 rows of 13312 words (row w: batch rows 512 w … 512 w + 511, 26 words each).
  The flat table: the table in row-major order. The bias vector: the bias in each of 16 lanes.
  What worker w gathers at position k of its row is the flat table at the k-th word of row w of the index array; its
  results are `Spec.row` of that sequence.
-/
import proofs.«216127_g30709016166882_cont_9to1_510_25_alg».proof.Kernel
import proofs.«216127_g30709016166882_cont_9to1_510_25_alg».proof.Proof.Gen.Kernel
import proofs.«216127_g30709016166882_cont_9to1_510_25_alg».proof.Proof.Spec

noncomputable section

namespace Cert.Proof.KB

open Cert.Kernel Cert.Kernel.Gen

open Idealize.ShloMosaic Idealize.ShloMosaic.ValueIdx

variable {F : FTy → Type} [FloatOps F]

/-- The index array the kernel reads: the host's add of the field offsets, re-laid. -/
def X6 (x : IVec S16384x26 32) : IVec S32x13312 32 :=
  shapeCast S32x13312
    (addi x (broadcastInDim S16384x26 ![0, 1] bcast_S1x26_S16384x26_0_1
      (broadcastInDim S1x26 ![1] bcast_S26_S1x26_1
        (muli (iotaInDim S26 32 0) (broadcastInDim S26 ![] bcast_S_S26 (constantI S_ 32 100000#32))))))
    shapeCasts_S16384x26_S32x13312

/-- The flat table. -/
def X7 (W : FVec F S26x100000 .f32) : FVec F S2600000 .f32 := shapeCast S2600000 W shapeCasts_S26x100000_S2600000

/-- The bias in sixteen lanes. -/
def X8 (bias : FVec F S1 .f32) : FVec F S16 .f32 := broadcastInDim S16 ![0] bcast_S1_S16_0 bias

/-- The program's result from the kernel's: 32 rows of 512 re-laid as 16384 rows of one. -/
def X10 (o : FVec F S32x512 .f32) : FVec F S16384x1 .f32 := shapeCast S16384x1 o shapeCasts_S32x512_S16384x1

/-- What worker `w` gathers at position `k`: the flat table at the `k`-th index word of its row. -/
def wfun (x6 : IVec S32x13312 32) (x7 : FVec F S2600000 .f32) (w : Fin 32) (k : ℕ) : F .f32 :=
  if h : k < 13312 then
    x7 (ix1 (⟨(x6 (ix2 w (⟨k, h⟩ : Fin 13312))).toNat % 2600000, Nat.mod_lt _ (by decide)⟩ : Fin 2600000))
  else Spec.zero

/-- The kernel's result array: row `w`, entry `j` is row `j`'s sum over worker `w`'s gathered sequence. -/
def O9 (x6 : IVec S32x13312 32) (x7 : FVec F S2600000 .f32) (x8 : FVec F S16 .f32) : FVec F S32x512 .f32 :=
  fun i => Spec.row (Spec.vals (wfun x6 x7 (i 0))) (x8 (ix1 (0 : Fin 16))) (i 1).val

end Cert.Proof.KB

end
-- ==== Proof.KB.Range.lean ====
/-
  The re-laid index array read at a word, and the range of its words.

  Word k of row w of the 32 x 13312 array sits at row-major position 13312 w + k = 26 a + f, that is entry
  (a, f) of the 16384 x 26 argument, to which the host has added 100000 f. An entry at most 99999 plus
  100000 f, f below 26, is below 2600000 and does not wrap as a 32-bit word: every word of the index array
  is a position of the flat table.
-/
import proofs.«216127_g30709016166882_cont_9to1_510_25_alg».proof.Proof.KB.HostVals
import Idealize.ShloMosaic.Lib.ValueIdx
import Idealize.ShloMosaic.Lib.Pipeline.Value
import Idealize.ShloMosaic.Lib.ValueLayout

noncomputable section

namespace Cert.Proof.KB

open Cert.Kernel Cert.Kernel.Gen

open Idealize.ShloMosaic Idealize.ShloMosaic.ValueIdx

/-- The field offsets the host adds: at entry (a, f), the word f times 100000. -/
theorem offs_apply (a : Fin 16384) (f : Fin 26) :
    (broadcastInDim S16384x26 ![0, 1] bcast_S1x26_S16384x26_0_1
      (broadcastInDim S1x26 ![1] bcast_S26_S1x26_1
        (muli (iotaInDim S26 32 0) (broadcastInDim S26 ![] bcast_S_S26 (constantI S_ 32 100000#32))))) (ix2 a f)
      = BitVec.ofNat 32 f.val * 100000#32 := by
  refine (broadcastInDim_apply _ _ _ _ (ix2 (0 : Fin 1) f) ?_).trans ?_
  · intro b
    match b with
    | ⟨0, _⟩ => rfl
    | ⟨1, _⟩ => rfl
  refine (broadcastInDim_apply _ _ _ _ (ix1 f) ?_).trans ?_
  · intro b
    match b with
    | ⟨0, _⟩ => rfl
  rfl

/-- Word k of row w of the re-laid index array is the entry (a, f) of the argument at the same row-major
    position, 13312 w + k = 26 a + f, plus the field offset. -/
theorem X6_apply (x : IVec S16384x26 32) (w : Fin 32) (k : Fin 13312) (a : Fin 16384) (f : Fin 26)
    (h : 13312 * w.val + k.val = 26 * a.val + f.val) :
    X6 x (ix2 w k) = x (ix2 a f) + BitVec.ofNat 32 f.val * 100000#32 := by
  unfold X6
  refine (shapeCast_apply _ _ _ (ix2 a f) ?_).trans ?_
  · rw [Shape.rowMajor_val_two, Shape.rowMajor_val_two]
    show a.val * 26 + f.val = w.val * 13312 + k.val
    omega
  · show x (ix2 a f) + _ = _
    rw [offs_apply]

/-- An entry at most 99999 plus 100000 f, f below 26, does not wrap as a 32-bit word. -/
theorem word_toNat (v : BitVec 32) (f : ℕ) (hv : v.toNat ≤ 99999) (hf : f < 26) :
    (v + BitVec.ofNat 32 f * 100000#32).toNat = v.toNat + 100000 * f := by
  simp only [BitVec.toNat_add, BitVec.toNat_mul, BitVec.toNat_ofNat, Nat.reducePow, Nat.reduceMod]
  omega

/-- Row-major position 13312 w + k of the 32 x 13312 array is position 26 a + f of the 16384 x 26 array for
    a = (13312 w + k) / 26, f = (13312 w + k) % 26; the word there is x (a, f) + 100000 f. -/
theorem X6_lt (x : IVec S16384x26 32) (hx : ∀ i, (x i).toNat ≤ 99999) : ∀ i, (X6 x i).toNat < 2600000 := by
  intro i
  obtain ⟨w, k, rfl⟩ : ∃ w k, i = ix2 w k := ⟨i 0, i 1, eq_ix2 i⟩
  have hw := w.isLt
  have hk := k.isLt
  obtain ⟨a, f, h⟩ : ∃ (a : Fin 16384) (f : Fin 26), 13312 * w.val + k.val = 26 * a.val + f.val :=
    ⟨⟨(13312 * w.val + k.val) / 26, by omega⟩, ⟨(13312 * w.val + k.val) % 26, Nat.mod_lt _ (by decide)⟩,
      by show 13312 * w.val + k.val = 26 * ((13312 * w.val + k.val) / 26) + (13312 * w.val + k.val) % 26; omega⟩
  rw [X6_apply x w k a f h]
  have hv := hx (ix2 a f)
  have hf := f.isLt
  rw [word_toNat _ _ hv hf]
  omega

end Cert.Proof.KB

end
-- ==== Proof.KB.Setup.lean ====
/-
  The kernel as the launch theorem sees it: its one call on 2 × 16 vector subcores, the ghost state (the
  handshakes' rounds beside the local transfers' counters), the arrays and each subcore's parts of them.

  Subcore (c, s) is worker w = 2 s + c. It reads row w of the index array (13312 words), all of the flat table and of
  the bias vector (each at a thirty-second share), stages its 512 results through row s of its SparseCore's shared
  scratch and writes row w of the result.
-/
import proofs.«216127_g30709016166882_cont_9to1_510_25_alg».proof.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«216127_g30709016166882_cont_9to1_510_25_alg».proof.Proof.Gen.Kernel
import proofs.«216127_g30709016166882_cont_9to1_510_25_alg».proof.Proof.Gen.Kernel.Skeleton
import proofs.«216127_g30709016166882_cont_9to1_510_25_alg».proof.Proof.Spec
import proofs.«216127_g30709016166882_cont_9to1_510_25_alg».proof.Proof.KB.HostVals

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

abbrev EH : Emb UH (MT nD τ sig (HIx 1) (Elt F) ℕ UU ℕ) := embL

/-! ## The arrays -/

/-- The index array (one row per worker), the flat table, the bias vector, the kernel's result (one row per worker),
    as locations of device `d`. -/
abbrev xLoc (d : Dev nD) : Loc nD τ sig := (SparseCore.T d).loc main_v6
abbrev wLoc (d : Dev nD) : Loc nD τ sig := (SparseCore.T d).loc main_v7
abbrev bLoc (d : Dev nD) : Loc nD τ sig := (SparseCore.T d).loc main_v8
abbrev oLoc (d : Dev nD) : Loc nD τ sig := (SparseCore.T d).loc main_v9

/-- SparseCore `c`'s shared scratch. -/
abbrev shRef (c : Fin τ.nSC) : DevRef τ sig := ⟨.shared, ⟨0, by decide⟩, c⟩
abbrev shLoc (d : Dev nD) (c : Fin τ.nSC) : Loc nD τ sig := (d, shRef c)

/-- The program's three arguments. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev rLoc (d : Dev nD) : Loc nD τ sig := (SparseCore.T d).loc main_v10

/-! ## Workers, rows, shares -/

/-- Subcore `i` of SparseCore `c` is worker `2 i + c`. -/
def wk (c : Fin 2) (i : Fin 16) : Fin 32 := ⟨2 * i.val + c.val, by omega⟩

theorem xdiv : 32 ∣ S32x13312.size 0 := ⟨1, rfl⟩
theorem odiv : 32 ∣ S32x512.size 0 := ⟨1, rfl⟩
theorem shdiv : 16 ∣ S8192.size 0 := ⟨512, rfl⟩
/-- Row `w` of the index array and of the result; row `i` (512 entries) of a shared scratch. -/
abbrev xrow (w : Fin 32) : Rect S32x13312 := Rect.part (s := S32x13312) (a₀ := 0) xdiv w
abbrev orow (w : Fin 32) : Rect S32x512 := Rect.part (s := S32x512) (a₀ := 0) odiv w
abbrev shrow (i : Fin 16) : Rect S8192 := Rect.part (s := S8192) (a₀ := 0) shdiv i
abbrev xRowSet (w : Fin 32) : Finset S32x13312.Idx := ((View.whole (main_v6_scv : Ref sig .scVector)).slice (xrow w)).set
abbrev oRowSet (w : Fin 32) : Finset S32x512.Idx := ((View.whole (main_v9_scv : Ref sig .scVector)).slice (orow w)).set
abbrev shRowSet (i : Fin 16) : Finset S8192.Idx := ((View.whole (cc0_scratch6 : Ref sig .scVector)).slice (shrow i)).set

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Worker `w`'s share of the arrays every worker reads whole: a thirty-second. -/
abbrev sq (w : Fin 32) : PosShare TreeShare := leaf 5 fullShare w

/-! ## What the handshakes carry -/

variable [FloatOps F] (m : (ℓ : Loc nD τ sig) → Buf (Elt F) ℓ)

/-- The arrays the kernel is launched on and the array it leaves, of the launch memory's arguments. -/
def Xv (d : Dev nD) : Buf (Elt F) (xLoc d) := X6 (m (a0Loc d))
def Wv (d : Dev nD) : Buf (Elt F) (wLoc d) := X7 (F := F) (m (a1Loc d))
def Bv (d : Dev nD) : Buf (Elt F) (bLoc d) := X8 (F := F) (m (a2Loc d))
def Ov (d : Dev nD) : Buf (Elt F) (oLoc d) := O9 (F := F) (Xv m d) (Wv m d) (Bv m d)

local notation "𝕄" => MT nD τ sig (HIx 1) (Elt F) ℕ UU ℕ

/-- Worker `(c, i)`'s parts of the four arrays: its row of the index array, its shares of the flat table and of the
    bias vector, its row of the result at contents `o`. -/
def parts (d : Dev nD) (c : Fin 2) (i : Fin 16) (o : Buf (Elt F) (oLoc d)) : sProp 𝕄 :=
  iprop((xLoc d ↦[xRowSet (wk c i)]{fullShare} Xv m d) ∗ (wLoc d ↦{sq (wk c i)} Wv m d) ∗ (bLoc d ↦{sq (wk c i)} Bv m d)
    ∗ oLoc d ↦[oRowSet (wk c i)]{fullShare} o)

/-- Row `i` of SparseCore `c`'s shared scratch, at some contents. -/
def shPart (d : Dev nD) (c : Fin τ.nSC) (i : Fin 16) : sProp 𝕄 := iprop(∃ f, shLoc d c ↦[shRowSet i]{fullShare} f)

/-- The one call hands SparseCore `c` its sixteen workers' parts and takes them back with the result rows written; each
    task takes its parts and its row of the shared scratch. -/
def P : (K (F := F)).Pay (nD := nD) (Val := Elt F) (Name := ℕ) (U := UU) where
  st := fun q d c => match q with | 0 => bigSep Finset.univ fun i : Fin 16 => parts m d (Fin.cast nCore_zero c) i (m (oLoc d))
  dn := fun q d c => match q with | 0 => bigSep Finset.univ fun i : Fin 16 => parts m d (Fin.cast nCore_zero c) i (Ov m d)
  go := fun q d c i => match q with
    | 0 => iprop(parts m d (Fin.cast nCore_zero c) (Fin.cast nSub_zero i) (m (oLoc d)) ∗ shPart d ((K (F := F)).core 0 c) (Fin.cast nSub_zero i))
  td := fun q d c i => match q with
    | 0 => iprop(parts m d (Fin.cast nCore_zero c) (Fin.cast nSub_zero i) (Ov m d) ∗ shPart d ((K (F := F)).core 0 c) (Fin.cast nSub_zero i))
  x := fun _ _ => iprop(emp)

instance P_storable : (P (F := F) m).IsStorable where
  st q d c := match q with | 0 => by unfold P parts; infer_instance
  dn q d c := match q with | 0 => by unfold P parts; infer_instance
  go q d c i := match q with | 0 => by unfold P parts shPart; infer_instance
  td q d c i := match q with | 0 => by unfold P parts shPart; infer_instance

end Cert.Proof.KB

end
-- ==== Proof.KB.Views.lean ====
/-
  One vector subcore's own slices of the arrays: its row of the index array and of the result, its row of the shared
  scratch, and the worker number it is.
-/
import proofs.«216127_g30709016166882_cont_9to1_510_25_alg».proof.Proof.KB.Setup
import Idealize.ShloMosaic.Lib.WritesUnit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v6_scv : Memref Cert.Kernel.sig Kind.scVector Space.hbm Cert.Kernel.S32x13312 EltTy.i32)
local notation "wV" => (Memref.whole Cert.Kernel.main_v7_scv : Memref Cert.Kernel.sig Kind.scVector Space.hbm Cert.Kernel.S2600000 EltTy.f32)
local notation "bV" => (Memref.whole Cert.Kernel.main_v8_scv : Memref Cert.Kernel.sig Kind.scVector Space.hbm Cert.Kernel.S16 EltTy.f32)
local notation "oV" => (Memref.whole Cert.Kernel.main_v9_scv : Memref Cert.Kernel.sig Kind.scVector Space.hbm Cert.Kernel.S32x512 EltTy.f32)
local notation "s0V" => (Memref.whole Cert.Kernel.cc0_scratch0 : Memref Cert.Kernel.sig Kind.scVector Space.vmem Cert.Kernel.S13312 EltTy.i32)
local notation "s1V" => (Memref.whole Cert.Kernel.cc0_scratch1 : Memref Cert.Kernel.sig Kind.scVector Space.vmem Cert.Kernel.S13328 EltTy.f32)
local notation "s2V" => (Memref.whole Cert.Kernel.cc0_scratch2 : Memref Cert.Kernel.sig Kind.scVector Space.vmem Cert.Kernel.S8208 EltTy.f32)
local notation "s3V" => (Memref.whole Cert.Kernel.cc0_scratch3 : Memref Cert.Kernel.sig Kind.scVector Space.vmem Cert.Kernel.S512x16 EltTy.f32)
local notation "s4V" => (Memref.whole Cert.Kernel.cc0_scratch4 : Memref Cert.Kernel.sig Kind.scVector Space.vmem Cert.Kernel.S512 EltTy.f32)
local notation "s5V" => (Memref.whole Cert.Kernel.cc0_scratch5 : Memref Cert.Kernel.sig Kind.scVector Space.vmem Cert.Kernel.S16 EltTy.f32)
local notation "shV" => (Memref.whole Cert.Kernel.cc0_scratch6 : Memref Cert.Kernel.sig Kind.scVector Space.shared Cert.Kernel.S8192 EltTy.f32)

abbrev cV (L : grid0.Coords) : Fin τ.nSC := (L 0).castLE hcore0
abbrev jV (L : grid0.Coords) : Fin τ.nSub := (L 1).castLE hsub0

/-- The subcore's row of the index array and of the result, and its row of the shared scratch, as the task slices them. -/
abbrev xRowK (L : grid0.Coords) : Memref sig .scVector .hbm S13312 .i32 :=
  ((xV).slice (Rect.unit (s := S32x13312) (k0_off1 L) S1x13312.size (k0_off1_inb L)) (fun _ => rfl)).squeeze S13312 squeezes_S1x13312_S13312
abbrev oRowK (L : grid0.Coords) : Memref sig .scVector .hbm S512 .f32 :=
  ((oV).slice (Rect.unit (s := S32x512) (k0_off15 L) S1x512.size (k0_off15_inb L)) (fun _ => rfl)).squeeze S512 squeezes_S1x512_S512
abbrev shRowK (L : grid0.Coords) : Memref sig .scVector .shared S512 .f32 :=
  (shV).slice (Rect.unit (s := S8192) (k0_off14 L) S512.size (k0_off14_inb L)) (fun _ => rfl)

/-- The worker a subcore is. -/
def wL (L : grid0.Coords) : Fin 32 := ⟨2 * (L 1).val + (L 0).val, by have h0 : (L 0).val < 2 := (L 0).isLt; have h1 : (L 1).val < 16 := (L 1).isLt; omega⟩

end Cert.Proof.KB

end
-- ==== Proof.KB.Pure.lean ====
/-
  The pure facts of a subcore's task: what its scratch buffers hold, index by index, after each stage — as statements
  about lists of sixteen-lane stores read at an index, with no program and no logic in them.

  The gathered sequence followed by its zero pad is `Spec.vals`; after `k` trips of the first pass the first `64 k`
  lanes of the lane buffer hold `Spec.fold`; a halving step at distance `dd` reads, for group `n`, sixteen lanes at
  `16 n` and sixteen at `16 n + dd`, none of which an earlier group of the same step has written, so that after the
  step every lane below 8192 holds its old value plus the old value `dd` past it (`Spec.lev`); the last pass writes
  lane 0 of row `j` with lane `16 j` plus lane `16 j + 1` plus the bias.
-/
import proofs.«216127_g30709016166882_cont_9to1_510_25_alg».proof.Proof.KB.Views
import Idealize.ShloMosaic.Lib.WritesUnit
import Idealize.ShloMosaic.Lib.ValueIdx
import Idealize.ShloMosaic.Lib.Pipeline.Value

noncomputable section

namespace Cert.Proof.KB

open Cert.Kernel Cert.Kernel.Gen

open Idealize.ShloMosaic Idealize.ShloMosaic.ValueIdx
open Idealize.ShloMosaic.SparseCore (S V T)

variable {F : FTy → Type} [FloatOps F]

local notation "xV" => (Memref.whole Cert.Kernel.main_v6_scv : Memref Cert.Kernel.sig Kind.scVector Space.hbm Cert.Kernel.S32x13312 EltTy.i32)
local notation "wV" => (Memref.whole Cert.Kernel.main_v7_scv : Memref Cert.Kernel.sig Kind.scVector Space.hbm Cert.Kernel.S2600000 EltTy.f32)
local notation "bV" => (Memref.whole Cert.Kernel.main_v8_scv : Memref Cert.Kernel.sig Kind.scVector Space.hbm Cert.Kernel.S16 EltTy.f32)
local notation "oV" => (Memref.whole Cert.Kernel.main_v9_scv : Memref Cert.Kernel.sig Kind.scVector Space.hbm Cert.Kernel.S32x512 EltTy.f32)
local notation "s0V" => (Memref.whole Cert.Kernel.cc0_scratch0 : Memref Cert.Kernel.sig Kind.scVector Space.vmem Cert.Kernel.S13312 EltTy.i32)
local notation "s1V" => (Memref.whole Cert.Kernel.cc0_scratch1 : Memref Cert.Kernel.sig Kind.scVector Space.vmem Cert.Kernel.S13328 EltTy.f32)
local notation "s2V" => (Memref.whole Cert.Kernel.cc0_scratch2 : Memref Cert.Kernel.sig Kind.scVector Space.vmem Cert.Kernel.S8208 EltTy.f32)
local notation "s3V" => (Memref.whole Cert.Kernel.cc0_scratch3 : Memref Cert.Kernel.sig Kind.scVector Space.vmem Cert.Kernel.S512x16 EltTy.f32)
local notation "s4V" => (Memref.whole Cert.Kernel.cc0_scratch4 : Memref Cert.Kernel.sig Kind.scVector Space.vmem Cert.Kernel.S512 EltTy.f32)
local notation "s5V" => (Memref.whole Cert.Kernel.cc0_scratch5 : Memref Cert.Kernel.sig Kind.scVector Space.vmem Cert.Kernel.S16 EltTy.f32)
local notation "shV" => (Memref.whole Cert.Kernel.cc0_scratch6 : Memref Cert.Kernel.sig Kind.scVector Space.shared Cert.Kernel.S8192 EltTy.f32)

/-! ## The predicates the loops' invariants carry -/

/-- After `k` trips of the first pass the first `64 k` lanes hold the pass's values; the pad holds zeros. -/
def G1 (v : ℕ → F .f32) (k : ℕ) (g : S8208.Idx → F .f32) : Prop :=
  (∀ p : S8208.Idx, (p 0).val < 64 * k → g p = Spec.fold v (p 0).val) ∧ (∀ p : S8208.Idx, 8192 ≤ (p 0).val → g p = Spec.zero)

/-- After `k` trips of a halving step at distance `dd` over `G`. -/
def GLv (dd : ℕ) (G : ℕ → F .f32) (k : ℕ) (g : S8208.Idx → F .f32) : Prop :=
  ∀ p : S8208.Idx, g p = if (p 0).val < 64 * k then Spec.lev dd G (p 0).val else G (p 0).val

/-- After `k` trips of the last pass the first `4 k` rows' lane 0 hold the rows' results. -/
def H5 (G : ℕ → F .f32) (b : FVec F S16 .f32) (k : ℕ) (h : S512x16.Idx → F .f32) : Prop :=
  ∀ j : Fin 512, j.val < 4 * k →
    h (ix2 j (0 : Fin 16)) = FloatOps.addf (FloatOps.addf (G (16 * j.val)) (G (16 * j.val + 1))) (b (ix1 (0 : Fin 16)))

/-! ## Before the loops -/

/-- A lane number below sixteen tests "below ten" as its value says. -/
theorem lane_lt (a : Fin 16) : IntOp.cmpi .slt (BitVec.ofNat 32 a.val) 10#32 = if a.val < 10 then 1#1 else 0#1 := by
  revert a
  decide

/-- The lane mask the kernel builds from the lane numbers. -/
theorem mask_eq (l : S16.Idx) : (k0_pay19 (F := F)) l = Spec.mask (l 0).val := by
  obtain ⟨a, rfl⟩ : ∃ a, l = ix1 a := ⟨l 0, eq_ix1 l⟩
  show Scalar.select (IntOp.cmpi .slt (BitVec.ofNat 32 (0 * 16 + a.val)) 10#32) (Spec.one (F := F)) Spec.zero = Spec.mask a.val
  rw [Nat.zero_mul, Nat.zero_add, lane_lt]
  unfold Spec.mask
  split
  · exact select_one _ _
  · exact select_zero _ _

/-- The two zero vectors the kernel stores as pads. -/
theorem pad17_eq (l : S16.Idx) : (k0_pay17 (F := F)) l = Spec.zero := by
  unfold k0_pay17 k0_pay16
  rw [shapeCast_self]
  rfl
theorem pad18_eq (l : S16.Idx) : (k0_pay18 (F := F)) l = Spec.zero := by
  unfold k0_pay18 k0_pay16
  rw [shapeCast_self]
  rfl

/-- Position k of the subcore's row of the index array is entry (w, k) of the array, w the subcore's worker number: the
    row memref is the one-row slice at row w, re-laid as a sequence. -/
theorem xRowK_emb (L : grid0.Coords) (x : S13312.Idx) :
    (xRowK L).view.emb x = ix2 (wL L) (⟨(x 0).val, (x 0).isLt⟩ : Fin 13312) := by
  have hy : Shape.reshapeEquiv squeezes_S1x13312_S13312.numel_eq x = (ix2 (0 : Fin 1) (⟨(x 0).val, (x 0).isLt⟩ : Fin 13312) : S1x13312.Idx) :=
    Shape.reshapeEquiv_eq_of_rowMajor _ (by
      rw [Shape.rowMajor_val_two, Shape.rowMajor_val_one]
      show 0 * 13312 + (x 0).val = (x 0).val
      omega)
  funext a
  refine Fin.ext ?_
  show (k0_off1 L) a + 1 * (Shape.reshapeEquiv squeezes_S1x13312_S13312.numel_eq x a).val = _
  rw [hy, k0_off1_eq]
  match a with
  | ⟨0, _⟩ =>
    show 2 * (L 1).val + (L 0).val + 1 * 0 = 2 * (L 1).val + (L 0).val
    omega
  | ⟨1, _⟩ =>
    show 0 + 1 * (x 0).val = (x 0).val
    omega

/-- What the indirect gather lands at position `x`: the flat table at the `x`-th word of the subcore's row of the index
    array. -/
theorem gathered (d : Dev nD) (L : grid0.Coords) (X6 : Buf (Elt F) (xLoc d)) (X7 : Buf (Elt F) (wLoc d))
    (f0 : Buf (Elt F) ((V d (cV L) (jV L)).loc cc0_scratch0))
    (hn : S13312.numel = S13312.size gathers_S2600000_S13312.axis')
    (hin : ∀ x, (View.read (Elt F) (s0V).view (View.write (Elt F) (s0V).view f0 (ReadAs.same.apply (View.read (Elt F) (xRowK L).view X6)) Finset.univ) x).toNat
      < S2600000.size gathers_S2600000_S13312.axis)
    (hpre : ∀ i, (X6 i).toNat < 2600000) (x : S13312.Idx) :
    SparseCore.gatherPayload gathers_S2600000_S13312
        (View.read (Elt F) ((wV).slice (Rect.unit (s := S2600000) ![0] S2600000.size inb_S2600000_S2600000_0) (fun _ => rfl)).view X7)
        (SparseCore.rows (View.read (Elt F) (s0V).view (View.write (Elt F) (s0V).view f0 (ReadAs.same.apply (View.read (Elt F) (xRowK L).view X6)) Finset.univ)) hn hin) x
      = wfun X6 X7 (wL L) (x 0).val := by
  have hx : (x 0).val < 13312 := (x 0).isLt
  -- the word the list holds at position x: the index array at (w, x)
  have hword : View.read (Elt F) (s0V).view (View.write (Elt F) (s0V).view f0 (ReadAs.same.apply (View.read (Elt F) (xRowK L).view X6)) Finset.univ) x
      = X6 (ix2 (wL L) (⟨(x 0).val, hx⟩ : Fin 13312)) := by
    rw [View.write_whole_univ]
    show View.read (Elt F) (xRowK L).view X6 x = _
    refine ((View.read_apply _ _).trans (cast_eq _ _)).trans ?_
    rw [xRowK_emb]
  -- the row the list names for position x is that word
  have hsym : S13312.rowMajor.symm ((x gathers_S2600000_S13312.axis').cast hn.symm) = x :=
    (Equiv.symm_apply_eq _).2 (Fin.ext (by
      rw [Shape.rowMajor_val_one]
      rfl))
  have hrow : ((SparseCore.rows (View.read (Elt F) (s0V).view (View.write (Elt F) (s0V).view f0 (ReadAs.same.apply (View.read (Elt F) (xRowK L).view X6)) Finset.univ)) hn hin)
      (x gathers_S2600000_S13312.axis')).val = (X6 (ix2 (wL L) (⟨(x 0).val, hx⟩ : Fin 13312))).toNat := by
    unfold SparseCore.rows
    show (View.read (Elt F) (s0V).view _ (S13312.rowMajor.symm ((x gathers_S2600000_S13312.axis').cast hn.symm))).toNat = _
    rw [hsym, hword]
  unfold SparseCore.gatherPayload wfun
  rw [dif_pos hx]
  refine ((View.read_apply _ _).trans (cast_eq _ _)).trans ?_
  refine congrArg X7 (funext fun a : Fin 1 => Fin.ext ?_)
  obtain rfl : a = 0 := Subsingleton.elim _ _
  have hax := congrArg Fin.val (Shape.Gathers.idx_axis gathers_S2600000_S13312
    (SparseCore.rows (View.read (Elt F) (s0V).view (View.write (Elt F) (s0V).view f0 (ReadAs.same.apply (View.read (Elt F) (xRowK L).view X6)) Finset.univ)) hn hin) x)
  rw [hrow] at hax
  show 0 + 1 * (Shape.Gathers.idx gathers_S2600000_S13312 _ x (0 : Fin 1)).val = (X6 (ix2 (wL L) (⟨(x 0).val, hx⟩ : Fin 13312))).toNat % 2600000
  have hlt := hpre (ix2 (wL L) (⟨(x 0).val, hx⟩ : Fin 13312))
  rw [Nat.mod_eq_of_lt hlt]
  have : (Shape.Gathers.idx gathers_S2600000_S13312
      (SparseCore.rows (View.read (Elt F) (s0V).view (View.write (Elt F) (s0V).view f0 (ReadAs.same.apply (View.read (Elt F) (xRowK L).view X6)) Finset.univ)) hn hin) x
      (0 : Fin 1)).val = (X6 (ix2 (wL L) (⟨(x 0).val, hx⟩ : Fin 13312))).toNat := hax
  omega

/-- The gathered sequence and the zero pad stored after it are `Spec.vals`. -/
theorem vals_eq (d : Dev nD) (L : grid0.Coords) (w : ℕ → F .f32) (G : S13312.Idx → F .f32) (hG : ∀ x, G x = w (x 0).val) (p : S13328.Idx) :
    ((s1V).view.writes (Elt F) ((s1V).view.junk (Val := Elt F))
      [⟨Rect.unit (s := S13328) ![13312] S16.size inb_S13328_S16_13312, k0_pay17⟩, ⟨Rect.unit (s := S13328) ![0] S13312.size inb_S13328_S13312_0, G⟩]
      : Buf (Elt F) ((V d (cV L) (jV L)).loc cc0_scratch1)) p
      = Spec.vals w (p 0).val := by
  have hp8 : (p 0).val < 13328 := (p 0).isLt
  show (s1V).view.read (Elt F) ((s1V).view.writes (Elt F) ((s1V).view.junk (Val := Elt F))
      [⟨Rect.unit (s := S13328) ![13312] S16.size inb_S13328_S16_13312, k0_pay17⟩, ⟨Rect.unit (s := S13328) ![0] S13312.size inb_S13328_S13312_0, G⟩]) p = _
  unfold Spec.vals
  by_cases h : (p 0).val < 13312
  · rw [if_pos h]
    refine (View.read_writes_cons_unit_of_not_mem (Val := Elt F) (s1V).view _ inb_S13328_S16_13312 (k0_pay17 (F := F)) _ p rfl (0 : Fin 1)
      (Or.inl h)).trans ?_
    refine (View.read_writes_cons_unit_of_mem (Val := Elt F) (s1V).view _ inb_S13328_S13312_0 G [] p
      (fun a : Fin 1 => ⟨(p a).val, by
        obtain rfl : a = 0 := Subsingleton.elim _ _
        exact h⟩) rfl (fun a : Fin 1 => by
        obtain rfl : a = 0 := Subsingleton.elim _ _
        show (p 0).val = 0 + (p 0).val
        omega)).trans ?_
    exact hG _
  · rw [if_neg h]
    refine (View.read_writes_cons_unit_of_mem (Val := Elt F) (s1V).view _ inb_S13328_S16_13312 (k0_pay17 (F := F)) _ p
      (fun a : Fin 1 => ⟨(p a).val - 13312, by
        obtain rfl : a = 0 := Subsingleton.elim _ _
        show (p 0).val - 13312 < 16
        omega⟩) rfl (fun a : Fin 1 => by
        obtain rfl : a = 0 := Subsingleton.elim _ _
        show (p 0).val = 13312 + ((p 0).val - 13312)
        omega)).trans ?_
    exact pad17_eq _

/-- The lane buffer's pad after the zero store. -/
theorem pad_eq (d : Dev nD) (L : grid0.Coords) (f2 : Buf (Elt F) ((V d (cV L) (jV L)).loc cc0_scratch2)) (p : S8208.Idx) (hp : 8192 ≤ (p 0).val) :
    ((s2V).view.writes (Elt F) f2 [⟨Rect.unit (s := S8208) ![8192] S16.size inb_S8208_S16_8192, k0_pay18⟩]
      : Buf (Elt F) ((V d (cV L) (jV L)).loc cc0_scratch2)) p = Spec.zero := by
  have hp8 : (p 0).val < 8208 := (p 0).isLt
  show (s2V).view.read (Elt F) ((s2V).view.writes (Elt F) f2 [⟨Rect.unit (s := S8208) ![8192] S16.size inb_S8208_S16_8192, k0_pay18⟩]) p = _
  refine (View.read_writes_cons_unit_of_mem (Val := Elt F) (s2V).view f2 inb_S8208_S16_8192 (k0_pay18 (F := F)) [] p
    (fun a : Fin 1 => ⟨(p a).val - 8192, by
      obtain rfl : a = 0 := Subsingleton.elim _ _
      show (p 0).val - 8192 < 16
      omega⟩) rfl (fun a : Fin 1 => by
      obtain rfl : a = 0 := Subsingleton.elim _ _
      show (p 0).val = 8192 + ((p 0).val - 8192)
      omega)).trans ?_
  exact pad18_eq _

/-- The bias vector as the kernel loads it back from its scratch. -/
theorem bias_eq (d : Dev nD) (L : grid0.Coords) (X8 : Buf (Elt F) (bLoc d)) (f5 : Buf (Elt F) ((V d (cV L) (jV L)).loc cc0_scratch5)) (l : S16.Idx) :
    k0_pay20 (View.readAt (Elt F) (s5V).view (Rect.unit (s := S16) ![0] S16.size inb_S16_S16_0).toLoadRect
      (View.write (Elt F) (s5V).view f5 (ReadAs.same.apply (View.read (Elt F) (bV).view X8)) Finset.univ)) l = X8 l := by
  unfold k0_pay20
  rw [shapeCast_self]
  refine (congrFun (Memref.readAt_unit_zero (Elt F) cc0_scratch5 (off := ![0]) (funext fun a : Fin 1 => by
    obtain rfl : a = 0 := Subsingleton.elim _ _
    rfl) inb_S16_S16_0 _) l).trans ?_
  rw [View.write_whole_univ]
  rfl

/-! ## The first pass -/

theorem G1_init (v : ℕ → F .f32) (g : S8208.Idx → F .f32) (hg : ∀ p : S8208.Idx, 8192 ≤ (p 0).val → g p = Spec.zero) : G1 v 0 g :=
  ⟨fun p hp => absurd hp (by omega), hg⟩

theorem G1_fin (v : ℕ → F .f32) (g : S8208.Idx → F .f32) (hg : G1 v 128 g) (p : S8208.Idx) : g p = Spec.fold v (p 0).val := by
  by_cases h : (p 0).val < 64 * 128
  · exact hg.1 p h
  · rw [hg.2 p (by omega)]
    unfold Spec.fold
    rw [if_neg (by omega)]

/-! ## The closing copies -/

/-- A buffer read through a view after one store over the view's whole shape reads the stored payload. -/
theorem read_writes_whole {sig : RefSig} {κ : Kind} {sp : Space} {s : Shape} {e : EltTy} {Val : EltTy → Type}
    (v : View sig κ sp s e) (f : v.ty.Contents Val) (w : s.Idx → Val e) (x : s.Idx) :
    v.read Val (v.writes Val f [⟨Rect.whole s, w⟩]) x = w x := by
  have h := View.read_writes_cons_emb v f (Rect.whole s) w [] x
  rwa [Rect.emb_whole_apply] at h

/-- Entry j of the subcore's row of the result is entry (w, j) of the result array, w the subcore's worker number. -/
theorem oRowK_emb (L : grid0.Coords) (j : S512.Idx) :
    (oRowK L).view.emb j = ix2 (wL L) (⟨(j 0).val, (j 0).isLt⟩ : Fin 512) := by
  have hy : Shape.reshapeEquiv squeezes_S1x512_S512.numel_eq j = (ix2 (0 : Fin 1) (⟨(j 0).val, (j 0).isLt⟩ : Fin 512) : S1x512.Idx) :=
    Shape.reshapeEquiv_eq_of_rowMajor _ (by
      rw [Shape.rowMajor_val_two, Shape.rowMajor_val_one]
      show 0 * 512 + (j 0).val = (j 0).val
      omega)
  funext a
  refine Fin.ext ?_
  show (k0_off15 L) a + 1 * (Shape.reshapeEquiv squeezes_S1x512_S512.numel_eq j a).val = _
  rw [hy, k0_off15_eq]
  match a with
  | ⟨0, _⟩ =>
    show 2 * (L 1).val + (L 0).val + 1 * 0 = 2 * (L 1).val + (L 0).val
    omega
  | ⟨1, _⟩ =>
    show 0 + 1 * (j 0).val = (j 0).val
    omega

/-- Entry j of lane 0's column of the 512 × 16 row buffer is entry (j, 0) of the buffer. -/
theorem col0_emb (j : S512.Idx) :
    (((s3V).slice (Rect.unit (s := S512x16) ![0, 0] S512x1.size inb_S512x16_S512x1_0_0) (fun _ => rfl)).squeeze S512 squeezes_S512x1_S512).view.emb j
      = ix2 (⟨(j 0).val, (j 0).isLt⟩ : Fin 512) (0 : Fin 16) := by
  have hy : Shape.reshapeEquiv squeezes_S512x1_S512.numel_eq j = (ix2 (⟨(j 0).val, (j 0).isLt⟩ : Fin 512) (0 : Fin 1) : S512x1.Idx) :=
    Shape.reshapeEquiv_eq_of_rowMajor _ (by
      rw [Shape.rowMajor_val_two, Shape.rowMajor_val_one]
      show (j 0).val * 1 + 0 = (j 0).val
      omega)
  funext a
  refine Fin.ext ?_
  show (![0, 0] : Fin 2 → ℕ) a + 1 * (Shape.reshapeEquiv squeezes_S512x1_S512.numel_eq j a).val = _
  rw [hy]
  match a with
  | ⟨0, _⟩ =>
    show 0 + 1 * (j 0).val = (j 0).val
    omega
  | ⟨1, _⟩ =>
    show 0 + 1 * 0 = 0
    omega

/-- The subcore's row of the result after its three closing copies — lane 0 of the row buffer to its row of the shared
    scratch, that to its 512-entry scratch, that to its row of the result array — holds the rows' results. -/
theorem out_eq (d : Dev nD) (L : grid0.Coords) (X6 : Buf (Elt F) (xLoc d)) (X7 : Buf (Elt F) (wLoc d)) (X8 : Buf (Elt F) (bLoc d))
    (b : FVec F S16 .f32) (hb : ∀ l, b l = X8 l) (f9 : Buf (Elt F) (oLoc d)) (fsh : Buf (Elt F) ((V d (cV L) (jV L)).loc cc0_scratch6))
    (f4 : Buf (Elt F) ((V d (cV L) (jV L)).loc cc0_scratch4)) (h5 : Buf (Elt F) ((V d (cV L) (jV L)).loc cc0_scratch3))
    (hh5 : H5 (Spec.tree (Spec.vals (wfun X6 X7 (wL L)))) b 128 h5) :
    ∀ i ∈ (oRowK L).view.set, ((oRowK L).view.writes (Elt F) f9 [⟨Rect.whole S512,
      ReadAs.same.apply (View.read (Elt F) (s4V).view (View.write (Elt F) (s4V).view f4
        (ReadAs.same.apply (View.read (Elt F) ((shV).slice (Rect.unit (s := S8192) (k0_off14 L) S512.size (k0_off14_inb L)) (fun _ => rfl)).view
          ((shRowK L).view.writes (Elt F) fsh [⟨Rect.whole S512,
            ReadAs.same.apply (View.read (Elt F) (((s3V).slice (Rect.unit (s := S512x16) ![0, 0] S512x1.size inb_S512x16_S512x1_0_0) (fun _ => rfl)).squeeze S512 squeezes_S512x1_S512).view h5)⟩])))
        Finset.univ))⟩]) i = O9 (F := F) X6 X7 X8 i := by
  intro i hi
  obtain ⟨j, -, rfl⟩ := Finset.mem_map.1 hi
  have hj : (j 0).val < 512 := (j 0).isLt
  refine ((View.read_apply (v := (oRowK L).view) _ j).trans (cast_eq _ _)).symm.trans ?_
  refine (read_writes_whole (Val := Elt F) (oRowK L).view f9 _ j).trans ?_
  show View.read (Elt F) (s4V).view (View.write (Elt F) (s4V).view f4 _ Finset.univ) j = _
  rw [View.read_write_univ]
  show View.read (Elt F) (shRowK L).view ((shRowK L).view.writes (Elt F) fsh [⟨Rect.whole S512, _⟩]) j = _
  refine (read_writes_whole (Val := Elt F) (shRowK L).view fsh _ j).trans ?_
  show View.read (Elt F) (((s3V).slice (Rect.unit (s := S512x16) ![0, 0] S512x1.size inb_S512x16_S512x1_0_0) (fun _ => rfl)).squeeze S512 squeezes_S512x1_S512).view h5 j = _
  refine ((View.read_apply _ _).trans (cast_eq _ _)).trans ?_
  rw [col0_emb, oRowK_emb, hh5 ⟨(j 0).val, hj⟩ (by
    show (j 0).val < 4 * 128
    omega), hb]
  rfl

end Cert.Proof.KB

end
-- ==== Proof.KB.PureSteps.lean ====
/-
  The pure facts of a subcore's task, continued: one trip of the first pass. A trip stores four groups of sixteen
  lanes, group u of trip k at lanes 64 k + 16 u … 64 k + 16 u + 15; lane l of it is entry 104 k + 26 u + l of the
  sequence plus entry 104 k + 26 u + 16 + l times the lane mask, which is the first pass's value at position
  64 k + 16 u + l = 16 (4 k + u) + l. An index below 64 k, or in the pad, lies in none of the four groups and keeps
  its value.
-/
import proofs.«216127_g30709016166882_cont_9to1_510_25_alg».proof.Proof.KB.Pure

noncomputable section

namespace Cert.Proof.KB

open Cert.Kernel Cert.Kernel.Gen

open Idealize.ShloMosaic Idealize.ShloMosaic.ValueIdx
open Idealize.ShloMosaic.SparseCore (S V T)

variable {F : FTy → Type} [FloatOps F]

local notation "xV" => (Memref.whole Cert.Kernel.main_v6_scv : Memref Cert.Kernel.sig Kind.scVector Space.hbm Cert.Kernel.S32x13312 EltTy.i32)
local notation "wV" => (Memref.whole Cert.Kernel.main_v7_scv : Memref Cert.Kernel.sig Kind.scVector Space.hbm Cert.Kernel.S2600000 EltTy.f32)
local notation "bV" => (Memref.whole Cert.Kernel.main_v8_scv : Memref Cert.Kernel.sig Kind.scVector Space.hbm Cert.Kernel.S16 EltTy.f32)
local notation "oV" => (Memref.whole Cert.Kernel.main_v9_scv : Memref Cert.Kernel.sig Kind.scVector Space.hbm Cert.Kernel.S32x512 EltTy.f32)
local notation "s0V" => (Memref.whole Cert.Kernel.cc0_scratch0 : Memref Cert.Kernel.sig Kind.scVector Space.vmem Cert.Kernel.S13312 EltTy.i32)
local notation "s1V" => (Memref.whole Cert.Kernel.cc0_scratch1 : Memref Cert.Kernel.sig Kind.scVector Space.vmem Cert.Kernel.S13328 EltTy.f32)
local notation "s2V" => (Memref.whole Cert.Kernel.cc0_scratch2 : Memref Cert.Kernel.sig Kind.scVector Space.vmem Cert.Kernel.S8208 EltTy.f32)
local notation "s3V" => (Memref.whole Cert.Kernel.cc0_scratch3 : Memref Cert.Kernel.sig Kind.scVector Space.vmem Cert.Kernel.S512x16 EltTy.f32)
local notation "s4V" => (Memref.whole Cert.Kernel.cc0_scratch4 : Memref Cert.Kernel.sig Kind.scVector Space.vmem Cert.Kernel.S512 EltTy.f32)
local notation "s5V" => (Memref.whole Cert.Kernel.cc0_scratch5 : Memref Cert.Kernel.sig Kind.scVector Space.vmem Cert.Kernel.S16 EltTy.f32)
local notation "shV" => (Memref.whole Cert.Kernel.cc0_scratch6 : Memref Cert.Kernel.sig Kind.scVector Space.shared Cert.Kernel.S8192 EltTy.f32)

/-! ## Reading the sequence buffer, a payload at a lane, a group of the first pass -/

/-- Sixteen consecutive entries read from the sequence buffer at offset off: lane l is entry off + l. -/
theorem read_c1 (d : Dev nD) (L : grid0.Coords) (v : ℕ → F .f32) (c1 : Buf (Elt F) ((V d (cV L) (jV L)).loc cc0_scratch1))
    (hc1 : ∀ p : S13328.Idx, c1 p = v (p 0).val) (off : Fin 1 → ℕ) (inb : ∀ a, off a + S16.size a ≤ S13328.size a) (l : S16.Idx) :
    View.readAt (Elt F) (s1V).view (Rect.unit (s := S13328) off S16.size inb).toLoadRect c1 l = v (off 0 + (l 0).val) := by
  rw [View.readAt_apply]
  show c1 _ = _
  rw [hc1]
  show v (off 0 + 1 * (l 0).val) = _
  rw [Nat.one_mul]

/-- The four stored vectors of a trip, lane by lane: the first operand plus the second times the mask. -/
theorem pay1_apply (mk a b : FVec F S16 .f32) (l : S16.Idx) :
    k0_pay1 mk a b l = FloatOps.addf (a l) (FloatOps.mulf (b l) (mk l)) := by
  unfold k0_pay1
  simp only [shapeCast_self]
  rfl
theorem pay2_apply (mk a b : FVec F S16 .f32) (l : S16.Idx) :
    k0_pay2 mk a b l = FloatOps.addf (a l) (FloatOps.mulf (b l) (mk l)) := by
  unfold k0_pay2
  simp only [shapeCast_self]
  rfl
theorem pay21_apply (mk a b : FVec F S16 .f32) (l : S16.Idx) :
    k0_pay21 mk a b l = FloatOps.addf (a l) (FloatOps.mulf (b l) (mk l)) := by
  unfold k0_pay21
  simp only [shapeCast_self]
  rfl
theorem pay22_apply (mk a b : FVec F S16 .f32) (l : S16.Idx) :
    k0_pay22 mk a b l = FloatOps.addf (a l) (FloatOps.mulf (b l) (mk l)) := by
  unfold k0_pay22
  simp only [shapeCast_self]
  rfl
theorem pay3_eq (a : FVec F S16 .f32) : k0_pay3 a = a := by
  unfold k0_pay3
  simp only [shapeCast_self]

/-- Position 64 k + 16 u + l of the first pass, k < 128, u < 4, l < 16: group 4 k + u, lane l. -/
theorem fold_at (v : ℕ → F .f32) (k u l : ℕ) (hk : k < 128) (hu : u < 4) (hl : l < 16) :
    Spec.fold v (64 * k + 16 * u + l)
      = FloatOps.addf (v (104 * k + 26 * u + l)) (FloatOps.mulf (v (104 * k + 26 * u + 16 + l)) (Spec.mask l)) := by
  have h1 : (64 * k + 16 * u + l) / 16 = 4 * k + u := by omega
  have h2 : (64 * k + 16 * u + l) % 16 = l := by omega
  have h3 : 64 * k + 16 * u + l < 8192 := by omega
  have e1 : 26 * (4 * k + u) + l = 104 * k + 26 * u + l := by omega
  have e2 : 26 * (4 * k + u) + 16 + l = 104 * k + 26 * u + 16 + l := by omega
  unfold Spec.fold
  rw [if_pos h3, h1, h2, e1, e2]

/-- Group u of trip k, lane l: the two loads and the mask give the first pass's value at 64 k + 16 u + l. -/
theorem group_val (d : Dev nD) (L : grid0.Coords) (v : ℕ → F .f32) (c1 : Buf (Elt F) ((V d (cV L) (jV L)).loc cc0_scratch1))
    (hc1 : ∀ p : S13328.Idx, c1 p = v (p 0).val) (k : Fin k0_t1_loop.trips) (u : Fin 4) (l : S16.Idx) :
    FloatOps.addf
        (View.readAt (Elt F) (s1V).view (Rect.unit (s := S13328) (k0_off2 k (BitVec.ofNat 32 u.val)) S16.size (k0_off2_inb k u)).toLoadRect c1 l)
        (FloatOps.mulf
          (View.readAt (Elt F) (s1V).view (Rect.unit (s := S13328) (k0_off3 k (BitVec.ofNat 32 u.val)) S16.size (k0_off3_inb k u)).toLoadRect c1 l)
          (k0_pay19 (F := F) l))
      = Spec.fold v (64 * k.val + 16 * u.val + (l 0).val) := by
  have hk : k.val < 128 := k.isLt
  have hl : (l 0).val < 16 := (l 0).isLt
  rw [read_c1 d L v c1 hc1, read_c1 d L v c1 hc1, k0_off2_eq k u, k0_off3_eq k u, mask_eq, fold_at v k.val u.val (l 0).val hk u.isLt hl]
  rfl

/-! ## A list of sixteen-lane stores into the lane buffer read at an index -/

/-- An index outside group u of trip k reads what the rest of the list left. -/
theorem read_piece_miss (d : Dev nD) (L : grid0.Coords) (g : Buf (Elt F) ((V d (cV L) (jV L)).loc cc0_scratch2)) (k : Fin k0_t1_loop.trips) (u : Fin 4)
    (w : (Rect.unit (s := S8208) (k0_off4 k (BitVec.ofNat 32 u.val)) S16.size (k0_off4_inb k u)).shape.Idx → Elt F .f32)
    (Lst : List (View.Piece (Elt F) S8208 .f32)) (p : S8208.Idx)
    (h : (p 0).val < 64 * k.val + 16 * u.val ∨ 64 * k.val + 16 * u.val + 16 ≤ (p 0).val) :
    ((s2V).view.writes (Elt F) g
        ((⟨Rect.unit (s := S8208) (k0_off4 k (BitVec.ofNat 32 u.val)) S16.size (k0_off4_inb k u), w⟩ : View.Piece (Elt F) S8208 .f32) :: Lst)
        : S8208.Idx → F .f32) p
      = ((s2V).view.writes (Elt F) g Lst : S8208.Idx → F .f32) p :=
  View.read_writes_cons_unit_of_not_mem (s2V).view g (k0_off4_inb k u) w Lst p (k0_off4_eq k u) 0 h

/-- An index at lane l of group u of trip k reads the newest store's lane l. -/
theorem read_piece_hit (d : Dev nD) (L : grid0.Coords) (g : Buf (Elt F) ((V d (cV L) (jV L)).loc cc0_scratch2)) (k : Fin k0_t1_loop.trips) (u : Fin 4)
    (w : (Rect.unit (s := S8208) (k0_off4 k (BitVec.ofNat 32 u.val)) S16.size (k0_off4_inb k u)).shape.Idx → Elt F .f32)
    (Lst : List (View.Piece (Elt F) S8208 .f32)) (p : S8208.Idx) (l : S16.Idx)
    (h : (p 0).val = 64 * k.val + 16 * u.val + (l 0).val) :
    ((s2V).view.writes (Elt F) g
        ((⟨Rect.unit (s := S8208) (k0_off4 k (BitVec.ofNat 32 u.val)) S16.size (k0_off4_inb k u), w⟩ : View.Piece (Elt F) S8208 .f32) :: Lst)
        : S8208.Idx → F .f32) p
      = w l :=
  View.read_writes_cons_unit_of_mem (s2V).view g (k0_off4_inb k u) w Lst p l (k0_off4_eq k u) (Fin.forall_fin_one.mpr h)

/-! ## One trip of the first pass -/

theorem G1_step' (d : Dev nD) (L : grid0.Coords) (v : ℕ → F .f32) (c1 : Buf (Elt F) ((V d (cV L) (jV L)).loc cc0_scratch1))
    (hc1 : ∀ p : S13328.Idx, c1 p = v (p 0).val) (k : Fin k0_t1_loop.trips)
    (g : Buf (Elt F) ((V d (cV L) (jV L)).loc cc0_scratch2)) (hg : G1 v k.val g)
    (r2 : FVec F S16 .f32)
    (hr2 : r2 = k0_pay3 (View.readAt (Elt F) (s1V).view (Rect.unit (s := S13328) (k0_off2 k 2#32) S16.size (k0_off2_inb k 2)).toLoadRect c1)) :
    G1 v (k.val + 1)
      ((s2V).view.writes (Elt F) g
        [⟨Rect.unit (s := S8208) (k0_off4 k 3#32) S16.size (k0_off4_inb k 3),
            k0_pay22 k0_pay19
              (View.readAt (Elt F) (s1V).view (Rect.unit (s := S13328) (k0_off2 k 3#32) S16.size (k0_off2_inb k 3)).toLoadRect c1)
              (View.readAt (Elt F) (s1V).view (Rect.unit (s := S13328) (k0_off3 k 3#32) S16.size (k0_off3_inb k 3)).toLoadRect c1)⟩,
          ⟨Rect.unit (s := S8208) (k0_off4 k 2#32) S16.size (k0_off4_inb k 2),
            k0_pay21 k0_pay19 r2
              (View.readAt (Elt F) (s1V).view (Rect.unit (s := S13328) (k0_off3 k 2#32) S16.size (k0_off3_inb k 2)).toLoadRect c1)⟩,
          ⟨Rect.unit (s := S8208) (k0_off4 k 1#32) S16.size (k0_off4_inb k 1),
            k0_pay2 k0_pay19
              (View.readAt (Elt F) (s1V).view (Rect.unit (s := S13328) (k0_off2 k 1#32) S16.size (k0_off2_inb k 1)).toLoadRect c1)
              (View.readAt (Elt F) (s1V).view (Rect.unit (s := S13328) (k0_off3 k 1#32) S16.size (k0_off3_inb k 1)).toLoadRect c1)⟩,
          ⟨Rect.unit (s := S8208) (k0_off4 k 0#32) S16.size (k0_off4_inb k 0),
            k0_pay1 k0_pay19
              (View.readAt (Elt F) (s1V).view (Rect.unit (s := S13328) (k0_off2 k 0#32) S16.size (k0_off2_inb k 0)).toLoadRect c1)
              (View.readAt (Elt F) (s1V).view (Rect.unit (s := S13328) (k0_off3 k 0#32) S16.size (k0_off3_inb k 0)).toLoadRect c1)⟩]) := by
  have hk : k.val < 128 := k.isLt
  subst hr2
  constructor
  · intro p hp
    by_cases h0 : (p 0).val < 64 * k.val
    · refine (read_piece_miss d L g k 3 _ _ p (by omega)).trans ?_
      refine (read_piece_miss d L g k 2 _ _ p (by omega)).trans ?_
      refine (read_piece_miss d L g k 1 _ _ p (by omega)).trans ?_
      refine (read_piece_miss d L g k 0 _ _ p (by omega)).trans ?_
      exact hg.1 p h0
    by_cases h1 : (p 0).val < 64 * k.val + 16
    · have hl : (p 0).val - (64 * k.val + 16 * 0) < 16 := by omega
      refine (read_piece_miss d L g k 3 _ _ p (by omega)).trans ?_
      refine (read_piece_miss d L g k 2 _ _ p (by omega)).trans ?_
      refine (read_piece_miss d L g k 1 _ _ p (by omega)).trans ?_
      refine (read_piece_hit d L g k 0 _ _ p (ix1 (⟨_, hl⟩ : Fin 16)) (by show (p 0).val = 64 * k.val + 16 * 0 + ((p 0).val - (64 * k.val + 16 * 0)); omega)).trans ?_
      refine (pay1_apply _ _ _ _).trans ?_
      refine (group_val d L v c1 hc1 k 0 _).trans ?_
      exact congrArg (Spec.fold v) (by show 64 * k.val + 16 * 0 + ((p 0).val - (64 * k.val + 16 * 0)) = (p 0).val; omega)
    by_cases h2 : (p 0).val < 64 * k.val + 32
    · have hl : (p 0).val - (64 * k.val + 16 * 1) < 16 := by omega
      refine (read_piece_miss d L g k 3 _ _ p (by omega)).trans ?_
      refine (read_piece_miss d L g k 2 _ _ p (by omega)).trans ?_
      refine (read_piece_hit d L g k 1 _ _ p (ix1 (⟨_, hl⟩ : Fin 16)) (by show (p 0).val = 64 * k.val + 16 * 1 + ((p 0).val - (64 * k.val + 16 * 1)); omega)).trans ?_
      refine (pay2_apply _ _ _ _).trans ?_
      refine (group_val d L v c1 hc1 k 1 _).trans ?_
      exact congrArg (Spec.fold v) (by show 64 * k.val + 16 * 1 + ((p 0).val - (64 * k.val + 16 * 1)) = (p 0).val; omega)
    by_cases h3 : (p 0).val < 64 * k.val + 48
    · have hl : (p 0).val - (64 * k.val + 16 * 2) < 16 := by omega
      refine (read_piece_miss d L g k 3 _ _ p (by omega)).trans ?_
      refine (read_piece_hit d L g k 2 _ _ p (ix1 (⟨_, hl⟩ : Fin 16)) (by show (p 0).val = 64 * k.val + 16 * 2 + ((p 0).val - (64 * k.val + 16 * 2)); omega)).trans ?_
      refine (pay21_apply _ _ _ _).trans ?_
      rw [pay3_eq]
      refine (group_val d L v c1 hc1 k 2 _).trans ?_
      exact congrArg (Spec.fold v) (by show 64 * k.val + 16 * 2 + ((p 0).val - (64 * k.val + 16 * 2)) = (p 0).val; omega)
    · have hl : (p 0).val - (64 * k.val + 16 * 3) < 16 := by omega
      refine (read_piece_hit d L g k 3 _ _ p (ix1 (⟨_, hl⟩ : Fin 16)) (by show (p 0).val = 64 * k.val + 16 * 3 + ((p 0).val - (64 * k.val + 16 * 3)); omega)).trans ?_
      refine (pay22_apply _ _ _ _).trans ?_
      refine (group_val d L v c1 hc1 k 3 _).trans ?_
      exact congrArg (Spec.fold v) (by show 64 * k.val + 16 * 3 + ((p 0).val - (64 * k.val + 16 * 3)) = (p 0).val; omega)
  · intro p hp
    refine (read_piece_miss d L g k 3 _ _ p (by omega)).trans ?_
    refine (read_piece_miss d L g k 2 _ _ p (by omega)).trans ?_
    refine (read_piece_miss d L g k 1 _ _ p (by omega)).trans ?_
    refine (read_piece_miss d L g k 0 _ _ p (by omega)).trans ?_
    exact hg.2 p hp

/-! ## The halving steps -/

theorem GLv_init (dd : ℕ) (G : ℕ → F .f32) (g : S8208.Idx → F .f32) (hg : ∀ p : S8208.Idx, g p = G (p 0).val) : GLv dd G 0 g := by
  intro p
  rw [if_neg (by omega)]
  exact hg p

theorem GLv_fin (dd : ℕ) (G : ℕ → F .f32) (g : S8208.Idx → F .f32) (hg : GLv dd G 128 g) (p : S8208.Idx) :
    g p = Spec.lev dd G (p 0).val := by
  have h := hg p
  by_cases hp : (p 0).val < 8192
  · rw [if_pos (by omega)] at h
    exact h
  · rw [if_neg (by omega)] at h
    rw [h]
    unfold Spec.lev
    rw [if_neg hp]

/-- An index outside the sixteen lanes at o reads what the rest of the list left. -/
theorem s2_miss (d : Dev nD) (L : grid0.Coords) (g : Buf (Elt F) ((V d (cV L) (jV L)).loc cc0_scratch2)) (off : Fin 1 → ℕ) (o : ℕ) (hoff : off = ![o])
    (inb : ∀ a, off a + S16.size a ≤ S8208.size a) (w : (Rect.unit (s := S8208) off S16.size inb).shape.Idx → Elt F .f32)
    (Lst : List (View.Piece (Elt F) S8208 .f32)) (p : S8208.Idx) (h : (p 0).val < o ∨ o + 16 ≤ (p 0).val) :
    ((s2V).view.writes (Elt F) g ((⟨Rect.unit (s := S8208) off S16.size inb, w⟩ : View.Piece (Elt F) S8208 .f32) :: Lst) : S8208.Idx → F .f32) p
      = ((s2V).view.writes (Elt F) g Lst : S8208.Idx → F .f32) p :=
  View.read_writes_cons_unit_of_not_mem (s2V).view g inb w Lst p hoff 0 h

/-- An index at lane l of the sixteen lanes at o reads the newest store's lane l. -/
theorem s2_hit (d : Dev nD) (L : grid0.Coords) (g : Buf (Elt F) ((V d (cV L) (jV L)).loc cc0_scratch2)) (off : Fin 1 → ℕ) (o : ℕ) (hoff : off = ![o])
    (inb : ∀ a, off a + S16.size a ≤ S8208.size a) (w : (Rect.unit (s := S8208) off S16.size inb).shape.Idx → Elt F .f32)
    (Lst : List (View.Piece (Elt F) S8208 .f32)) (p : S8208.Idx) (l : S16.Idx) (h : (p 0).val = o + (l 0).val) :
    ((s2V).view.writes (Elt F) g ((⟨Rect.unit (s := S8208) off S16.size inb, w⟩ : View.Piece (Elt F) S8208 .f32) :: Lst) : S8208.Idx → F .f32) p
      = w l :=
  View.read_writes_cons_unit_of_mem (s2V).view g inb w Lst p l hoff (Fin.forall_fin_one.mpr h)

/-- Sixteen lanes read from the lane buffer at o, where from lo on the buffer holds Gf: lane l is Gf (o + l). -/
theorem s2_readAt (d : Dev nD) (L : grid0.Coords) (g : Buf (Elt F) ((V d (cV L) (jV L)).loc cc0_scratch2)) (Gf : ℕ → F .f32) (lo : ℕ)
    (hgG : ∀ p : S8208.Idx, lo ≤ (p 0).val → g p = Gf (p 0).val) (off : Fin 1 → ℕ) (o : ℕ) (hoff : off = ![o]) (hlo : lo ≤ o)
    (inb : ∀ a, off a + S16.size a ≤ S8208.size a) (l : S16.Idx) :
    View.readAt (Elt F) (s2V).view (Rect.unit (s := S8208) off S16.size inb).toLoadRect g l = Gf (o + (l 0).val) := by
  subst hoff
  rw [View.readAt_apply]
  show g _ = _
  rw [hgG _ (by show lo ≤ o + 1 * (l 0).val; omega)]
  show Gf (o + 1 * (l 0).val) = _
  rw [Nat.one_mul]

/-- One trip of a halving step at distance dd, over any spelling of the offsets: four groups of sixteen lanes at
    64 k + 16 u, each the sum of the sixteen lanes there and the sixteen lanes dd further on. Every lane read lies at
    or after 64 k, where the buffer still holds G. -/
theorem lev_trip (d : Dev nD) (L : grid0.Coords) (dd : ℕ) (G : ℕ → F .f32) (kv : ℕ) (hk : kv < 128)
    (g : Buf (Elt F) ((V d (cV L) (jV L)).loc cc0_scratch2)) (hg : GLv dd G kv g)
    (offA offB : Fin 4 → Fin 1 → ℕ)
    (hA : ∀ u : Fin 4, offA u = ![64 * kv + 16 * u.val]) (hB : ∀ u : Fin 4, offB u = ![64 * kv + 16 * u.val + dd])
    (inbA : ∀ (u : Fin 4) a, offA u a + S16.size a ≤ S8208.size a) (inbB : ∀ (u : Fin 4) a, offB u a + S16.size a ≤ S8208.size a)
    (pay0 pay1 pay2 pay3 : FVec F S16 .f32 → FVec F S16 .f32 → FVec F S16 .f32)
    (hp0 : ∀ a b l, pay0 a b l = FloatOps.addf (a l) (b l)) (hp1 : ∀ a b l, pay1 a b l = FloatOps.addf (a l) (b l))
    (hp2 : ∀ a b l, pay2 a b l = FloatOps.addf (a l) (b l)) (hp3 : ∀ a b l, pay3 a b l = FloatOps.addf (a l) (b l)) :
    GLv dd G (kv + 1) ((s2V).view.writes (Elt F) g
      [⟨Rect.unit (s := S8208) (offA 3) S16.size (inbA 3), pay3 (View.readAt (Elt F) (s2V).view (Rect.unit (s := S8208) (offA 3) S16.size (inbA 3)).toLoadRect g) (View.readAt (Elt F) (s2V).view (Rect.unit (s := S8208) (offB 3) S16.size (inbB 3)).toLoadRect g)⟩,
        ⟨Rect.unit (s := S8208) (offA 2) S16.size (inbA 2), pay2 (View.readAt (Elt F) (s2V).view (Rect.unit (s := S8208) (offA 2) S16.size (inbA 2)).toLoadRect g) (View.readAt (Elt F) (s2V).view (Rect.unit (s := S8208) (offB 2) S16.size (inbB 2)).toLoadRect g)⟩,
        ⟨Rect.unit (s := S8208) (offA 1) S16.size (inbA 1), pay1 (View.readAt (Elt F) (s2V).view (Rect.unit (s := S8208) (offA 1) S16.size (inbA 1)).toLoadRect g) (View.readAt (Elt F) (s2V).view (Rect.unit (s := S8208) (offB 1) S16.size (inbB 1)).toLoadRect g)⟩,
        ⟨Rect.unit (s := S8208) (offA 0) S16.size (inbA 0), pay0 (View.readAt (Elt F) (s2V).view (Rect.unit (s := S8208) (offA 0) S16.size (inbA 0)).toLoadRect g) (View.readAt (Elt F) (s2V).view (Rect.unit (s := S8208) (offB 0) S16.size (inbB 0)).toLoadRect g)⟩]) := by
  have hgG : ∀ p : S8208.Idx, 64 * kv ≤ (p 0).val → g p = G (p 0).val := fun p hp => by
    rw [hg p, if_neg (by omega)]
  intro p
  by_cases h0 : (p 0).val < 64 * kv
  · refine (s2_miss d L g (offA 3) _ (hA 3) (inbA 3) _ _ p (by omega)).trans ?_
    refine (s2_miss d L g (offA 2) _ (hA 2) (inbA 2) _ _ p (by omega)).trans ?_
    refine (s2_miss d L g (offA 1) _ (hA 1) (inbA 1) _ _ p (by omega)).trans ?_
    refine (s2_miss d L g (offA 0) _ (hA 0) (inbA 0) _ _ p (by omega)).trans ?_
    rw [if_pos (by omega)]
    exact (hg p).trans (if_pos h0)
  by_cases h4 : 64 * kv + 64 ≤ (p 0).val
  · refine (s2_miss d L g (offA 3) _ (hA 3) (inbA 3) _ _ p (by omega)).trans ?_
    refine (s2_miss d L g (offA 2) _ (hA 2) (inbA 2) _ _ p (by omega)).trans ?_
    refine (s2_miss d L g (offA 1) _ (hA 1) (inbA 1) _ _ p (by omega)).trans ?_
    refine (s2_miss d L g (offA 0) _ (hA 0) (inbA 0) _ _ p (by omega)).trans ?_
    rw [if_neg (by omega)]
    exact hgG p (by omega)
  · have hlev : Spec.lev dd G (p 0).val = FloatOps.addf (G (p 0).val) (G ((p 0).val + dd)) := by
      unfold Spec.lev
      rw [if_pos (by omega)]
    rw [if_pos (by omega), hlev]
    by_cases h1 : (p 0).val < 64 * kv + 16
    ·
      refine (s2_miss d L g (offA 3) _ (hA 3) (inbA 3) _ _ p (by omega)).trans ?_
      refine (s2_miss d L g (offA 2) _ (hA 2) (inbA 2) _ _ p (by omega)).trans ?_
      refine (s2_miss d L g (offA 1) _ (hA 1) (inbA 1) _ _ p (by omega)).trans ?_
      refine (s2_hit d L g (offA 0) _ (hA 0) (inbA 0) _ _ p (ix1 (⟨(p 0).val - (64 * kv + 16 * 0), by omega⟩ : Fin 16))
        (by show (p 0).val = 64 * kv + 16 * 0 + ((p 0).val - (64 * kv + 16 * 0)); omega)).trans ?_
      rw [hp0, s2_readAt d L g G (64 * kv) hgG (offA 0) _ (hA 0) (by omega), s2_readAt d L g G (64 * kv) hgG (offB 0) _ (hB 0) (by omega)]
      show FloatOps.addf (G (64 * kv + 16 * 0 + ((p 0).val - (64 * kv + 16 * 0)))) (G (64 * kv + 16 * 0 + dd + ((p 0).val - (64 * kv + 16 * 0)))) = _
      rw [show 64 * kv + 16 * 0 + ((p 0).val - (64 * kv + 16 * 0)) = (p 0).val by omega,
        show 64 * kv + 16 * 0 + dd + ((p 0).val - (64 * kv + 16 * 0)) = (p 0).val + dd by omega]
    by_cases h2 : (p 0).val < 64 * kv + 32
    ·
      refine (s2_miss d L g (offA 3) _ (hA 3) (inbA 3) _ _ p (by omega)).trans ?_
      refine (s2_miss d L g (offA 2) _ (hA 2) (inbA 2) _ _ p (by omega)).trans ?_
      refine (s2_hit d L g (offA 1) _ (hA 1) (inbA 1) _ _ p (ix1 (⟨(p 0).val - (64 * kv + 16 * 1), by omega⟩ : Fin 16))
        (by show (p 0).val = 64 * kv + 16 * 1 + ((p 0).val - (64 * kv + 16 * 1)); omega)).trans ?_
      rw [hp1, s2_readAt d L g G (64 * kv) hgG (offA 1) _ (hA 1) (by omega), s2_readAt d L g G (64 * kv) hgG (offB 1) _ (hB 1) (by omega)]
      show FloatOps.addf (G (64 * kv + 16 * 1 + ((p 0).val - (64 * kv + 16 * 1)))) (G (64 * kv + 16 * 1 + dd + ((p 0).val - (64 * kv + 16 * 1)))) = _
      rw [show 64 * kv + 16 * 1 + ((p 0).val - (64 * kv + 16 * 1)) = (p 0).val by omega,
        show 64 * kv + 16 * 1 + dd + ((p 0).val - (64 * kv + 16 * 1)) = (p 0).val + dd by omega]
    by_cases h3 : (p 0).val < 64 * kv + 48
    ·
      refine (s2_miss d L g (offA 3) _ (hA 3) (inbA 3) _ _ p (by omega)).trans ?_
      refine (s2_hit d L g (offA 2) _ (hA 2) (inbA 2) _ _ p (ix1 (⟨(p 0).val - (64 * kv + 16 * 2), by omega⟩ : Fin 16))
        (by show (p 0).val = 64 * kv + 16 * 2 + ((p 0).val - (64 * kv + 16 * 2)); omega)).trans ?_
      rw [hp2, s2_readAt d L g G (64 * kv) hgG (offA 2) _ (hA 2) (by omega), s2_readAt d L g G (64 * kv) hgG (offB 2) _ (hB 2) (by omega)]
      show FloatOps.addf (G (64 * kv + 16 * 2 + ((p 0).val - (64 * kv + 16 * 2)))) (G (64 * kv + 16 * 2 + dd + ((p 0).val - (64 * kv + 16 * 2)))) = _
      rw [show 64 * kv + 16 * 2 + ((p 0).val - (64 * kv + 16 * 2)) = (p 0).val by omega,
        show 64 * kv + 16 * 2 + dd + ((p 0).val - (64 * kv + 16 * 2)) = (p 0).val + dd by omega]
    ·
      refine (s2_hit d L g (offA 3) _ (hA 3) (inbA 3) _ _ p (ix1 (⟨(p 0).val - (64 * kv + 16 * 3), by omega⟩ : Fin 16))
        (by show (p 0).val = 64 * kv + 16 * 3 + ((p 0).val - (64 * kv + 16 * 3)); omega)).trans ?_
      rw [hp3, s2_readAt d L g G (64 * kv) hgG (offA 3) _ (hA 3) (by omega), s2_readAt d L g G (64 * kv) hgG (offB 3) _ (hB 3) (by omega)]
      show FloatOps.addf (G (64 * kv + 16 * 3 + ((p 0).val - (64 * kv + 16 * 3)))) (G (64 * kv + 16 * 3 + dd + ((p 0).val - (64 * kv + 16 * 3)))) = _
      rw [show 64 * kv + 16 * 3 + ((p 0).val - (64 * kv + 16 * 3)) = (p 0).val by omega,
        show 64 * kv + 16 * 3 + dd + ((p 0).val - (64 * kv + 16 * 3)) = (p 0).val + dd by omega]

/-- A store's lanes, the sum of two loads' lanes: the re-layings around the sum are identities. -/
theorem pay4_apply (a b : FVec F S16 .f32) (l : S16.Idx) : k0_pay4 a b l = FloatOps.addf (a l) (b l) := by
  unfold k0_pay4
  simp only [shapeCast_self]
  rfl
theorem pay5_apply (a b : FVec F S16 .f32) (l : S16.Idx) : k0_pay5 a b l = FloatOps.addf (a l) (b l) := by
  unfold k0_pay5
  simp only [shapeCast_self]
  rfl
theorem pay6_apply (a b : FVec F S16 .f32) (l : S16.Idx) : k0_pay6 a b l = FloatOps.addf (a l) (b l) := by
  unfold k0_pay6
  simp only [shapeCast_self]
  rfl
theorem pay23_apply (a b : FVec F S16 .f32) (l : S16.Idx) : k0_pay23 a b l = FloatOps.addf (a l) (b l) := by
  unfold k0_pay23
  simp only [shapeCast_self]
  rfl
theorem pay7_apply (a b : FVec F S16 .f32) (l : S16.Idx) : k0_pay7 a b l = FloatOps.addf (a l) (b l) := by
  unfold k0_pay7
  simp only [shapeCast_self]
  rfl
theorem pay8_apply (a b : FVec F S16 .f32) (l : S16.Idx) : k0_pay8 a b l = FloatOps.addf (a l) (b l) := by
  unfold k0_pay8
  simp only [shapeCast_self]
  rfl
theorem pay9_apply (a b : FVec F S16 .f32) (l : S16.Idx) : k0_pay9 a b l = FloatOps.addf (a l) (b l) := by
  unfold k0_pay9
  simp only [shapeCast_self]
  rfl
theorem pay24_apply (a b : FVec F S16 .f32) (l : S16.Idx) : k0_pay24 a b l = FloatOps.addf (a l) (b l) := by
  unfold k0_pay24
  simp only [shapeCast_self]
  rfl
theorem pay10_apply (a b : FVec F S16 .f32) (l : S16.Idx) : k0_pay10 a b l = FloatOps.addf (a l) (b l) := by
  unfold k0_pay10
  simp only [shapeCast_self]
  rfl
theorem pay11_apply (a b : FVec F S16 .f32) (l : S16.Idx) : k0_pay11 a b l = FloatOps.addf (a l) (b l) := by
  unfold k0_pay11
  simp only [shapeCast_self]
  rfl
theorem pay12_apply (a b : FVec F S16 .f32) (l : S16.Idx) : k0_pay12 a b l = FloatOps.addf (a l) (b l) := by
  unfold k0_pay12
  simp only [shapeCast_self]
  rfl
theorem pay25_apply (a b : FVec F S16 .f32) (l : S16.Idx) : k0_pay25 a b l = FloatOps.addf (a l) (b l) := by
  unfold k0_pay25
  simp only [shapeCast_self]
  rfl

/-- One trip of the halving step at distance 8. -/
theorem GL_step2 (d : Dev nD) (L : grid0.Coords) (G : ℕ → F .f32) (k : Fin k0_t2_loop.trips)
    (g : Buf (Elt F) ((V d (cV L) (jV L)).loc cc0_scratch2)) (hg : GLv 8 G k.val g) :
    GLv 8 G (k.val + 1) ((s2V).view.writes (Elt F) g
      [⟨Rect.unit (s := S8208) (k0_off5 k 3#32) S16.size (k0_off5_inb k 3), k0_pay23 (View.readAt (Elt F) (s2V).view (Rect.unit (s := S8208) (k0_off5 k 3#32) S16.size (k0_off5_inb k 3)).toLoadRect g) (View.readAt (Elt F) (s2V).view (Rect.unit (s := S8208) (k0_off6 k 3#32) S16.size (k0_off6_inb k 3)).toLoadRect g)⟩,
        ⟨Rect.unit (s := S8208) (k0_off5 k 2#32) S16.size (k0_off5_inb k 2), k0_pay6 (View.readAt (Elt F) (s2V).view (Rect.unit (s := S8208) (k0_off5 k 2#32) S16.size (k0_off5_inb k 2)).toLoadRect g) (View.readAt (Elt F) (s2V).view (Rect.unit (s := S8208) (k0_off6 k 2#32) S16.size (k0_off6_inb k 2)).toLoadRect g)⟩,
        ⟨Rect.unit (s := S8208) (k0_off5 k 1#32) S16.size (k0_off5_inb k 1), k0_pay5 (View.readAt (Elt F) (s2V).view (Rect.unit (s := S8208) (k0_off5 k 1#32) S16.size (k0_off5_inb k 1)).toLoadRect g) (View.readAt (Elt F) (s2V).view (Rect.unit (s := S8208) (k0_off6 k 1#32) S16.size (k0_off6_inb k 1)).toLoadRect g)⟩,
        ⟨Rect.unit (s := S8208) (k0_off5 k 0#32) S16.size (k0_off5_inb k 0), k0_pay4 (View.readAt (Elt F) (s2V).view (Rect.unit (s := S8208) (k0_off5 k 0#32) S16.size (k0_off5_inb k 0)).toLoadRect g) (View.readAt (Elt F) (s2V).view (Rect.unit (s := S8208) (k0_off6 k 0#32) S16.size (k0_off6_inb k 0)).toLoadRect g)⟩]) :=
  lev_trip d L 8 G k.val k.isLt g hg (fun u => k0_off5 k (BitVec.ofNat 32 u.val)) (fun u => k0_off6 k (BitVec.ofNat 32 u.val))
    (k0_off5_eq k) (k0_off6_eq k) (k0_off5_inb k) (k0_off6_inb k) k0_pay4 k0_pay5 k0_pay6 k0_pay23
    pay4_apply pay5_apply pay6_apply pay23_apply

/-- One trip of the halving step at distance 4. -/
theorem GL_step3 (d : Dev nD) (L : grid0.Coords) (G : ℕ → F .f32) (k : Fin k0_t3_loop.trips)
    (g : Buf (Elt F) ((V d (cV L) (jV L)).loc cc0_scratch2)) (hg : GLv 4 G k.val g) :
    GLv 4 G (k.val + 1) ((s2V).view.writes (Elt F) g
      [⟨Rect.unit (s := S8208) (k0_off7 k 3#32) S16.size (k0_off7_inb k 3), k0_pay24 (View.readAt (Elt F) (s2V).view (Rect.unit (s := S8208) (k0_off7 k 3#32) S16.size (k0_off7_inb k 3)).toLoadRect g) (View.readAt (Elt F) (s2V).view (Rect.unit (s := S8208) (k0_off8 k 3#32) S16.size (k0_off8_inb k 3)).toLoadRect g)⟩,
        ⟨Rect.unit (s := S8208) (k0_off7 k 2#32) S16.size (k0_off7_inb k 2), k0_pay9 (View.readAt (Elt F) (s2V).view (Rect.unit (s := S8208) (k0_off7 k 2#32) S16.size (k0_off7_inb k 2)).toLoadRect g) (View.readAt (Elt F) (s2V).view (Rect.unit (s := S8208) (k0_off8 k 2#32) S16.size (k0_off8_inb k 2)).toLoadRect g)⟩,
        ⟨Rect.unit (s := S8208) (k0_off7 k 1#32) S16.size (k0_off7_inb k 1), k0_pay8 (View.readAt (Elt F) (s2V).view (Rect.unit (s := S8208) (k0_off7 k 1#32) S16.size (k0_off7_inb k 1)).toLoadRect g) (View.readAt (Elt F) (s2V).view (Rect.unit (s := S8208) (k0_off8 k 1#32) S16.size (k0_off8_inb k 1)).toLoadRect g)⟩,
        ⟨Rect.unit (s := S8208) (k0_off7 k 0#32) S16.size (k0_off7_inb k 0), k0_pay7 (View.readAt (Elt F) (s2V).view (Rect.unit (s := S8208) (k0_off7 k 0#32) S16.size (k0_off7_inb k 0)).toLoadRect g) (View.readAt (Elt F) (s2V).view (Rect.unit (s := S8208) (k0_off8 k 0#32) S16.size (k0_off8_inb k 0)).toLoadRect g)⟩]) :=
  lev_trip d L 4 G k.val k.isLt g hg (fun u => k0_off7 k (BitVec.ofNat 32 u.val)) (fun u => k0_off8 k (BitVec.ofNat 32 u.val))
    (k0_off7_eq k) (k0_off8_eq k) (k0_off7_inb k) (k0_off8_inb k) k0_pay7 k0_pay8 k0_pay9 k0_pay24
    pay7_apply pay8_apply pay9_apply pay24_apply

/-- One trip of the halving step at distance 2. -/
theorem GL_step4 (d : Dev nD) (L : grid0.Coords) (G : ℕ → F .f32) (k : Fin k0_t4_loop.trips)
    (g : Buf (Elt F) ((V d (cV L) (jV L)).loc cc0_scratch2)) (hg : GLv 2 G k.val g) :
    GLv 2 G (k.val + 1) ((s2V).view.writes (Elt F) g
      [⟨Rect.unit (s := S8208) (k0_off9 k 3#32) S16.size (k0_off9_inb k 3), k0_pay25 (View.readAt (Elt F) (s2V).view (Rect.unit (s := S8208) (k0_off9 k 3#32) S16.size (k0_off9_inb k 3)).toLoadRect g) (View.readAt (Elt F) (s2V).view (Rect.unit (s := S8208) (k0_off10 k 3#32) S16.size (k0_off10_inb k 3)).toLoadRect g)⟩,
        ⟨Rect.unit (s := S8208) (k0_off9 k 2#32) S16.size (k0_off9_inb k 2), k0_pay12 (View.readAt (Elt F) (s2V).view (Rect.unit (s := S8208) (k0_off9 k 2#32) S16.size (k0_off9_inb k 2)).toLoadRect g) (View.readAt (Elt F) (s2V).view (Rect.unit (s := S8208) (k0_off10 k 2#32) S16.size (k0_off10_inb k 2)).toLoadRect g)⟩,
        ⟨Rect.unit (s := S8208) (k0_off9 k 1#32) S16.size (k0_off9_inb k 1), k0_pay11 (View.readAt (Elt F) (s2V).view (Rect.unit (s := S8208) (k0_off9 k 1#32) S16.size (k0_off9_inb k 1)).toLoadRect g) (View.readAt (Elt F) (s2V).view (Rect.unit (s := S8208) (k0_off10 k 1#32) S16.size (k0_off10_inb k 1)).toLoadRect g)⟩,
        ⟨Rect.unit (s := S8208) (k0_off9 k 0#32) S16.size (k0_off9_inb k 0), k0_pay10 (View.readAt (Elt F) (s2V).view (Rect.unit (s := S8208) (k0_off9 k 0#32) S16.size (k0_off9_inb k 0)).toLoadRect g) (View.readAt (Elt F) (s2V).view (Rect.unit (s := S8208) (k0_off10 k 0#32) S16.size (k0_off10_inb k 0)).toLoadRect g)⟩]) :=
  lev_trip d L 2 G k.val k.isLt g hg (fun u => k0_off9 k (BitVec.ofNat 32 u.val)) (fun u => k0_off10 k (BitVec.ofNat 32 u.val))
    (k0_off9_eq k) (k0_off10_eq k) (k0_off9_inb k) (k0_off10_inb k) k0_pay10 k0_pay11 k0_pay12 k0_pay25
    pay10_apply pay11_apply pay12_apply pay25_apply

/-! ## The last pass -/

theorem H5_init (G : ℕ → F .f32) (b : FVec F S16 .f32) (h : S512x16.Idx → F .f32) : H5 G b 0 h := by
  intro j hj
  omega

theorem H5_fin (G : ℕ → F .f32) (b : FVec F S16 .f32) (h : S512x16.Idx → F .f32) (hh : H5 G b 128 h) (j : Fin 512) :
    h (ix2 j (0 : Fin 16)) = FloatOps.addf (FloatOps.addf (G (16 * j.val)) (G (16 * j.val + 1))) (b (ix1 (0 : Fin 16))) :=
  hh j (by have := j.isLt; omega)

/-- An index in another row than r reads what the rest of the list left. -/
theorem s3_miss (d : Dev nD) (L : grid0.Coords) (h : Buf (Elt F) ((V d (cV L) (jV L)).loc cc0_scratch3)) (off : Fin 2 → ℕ) (r : ℕ) (hoff : off = ![r, 0])
    (inb : ∀ a, off a + S1x16.size a ≤ S512x16.size a) (w : (Rect.unit (s := S512x16) off S1x16.size inb).shape.Idx → Elt F .f32)
    (Lst : List (View.Piece (Elt F) S512x16 .f32)) (y : S512x16.Idx) (hy : (y 0).val < r ∨ r + 1 ≤ (y 0).val) :
    ((s3V).view.writes (Elt F) h ((⟨Rect.unit (s := S512x16) off S1x16.size inb, w⟩ : View.Piece (Elt F) S512x16 .f32) :: Lst) : S512x16.Idx → F .f32) y
      = ((s3V).view.writes (Elt F) h Lst : S512x16.Idx → F .f32) y :=
  View.read_writes_cons_unit_of_not_mem (s3V).view h inb w Lst y hoff 0 hy

/-- Lane 0 of row r reads the newest store's lane (0, 0). -/
theorem s3_hit (d : Dev nD) (L : grid0.Coords) (h : Buf (Elt F) ((V d (cV L) (jV L)).loc cc0_scratch3)) (off : Fin 2 → ℕ) (r : ℕ) (hoff : off = ![r, 0])
    (inb : ∀ a, off a + S1x16.size a ≤ S512x16.size a) (w : (Rect.unit (s := S512x16) off S1x16.size inb).shape.Idx → Elt F .f32)
    (Lst : List (View.Piece (Elt F) S512x16 .f32)) (y : S512x16.Idx) (hy0 : (y 0).val = r) (hy1 : (y 1).val = 0) :
    ((s3V).view.writes (Elt F) h ((⟨Rect.unit (s := S512x16) off S1x16.size inb, w⟩ : View.Piece (Elt F) S512x16 .f32) :: Lst) : S512x16.Idx → F .f32) y
      = w (ix2 (0 : Fin 1) (0 : Fin 16)) :=
  View.read_writes_cons_unit_of_mem (s3V).view h inb w Lst y (ix2 (0 : Fin 1) (0 : Fin 16)) hoff
    (Fin.forall_fin_two.mpr ⟨by show (y 0).val = r + 0; omega, by show (y 1).val = 0 + 0; omega⟩)

/-- Lane (0, 0) of a stored row: the two loads' lane 0 plus the bias's; the re-laying of sixteen lanes as a row of
    sixteen keeps lane 0. -/
theorem relay_zero (x : FVec F S16 .f32) : shapeCast S1x16 x shapeCasts_S16_S1x16 (ix2 (0 : Fin 1) (0 : Fin 16)) = x (ix1 (0 : Fin 16)) :=
  shapeCast_apply x shapeCasts_S16_S1x16 _ (ix1 (0 : Fin 16)) (by
    rw [Shape.rowMajor_val_one, Shape.rowMajor_val_two]
    rfl)
theorem pay13_apply (b a c : FVec F S16 .f32) :
    k0_pay13 b a c (ix2 (0 : Fin 1) (0 : Fin 16))
      = FloatOps.addf (FloatOps.addf (a (ix1 (0 : Fin 16))) (c (ix1 (0 : Fin 16)))) (b (ix1 (0 : Fin 16))) := by
  unfold k0_pay13
  simp only [shapeCast_self]
  exact relay_zero _
theorem pay14_apply (b a c : FVec F S16 .f32) :
    k0_pay14 b a c (ix2 (0 : Fin 1) (0 : Fin 16))
      = FloatOps.addf (FloatOps.addf (a (ix1 (0 : Fin 16))) (c (ix1 (0 : Fin 16)))) (b (ix1 (0 : Fin 16))) := by
  unfold k0_pay14
  simp only [shapeCast_self]
  exact relay_zero _
theorem pay27_apply (b a c : FVec F S16 .f32) :
    k0_pay27 b a c (ix2 (0 : Fin 1) (0 : Fin 16))
      = FloatOps.addf (FloatOps.addf (a (ix1 (0 : Fin 16))) (c (ix1 (0 : Fin 16)))) (b (ix1 (0 : Fin 16))) := by
  unfold k0_pay27
  simp only [shapeCast_self]
  exact relay_zero _
theorem pay26_apply (b a c : FVec F S16 .f32) :
    k0_pay26 b a c (ix2 (0 : Fin 1) (0 : Fin 16))
      = FloatOps.addf (FloatOps.addf (a (ix1 (0 : Fin 16))) (c (ix1 (0 : Fin 16)))) (b (ix1 (0 : Fin 16))) := by
  unfold k0_pay26
  simp only [shapeCast_self]
  exact relay_zero _
theorem pay15_eq (a : FVec F S16 .f32) : k0_pay15 a = a := by
  unfold k0_pay15
  simp only [shapeCast_self]

/-- One trip of the last pass: rows 4 k … 4 k + 3, lane 0 of row j the sum of lanes 16 j and 16 j + 1 and the bias. -/
theorem H5_step (d : Dev nD) (L : grid0.Coords) (G : ℕ → F .f32) (b : FVec F S16 .f32)
    (g4 : Buf (Elt F) ((V d (cV L) (jV L)).loc cc0_scratch2)) (hg4 : ∀ p : S8208.Idx, g4 p = G (p 0).val)
    (k : Fin k0_t5_loop.trips) (h : Buf (Elt F) ((V d (cV L) (jV L)).loc cc0_scratch3)) (hh : H5 G b k.val h) :
    H5 G b (k.val + 1) ((s3V).view.writes (Elt F) h
      [⟨Rect.unit (s := S512x16) (k0_off13 k 3#32) S1x16.size (k0_off13_inb k 3), k0_pay27 b (View.readAt (Elt F) (s2V).view (Rect.unit (s := S8208) (k0_off11 k 3#32) S16.size (k0_off11_inb k 3)).toLoadRect g4) (View.readAt (Elt F) (s2V).view (Rect.unit (s := S8208) (k0_off12 k 3#32) S16.size (k0_off12_inb k 3)).toLoadRect g4)⟩,
        ⟨Rect.unit (s := S512x16) (k0_off13 k 2#32) S1x16.size (k0_off13_inb k 2), k0_pay26 b (k0_pay15 (View.readAt (Elt F) (s2V).view (Rect.unit (s := S8208) (k0_off11 k 2#32) S16.size (k0_off11_inb k 2)).toLoadRect g4)) (View.readAt (Elt F) (s2V).view (Rect.unit (s := S8208) (k0_off12 k 2#32) S16.size (k0_off12_inb k 2)).toLoadRect g4)⟩,
        ⟨Rect.unit (s := S512x16) (k0_off13 k 1#32) S1x16.size (k0_off13_inb k 1), k0_pay14 b (View.readAt (Elt F) (s2V).view (Rect.unit (s := S8208) (k0_off11 k 1#32) S16.size (k0_off11_inb k 1)).toLoadRect g4) (View.readAt (Elt F) (s2V).view (Rect.unit (s := S8208) (k0_off12 k 1#32) S16.size (k0_off12_inb k 1)).toLoadRect g4)⟩,
        ⟨Rect.unit (s := S512x16) (k0_off13 k 0#32) S1x16.size (k0_off13_inb k 0), k0_pay13 b (View.readAt (Elt F) (s2V).view (Rect.unit (s := S8208) (k0_off11 k 0#32) S16.size (k0_off11_inb k 0)).toLoadRect g4) (View.readAt (Elt F) (s2V).view (Rect.unit (s := S8208) (k0_off12 k 0#32) S16.size (k0_off12_inb k 0)).toLoadRect g4)⟩]) := by
  have hk : k.val < 128 := k.isLt
  intro j hj
  by_cases h0 : j.val < 4 * k.val
  · refine (s3_miss d L h _ _ (k0_off13_eq k 3) (k0_off13_inb k 3) _ _ _ (by show j.val < 4 * k.val + 3 ∨ 4 * k.val + 3 + 1 ≤ j.val; omega)).trans ?_
    refine (s3_miss d L h _ _ (k0_off13_eq k 2) (k0_off13_inb k 2) _ _ _ (by show j.val < 4 * k.val + 2 ∨ 4 * k.val + 2 + 1 ≤ j.val; omega)).trans ?_
    refine (s3_miss d L h _ _ (k0_off13_eq k 1) (k0_off13_inb k 1) _ _ _ (by show j.val < 4 * k.val + 1 ∨ 4 * k.val + 1 + 1 ≤ j.val; omega)).trans ?_
    refine (s3_miss d L h _ _ (k0_off13_eq k 0) (k0_off13_inb k 0) _ _ _ (by show j.val < 4 * k.val + 0 ∨ 4 * k.val + 0 + 1 ≤ j.val; omega)).trans ?_
    exact hh j h0
  by_cases h1 : j.val = 4 * k.val
  ·
      refine (s3_miss d L h _ _ (k0_off13_eq k 3) (k0_off13_inb k 3) _ _ _ (by show j.val < 4 * k.val + 3 ∨ 4 * k.val + 3 + 1 ≤ j.val; omega)).trans ?_
      refine (s3_miss d L h _ _ (k0_off13_eq k 2) (k0_off13_inb k 2) _ _ _ (by show j.val < 4 * k.val + 2 ∨ 4 * k.val + 2 + 1 ≤ j.val; omega)).trans ?_
      refine (s3_miss d L h _ _ (k0_off13_eq k 1) (k0_off13_inb k 1) _ _ _ (by show j.val < 4 * k.val + 1 ∨ 4 * k.val + 1 + 1 ≤ j.val; omega)).trans ?_
      refine (s3_hit d L h _ _ (k0_off13_eq k 0) (k0_off13_inb k 0) _ _ _ (by show j.val = 4 * k.val + 0; omega) rfl).trans ?_
      refine (pay13_apply _ _ _).trans ?_
      have e11 : (View.readAt (Elt F) (s2V).view (Rect.unit (s := S8208) (k0_off11 k 0#32) S16.size (k0_off11_inb k 0)).toLoadRect g4) (ix1 (0 : Fin 16)) = G (16 * j.val) :=
        (s2_readAt d L g4 G 0 (fun p _ => hg4 p) _ _ (k0_off11_eq k 0) (Nat.zero_le _) _ _).trans
          (congrArg G (by show 64 * k.val + 16 * 0 + 0 = 16 * j.val; omega))
      have e12 : (View.readAt (Elt F) (s2V).view (Rect.unit (s := S8208) (k0_off12 k 0#32) S16.size (k0_off12_inb k 0)).toLoadRect g4) (ix1 (0 : Fin 16)) = G (16 * j.val + 1) :=
        (s2_readAt d L g4 G 0 (fun p _ => hg4 p) _ _ (k0_off12_eq k 0) (Nat.zero_le _) _ _).trans
          (congrArg G (by show 64 * k.val + 16 * 0 + 1 + 0 = 16 * j.val + 1; omega))
      rw [e11, e12]
  by_cases h2 : j.val = 4 * k.val + 1
  ·
      refine (s3_miss d L h _ _ (k0_off13_eq k 3) (k0_off13_inb k 3) _ _ _ (by show j.val < 4 * k.val + 3 ∨ 4 * k.val + 3 + 1 ≤ j.val; omega)).trans ?_
      refine (s3_miss d L h _ _ (k0_off13_eq k 2) (k0_off13_inb k 2) _ _ _ (by show j.val < 4 * k.val + 2 ∨ 4 * k.val + 2 + 1 ≤ j.val; omega)).trans ?_
      refine (s3_hit d L h _ _ (k0_off13_eq k 1) (k0_off13_inb k 1) _ _ _ (by show j.val = 4 * k.val + 1; omega) rfl).trans ?_
      refine (pay14_apply _ _ _).trans ?_
      have e11 : (View.readAt (Elt F) (s2V).view (Rect.unit (s := S8208) (k0_off11 k 1#32) S16.size (k0_off11_inb k 1)).toLoadRect g4) (ix1 (0 : Fin 16)) = G (16 * j.val) :=
        (s2_readAt d L g4 G 0 (fun p _ => hg4 p) _ _ (k0_off11_eq k 1) (Nat.zero_le _) _ _).trans
          (congrArg G (by show 64 * k.val + 16 * 1 + 0 = 16 * j.val; omega))
      have e12 : (View.readAt (Elt F) (s2V).view (Rect.unit (s := S8208) (k0_off12 k 1#32) S16.size (k0_off12_inb k 1)).toLoadRect g4) (ix1 (0 : Fin 16)) = G (16 * j.val + 1) :=
        (s2_readAt d L g4 G 0 (fun p _ => hg4 p) _ _ (k0_off12_eq k 1) (Nat.zero_le _) _ _).trans
          (congrArg G (by show 64 * k.val + 16 * 1 + 1 + 0 = 16 * j.val + 1; omega))
      rw [e11, e12]
  by_cases h3 : j.val = 4 * k.val + 2
  ·
      refine (s3_miss d L h _ _ (k0_off13_eq k 3) (k0_off13_inb k 3) _ _ _ (by show j.val < 4 * k.val + 3 ∨ 4 * k.val + 3 + 1 ≤ j.val; omega)).trans ?_
      refine (s3_hit d L h _ _ (k0_off13_eq k 2) (k0_off13_inb k 2) _ _ _ (by show j.val = 4 * k.val + 2; omega) rfl).trans ?_
      refine (pay26_apply _ _ _).trans ?_
      have e11 : (View.readAt (Elt F) (s2V).view (Rect.unit (s := S8208) (k0_off11 k 2#32) S16.size (k0_off11_inb k 2)).toLoadRect g4) (ix1 (0 : Fin 16)) = G (16 * j.val) :=
        (s2_readAt d L g4 G 0 (fun p _ => hg4 p) _ _ (k0_off11_eq k 2) (Nat.zero_le _) _ _).trans
          (congrArg G (by show 64 * k.val + 16 * 2 + 0 = 16 * j.val; omega))
      have e12 : (View.readAt (Elt F) (s2V).view (Rect.unit (s := S8208) (k0_off12 k 2#32) S16.size (k0_off12_inb k 2)).toLoadRect g4) (ix1 (0 : Fin 16)) = G (16 * j.val + 1) :=
        (s2_readAt d L g4 G 0 (fun p _ => hg4 p) _ _ (k0_off12_eq k 2) (Nat.zero_le _) _ _).trans
          (congrArg G (by show 64 * k.val + 16 * 2 + 1 + 0 = 16 * j.val + 1; omega))
      rw [pay15_eq, e11, e12]
  ·
      refine (s3_hit d L h _ _ (k0_off13_eq k 3) (k0_off13_inb k 3) _ _ _ (by show j.val = 4 * k.val + 3; omega) rfl).trans ?_
      refine (pay27_apply _ _ _).trans ?_
      have e11 : (View.readAt (Elt F) (s2V).view (Rect.unit (s := S8208) (k0_off11 k 3#32) S16.size (k0_off11_inb k 3)).toLoadRect g4) (ix1 (0 : Fin 16)) = G (16 * j.val) :=
        (s2_readAt d L g4 G 0 (fun p _ => hg4 p) _ _ (k0_off11_eq k 3) (Nat.zero_le _) _ _).trans
          (congrArg G (by show 64 * k.val + 16 * 3 + 0 = 16 * j.val; omega))
      have e12 : (View.readAt (Elt F) (s2V).view (Rect.unit (s := S8208) (k0_off12 k 3#32) S16.size (k0_off12_inb k 3)).toLoadRect g4) (ix1 (0 : Fin 16)) = G (16 * j.val + 1) :=
        (s2_readAt d L g4 G 0 (fun p _ => hg4 p) _ _ (k0_off12_eq k 3) (Nat.zero_le _) _ _).trans
          (congrArg G (by show 64 * k.val + 16 * 3 + 1 + 0 = 16 * j.val + 1; omega))
      rw [e11, e12]

end Cert.Proof.KB

end
-- ==== Proof.KB.Body.lean ====
/-
  One vector subcore's task, run once at a symbolic subcore: from its row of the index array, its shares of the flat
  table and of the bias vector, its row of the result, its row of the shared scratch and its own six scratch buffers
  and six transfer semaphores, the task ends with its row of the result holding `O9` there, everything else back.
-/
import proofs.«216127_g30709016166882_cont_9to1_510_25_alg».proof.Proof.KB.Views
import proofs.«216127_g30709016166882_cont_9to1_510_25_alg».proof.Proof.KB.Pure
import proofs.«216127_g30709016166882_cont_9to1_510_25_alg».proof.Proof.KB.PureSteps

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.Kernel.main_v6_scv : Memref Cert.Kernel.sig Kind.scVector Space.hbm Cert.Kernel.S32x13312 EltTy.i32)
local notation "wV" => (Memref.whole Cert.Kernel.main_v7_scv : Memref Cert.Kernel.sig Kind.scVector Space.hbm Cert.Kernel.S2600000 EltTy.f32)
local notation "bV" => (Memref.whole Cert.Kernel.main_v8_scv : Memref Cert.Kernel.sig Kind.scVector Space.hbm Cert.Kernel.S16 EltTy.f32)
local notation "oV" => (Memref.whole Cert.Kernel.main_v9_scv : Memref Cert.Kernel.sig Kind.scVector Space.hbm Cert.Kernel.S32x512 EltTy.f32)
local notation "s0V" => (Memref.whole Cert.Kernel.cc0_scratch0 : Memref Cert.Kernel.sig Kind.scVector Space.vmem Cert.Kernel.S13312 EltTy.i32)
local notation "s1V" => (Memref.whole Cert.Kernel.cc0_scratch1 : Memref Cert.Kernel.sig Kind.scVector Space.vmem Cert.Kernel.S13328 EltTy.f32)
local notation "s2V" => (Memref.whole Cert.Kernel.cc0_scratch2 : Memref Cert.Kernel.sig Kind.scVector Space.vmem Cert.Kernel.S8208 EltTy.f32)
local notation "s3V" => (Memref.whole Cert.Kernel.cc0_scratch3 : Memref Cert.Kernel.sig Kind.scVector Space.vmem Cert.Kernel.S512x16 EltTy.f32)
local notation "s4V" => (Memref.whole Cert.Kernel.cc0_scratch4 : Memref Cert.Kernel.sig Kind.scVector Space.vmem Cert.Kernel.S512 EltTy.f32)
local notation "s5V" => (Memref.whole Cert.Kernel.cc0_scratch5 : Memref Cert.Kernel.sig Kind.scVector Space.vmem Cert.Kernel.S16 EltTy.f32)
local notation "shV" => (Memref.whole Cert.Kernel.cc0_scratch6 : Memref Cert.Kernel.sig Kind.scVector Space.shared Cert.Kernel.S8192 EltTy.f32)

variable [FloatOps F]

/-! ## The loops' invariants -/

/-- The first pass: the gathered sequence's buffer unchanged, the lane buffer as `G1` says. -/
def inv1 (d : Dev nD) (L : grid0.Coords) (c1 : Buf (Elt F) ((V d (cV L) (jV L)).loc cc0_scratch1)) (v : ℕ → F .f32) (k : ℕ) (_ : PUnit) : sProp 𝕄 :=
  iprop(((s1V).view.loc (V d (cV L) (jV L)) ↦{fullShare} c1)
    ∗ ∃ g : Buf (Elt F) ((V d (cV L) (jV L)).loc cc0_scratch2), ((s2V).view.loc (V d (cV L) (jV L)) ↦{fullShare} g) ∗ ⌜G1 v k g⌝)

/-- A halving step: the lane buffer as `GLv` says. -/
def invL (d : Dev nD) (L : grid0.Coords) (dd : ℕ) (G : ℕ → F .f32) (k : ℕ) (_ : PUnit) : sProp 𝕄 :=
  iprop(∃ g : Buf (Elt F) ((V d (cV L) (jV L)).loc cc0_scratch2), ((s2V).view.loc (V d (cV L) (jV L)) ↦{fullShare} g) ∗ ⌜GLv dd G k g⌝)

/-- The last pass: the lane buffer unchanged, the row buffer as `H5` says. -/
def inv5 (d : Dev nD) (L : grid0.Coords) (g3 : Buf (Elt F) ((V d (cV L) (jV L)).loc cc0_scratch2)) (G : ℕ → F .f32) (b : FVec F S16 .f32)
    (k : ℕ) (_ : PUnit) : sProp 𝕄 :=
  iprop(((s2V).view.loc (V d (cV L) (jV L)) ↦{fullShare} g3)
    ∗ ∃ h : Buf (Elt F) ((V d (cV L) (jV L)).loc cc0_scratch3), ((s3V).view.loc (V d (cV L) (jV L)) ↦{fullShare} h) ∗ ⌜H5 G b k h⌝)

omit [FloatOps F] in
/-- The words the index fetch lands are positions of the flat table. -/
theorem inb_of_pre (d : Dev nD) (L : grid0.Coords) (X6 : Buf (Elt F) (xLoc d)) (hpre : ∀ i, (X6 i).toNat < 2600000)
    (fs : Buf (Elt F) ((V d (cV L) (jV L)).loc cc0_scratch0)) (pay : S13312.Idx → Elt F .i32)
    (hpay : pay = (xRowK L).view.read (Elt F) X6) :
    ∀ x, ((s0V).view.read (Elt F) (View.write (Elt F) (s0V).view fs pay Finset.univ) x).toNat < S2600000.size gathers_S2600000_S13312.axis := by
  subst hpay; intro x
  rw [View.write_whole_univ]
  simp only [Memref.view_whole, View.read_whole]
  rw [show ∀ j, (xRowK L).view.read (Elt F) X6 j = X6 ((xRowK L).view.emb j) from fun j => (View.read_apply _ _).trans (cast_eq _ _)]
  exact hpre _

omit [FloatOps F] in
theorem trips1 : Scf.trips k0_t1_loop.lb k0_t1_loop.ub k0_t1_loop.st = 128 := by decide
omit [FloatOps F] in
theorem trips2 : Scf.trips k0_t2_loop.lb k0_t2_loop.ub k0_t2_loop.st = 128 := by decide
omit [FloatOps F] in
theorem trips3 : Scf.trips k0_t3_loop.lb k0_t3_loop.ub k0_t3_loop.st = 128 := by decide
omit [FloatOps F] in
theorem trips4 : Scf.trips k0_t4_loop.lb k0_t4_loop.ub k0_t4_loop.st = 128 := by decide
omit [FloatOps F] in
theorem trips5 : Scf.trips k0_t5_loop.lb k0_t5_loop.ub k0_t5_loop.st = 128 := by decide

set_option maxHeartbeats 4000000 in
/-- The task on vector subcore `(L 0, L 1)` of device `d`, over the memrefs as the body slices them. -/
theorem tile_core (d : Dev nD) (L : grid0.Coords) (O : CellTallies nD τ sig (HIx 1)) (W : Waits sig (HIx 1)) (hO : ∀ g, O g none = 0)
    (q : PosShare TreeShare) (X6 : Buf (Elt F) (xLoc d)) (X7 : Buf (Elt F) (wLoc d)) (X8 : Buf (Elt F) (bLoc d)) (f9 : Buf (Elt F) (oLoc d))
    (hpre : ∀ i, (X6 i).toNat < 2600000)
    (fsh : Buf (Elt F) ((V d (cV L) (jV L)).loc cc0_scratch6))
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (f3 : Buf (Elt F) ((V d (cV L) (jV L)).loc cc0_scratch3))
    (f4 : Buf (Elt F) ((V d (cV L) (jV L)).loc cc0_scratch4)) (f5 : Buf (Elt F) ((V d (cV L) (jV L)).loc cc0_scratch5)) :
    iprop(levAts (K (F := F)).L (K (F := F)).lev
        ∗ ((xRowK L).view.loc (V d (cV L) (jV L)) ↦[(xRowK L).view.set]{fullShare} X6)
        ∗ ((wV).view.loc (V d (cV L) (jV L)) ↦{q} X7)
        ∗ ((bV).view.loc (V d (cV L) (jV L)) ↦{q} X8)
        ∗ ((oRowK L).view.loc (V d (cV L) (jV L)) ↦[(oRowK L).view.set]{fullShare} f9)
        ∗ ((shRowK L).view.loc (V d (cV L) (jV L)) ↦[(shRowK L).view.set]{fullShare} fsh)
        ∗ ((s0V).view.loc (V d (cV L) (jV L)) ↦{fullShare} f0)
        ∗ ((s1V).view.loc (V d (cV L) (jV L)) ↦{fullShare} f1)
        ∗ ((s2V).view.loc (V d (cV L) (jV L)) ↦{fullShare} f2)
        ∗ ((s3V).view.loc (V d (cV L) (jV L)) ↦{fullShare} f3)
        ∗ ((s4V).view.loc (V d (cV L) (jV L)) ↦{fullShare} f4)
        ∗ ((s5V).view.loc (V d (cV L) (jV L)) ↦{fullShare} f5)
        ∗ semVal (V d (cV L) (jV L), SemLoc.dma cc0_scratch7.sem) 0
        ∗ semVal (V d (cV L) (jV L), SemLoc.dma cc0_scoped0.sem) 0
        ∗ semVal (V d (cV L) (jV L), SemLoc.dma cc0_scoped1.sem) 0
        ∗ semVal (V d (cV L) (jV L), SemLoc.dma cc0_scoped2.sem) 0
        ∗ semVal (V d (cV L) (jV L), SemLoc.dma cc0_scoped3.sem) 0
        ∗ semVal (V d (cV L) (jV L), SemLoc.dma cc0_scoped4.sem) 0
        ∗ owes (V d (cV L) (jV L)) O W)
      ⊢ wp frame (wpE (defs₀ (F := F)) 𝒱₀ (V d (cV L) (jV L)) none) Set.univ
          (cc0__sc_body L xV (Memref.isWhole_whole _) wV (Memref.isWhole_whole _) bV (Memref.isWhole_whole _) oV (Memref.isWhole_whole _)
            s0V (Memref.isWhole_whole _) s1V (Memref.isWhole_whole _) s2V (Memref.isWhole_whole _) s3V (Memref.isWhole_whole _)
            s4V (Memref.isWhole_whole _) s5V (Memref.isWhole_whole _) shV (Memref.isWhole_whole _)
            cc0_scratch7 cc0_scoped0 cc0_scoped1 cc0_scoped2 cc0_scoped3 cc0_scoped4)
          fun _ => (iprop(((xRowK L).view.loc (V d (cV L) (jV L)) ↦[(xRowK L).view.set]{fullShare} X6)
            ∗ ((wV).view.loc (V d (cV L) (jV L)) ↦{q} X7)
            ∗ ((bV).view.loc (V d (cV L) (jV L)) ↦{q} X8)
            ∗ ((oRowK L).view.loc (V d (cV L) (jV L)) ↦[(oRowK L).view.set]{fullShare} O9 (F := F) X6 X7 X8)
            ∗ (∃ f, (shRowK L).view.loc (V d (cV L) (jV L)) ↦[(shRowK L).view.set]{fullShare} f)
            ∗ (∃ f, (s0V).view.loc (V d (cV L) (jV L)) ↦{fullShare} f)
            ∗ (∃ f, (s1V).view.loc (V d (cV L) (jV L)) ↦{fullShare} f)
            ∗ (∃ f, (s2V).view.loc (V d (cV L) (jV L)) ↦{fullShare} f)
            ∗ (∃ f, (s3V).view.loc (V d (cV L) (jV L)) ↦{fullShare} f)
            ∗ (∃ f, (s4V).view.loc (V d (cV L) (jV L)) ↦{fullShare} f)
            ∗ (∃ f, (s5V).view.loc (V d (cV L) (jV L)) ↦{fullShare} f)
            ∗ semVal (V d (cV L) (jV L), SemLoc.dma cc0_scratch7.sem) 0
            ∗ semVal (V d (cV L) (jV L), SemLoc.dma cc0_scoped0.sem) 0
            ∗ semVal (V d (cV L) (jV L), SemLoc.dma cc0_scoped1.sem) 0
            ∗ semVal (V d (cV L) (jV L), SemLoc.dma cc0_scoped2.sem) 0
            ∗ semVal (V d (cV L) (jV L), SemLoc.dma cc0_scoped3.sem) 0
            ∗ semVal (V d (cV L) (jV L), SemLoc.dma cc0_scoped4.sem) 0
            ∗ ∃ W', ⌜∀ p ∈ W', p ∈ W ∨ p.2 = none⌝ ∗ owes (V d (cV L) (jV L)) O W') : sProp 𝕄) := by
  rw [cc0__sc_body_eq_skeleton]; unfold cc0__sc_body_skel
  iintro ⟨#Hlv, Hx, Hw, Hb, Ho, Hsh, H0, H1, H2, H3, H4, H5, Hs7, Hc0, Hc1, Hc2, Hc3, Hc4, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the two fetches; then the gather, whose list holds positions of the table; the pads, the mask, the bias
  sl_exec
  have hin := inb_of_pre d L X6 hpre f0 (tile_core.sl.dma0 d L X6) rfl
  sl_exec
  -- what the buffers hold now, index by index
  have hc1 : ∀ p : S13328.Idx, ((s1V).view.writes (Elt F) ((s1V).view.junk (Val := Elt F)) (tile_core.sl.H1_2 d L X6 X7 f0 hin)
      : Buf (Elt F) ((V d (cV L) (jV L)).loc cc0_scratch1)) p = Spec.vals (wfun X6 X7 (wL L)) (p 0).val := by
    intro p
    unfold tile_core.sl.H1_2
    exact vals_eq d L (wfun X6 X7 (wL L)) _ (fun x => gathered d L X6 X7 f0 _ hin hpre x) p
  have hc2 : ∀ p : S8208.Idx, 8192 ≤ (p 0).val →
      ((s2V).view.writes (Elt F) f2 [⟨Rect.unit (s := S8208) ![8192] S16.size inb_S8208_S16_8192, k0_pay18⟩]
        : Buf (Elt F) ((V d (cV L) (jV L)).loc cc0_scratch2)) p = Spec.zero := fun p hp => pad_eq d L f2 p hp
  have hv20 : ∀ l : S16.Idx, tile_core.sl.r d L X8 f5 l = X8 l := fun l => bias_eq d L X8 f5 l
  generalize (Memref.whole cc0_scratch1).view.writes (Elt F) (Memref.whole cc0_scratch1).view.junk (tile_core.sl.H1_2 d L X6 X7 f0 hin) = c1 at hc1 ⊢
  generalize (Memref.whole cc0_scratch2).view.writes (Elt F) f2 [⟨Rect.unit ![8192] S16.size inb_S8208_S16_8192, k0_pay18⟩] = c2 at hc2 ⊢
  generalize tile_core.sl.r d L X8 f5 = v20 at hv20 ⊢
  -- the first pass
  sl_for (inv1 d L c1 (Spec.vals (wfun X6 X7 (wL L)))) $$ [H1 H2]
  case region =>
    intro k _
    unfold inv1
    iintro ⟨H1, %g, H2, %hg⟩
    sl_exec
    sl_step
    isplitl [H1]; · iexact H1
    iexists _
    isplitl [H2]; · iexact H2
    ipureintro
    exact G1_step' d L _ c1 hc1 k g hg (tile_core.sl.r_1 c1 k) rfl
  · unfold inv1
    isplitl [H1]; · iexact H1
    iexists _
    isplitl [H2]; · iexact H2
    ipureintro
    exact G1_init _ _ hc2
  iintro %_ HI
  unfold inv1
  icases HI with ⟨H1, %g1, H2, %hg1⟩
  rw [trips1] at hg1
  have hg1' := G1_fin _ _ hg1
  -- the halving step at distance 8
  sl_exec
  sl_for (invL d L 8 (Spec.fold (Spec.vals (wfun X6 X7 (wL L))))) $$ [H2]
  case region =>
    intro k _
    unfold invL
    iintro ⟨%g, H2, %hg⟩
    sl_exec
    sl_step
    iexists _
    isplitl [H2]; · iexact H2
    ipureintro
    exact GL_step2 d L _ k g hg
  · unfold invL
    iexists _
    isplitl [H2]; · iexact H2
    ipureintro
    exact GLv_init _ _ _ hg1'
  iintro %_ HI
  unfold invL
  icases HI with ⟨%g2, H2, %hg2⟩
  rw [trips2] at hg2
  have hg2' := GLv_fin _ _ _ hg2
  -- at distance 4
  sl_exec
  sl_for (invL d L 4 (Spec.lev 8 (Spec.fold (Spec.vals (wfun X6 X7 (wL L)))))) $$ [H2]
  case region =>
    intro k _
    unfold invL
    iintro ⟨%g, H2, %hg⟩
    sl_exec
    sl_step
    iexists _
    isplitl [H2]; · iexact H2
    ipureintro
    exact GL_step3 d L _ k g hg
  · unfold invL
    iexists _
    isplitl [H2]; · iexact H2
    ipureintro
    exact GLv_init _ _ _ hg2'
  iintro %_ HI
  unfold invL
  icases HI with ⟨%g3, H2, %hg3⟩
  rw [trips3] at hg3
  have hg3' := GLv_fin _ _ _ hg3
  -- at distance 2
  sl_exec
  sl_for (invL d L 2 (Spec.lev 4 (Spec.lev 8 (Spec.fold (Spec.vals (wfun X6 X7 (wL L))))))) $$ [H2]
  case region =>
    intro k _
    unfold invL
    iintro ⟨%g, H2, %hg⟩
    sl_exec
    sl_step
    iexists _
    isplitl [H2]; · iexact H2
    ipureintro
    exact GL_step4 d L _ k g hg
  · unfold invL
    iexists _
    isplitl [H2]; · iexact H2
    ipureintro
    exact GLv_init _ _ _ hg3'
  iintro %_ HI
  unfold invL
  icases HI with ⟨%g4, H2, %hg4⟩
  rw [trips4] at hg4
  have hg4' : ∀ p : S8208.Idx, g4 p = Spec.tree (Spec.vals (wfun X6 X7 (wL L))) (p 0).val := GLv_fin _ _ _ hg4
  -- the last pass
  sl_exec
  sl_for (inv5 d L g4 (Spec.tree (Spec.vals (wfun X6 X7 (wL L)))) v20) $$ [H2 H3]
  case region =>
    intro k _
    unfold inv5
    iintro ⟨H2, %h, H3, %hh⟩
    sl_exec
    sl_step
    isplitl [H2]; · iexact H2
    iexists _
    isplitl [H3]; · iexact H3
    ipureintro
    exact H5_step d L _ v20 g4 hg4' k h hh
  · unfold inv5
    isplitl [H2]; · iexact H2
    iexists _
    isplitl [H3]; · iexact H3
    ipureintro
    exact H5_init _ _ _
  iintro %_ HI
  unfold inv5
  icases HI with ⟨H2, %h5, H3, %hh5⟩
  rw [trips5] at hh5
  -- lane 0 of the rows out: to the shared row, to the 512-entry scratch, to the result's row
  sl_exec
  sl_step
  have hout : ∀ i ∈ (oRowK L).view.set,
      ((oRowK L).view.writes (Elt F) f9 [⟨Rect.whole S512, tile_core.sl.dma0_4 d L fsh f4 h5⟩]) i = O9 (F := F) X6 X7 X8 i :=
    out_eq d L X6 X7 X8 v20 hv20 f9 fsh f4 h5 hh5
  ihave Ho' := (Entails.of_eq (pointsTo_congr (ℓ := (oRowK L).view.loc (V d (cV L) (jV L))) (I := (oRowK L).view.set) (q := fullShare) hout)) $$ Ho
  isplitl [Hx]; · iexact Hx
  isplitl [Hw]; · iexact Hw
  isplitl [Hb]; · iexact Hb
  isplitl [Ho']; · iexact Ho'
  isplitl [Hsh]; · iexists _; iexact Hsh
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [Hs7]; · iexact Hs7
  isplitl [Hc0]; · iexact Hc0
  isplitl [Hc1]; · iexact Hc1
  isplitl [Hc2]; · iexact Hc2
  isplitl [Hc3]; · iexact Hc3
  isplitl [Hc4]; · iexact Hc4
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.KB

end
-- ==== Proof.KB.Obl.lean ====
/-
  From one subcore's task to the launch theorem's obligation for a vector subcore: the task's own slices are the
  worker's rows, the subcore's own semaphores and buffers are the six transfer cells and the six scratch buffers
  and the rest, and the task's proof over its own slices gives the obligation over the worker's parts.
-/
import proofs.«216127_g30709016166882_cont_9to1_510_25_alg».proof.Proof.KB.Body

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v6_scv : Memref Cert.Kernel.sig Kind.scVector Space.hbm Cert.Kernel.S32x13312 EltTy.i32)
local notation "wV" => (Memref.whole Cert.Kernel.main_v7_scv : Memref Cert.Kernel.sig Kind.scVector Space.hbm Cert.Kernel.S2600000 EltTy.f32)
local notation "bV" => (Memref.whole Cert.Kernel.main_v8_scv : Memref Cert.Kernel.sig Kind.scVector Space.hbm Cert.Kernel.S16 EltTy.f32)
local notation "oV" => (Memref.whole Cert.Kernel.main_v9_scv : Memref Cert.Kernel.sig Kind.scVector Space.hbm Cert.Kernel.S32x512 EltTy.f32)
local notation "s0V" => (Memref.whole Cert.Kernel.cc0_scratch0 : Memref Cert.Kernel.sig Kind.scVector Space.vmem Cert.Kernel.S13312 EltTy.i32)
local notation "s1V" => (Memref.whole Cert.Kernel.cc0_scratch1 : Memref Cert.Kernel.sig Kind.scVector Space.vmem Cert.Kernel.S13328 EltTy.f32)
local notation "s2V" => (Memref.whole Cert.Kernel.cc0_scratch2 : Memref Cert.Kernel.sig Kind.scVector Space.vmem Cert.Kernel.S8208 EltTy.f32)
local notation "s3V" => (Memref.whole Cert.Kernel.cc0_scratch3 : Memref Cert.Kernel.sig Kind.scVector Space.vmem Cert.Kernel.S512x16 EltTy.f32)
local notation "s4V" => (Memref.whole Cert.Kernel.cc0_scratch4 : Memref Cert.Kernel.sig Kind.scVector Space.vmem Cert.Kernel.S512 EltTy.f32)
local notation "s5V" => (Memref.whole Cert.Kernel.cc0_scratch5 : Memref Cert.Kernel.sig Kind.scVector Space.vmem Cert.Kernel.S16 EltTy.f32)
local notation "shV" => (Memref.whole Cert.Kernel.cc0_scratch6 : Memref Cert.Kernel.sig Kind.scVector Space.shared Cert.Kernel.S8192 EltTy.f32)

/-! ## The task's slices are the worker's rows -/

theorem bound_zero : grid0.bound 0 = 2 := rfl
theorem bound_one : grid0.bound 1 = 16 := rfl
/-- The subcore's SparseCore and its number on it, as the worker's coordinates. -/
abbrev cL (L : grid0.Coords) : Fin 2 := Fin.cast bound_zero (L 0)
abbrev jL (L : grid0.Coords) : Fin 16 := Fin.cast bound_one (L 1)

/-- Subcore (L 0, L 1) is worker 2 (L 1) + (L 0). -/
theorem wk_eq (L : grid0.Coords) : wk (cL L) (jL L) = wL L := Fin.ext rfl

abbrev xrowK (L : grid0.Coords) : Rect S32x13312 := Rect.unit (s := S32x13312) (k0_off1 L) S1x13312.size (k0_off1_inb L)
abbrev orowK (L : grid0.Coords) : Rect S32x512 := Rect.unit (s := S32x512) (k0_off15 L) S1x512.size (k0_off15_inb L)
abbrev shrowK (L : grid0.Coords) : Rect S8192 := Rect.unit (s := S8192) (k0_off14 L) S512.size (k0_off14_inb L)

theorem xrowK_eq (L : grid0.Coords) : xrowK L = xrow (wL L) := by
  unfold xrowK xrow Rect.part Rect.block
  congr 1 <;> funext a
  · rw [k0_off1_eq]
    match a with
    | 0 => simp [Shape.partIx, Shape.partSize, wL]
    | 1 => simp [Shape.partIx, Shape.partSize]
  · match a with
    | 0 => simp [Shape.partSize]
    | 1 => simp [Shape.partSize]

theorem orowK_eq (L : grid0.Coords) : orowK L = orow (wL L) := by
  unfold orowK orow Rect.part Rect.block
  congr 1 <;> funext a
  · rw [k0_off15_eq]
    match a with
    | 0 => simp [Shape.partIx, Shape.partSize, wL]
    | 1 => simp [Shape.partIx, Shape.partSize]
  · match a with
    | 0 => simp [Shape.partSize]
    | 1 => simp [Shape.partSize]

theorem shrowK_eq (L : grid0.Coords) : shrowK L = shrow (jL L) := by
  unfold shrowK shrow Rect.part Rect.block
  congr 1 <;> funext a
  · rw [k0_off14_eq]
    match a with
    | 0 =>
      show 512 * (L 1).val = S8192.partIx 0 (jL L).val 0 * S8192.partSize 0 16 0
      simp only [Shape.partIx, Shape.partSize, if_true]
      show 512 * (L 1).val = (L 1).val * (8192 / 16)
      omega
  · match a with
    | 0 => simp [Shape.partSize]

theorem set_xRowK (L : grid0.Coords) : (xRowK L).view.set = xRowSet (wL L) := by
  show (((xV).view.slice (xrowK L)).reshape S13312 squeezes_S1x13312_S13312.numel_eq).set = ((xV).view.slice (xrow (wL L))).set
  rw [View.set_reshape]
  exact xrowK_eq L ▸ rfl

theorem set_oRowK (L : grid0.Coords) : (oRowK L).view.set = oRowSet (wL L) := by
  show (((oV).view.slice (orowK L)).reshape S512 squeezes_S1x512_S512.numel_eq).set = ((oV).view.slice (orow (wL L))).set
  rw [View.set_reshape]
  exact orowK_eq L ▸ rfl

theorem set_shRowK (L : grid0.Coords) : (shRowK L).view.set = shRowSet (jL L) := by
  show ((shV).view.slice (shrowK L)).set = ((shV).view.slice (shrow (jL L))).set
  exact shrowK_eq L ▸ rfl

/-! ## Each held buffer, through the task's slice and as the worker's part -/

theorem pts_xRowK (d : Dev nD) (L : grid0.Coords) (f : Buf (Elt F) (xLoc d)) :
    ((xRowK L).view.loc (V d (cV L) (jV L)) ↦[(xRowK L).view.set]{fullShare} f : sProp 𝕄) = xLoc d ↦[xRowSet (wL L)]{fullShare} f := by
  rw [set_xRowK]
theorem pts_oRowK (d : Dev nD) (L : grid0.Coords) (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_shRowK (d : Dev nD) (L : grid0.Coords) (f : Buf (Elt F) (shLoc d (cV L))) :
    ((shRowK L).view.loc (V d (cV L) (jV L)) ↦[(shRowK L).view.set]{fullShare} f : sProp 𝕄) = shLoc d (cV L) ↦[shRowSet (jL L)]{fullShare} f := by
  rw [set_shRowK]; rfl
theorem pts_wV (d : Dev nD) (L : grid0.Coords) (q : PosShare TreeShare) (f : Buf (Elt F) (wLoc d)) :
    ((wV).view.loc (V d (cV L) (jV L)) ↦{q} f : sProp 𝕄) = wLoc d ↦{q} f := rfl
theorem pts_bV (d : Dev nD) (L : grid0.Coords) (q : PosShare TreeShare) (f : Buf (Elt F) (bLoc d)) :
    ((bV).view.loc (V d (cV L) (jV L)) ↦{q} f : sProp 𝕄) = bLoc d ↦{q} f := rfl
theorem pts_s0V (d : Dev nD) (L : grid0.Coords) (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
theorem pts_s1V (d : Dev nD) (L : grid0.Coords) (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
theorem pts_s2V (d : Dev nD) (L : grid0.Coords) (f : Buf (Elt F) ((V d (cV L) (jV L)).loc cc0_scratch2)) :
    ((s2V).view.loc (V d (cV L) (jV L)) ↦{fullShare} f : sProp 𝕄) = (V d (cV L) (jV L)).loc cc0_scratch2 ↦{fullShare} f := rfl
theorem pts_s3V (d : Dev nD) (L : grid0.Coords) (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl
theorem pts_s4V (d : Dev nD) (L : grid0.Coords) (f : Buf (Elt F) ((V d (cV L) (jV L)).loc cc0_scratch4)) :
    ((s4V).view.loc (V d (cV L) (jV L)) ↦{fullShare} f : sProp 𝕄) = (V d (cV L) (jV L)).loc cc0_scratch4 ↦{fullShare} f := rfl
theorem pts_s5V (d : Dev nD) (L : grid0.Coords) (f : Buf (Elt F) ((V d (cV L) (jV L)).loc cc0_scratch5)) :
    ((s5V).view.loc (V d (cV L) (jV L)) ↦{fullShare} f : sProp 𝕄) = (V d (cV L) (jV L)).loc cc0_scratch5 ↦{fullShare} f := rfl

/-! ## The subcore's own semaphores and buffers -/

/-- The cell of a transfer semaphore on subcore (L 0, L 1) of device d. -/
abbrev cell (d : Dev nD) (L : grid0.Coords) (a : DmaSems sig S_) : GSem nD τ sig := ((V d (cV L) (jV L)), .dma a.sem)

theorem cell_mem (d : Dev nD) (L : grid0.Coords) (a : DmaSems sig S_)
    (h : (SemLoc.dma a.sem : SemLoc sig).isScoped .scVector = true) : cell d L a ∈ ownCells (V d (cV L) (jV L)) :=
  (mem_ownCells (g := cell d L a)).mpr ⟨rfl, h⟩

theorem cell_ne (d : Dev nD) (L : grid0.Coords) {a b : DmaSem sig} (h : a ≠ b) :
    (((V d (cV L) (jV L)), SemLoc.dma a) : GSem nD τ sig) ≠ ((V d (cV L) (jV L)), SemLoc.dma b) :=
  fun e => h (SemLoc.dma.inj (Prod.mk.inj e).2)

/-- The subcore's own cells at zero are the six transfer cells at zero and the rest. -/
theorem ownSems0_V (d : Dev nD) (L : grid0.Coords) :
    (ownSems0 (V d (cV L) (jV L)) : sProp 𝕄)
      = iprop(semVal (cell d L cc0_scratch7) 0 ∗ semVal (cell d L cc0_scoped0) 0 ∗ semVal (cell d L cc0_scoped1) 0 ∗ semVal (cell d L cc0_scoped2) 0 ∗ semVal (cell d L cc0_scoped3) 0 ∗ semVal (cell d L cc0_scoped4) 0
          ∗ bigSep (((((((ownCells (V d (cV L) (jV L))).erase (cell d L cc0_scratch7)).erase (cell d L cc0_scoped0)).erase (cell d L cc0_scoped1)).erase (cell d L cc0_scoped2)).erase (cell d L cc0_scoped3)).erase (cell d L cc0_scoped4)) fun g => semVal g 0) := by
  unfold SparseCore.Cfg.ownSems0
  rw [SparseCore.bigSep_erase' (cell_mem d L cc0_scratch7 (by decide)),
    SparseCore.bigSep_erase' (Finset.mem_erase.mpr ⟨cell_ne d L (show (cc0_scoped0.sem : DmaSem sig) ≠ cc0_scratch7.sem by decide), cell_mem d L cc0_scoped0 (by decide)⟩),
    SparseCore.bigSep_erase' (Finset.mem_erase.mpr ⟨cell_ne d L (show (cc0_scoped1.sem : DmaSem sig) ≠ cc0_scoped0.sem by decide), Finset.mem_erase.mpr ⟨cell_ne d L (show (cc0_scoped1.sem : DmaSem sig) ≠ cc0_scratch7.sem by decide), cell_mem d L cc0_scoped1 (by decide)⟩⟩),
    SparseCore.bigSep_erase' (Finset.mem_erase.mpr ⟨cell_ne d L (show (cc0_scoped2.sem : DmaSem sig) ≠ cc0_scoped1.sem by decide), Finset.mem_erase.mpr ⟨cell_ne d L (show (cc0_scoped2.sem : DmaSem sig) ≠ cc0_scoped0.sem by decide), Finset.mem_erase.mpr ⟨cell_ne d L (show (cc0_scoped2.sem : DmaSem sig) ≠ cc0_scratch7.sem by decide), cell_mem d L cc0_scoped2 (by decide)⟩⟩⟩),
    SparseCore.bigSep_erase' (Finset.mem_erase.mpr ⟨cell_ne d L (show (cc0_scoped3.sem : DmaSem sig) ≠ cc0_scoped2.sem by decide), Finset.mem_erase.mpr ⟨cell_ne d L (show (cc0_scoped3.sem : DmaSem sig) ≠ cc0_scoped1.sem by decide), Finset.mem_erase.mpr ⟨cell_ne d L (show (cc0_scoped3.sem : DmaSem sig) ≠ cc0_scoped0.sem by decide), Finset.mem_erase.mpr ⟨cell_ne d L (show (cc0_scoped3.sem : DmaSem sig) ≠ cc0_scratch7.sem by decide), cell_mem d L cc0_scoped3 (by decide)⟩⟩⟩⟩),
    SparseCore.bigSep_erase' (Finset.mem_erase.mpr ⟨cell_ne d L (show (cc0_scoped4.sem : DmaSem sig) ≠ cc0_scoped3.sem by decide), Finset.mem_erase.mpr ⟨cell_ne d L (show (cc0_scoped4.sem : DmaSem sig) ≠ cc0_scoped2.sem by decide), Finset.mem_erase.mpr ⟨cell_ne d L (show (cc0_scoped4.sem : DmaSem sig) ≠ cc0_scoped1.sem by decide), Finset.mem_erase.mpr ⟨cell_ne d L (show (cc0_scoped4.sem : DmaSem sig) ≠ cc0_scoped0.sem by decide), Finset.mem_erase.mpr ⟨cell_ne d L (show (cc0_scoped4.sem : DmaSem sig) ≠ cc0_scratch7.sem by decide), cell_mem d L cc0_scoped4 (by decide)⟩⟩⟩⟩⟩)]

/-- The subcore's own buffers are the six scratch buffers, each at some contents, and the rest. -/
theorem ownBufs_V (d : Dev nD) (L : grid0.Coords) :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := ((Proc.scVector (cV L) (jV L)).devRef cc0_scratch5)) rfl⟩⟩⟩⟩⟩)]

variable [FloatOps F] (m : (ℓ : Loc nD τ sig) → Buf (Elt F) ℓ)

/-! ## The task over the worker's parts -/

/-- What the proof asks of the launch memory: every word of the index array the kernel is launched on is a position
    of the flat table. -/
def PreOK : Prop := ∀ (d : Dev nD) i, (Xv m d i).toNat < 2600000

set_option maxHeartbeats 4000000 in
/-- The task on vector subcore (L 0, L 1) of device d, from the worker's parts and the subcore's scoped storage to the
    parts with the result row written, the storage back. -/
theorem tile_body (hF : (K (F := F)).Facts) (hpre : PreOK m) (d : Dev nD) (L : grid0.Coords)
    (O : CellTallies nD τ sig (HIx 1)) (W : Waits sig (HIx 1)) (hO : ∀ g, O g none = 0) :
    iprop(levAts (K (F := F)).L (K (F := F)).lev ∗ emp
        ∗ (parts m d (cL L) (jL L) (m (oLoc d)) ∗ shPart (F := F) d (cV L) (jL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xV (Memref.isWhole_whole _) wV (Memref.isWhole_whole _) bV (Memref.isWhole_whole _) oV (Memref.isWhole_whole _)
            s0V (Memref.isWhole_whole _) s1V (Memref.isWhole_whole _) s2V (Memref.isWhole_whole _) s3V (Memref.isWhole_whole _)
            s4V (Memref.isWhole_whole _) s5V (Memref.isWhole_whole _) shV (Memref.isWhole_whole _)
            cc0_scratch7 cc0_scoped0 cc0_scoped1 cc0_scoped2 cc0_scoped3 cc0_scoped4)
          fun _ => (iprop((parts m d (cL L) (jL L) (Ov m d) ∗ shPart (F := F) d (cV L) (jL L))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V,
    show Ov m d = O9 (F := F) (Xv m d) (Wv m d) (Bv m d) from rfl]
  unfold parts shPart
  rw [wk_eq]
  iintro ⟨Hlv, -, ⟨⟨Hx, Hw, Hb, Ho⟩, %fsh, Hsh⟩, ⟨⟨%f0, H0⟩, ⟨%f1, H1⟩, ⟨%f2, H2⟩, ⟨%f3, H3⟩, ⟨%f4, H4⟩, ⟨%f5, H5⟩, Hbufs⟩, ⟨Hs7, HsA, HsB, HsC, HsD, HsE, Hsems⟩, HO⟩
  ihave Hx' := (Entails.of_eq (pts_xRowK (F := F) d L _).symm) $$ Hx
  ihave Hw' := (Entails.of_eq (pts_wV (F := F) d L _ _).symm) $$ Hw
  ihave Hb' := (Entails.of_eq (pts_bV (F := F) d L _ _).symm) $$ Hb
  ihave Ho' := (Entails.of_eq (pts_oRowK (F := F) d L _).symm) $$ Ho
  ihave Hsh' := (Entails.of_eq (pts_shRowK (F := F) d L _).symm) $$ Hsh
  ihave H0' := (Entails.of_eq (pts_s0V (F := F) d L _).symm) $$ H0
  ihave H1' := (Entails.of_eq (pts_s1V (F := F) d L _).symm) $$ H1
  ihave H2' := (Entails.of_eq (pts_s2V (F := F) d L _).symm) $$ H2
  ihave H3' := (Entails.of_eq (pts_s3V (F := F) d L _).symm) $$ H3
  ihave H4' := (Entails.of_eq (pts_s4V (F := F) d L _).symm) $$ H4
  ihave H5' := (Entails.of_eq (pts_s5V (F := F) d L _).symm) $$ H5
  ihave Hwp := (tile_core (F := F) d L O W hO (sq (wL L)) (Xv m d) (Wv m d) (Bv m d) (m (oLoc d)) (hpre d) fsh f0 f1 f2 f3 f4 f5)
    $$ [Hlv Hx' Hw' Hb' Ho' Hsh' H0' H1' H2' H3' H4' H5' Hs7 HsA HsB HsC HsD HsE HO]
  · isplitl [Hlv]; · iexact Hlv
    isplitl [Hx']; · iexact Hx'
    isplitl [Hw']; · iexact Hw'
    isplitl [Hb']; · iexact Hb'
    isplitl [Ho']; · iexact Ho'
    isplitl [Hsh']; · iexact Hsh'
    isplitl [H0']; · iexact H0'
    isplitl [H1']; · iexact H1'
    isplitl [H2']; · iexact H2'
    isplitl [H3']; · iexact H3'
    isplitl [H4']; · iexact H4'
    isplitl [H5']; · iexact H5'
    isplitl [Hs7]; · iexact Hs7
    isplitl [HsA]; · iexact HsA
    isplitl [HsB]; · iexact HsB
    isplitl [HsC]; · iexact HsC
    isplitl [HsD]; · iexact HsD
    isplitl [HsE]; · iexact HsE
    iexact HO
  iapply (wp_wand_r frame _ _)
  isplitl [Hwp]; · iexact Hwp
  iintro %_
  iintro ⟨Hx', Hw', Hb', Ho', ⟨%gsh, Hsh'⟩, ⟨%g0, H0'⟩, ⟨%g1, H1'⟩, ⟨%g2, H2'⟩, ⟨%g3, H3'⟩, ⟨%g4, H4'⟩, ⟨%g5, H5'⟩, Hs7, HsA, HsB, HsC, HsD, HsE, %W', %hW', HO⟩
  isplitl [Hx' Hw' Hb' Ho' Hsh']
  · isplitl [Hx' Hw' Hb' Ho']
    · isplitl [Hx']; · iapply (Entails.of_eq (pts_xRowK (F := F) d L _)); iexact Hx'
      isplitl [Hw']; · iapply (Entails.of_eq (pts_wV (F := F) d L _ _)); iexact Hw'
      isplitl [Hb']; · iapply (Entails.of_eq (pts_bV (F := F) d L _ _)); iexact Hb'
      iapply (Entails.of_eq (pts_oRowK (F := F) d L _)); iexact Ho'
    · iexists gsh; iapply (Entails.of_eq (pts_shRowK (F := F) d L _)); iexact Hsh'
  isplitl [H0' H1' H2' H3' H4' H5' Hbufs]
  · isplitl [H0']; · iexists g0; iapply (Entails.of_eq (pts_s0V (F := F) d L _)); iexact H0'
    isplitl [H1']; · iexists g1; iapply (Entails.of_eq (pts_s1V (F := F) d L _)); iexact H1'
    isplitl [H2']; · iexists g2; iapply (Entails.of_eq (pts_s2V (F := F) d L _)); iexact H2'
    isplitl [H3']; · iexists g3; iapply (Entails.of_eq (pts_s3V (F := F) d L _)); iexact H3'
    isplitl [H4']; · iexists g4; iapply (Entails.of_eq (pts_s4V (F := F) d L _)); iexact H4'
    isplitl [H5']; · iexists g5; iapply (Entails.of_eq (pts_s5V (F := F) d L _)); iexact H5'
    iexact Hbufs
  isplitl [Hs7 HsA HsB HsC HsD HsE Hsems]
  · isplitl [Hs7]; · iexact Hs7
    isplitl [HsA]; · iexact HsA
    isplitl [HsB]; · iexact HsB
    isplitl [HsC]; · iexact HsC
    isplitl [HsD]; · iexact HsD
    isplitl [HsE]; · iexact HsE
    iexact Hsems
  iexists W'; isplitr
  · ipureintro; exact hW'
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) wV (Memref.isWhole_whole _) bV (Memref.isWhole_whole _) oV (Memref.isWhole_whole _)
            s0V (Memref.isWhole_whole _) s1V (Memref.isWhole_whole _) s2V (Memref.isWhole_whole _) s3V (Memref.isWhole_whole _)
            s4V (Memref.isWhole_whole _) s5V (Memref.isWhole_whole _) shV (Memref.isWhole_whole _)
            cc0_scratch7 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hpre d (coordsV ⟨_, hci.1⟩ ⟨_, hci.2⟩) O W hO).trans (wp_mono frame _ _ fun _ => obl_post)

end Cert.Proof.KB

end
-- ==== Proof.KB.Launch.lean ====
/-
  The launch of the program with the sparse kernel.

  The kernel is called on four arrays: the index array and the result, of which worker w = 2 i + c (subcore i of
  SparseCore c) takes row w; and the flat table and the bias vector, which every worker reads whole, each at a
  thirty-second share (the full share halved five times). A SparseCore's sixteen workers also take the sixteen rows
  of 512 of its shared scratch, and give them back. Whole arrays are the separating conjunction of their rows, or of
  their shares, over the 32 workers; the 32 workers are the pairs (c, i).

  Around the call the host computes the three arrays the kernel reads from the program's arguments, and re-lays the
  kernel's result; the arguments are not written.
-/
import proofs.«216127_g30709016166882_cont_9to1_510_25_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)
open Idealize.ShloMosaic.Tactic

variable {F : FTy → Type}

local notation "𝕄" => MT nD τ sig (HIx 1) (Elt F) ℕ UU ℕ

/-! ## Shares: a points-to at a share is its leaves' at once -/

/-- The two halves of the leaves of depth n + 1. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is the separating conjunction of the points-tos at the share's leaves. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-! ## The 32 workers are the pairs (SparseCore, subcore) -/

/-- Worker w is subcore w / 2 of SparseCore w % 2. -/
def wkEquiv : Fin 2 × Fin 16 ≃ Fin 32 where
  toFun p := wk p.1 p.2
  invFun w := (⟨w.val % 2, Nat.mod_lt _ (by decide)⟩, ⟨w.val / 2, by have := w.isLt; omega⟩)
  left_inv p := by
    obtain ⟨c, i⟩ := p
    refine Prod.ext (Fin.ext ?_) (Fin.ext ?_)
    · show (2 * i.val + c.val) % 2 = c.val
      have := c.isLt; omega
    · show (2 * i.val + c.val) / 2 = i.val
      have := c.isLt; omega
  right_inv w := Fin.ext (by
    show 2 * (w.val / 2) + w.val % 2 = w.val
    omega)

/-- A separating conjunction over the workers is one over the SparseCores of one over their subcores. -/
theorem bigSep_workers (Φ : Fin 32 → sProp 𝕄) :
    bigSep Finset.univ Φ = bigSep Finset.univ fun c : Fin 2 => bigSep Finset.univ fun i : Fin 16 => Φ (wk c i) := by
  rw [bigSep_univ_equiv wkEquiv Φ, bigSep_univ_prod]
  rfl

/-- The call's grid counts its subcores and its SparseCores as the numbers 16 and 2. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## Rows: the index array's, the result's, a shared scratch's -/

theorem xRowSet_eq (w : Fin 32) : xRowSet w = (xrow w).set := by
  show ((View.whole (main_v6_scv : Ref sig .scVector)).slice (xrow w)).set = _
  rw [View.set_slice]; exact Finset.map_refl
theorem oRowSet_eq (w : Fin 32) : oRowSet w = (orow w).set := by
  show ((View.whole (main_v9_scv : Ref sig .scVector)).slice (orow w)).set = _
  rw [View.set_slice]; exact Finset.map_refl
theorem shRowSet_eq (i : Fin 16) : shRowSet i = (shrow i).set := by
  show ((View.whole (cc0_scratch6 : Ref sig .scVector)).slice (shrow i)).set = _
  rw [View.set_slice]; exact Finset.map_refl

theorem xrows_disjoint : ∀ i ∈ (Finset.univ : Finset (Fin 32)), ∀ j ∈ (Finset.univ : Finset (Fin 32)), i ≠ j → Disjoint (xRowSet i) (xRowSet j) :=
  fun i _ j _ h => by rw [xRowSet_eq, xRowSet_eq]; exact Rect.part_disjoint xdiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem shrows_disjoint : ∀ i ∈ (Finset.univ : Finset (Fin 16)), ∀ j ∈ (Finset.univ : Finset (Fin 16)), i ≠ j → Disjoint (shRowSet i) (shRowSet j) :=
  fun i _ j _ h => by rw [shRowSet_eq, shRowSet_eq]; exact Rect.part_disjoint shdiv h

theorem xrows_cover : (Finset.univ : Finset (Fin 32)).biUnion xRowSet = Finset.univ :=
  (Finset.biUnion_congr rfl fun i _ => xRowSet_eq i).trans (Rect.biUnion_part xdiv)
theorem orows_cover : (Finset.univ : Finset (Fin 32)).biUnion oRowSet = Finset.univ :=
  (Finset.biUnion_congr rfl fun i _ => oRowSet_eq i).trans (Rect.biUnion_part odiv)
theorem shrows_cover : (Finset.univ : Finset (Fin 16)).biUnion shRowSet = Finset.univ :=
  (Finset.biUnion_congr rfl fun i _ => shRowSet_eq i).trans (Rect.biUnion_part shdiv)

/-- The index array whole is its 32 rows. -/
theorem xPts_rows (d : Dev nD) (f : Buf (Elt F) (xLoc d)) :
    (xLoc d ↦{fullShare} f : sProp 𝕄) = bigSep Finset.univ fun w : Fin 32 => xLoc d ↦[xRowSet w]{fullShare} f := by
  rw [← pointsTo_biUnion Finset.univ (ℓ := xLoc d) xRowSet xrows_disjoint, xrows_cover]; try rfl
/-- The result whole is its 32 rows. -/
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
/-- A shared scratch whole is its 16 rows. -/
theorem shPts_rows (d : Dev nD) (c : Fin τ.nSC) (f : Buf (Elt F) (shLoc d c)) :
    (shLoc d c ↦{fullShare} f : sProp 𝕄) = bigSep Finset.univ fun i : Fin 16 => shLoc d c ↦[shRowSet i]{fullShare} f := by
  rw [← pointsTo_biUnion Finset.univ (ℓ := shLoc d c) shRowSet shrows_disjoint, shrows_cover]; try rfl

/-- The flat table whole is the 32 workers' shares of it. -/
theorem wPts_shares (d : Dev nD) (f : Buf (Elt F) (wLoc d)) :
    (wLoc d ↦{fullShare} f : sProp 𝕄) = bigSep Finset.univ fun w : Fin 32 => wLoc d ↦{sq w} f :=
  pointsTo_leaves Finset.univ f 5 fullShare
/-- The bias vector whole is the 32 workers' shares of it. -/
theorem bPts_shares (d : Dev nD) (f : Buf (Elt F) (bLoc d)) :
    (bLoc d ↦{fullShare} f : sProp 𝕄) = bigSep Finset.univ fun w : Fin 32 => bLoc d ↦{sq w} f :=
  pointsTo_leaves Finset.univ f 5 fullShare

variable [FloatOps F] (m : (ℓ : Loc nD τ sig) → Buf (Elt F) ℓ) (ρ : Dev nD → PrngReg)

/-! ## What the handshakes carry, as equations -/

theorem P_st (d : Dev nD) (c : Fin ((K (F := F)).nCore 0)) :
    (P m).st 0 d c = bigSep Finset.univ fun i : Fin 16 => parts m d (Fin.cast nCore_zero c) i (m (oLoc d)) := rfl
theorem P_dn (d : Dev nD) (c : Fin ((K (F := F)).nCore 0)) :
    (P m).dn 0 d c = bigSep Finset.univ fun i : Fin 16 => parts m d (Fin.cast nCore_zero c) i (Ov m d) := rfl
theorem P_go (d : Dev nD) (c : Fin ((K (F := F)).nCore 0)) (i : Fin ((K (F := F)).nSub 0)) :
    (P m).go 0 d c i = iprop(parts m d (Fin.cast nCore_zero c) (Fin.cast nSub_zero i) (m (oLoc d)) ∗ shPart d ((K (F := F)).core 0 c) (Fin.cast nSub_zero i)) := rfl
theorem P_td (d : Dev nD) (c : Fin ((K (F := F)).nCore 0)) (i : Fin ((K (F := F)).nSub 0)) :
    (P m).td 0 d c i = iprop(parts m d (Fin.cast nCore_zero c) (Fin.cast nSub_zero i) (Ov m d) ∗ shPart d ((K (F := F)).core 0 c) (Fin.cast nSub_zero i)) := rfl

/-- The four arrays whole, the result at contents o, are the 32 workers' parts. -/
theorem whole_parts (d : Dev nD) (o : Buf (Elt F) (oLoc d)) :
    (iprop((xLoc d ↦{fullShare} Xv m d) ∗ (wLoc d ↦{fullShare} Wv m d) ∗ (bLoc d ↦{fullShare} Bv m d) ∗ oLoc d ↦{fullShare} o) : sProp 𝕄)
      = bigSep Finset.univ fun c : Fin 2 => bigSep Finset.univ fun i : Fin 16 => parts m d c i o := by
  rw [xPts_rows, wPts_shares, bPts_shares, oPts_rows, ← bigSep_sep', ← bigSep_sep', ← bigSep_sep',
    bigSep_workers (F := F) (fun w => iprop((xLoc d ↦[xRowSet w]{fullShare} Xv m d) ∗ (wLoc d ↦{sq w} Wv m d) ∗ (bLoc d ↦{sq w} Bv m d)
      ∗ oLoc d ↦[oRowSet w]{fullShare} o))]
  rfl

/-- What the call takes for its two SparseCores: the four arrays whole, the result at its launch contents. -/
theorem st0_eq (d : Dev nD) :
    (bigSep Finset.univ fun c : Fin ((K (F := F)).nCore 0) => (P m).st 0 d c)
      = iprop((xLoc d ↦{fullShare} Xv m d) ∗ (wLoc d ↦{fullShare} Wv m d) ∗ (bLoc d ↦{fullShare} Bv m d) ∗ oLoc d ↦{fullShare} m (oLoc d)) := by
  rw [whole_parts]
  exact bigSep_cores (F := F) (fun c => bigSep Finset.univ fun i : Fin 16 => parts m d c i (m (oLoc d)))
/-- What it hands back: the four arrays whole, the result at what the workers left. -/
theorem dn0_eq (d : Dev nD) :
    (bigSep Finset.univ fun c : Fin ((K (F := F)).nCore 0) => (P m).dn 0 d c)
      = iprop((xLoc d ↦{fullShare} Xv m d) ∗ (wLoc d ↦{fullShare} Wv m d) ∗ (bLoc d ↦{fullShare} Bv m d) ∗ oLoc d ↦{fullShare} Ov m d) := by
  rw [whole_parts]
  exact bigSep_cores (F := F) (fun c => bigSep Finset.univ fun i : Fin 16 => parts m d c i (Ov m d))

/-! ## A SparseCore's operands split among its sixteen workers, and join -/

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- A shared scratch whole, at any contents, gives each of its rows at some contents. -/
theorem shRows_split (d : Dev nD) (c : Fin τ.nSC) (f : Buf (Elt F) (shLoc d c)) :
    (shLoc d c ↦{fullShare} f : sProp 𝕄) ⊢ bigSep Finset.univ fun i : Fin 16 => shPart (F := F) d c i := by
  rw [shPts_rows]
  unfold shPart
  exact bigSep_mono fun i _ => BI.BIClass.exists_intro (Φ := fun f' => (shLoc d c ↦[shRowSet i]{fullShare} f' : sProp 𝕄)) f

/-- The rows of a shared scratch, each at contents of its own, are it whole at some contents. -/
theorem shRows_join (d : Dev nD) (c : Fin τ.nSC) :
    (bigSep Finset.univ fun i : Fin 16 => shPart (F := F) d c i) ⊢ (iprop(∃ f, shLoc d c ↦{fullShare} f) : sProp 𝕄) := by
  unfold shPart
  refine (bigSep_exists_pi Finset.univ (fun i (f : Buf (Elt F) (shLoc d c)) => (shLoc d c ↦[shRowSet i]{fullShare} f : sProp 𝕄))).trans ?_
  iintro ⟨%fs, H⟩
  ihave H' := (pointsTo_biUnion_join (ℓ := shLoc d c) (q := fullShare) (Val := Elt F) Finset.univ shRowSet fs (fs 0) shrows_disjoint) $$ H
  icases H' with ⟨%g, -, Hg⟩
  rw [shrows_cover]
  iexists g; iexact Hg

theorem vecSplit : (K (F := F)).VecSplit (P m) 0 := by
  intro d c
  show iprop((P m).st 0 d c ∗ ownBufs (S d ((K (F := F)).core 0 c))) ⊢ |={Set.univ}=> iprop(
      (bigSep Finset.univ fun i : Fin ((K (F := F)).nSub 0) =>
        iprop(parts m d (Fin.cast nCore_zero c) (Fin.cast nSub_zero i) (m (oLoc d)) ∗ shPart d ((K (F := F)).core 0 c) (Fin.cast nSub_zero i)))
      ∗ ((bigSep Finset.univ fun i : Fin ((K (F := F)).nSub 0) =>
            iprop(parts m d (Fin.cast nCore_zero c) (Fin.cast nSub_zero i) (Ov m d) ∗ shPart d ((K (F := F)).core 0 c) (Fin.cast nSub_zero i)))
          -∗ iprop((P m).dn 0 d c ∗ ownBufs (S d ((K (F := F)).core 0 c)))))
  rw [P_st, P_dn,
    bigSep_tasks (F := F) (fun i => iprop(parts m d (Fin.cast nCore_zero c) i (m (oLoc d)) ∗ shPart d ((K (F := F)).core 0 c) i)),
    bigSep_tasks (F := F) (fun i => iprop(parts m d (Fin.cast nCore_zero c) i (Ov m d) ∗ shPart d ((K (F := F)).core 0 c) i)),
    bigSep_sep', bigSep_sep', ownBufs_S]
  iintro ⟨Hst, ⟨%fsh, Hsh⟩, Hrest⟩; imodintro
  isplitl [Hst Hsh]
  · isplitl [Hst]; · iexact Hst
    iapply (shRows_split d ((K (F := F)).core 0 c) fsh); iexact Hsh
  iintro ⟨Hdn, Hsh⟩
  isplitl [Hdn]; · iexact Hdn
  isplitl [Hsh]; · iapply (shRows_join d ((K (F := F)).core 0 c)); iexact Hsh
  iexact Hrest

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- The handshakes' rounds; the counters are dropped; no kernel proof consumes anything of the launch's. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- What @main leaves the claim: the three arguments at their launch contents and the program's result. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ rLoc d ↦{fullShare} X10 (F := F) (Ov m d))

/-! ### The host's operations around the call -/

/-- A TensorCore reference as a buffer of the device. -/
abbrev tb (x : Ref sig .tc) : DevRef τ sig := Proc.devRef .tc x

/-- The ten host operations before the call, in order: the field offsets 100000 f, added to the index argument and
    re-laid; the table re-laid flat; the bias in sixteen lanes. -/
abbrev opsPre : List (HloOp τ sig (Elt F)) :=
  [ StableHlo.nullary main_v0 (iotaInDim S26 32 0),
    StableHlo.nullary main_c (constantI S_ 32 100000#32),
    StableHlo.unary main_c main_v1 (broadcastInDim S26 ![] bcast_S_S26 : (⟨S_, .i32⟩ : BufTy).Contents (Elt F) → (⟨S26, .i32⟩ : BufTy).Contents (Elt F)),
    StableHlo.binary main_v0 main_v1 main_v2 (muli : (⟨S26, .i32⟩ : BufTy).Contents (Elt F) → (⟨S26, .i32⟩ : BufTy).Contents (Elt F) → (⟨S26, .i32⟩ : BufTy).Contents (Elt F)),
    StableHlo.unary main_v2 main_v3 (broadcastInDim S1x26 ![1] bcast_S26_S1x26_1 : (⟨S26, .i32⟩ : BufTy).Contents (Elt F) → (⟨S1x26, .i32⟩ : BufTy).Contents (Elt F)),
    StableHlo.unary main_v3 main_v4 (broadcastInDim S16384x26 ![0, 1] bcast_S1x26_S16384x26_0_1 : (⟨S1x26, .i32⟩ : BufTy).Contents (Elt F) → (⟨S16384x26, .i32⟩ : BufTy).Contents (Elt F)),
    StableHlo.binary main_arg0 main_v4 main_v5 (addi : (⟨S16384x26, .i32⟩ : BufTy).Contents (Elt F) → (⟨S16384x26, .i32⟩ : BufTy).Contents (Elt F) → (⟨S16384x26, .i32⟩ : BufTy).Contents (Elt F)),
    StableHlo.reshape main_v5 main_v6 rfl shapeCasts_S16384x26_S32x13312,
    StableHlo.reshape main_arg1 main_v7 rfl shapeCasts_S26x100000_S2600000,
    StableHlo.unary main_arg2 main_v8 (broadcastInDim S16 ![0] bcast_S1_S16_0 : (⟨S1, .f32⟩ : BufTy).Contents (Elt F) → (⟨S16, .f32⟩ : BufTy).Contents (Elt F)) ]

/-- The one after it: the kernel's result re-laid. -/
abbrev opPost : HloOp τ sig (Elt F) := StableHlo.reshape main_v9 main_v10 rfl shapeCasts_S32x512_S16384x1

/-- @main is the ten operations, the call, the re-laying, the return. -/
theorem main_eq (d : Dev nD) :
    main (F := F) d = (seq (opsPre (F := F)) >>= fun _ => (K (F := F)).run d 0 >>= fun _ =>
      (hlo rfl (opPost (F := F)) fun _ => .ret (⟨⟩ : PUnit)) >>= fun _ => pure (⟨⟩ : PUnit)) := rfl

/-- The TensorCore's unscoped buffers, as buffers of the device: what the launch deals @main. -/
def SA : Finset (DevRef τ sig) :=
  (Finset.univ.filter fun b : Ref sig .tc => ¬ b.isScoped).map ⟨Proc.devRef (sig := sig) (.tc : Proc τ), Proc.devRef_injective _⟩

omit [FloatOps F] m ρ in
theorem tb_mem (x : Ref sig .tc) (h : ¬ x.isScoped) : tb x ∈ SA :=
  Finset.mem_map_of_mem _ (Finset.mem_filter.2 ⟨Finset.mem_univ x, h⟩)

omit [FloatOps F] m ρ in
theorem sub1 {a : Ref sig .tc} (ha : ¬ a.isScoped) : ({tb a} : Finset (DevRef τ sig)) ⊆ SA :=
  Finset.singleton_subset_iff.2 (tb_mem a ha)
omit [FloatOps F] m ρ in
theorem sub2 {a b : Ref sig .tc} (ha : ¬ a.isScoped) (hb : ¬ b.isScoped) : ({tb a, tb b} : Finset (DevRef τ sig)) ⊆ SA :=
  Finset.insert_subset (tb_mem a ha) (sub1 hb)
omit [FloatOps F] m ρ in
theorem sub3 {a b c : Ref sig .tc} (ha : ¬ a.isScoped) (hb : ¬ b.isScoped) (hc : ¬ c.isScoped) :
    ({tb a, tb b, tb c} : Finset (DevRef τ sig)) ⊆ SA :=
  Finset.insert_subset (tb_mem a ha) (sub2 hb hc)

/-- Every buffer the ten operations touch is one of them. -/
theorem opsPre_sub : ∀ op ∈ (opsPre (F := F)), op.bufs ⊆ SA := by
  intro op hop
  simp only [List.mem_cons, List.not_mem_nil, or_false] at hop
  rcases hop with rfl | rfl | rfl | rfl | rfl | rfl | rfl | rfl | rfl | rfl
  · exact sub1 (by decide)
  · exact sub1 (by decide)
  · exact sub2 (by decide) (by decide)
  · exact sub3 (by decide) (by decide) (by decide)
  · exact sub2 (by decide) (by decide)
  · exact sub2 (by decide) (by decide)
  · exact sub3 (by decide) (by decide) (by decide)
  · exact sub2 (by decide) (by decide)
  · exact sub2 (by decide) (by decide)
  · exact sub2 (by decide) (by decide)

theorem opsPre_fresh : ∀ op ∈ (opsPre (F := F)), op.fresh = ∅ := by
  intro op hop
  simp only [List.mem_cons, List.not_mem_nil, or_false] at hop
  rcases hop with rfl | rfl | rfl | rfl | rfl | rfl | rfl | rfl | rfl | rfl <;> rfl

/-- The launch contents of device d's buffers. -/
def V0 (d : Dev nD) : Valuation τ sig (Elt F) := fun b => m (d, b)

theorem unscoped_held (d : Dev nD) :
    (unscopedBufs d (fun b => m ((SparseCore.T d).loc b)) : sProp 𝕄) = held (T d) SA (V0 m d) := by
  unfold unscopedBufs held SA
  rw [bigSep_map]
  rfl

/-! ### What the buffers hold after the ten operations -/

/-- The index array the kernel reads. -/
theorem after_v6 (d : Dev nD) : after (opsPre (F := F)) (V0 m d) (tb main_v6) = Xv m d := by
  after_results
  rfl
/-- The flat table. -/
theorem after_v7 (d : Dev nD) : after (opsPre (F := F)) (V0 m d) (tb main_v7) = Wv m d := by
  after_results
  rfl
/-- The bias in sixteen lanes. -/
theorem after_v8 (d : Dev nD) : after (opsPre (F := F)) (V0 m d) (tb main_v8) = Bv m d := by
  after_results
  rfl
/-- The result array, the program's result and the three arguments are not written. -/
theorem after_v9 (d : Dev nD) : after (opsPre (F := F)) (V0 m d) (tb main_v9) = m (oLoc d) := by
  after_results
  rfl
theorem after_v10 (d : Dev nD) : after (opsPre (F := F)) (V0 m d) (tb main_v10) = m (rLoc d) := by
  after_results
  rfl
theorem after_a0 (d : Dev nD) : after (opsPre (F := F)) (V0 m d) (tb main_arg0) = m (a0Loc d) := by
  after_results
  rfl
theorem after_a1 (d : Dev nD) : after (opsPre (F := F)) (V0 m d) (tb main_arg1) = m (a1Loc d) := by
  after_results
  rfl
theorem after_a2 (d : Dev nD) : after (opsPre (F := F)) (V0 m d) (tb main_arg2) = m (a2Loc d) := by
  after_results
  rfl

/-! ### The eight buffers that matter, out of all of them -/

abbrev S8 : Finset (DevRef τ sig) :=
  {tb main_arg0, tb main_arg1, tb main_arg2, tb main_v6, tb main_v7, tb main_v8, tb main_v9, tb main_v10}

omit [FloatOps F] m ρ in
theorem S8_sub : S8 ⊆ SA := by
  intro b hb
  simp only [S8, Finset.mem_insert, Finset.mem_singleton] at hb
  rcases hb with rfl | rfl | rfl | rfl | rfl | rfl | rfl | rfl <;> exact tb_mem _ (by decide)

omit [FloatOps F] m ρ in
theorem held_S8 (d : Dev nD) (W : Valuation τ sig (Elt F)) :
    (held (T d) S8 W : sProp 𝕄)
      = iprop((a0Loc d ↦{fullShare} W (tb main_arg0)) ∗ (a1Loc d ↦{fullShare} W (tb main_arg1)) ∗ (a2Loc d ↦{fullShare} W (tb main_arg2))
          ∗ (xLoc d ↦{fullShare} W (tb main_v6)) ∗ (wLoc d ↦{fullShare} W (tb main_v7)) ∗ (bLoc d ↦{fullShare} W (tb main_v8))
          ∗ (oLoc d ↦{fullShare} W (tb main_v9)) ∗ rLoc d ↦{fullShare} W (tb main_v10)) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ### The re-laying after the call -/

abbrev S2 : Finset (DevRef τ sig) := {tb main_v9, tb main_v10}

omit [FloatOps F] m ρ in
theorem held_S2 (d : Dev nD) (W : Valuation τ sig (Elt F)) :
    (held (T d) S2 W : sProp 𝕄) = iprop((oLoc d ↦{fullShare} W (tb main_v9)) ∗ rLoc d ↦{fullShare} W (tb main_v10)) := by
  unfold held S2
  rw [SparseCore.bigSep_insert' (by decide), bigSep_singleton]

/-- After the call: the kernel's result array at what the workers left. -/
def V1 (d : Dev nD) : Valuation τ sig (Elt F) := Function.update (V0 m d) (tb main_v9) (Ov m d)

theorem V1_o (d : Dev nD) : V1 m d (tb main_v9) = Ov m d := Function.update_self _ _ _
theorem V1_r (d : Dev nD) : V1 m d (tb main_v10) = m (rLoc d) :=
  Function.update_of_ne (show tb main_v10 ≠ tb main_v9 by decide) _ _

theorem hPost : (opPost (F := F)).bufs ⊆ S2 := Finset.Subset.refl _

/-- The program's result: the kernel's result re-laid. -/
theorem post_r (d : Dev nD) : (opPost (F := F)).result (V1 m d) (tb main_v10) = X10 (F := F) (Ov m d) := by
  unfold opPost
  rw [StableHlo.reshape_result, V1_o]
  rfl
theorem post_o (d : Dev nD) : (opPost (F := F)).result (V1 m d) (tb main_v9) = Ov m d := by
  unfold opPost
  rw [StableHlo.reshape_result_ne _ _ _ _ _ _ _ (by decide), V1_o]

/-- @main on device d's TensorCore: the ten host operations in one step, the call on the four arrays whole, the
    re-laying of its result; the arguments kept throughout. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  -- the ten host operations
  iapply (wp_seq 𝒱 none Set.univ d SA _ (opsPre (F := F)) opsPre_sub opsPre_fresh (V0 m d)) $$ [Hb Hheld]
  · isplitl [Hb]; · iexact Hb
    iexact Hheld
  rw [held_sub_split (T d) S8_sub, held_S8, after_a0, after_a1, after_a2, after_v6, after_v7, after_v8, after_v9, after_v10]
  iintro ⟨Hb, ⟨H0, H1, H2, Hx, Hw, Hbi, Ho, Hr⟩, -⟩
  simp only [wp_bind, wp_pure]
  -- the call: the four arrays whole to the two SparseCores and back
  iapply ((K (F := F)).wp_run (D (F := F)) 𝒱 (EH := EH) (P := P m) κ d 0) $$ [Hst Hx Hw Hbi Ho Hb H0 H1 H2 Hr]
  isplitr; · iexact Hctx
  isplitl [Hst]; · iexact Hst
  isplitl [Hx Hw Hbi Ho]
  · rw [st0_eq]
    isplitl [Hx]; · iexact Hx
    isplitl [Hw]; · iexact Hw
    isplitl [Hbi]; · iexact Hbi
    iexact Ho
  iintro ⟨Hst, Hdn⟩
  ihave Hdn' := (Entails.of_eq (dn0_eq m d)) $$ Hdn
  icases Hdn' with ⟨-, -, -, Ho⟩
  -- the re-laying of the kernel's result
  iapply (wp_hlo_within 𝒱 (SparseCore.T d) none Set.univ (op := opPost) (S := S2) hPost (V := V1 m d)) $$ [Hb Ho Hr]
  · isplitl [Hb]; · iexact Hb
    rw [held_S2, V1_o, V1_r]
    isplitl [Ho]; · iexact Ho
    iexact Hr
  rw [held_S2, post_r, post_o]
  iintro ⟨Hb, -, Hr⟩
  rw [wp_ret]; imodintro; imodintro
  isplitl [Hst]; · iexact Hst
  isplitl [H0]; · iexact H0
  isplitl [H1]; · iexact H1
  isplitl [H2]; · iexact H2
  iexact Hr

/-! ## The claim read off the final memory -/

def fq (d : Dev nD) (s' : Phys nD τ sig (Elt F)) : Prop :=
  s'.mem.mem (rLoc d) = X10 (F := F) (Ov m d) ∧ s'.mem.mem (a0Loc d) = m (a0Loc d) ∧ s'.mem.mem (a1Loc d) = m (a1Loc d)
    ∧ s'.mem.mem (a2Loc d) = m (a2Loc d)

set_option maxRecDepth 16384 in
theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := rLoc d) (I := Finset.univ) (q := fullShare) (f := X10 (F := F) (Ov m d))) $$ [HSI Hr]
  · isplitl [HSI] <;> iassumption
  icases H with %hr
  ipureintro
  exact ⟨funext fun i => hr i (Finset.mem_univ i), funext fun i => h0 i (Finset.mem_univ i), funext fun i => h1 i (Finset.mem_univ i),
    funext fun i => h2 i (Finset.mem_univ i)⟩

/-! ## The program's run -/

/-- Every weakly fair execution of the program's threads terminates, nothing faulting, with the program's result the
    re-laid kernel result and the arguments unchanged — given the proof of one worker's task. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (fun r => ∀ c : Dev nD,
      r.2.mem (rLoc c) = X10 (F := F) (Ov m c) ∧ r.2.mem (a0Loc c) = m (a0Loc c) ∧ r.2.mem (a1Loc c) = m (a1Loc c)
        ∧ r.2.mem (a2Loc c) = m (a2Loc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (fun _ => iprop(emp)) (FIN m) (u₀ (F := F)) (sep_elim_left.trans (hu₀ m)) (hmain m ρ) (fq m) (hfin m)
    (fun r => ∀ c : Dev nD, r.2.mem (rLoc c) = X10 (F := F) (Ov m c) ∧ r.2.mem (a0Loc c) = m (a0Loc c) ∧ r.2.mem (a1Loc c) = m (a1Loc c)
      ∧ r.2.mem (a2Loc c) = m (a2Loc c))
    (fun _ h => h)

end Cert.Proof.KB

end
-- ==== Proof.lean ====
/-
  The kernel and the reference compute the same function of the three arguments, over the extended reals:
  row r of the result is the bias plus the sum, over the 26 fields f, of the table's entry (f, x r f).

  The reference gathers the 16384 × 26 entries W (f, x r f) and sums each row from zero, then adds the bias.
  The kernel adds the field offset 100000 f to every index word, so that it names a position of the table laid
  flat; each of its 32 workers gathers the 512 × 26 entries of its 512 rows into one sequence and sums every row
  by sixteen-lane arithmetic: the first sixteen entries plus the next sixteen positions times a mask that is one on
  lanes 0–9 and zero on lanes 10–15, three halving steps, lane 0 plus lane 1, plus the bias. That is the same 26
  entries added in another order and grouping, with ten of them multiplied by one and six foreign values multiplied
  by zero. Addition of extended reals is associative and commutative, x · 1 = x and x · 0 = 0 hold for every
  extended real, infinities included, so the two results are equal; no finiteness of the table or the bias is used.

  The precondition's integer range 0 ≤ x r f ≤ 99999 is what both programs need: with it every index word plus its
  field offset is below 2600000, a position of the flat table (so every gather of the kernel is served and its
  threads run to the end), and the reference's wrap of negative indices and the gather's clamp change nothing.

  The word-level kernel is the same printed text under another name (no operation was rewritten for the ideal
  reading), so its run is the idealized kernel's proof read at the other float instance; each frame is a run with
  the result's value dropped.
-/
import proofs.«216127_g30709016166882_cont_9to1_510_25_alg».proof.Defs
import proofs.«216127_g30709016166882_cont_9to1_510_25_alg».proof.Proof.Gen.Kernel
import proofs.«216127_g30709016166882_cont_9to1_510_25_alg».proof.Proof.Gen.Kernel.Skeleton
import proofs.«216127_g30709016166882_cont_9to1_510_25_alg».proof.Proof.Gen.KernelIdeal
import proofs.«216127_g30709016166882_cont_9to1_510_25_alg».proof.Proof.Gen.KernelIdeal.Skeleton
import proofs.«216127_g30709016166882_cont_9to1_510_25_alg».proof.Proof.Gen.ReferenceIdeal
import proofs.«216127_g30709016166882_cont_9to1_510_25_alg».proof.Proof.Gen.Pre_input_domain
import proofs.«216127_g30709016166882_cont_9to1_510_25_alg».proof.Proof.PreRange
import proofs.«216127_g30709016166882_cont_9to1_510_25_alg».proof.Proof.RefSide
import proofs.«216127_g30709016166882_cont_9to1_510_25_alg».proof.Proof.KI.Range
import proofs.«216127_g30709016166882_cont_9to1_510_25_alg».proof.Proof.KI.Bridge
import proofs.«216127_g30709016166882_cont_9to1_510_25_alg».proof.Proof.KI.Obl
import proofs.«216127_g30709016166882_cont_9to1_510_25_alg».proof.Proof.KI.Launch
import proofs.«216127_g30709016166882_cont_9to1_510_25_alg».proof.Proof.KB.Range
import proofs.«216127_g30709016166882_cont_9to1_510_25_alg».proof.Proof.KB.Obl
import proofs.«216127_g30709016166882_cont_9to1_510_25_alg».proof.Proof.KB.Launch
import Idealize.ShloMosaic.Adequacy
import Idealize.ShloMosaic.Init

noncomputable section

namespace Cert.Proof

open Idealize.ShloMosaic Idealize.SL.Sem

/-! ## The precondition gives what the kernel's gathers need -/

/-- Under the precondition every word of the re-laid index array is a position of the flat table (idealized kernel). -/
theorem pre_ok_ki (m : (ℓ : Loc Cert.KernelIdeal.nD Cert.KernelIdeal.τ Cert.KernelIdeal.sig) → Buf (Elt Ideal) ℓ)
    (hpre : Cert.Pre_KernelIdeal m) : Cert.Proof.KI.PreOK m :=
  fun d i => Cert.Proof.KI.X6_lt _ (Cert.PreRange.range_of_pre _ _ _ (hpre d)) i

/-- The same for the word-level kernel. -/
theorem pre_ok_kb (m : (ℓ : Loc Cert.Kernel.nD Cert.Kernel.τ Cert.Kernel.sig) → Buf (Elt Bits) ℓ)
    (hpre : Cert.Pre_Kernel m) : Cert.Proof.KB.PreOK m :=
  fun d i => Cert.Proof.KB.X6_lt _ (Cert.PreRange.range_of_pre _ _ _ (hpre d)) i

/-! ## The frames: each program runs to the end, faults nowhere, leaves its arguments unchanged -/

theorem frame_Kernel : Cert.frame_Kernel := fun m ρ hpre =>
  (θ_run Cert.Kernel.defs _ _).mono (fun _ h c => (h c).2)
    (Cert.Proof.KB.run_main (F := Bits) m ρ (Cert.Proof.KB.tileObl m Cert.Proof.KB.facts (pre_ok_kb m hpre)))

theorem frame_KernelIdeal : Cert.frame_KernelIdeal := fun m ρ hpre =>
  (θ_run Cert.KernelIdeal.defs _ _).mono (fun _ h c => (h c).2)
    (Cert.Proof.KI.run_main (F := Ideal) m ρ (Cert.Proof.KI.tileObl m Cert.Proof.KI.facts (pre_ok_ki m hpre)))

/-! ## The two results are equal over the extended reals -/

/-- From memories agreeing on the arguments, the idealized kernel and the idealized reference both end with the
    specification's function of the arguments: the kernel's re-laid result array by the value bridge, the
    reference's by its run read back; the common value is stated of the kernel's arguments. -/
theorem algebraic : Cert.algebraic_KernelIdeal_ReferenceIdeal := by
  intro m g m' g' hpre hagree
  have hpre' : Cert.Pre_ReferenceIdeal m' := fun c => by
    rw [(hagree c).1, (hagree c).2.1, (hagree c).2.2]
    exact hpre c
  refine ⟨fun c => Cert.Spec.OUT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun _ h c => ⟨?_, (h c).2⟩)
      (Cert.Proof.KI.run_main (F := Ideal) m g (Cert.Proof.KI.tileObl m Cert.Proof.KI.facts (pre_ok_ki m hpre)))
    rw [(h c).1]
    exact Cert.Proof.KI.bridge _ _ _ (Cert.PreRange.range_of_pre _ _ _ (hpre c))
  · exact (θ_run Cert.ReferenceIdeal.defs _ _).mono
      (fun _ h c => ⟨by rw [(h c).1, (hagree c).1, (hagree c).2.1, (hagree c).2.2], (h c).2⟩)
      (Cert.RefSide.run m' g' hpre')

/-! ## The claim -/

theorem claim : Cert.Claim := ⟨Cert.Kernel.Gen.facts, Cert.KernelIdeal.Gen.facts, Cert.ReferenceIdeal.Gen.facts, Cert.Pre_input_domain.Gen.facts,
  frame_Kernel, frame_KernelIdeal, Cert.RefSide.frame, trivial, algebraic⟩

end Cert.Proof

end
